-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v262)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v262) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1000000 : Shape := ⟨2, ![2, 1000000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S4x64x2 : Shape := ⟨3, ![4, 64, 2]⟩
abbrev S4x2 : Shape := ⟨2, ![4, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4x64x2 : S_.BroadcastsInDim S4x64x2 (![] : Fin 0 → Fin S4x64x2.rank)
  reducesTo_S4x64x2_S_d0_1_2 : S4x64x2.ReducesTo [0, 1, 2] S_
  bcast_S_S4x2 : S_.BroadcastsInDim S4x2 (![] : Fin 0 → Fin S4x2.rank)
  reducesTo_S4x2_S_d0_1 : S4x2.ReducesTo [0, 1] S_

variable [Facts]

def fn_part9 {F : FTy → Type} [FloatOps F] (main_arg27 : FVec F S3x64 .f32) (main_v151 : IVec S_ 1) (main_cst_61 : FVec F S_ .f32) : IVec S_ 1 :=
  let main_v152 : FVec F S3x64 .f32 := broadcastInDim S3x64 ![] bcast_S_S3x64 main_cst_61
  let main_v153 : FVec F S3x64 .f32 := addf main_arg27 main_v152
  let main_cst_62 : FVec F S_ .f32 := constant S_ .f32 0x00000000#32
  let main_v154 : FVec F S3x64 .f32 := broadcastInDim S3x64 ![] bcast_S_S3x64 main_cst_62
  let main_v155 : IVec S3x64 1 := cmpf .ogt main_v153 main_v154
  let main_c_63 : IVec S_ 1 := constantI S_ 1 1#1
  let main_v156 : IVec S_ 1 := (fun x v => Host.reduce IntOp.andi x v reducesTo_S3x64_S_d0_1 h_S_) main_v155 main_c_63
  let main_v157 : IVec S_ 1 := andi main_v151 main_v156
  main_v157

def fn_part8 {F : FTy → Type} [FloatOps F] (main_arg15 : FVec F S64 .f32) (main_arg21 : FVec F S3x64 .f32) (main_arg27 : FVec F S3x64 .f32) (main_v133 : IVec S_ 1) (main_v135 : FVec F S64 .f32) (main_cst_53 : FVec F S_ .f32) : IVec S_ 1 :=
  let main_v136 : FVec F S64 .f32 := broadcastInDim S64 ![] bcast_S_S64 main_cst_53
  let main_v137 : IVec S64 1 := cmpf .ogt main_v135 main_v136
  let main_c_54 : IVec S_ 1 := constantI S_ 1 1#1
  let main_v138 : IVec S_ 1 := (fun x v => Host.reduce IntOp.andi x v reducesTo_S64_S_d0 h_S_) main_v137 main_c_54
  let main_v139 : IVec S_ 1 := andi main_v133 main_v138
  let main_cst_55 : FVec F S_ .f32 := constant S_ .f32 0x3727C5AC#32
  let main_v140 : FVec F S64 .f32 := broadcastInDim S64 ![] bcast_S_S64 main_cst_55
  let main_v141 : FVec F S64 .f32 := addf main_arg15 main_v140
  let main_cst_56 : FVec F S_ .f32 := constant S_ .f32 0x00000000#32
  let main_v142 : FVec F S64 .f32 := broadcastInDim S64 ![] bcast_S_S64 main_cst_56
  let main_v143 : IVec S64 1 := cmpf .ogt main_v141 main_v142
  let main_c_57 : IVec S_ 1 := constantI S_ 1 1#1
  let main_v144 : IVec S_ 1 := (fun x v => Host.reduce IntOp.andi x v reducesTo_S64_S_d0 h_S_) main_v143 main_c_57
  let main_v145 : IVec S_ 1 := andi main_v139 main_v144
  let main_cst_58 : FVec F S_ .f32 := constant S_ .f32 0x3727C5AC#32
  let main_v146 : FVec F S3x64 .f32 := broadcastInDim S3x64 ![] bcast_S_S3x64 main_cst_58
  let main_v147 : FVec F S3x64 .f32 := addf main_arg21 main_v146
  let main_cst_59 : FVec F S_ .f32 := constant S_ .f32 0x00000000#32
  let main_v148 : FVec F S3x64 .f32 := broadcastInDim S3x64 ![] bcast_S_S3x64 main_cst_59
  let main_v149 : IVec S3x64 1 := cmpf .ogt main_v147 main_v148
  let main_c_60 : IVec S_ 1 := constantI S_ 1 1#1
  let main_v150 : IVec S_ 1 := (fun x v => Host.reduce IntOp.andi x v reducesTo_S3x64_S_d0_1 h_S_) main_v149 main_c_60
  let main_v151 : IVec S_ 1 := andi main_v145 main_v150
  let main_cst_61 : FVec F S_ .f32 := constant S_ .f32 0x3727C5AC#32
  fn_part9 (F := F) main_arg27 main_v151 main_cst_61

def fn_part7 {F : FTy → Type} [FloatOps F] (main_arg9 : FVec F S64 .f32) (main_arg15 : FVec F S64 .f32) (main_arg21 : FVec F S3x64 .f32) (main_arg27 : FVec F S3x64 .f32) (main_arg28 : FVec F S4x64x2 .f32) (main_arg29 : FVec F S4x2 .f32) (main_v118 : IVec S_ 1) (main_v119 : FVec F S3x64 .f32) : IVec S_ 1 :=
  let main_cst_46 : FVec F S_ .f32 := constant S_ .f32 0x7F800000#32
  let main_v120 : FVec F S3x64 .f32 := broadcastInDim S3x64 ![] bcast_S_S3x64 main_cst_46
  let main_v121 : IVec S3x64 1 := cmpf .olt main_v119 main_v120
  let main_c_47 : IVec S_ 1 := constantI S_ 1 1#1
  let main_v122 : IVec S_ 1 := (fun x v => Host.reduce IntOp.andi x v reducesTo_S3x64_S_d0_1 h_S_) main_v121 main_c_47
  let main_v123 : IVec S_ 1 := andi main_v118 main_v122
  let main_v124 : FVec F S4x64x2 .f32 := Host.absf main_arg28
  let main_cst_48 : FVec F S_ .f32 := constant S_ .f32 0x7F800000#32
  let main_v125 : FVec F S4x64x2 .f32 := broadcastInDim S4x64x2 ![] bcast_S_S4x64x2 main_cst_48
  let main_v126 : IVec S4x64x2 1 := cmpf .olt main_v124 main_v125
  let main_c_49 : IVec S_ 1 := constantI S_ 1 1#1
  let main_v127 : IVec S_ 1 := (fun x v => Host.reduce IntOp.andi x v reducesTo_S4x64x2_S_d0_1_2 h_S_) main_v126 main_c_49
  let main_v128 : IVec S_ 1 := andi main_v123 main_v127
  let main_v129 : FVec F S4x2 .f32 := Host.absf main_arg29
  let main_cst_50 : FVec F S_ .f32 := constant S_ .f32 0x7F800000#32
  let main_v130 : FVec F S4x2 .f32 := broadcastInDim S4x2 ![] bcast_S_S4x2 main_cst_50
  let main_v131 : IVec S4x2 1 := cmpf .olt main_v129 main_v130
  let main_c_51 : IVec S_ 1 := constantI S_ 1 1#1
  let main_v132 : IVec S_ 1 := (fun x v => Host.reduce IntOp.andi x v reducesTo_S4x2_S_d0_1 h_S_) main_v131 main_c_51
  let main_v133 : IVec S_ 1 := andi main_v128 main_v132
  let main_cst_52 : FVec F S_ .f32 := constant S_ .f32 0x3727C5AC#32
  let main_v134 : FVec F S64 .f32 := broadcastInDim S64 ![] bcast_S_S64 main_cst_52
  let main_v135 : FVec F S64 .f32 := addf main_arg9 main_v134
  let main_cst_53 : FVec F S_ .f32 := constant S_ .f32 0x00000000#32
  fn_part8 (F := F) main_arg15 main_arg21 main_arg27 main_v133 main_v135 main_cst_53

def fn_part6 {F : FTy → Type} [FloatOps F] (main_arg9 : FVec F S64 .f32) (main_arg15 : FVec F S64 .f32) (main_arg21 : FVec F S3x64 .f32) (main_arg24 : FVec F S3x64 .f32) (main_arg25 : FVec F S3x64 .f32) (main_arg26 : FVec F S3x64 .f32) (main_arg27 : FVec F S3x64 .f32) (main_arg28 : FVec F S4x64x2 .f32) (main_arg29 : FVec F S4x2 .f32) (main_v98 : IVec S_ 1) (main_v101 : IVec S3x64 1) (main_c_39 : IVec S_ 1) : IVec S_ 1 :=
  let main_v102 : IVec S_ 1 := (fun x v => Host.reduce IntOp.andi x v reducesTo_S3x64_S_d0_1 h_S_) main_v101 main_c_39
  let main_v103 : IVec S_ 1 := andi main_v98 main_v102
  let main_v104 : FVec F S3x64 .f32 := Host.absf main_arg24
  let main_cst_40 : FVec F S_ .f32 := constant S_ .f32 0x7F800000#32
  let main_v105 : FVec F S3x64 .f32 := broadcastInDim S3x64 ![] bcast_S_S3x64 main_cst_40
  let main_v106 : IVec S3x64 1 := cmpf .olt main_v104 main_v105
  let main_c_41 : IVec S_ 1 := constantI S_ 1 1#1
  let main_v107 : IVec S_ 1 := (fun x v => Host.reduce IntOp.andi x v reducesTo_S3x64_S_d0_1 h_S_) main_v106 main_c_41
  let main_v108 : IVec S_ 1 := andi main_v103 main_v107
  let main_v109 : FVec F S3x64 .f32 := Host.absf main_arg25
  let main_cst_42 : FVec F S_ .f32 := constant S_ .f32 0x7F800000#32
  let main_v110 : FVec F S3x64 .f32 := broadcastInDim S3x64 ![] bcast_S_S3x64 main_cst_42
  let main_v111 : IVec S3x64 1 := cmpf .olt main_v109 main_v110
  let main_c_43 : IVec S_ 1 := constantI S_ 1 1#1
  let main_v112 : IVec S_ 1 := (fun x v => Host.reduce IntOp.andi x v reducesTo_S3x64_S_d0_1 h_S_) main_v111 main_c_43
  let main_v113 : IVec S_ 1 := andi main_v108 main_v112
  let main_v114 : FVec F S3x64 .f32 := Host.absf main_arg26
  let main_cst_44 : FVec F S_ .f32 := constant S_ .f32 0x7F800000#32
  let main_v115 : FVec F S3x64 .f32 := broadcastInDim S3x64 ![] bcast_S_S3x64 main_cst_44
  let main_v116 : IVec S3x64 1 := cmpf .olt main_v114 main_v115
  let main_c_45 : IVec S_ 1 := constantI S_ 1 1#1
  let main_v117 : IVec S_ 1 := (fun x v => Host.reduce IntOp.andi x v reducesTo_S3x64_S_d0_1 h_S_) main_v116 main_c_45
  let main_v118 : IVec S_ 1 := andi main_v113 main_v117
  let main_v119 : FVec F S3x64 .f32 := Host.absf main_arg27
  fn_part7 (F := F) main_arg9 main_arg15 main_arg21 main_arg27 main_arg28 main_arg29 main_v118 main_v119

def fn_part5 {F : FTy → Type} [FloatOps F] (main_arg9 : FVec F S64 .f32) (main_arg15 : FVec F S64 .f32) (main_arg21 : FVec F S3x64 .f32) (main_arg22 : FVec F S3x64x64 .f32) (main_arg23 : FVec F S3x64 .f32) (main_arg24 : FVec F S3x64 .f32) (main_arg25 : FVec F S3x64 .f32) (main_arg26 : FVec F S3x64 .f32) (main_arg27 : FVec F S3x64 .f32) (main_arg28 : FVec F S4x64x2 .f32) (main_arg29 : FVec F S4x2 .f32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S3x64 .f32 := Host.absf main_arg21
  let main_cst_34 : FVec F S_ .f32 := constant S_ .f32 0x7F800000#32
  let main_v90 : FVec F S3x64 .f32 := broadcastInDim S3x64 ![] bcast_S_S3x64 main_cst_34
  let main_v91 : IVec S3x64 1 := cmpf .olt main_v89 main_v90
  let main_c_35 : IVec S_ 1 := constantI S_ 1 1#1
  let main_v92 : IVec S_ 1 := (fun x v => Host.reduce IntOp.andi x v reducesTo_S3x64_S_d0_1 h_S_) main_v91 main_c_35
  let main_v93 : IVec S_ 1 := andi main_v88 main_v92
  let main_v94 : FVec F S3x64x64 .f32 := Host.absf main_arg22
  let main_cst_36 : FVec F S_ .f32 := constant S_ .f32 0x7F800000#32
  let main_v95 : FVec F S3x64x64 .f32 := broadcastInDim S3x64x64 ![] bcast_S_S3x64x64 main_cst_36
  let main_v96 : IVec S3x64x64 1 := cmpf .olt main_v94 main_v95
  let main_c_37 : IVec S_ 1 := constantI S_ 1 1#1
  let main_v97 : IVec S_ 1 := (fun x v => Host.reduce IntOp.andi x v reducesTo_S3x64x64_S_d0_1_2 h_S_) main_v96 main_c_37
  let main_v98 : IVec S_ 1 := andi main_v93 main_v97
  let main_v99 : FVec F S3x64 .f32 := Host.absf main_arg23
  let main_cst_38 : FVec F S_ .f32 := constant S_ .f32 0x7F800000#32
  let main_v100 : FVec F S3x64 .f32 := broadcastInDim S3x64 ![] bcast_S_S3x64 main_cst_38
  let main_v101 : IVec S3x64 1 := cmpf .olt main_v99 main_v100
  let main_c_39 : IVec S_ 1 := constantI S_ 1 1#1
  fn_part6 (F := F) main_arg9 main_arg15 main_arg21 main_arg24 main_arg25 main_arg26 main_arg27 main_arg28 main_arg29 main_v98 main_v101 main_c_39

def fn_part4 {F : FTy → Type} [FloatOps F] (main_arg9 : FVec F S64 .f32) (main_arg15 : FVec F S64 .f32) (main_arg17 : FVec F S3x64 .f32) (main_arg18 : FVec F S3x64 .f32) (main_arg19 : FVec F S3x64 .f32) (main_arg20 : FVec F S3x64 .f32) (main_arg21 : FVec F S3x64 .f32) (main_arg22 : FVec F S3x64x64 .f32) (main_arg23 : FVec F S3x64 .f32) (main_arg24 : FVec F S3x64 .f32) (main_arg25 : FVec F S3x64 .f32) (main_arg26 : FVec F S3x64 .f32) (main_arg27 : FVec F S3x64 .f32) (main_arg28 : FVec F S4x64x2 .f32) (main_arg29 : FVec F S4x2 .f32) (main_v63 : IVec S_ 1) (main_v67 : IVec S_ 1) : IVec S_ 1 :=
  let main_v68 : IVec S_ 1 := andi main_v63 main_v67
  let main_v69 : FVec F S3x64 .f32 := Host.absf main_arg17
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  let main_v74 : FVec F S3x64 .f32 := Host.absf main_arg18
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  let main_v79 : FVec F S3x64 .f32 := Host.absf main_arg19
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S3x64 .f32 := Host.absf main_arg20
  let main_cst_32 : FVec F S_ .f32 := constant S_ .f32 0x7F800000#32
  fn_part5 (F := F) main_arg9 main_arg15 main_arg21 main_arg22 main_arg23 main_arg24 main_arg25 main_arg26 main_arg27 main_arg28 main_arg29 main_v83 main_v84 main_cst_32

def fn_part3 {F : FTy → Type} [FloatOps F] (main_arg9 : FVec F S64 .f32) (main_arg14 : FVec F S64 .f32) (main_arg15 : FVec F S64 .f32) (main_arg16 : FVec F S3x64x64 .f32) (main_arg17 : FVec F S3x64 .f32) (main_arg18 : FVec F S3x64 .f32) (main_arg19 : FVec F S3x64 .f32) (main_arg20 : FVec F S3x64 .f32) (main_arg21 : FVec F S3x64 .f32) (main_arg22 : FVec F S3x64x64 .f32) (main_arg23 : FVec F S3x64 .f32) (main_arg24 : FVec F S3x64 .f32) (main_arg25 : FVec F S3x64 .f32) (main_arg26 : FVec F S3x64 .f32) (main_arg27 : FVec F S3x64 .f32) (main_arg28 : FVec F S4x64x2 .f32) (main_arg29 : FVec F S4x2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S3x64x64 .f32 := Host.absf main_arg16
  let main_cst_24 : FVec F S_ .f32 := constant S_ .f32 0x7F800000#32
  let main_v65 : FVec F S3x64x64 .f32 := broadcastInDim S3x64x64 ![] bcast_S_S3x64x64 main_cst_24
  let main_v66 : IVec S3x64x64 1 := cmpf .olt main_v64 main_v65
  let main_c_25 : IVec S_ 1 := constantI S_ 1 1#1
  let main_v67 : IVec S_ 1 := (fun x v => Host.reduce IntOp.andi x v reducesTo_S3x64x64_S_d0_1_2 h_S_) main_v66 main_c_25
  fn_part4 (F := F) main_arg9 main_arg15 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S3x64x64 .f32) (main_arg17 : FVec F S3x64 .f32) (main_arg18 : FVec F S3x64 .f32) (main_arg19 : FVec F S3x64 .f32) (main_arg20 : FVec F S3x64 .f32) (main_arg21 : FVec F S3x64 .f32) (main_arg22 : FVec F S3x64x64 .f32) (main_arg23 : FVec F S3x64 .f32) (main_arg24 : FVec F S3x64 .f32) (main_arg25 : FVec F S3x64 .f32) (main_arg26 : FVec F S3x64 .f32) (main_arg27 : FVec F S3x64 .f32) (main_arg28 : FVec F S4x64x2 .f32) (main_arg29 : FVec F S4x2 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg9 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S3x64x64 .f32) (main_arg17 : FVec F S3x64 .f32) (main_arg18 : FVec F S3x64 .f32) (main_arg19 : FVec F S3x64 .f32) (main_arg20 : FVec F S3x64 .f32) (main_arg21 : FVec F S3x64 .f32) (main_arg22 : FVec F S3x64x64 .f32) (main_arg23 : FVec F S3x64 .f32) (main_arg24 : FVec F S3x64 .f32) (main_arg25 : FVec F S3x64 .f32) (main_arg26 : FVec F S3x64 .f32) (main_arg27 : FVec F S3x64 .f32) (main_arg28 : FVec F S4x64x2 .f32) (main_arg29 : FVec F S4x2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : IVec S100000 32) (main_arg1 : IVec S2x1000000 32) (main_arg2 : IVec S100000 32) (main_arg3 : FVec F S100000x128 .f32) (main_arg4 : FVec F S128x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S3x64x64 .f32) (main_arg17 : FVec F S3x64 .f32) (main_arg18 : FVec F S3x64 .f32) (main_arg19 : FVec F S3x64 .f32) (main_arg20 : FVec F S3x64 .f32) (main_arg21 : FVec F S3x64 .f32) (main_arg22 : FVec F S3x64x64 .f32) (main_arg23 : FVec F S3x64 .f32) (main_arg24 : FVec F S3x64 .f32) (main_arg25 : FVec F S3x64 .f32) (main_arg26 : FVec F S3x64 .f32) (main_arg27 : FVec F S3x64 .f32) (main_arg28 : FVec F S4x64x2 .f32) (main_arg29 : FVec F S4x2 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000 : Shape := ⟨1, ![100000]⟩
abbrev S2x1000000 : Shape := ⟨2, ![2, 1000000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S4x64x2 : Shape := ⟨3, ![4, 64, 2]⟩
abbrev S4x2 : Shape := ⟨2, ![4, 2]⟩
abbrev S1x1000000 : Shape := ⟨2, ![1, 1000000]⟩
abbrev S1000000 : Shape := ⟨1, ![1000000]⟩
abbrev S_ : Shape := ⟨0, ![]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1x64x2 : Shape := ⟨3, ![1, 64, 2]⟩
abbrev S64x2 : Shape := ⟨2, ![64, 2]⟩
abbrev S100000x2 : Shape := ⟨2, ![100000, 2]⟩
abbrev S1x2 : Shape := ⟨2, ![1, 2]⟩
abbrev S2 : Shape := ⟨1, ![2]⟩
abbrev S128x2 : Shape := ⟨2, ![128, 2]⟩
abbrev S1000000x1 : Shape := ⟨2, ![1000000, 1]⟩
abbrev S1000000x64 : Shape := ⟨2, ![1000000, 64]⟩
abbrev S1x64x64 : Shape := ⟨3, ![1, 64, 64]⟩
abbrev S128 : Shape := ⟨1, ![128]⟩
abbrev S128x1 : Shape := ⟨2, ![128, 1]⟩

abbrev nBuf : Space → Nat
  | .hbm => 319
  | .vmem => 38
  | .smem => 0
  | _ => 0

abbrev hbmTy0_0 (i : Nat) : BufTy := match i % 128 with
  | 0 => ⟨S100000, .i32⟩
  | 1 => ⟨S2x1000000, .i32⟩
  | 2 => ⟨S100000, .i32⟩
  | 3 => ⟨S100000x128, .f32⟩
  | 4 => ⟨S128x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S3x64x64, .f32⟩
  | 17 => ⟨S3x64, .f32⟩
  | 18 => ⟨S3x64, .f32⟩
  | 19 => ⟨S3x64, .f32⟩
  | 20 => ⟨S3x64, .f32⟩
  | 21 => ⟨S3x64, .f32⟩
  | 22 => ⟨S3x64x64, .f32⟩
  | 23 => ⟨S3x64, .f32⟩
  | 24 => ⟨S3x64, .f32⟩
  | 25 => ⟨S3x64, .f32⟩
  | 26 => ⟨S3x64, .f32⟩
  | 27 => ⟨S3x64, .f32⟩
  | 28 => ⟨S4x64x2, .f32⟩
  | 29 => ⟨S4x2, .f32⟩
  | 30 => ⟨S1x1000000, .i32⟩
  | 31 => ⟨S1000000, .i32⟩
  | 32 => ⟨S1x1000000, .i32⟩
  | 33 => ⟨S1000000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S_, .f32⟩
  | 44 => ⟨S64, .f32⟩
  | 45 => ⟨S64, .f32⟩
  | 46 => ⟨S64, .f32⟩
  | 47 => ⟨S64, .f32⟩
  | 48 => ⟨S64, .f32⟩
  | 49 => ⟨S64, .f32⟩
  | 50 => ⟨S1x64, .f32⟩
  | 51 => ⟨S128x64, .f32⟩
  | 52 => ⟨S128x64, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S64, .f32⟩
  | 60 => ⟨S64, .f32⟩
  | 61 => ⟨S64, .f32⟩
  | 62 => ⟨S1x64, .f32⟩
  | 63 => ⟨S64x64, .f32⟩
  | 64 => ⟨S64x64, .f32⟩
  | 65 => ⟨S64, .f32⟩
  | 66 => ⟨S64, .f32⟩
  | 67 => ⟨S100000x64, .f32⟩
  | 68 => ⟨S1x64x2, .f32⟩
  | 69 => ⟨S64x2, .f32⟩
  | 70 => ⟨S100000x2, .f32⟩
  | 71 => ⟨S1x2, .f32⟩
  | 72 => ⟨S2, .f32⟩
  | 73 => ⟨S1x2, .f32⟩
  | 74 => ⟨S100000x2, .f32⟩
  | 75 => ⟨S100000x2, .f32⟩
  | 76 => ⟨S_, .f32⟩
  | 77 => ⟨S128x2, .f32⟩
  | 78 => ⟨S100000x1, .i32⟩
  | 79 => ⟨S128x2, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x64, .f32⟩
  | 89 => ⟨S_, .f32⟩
  | 90 => ⟨S100000x64, .f32⟩
  | 91 => ⟨S1000000x1, .i32⟩
  | 92 => ⟨S100000x64, .f32⟩
  | 93 => ⟨S1x64x64, .f32⟩
  | 94 => ⟨S64x64, .f32⟩
  | 95 => ⟨S1x64, .f32⟩
  | 96 => ⟨S64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S64, .f32⟩
  | 103 => ⟨S1x64, .f32⟩
  | 104 => ⟨S64, .f32⟩
  | 105 => ⟨S_, .f32⟩
  | 106 => ⟨S64, .f32⟩
  | 107 => ⟨S64, .f32⟩
  | 108 => ⟨S64, .f32⟩
  | 109 => ⟨S64, .f32⟩
  | 110 => ⟨S64, .f32⟩
  | 111 => ⟨S64, .f32⟩
  | 112 => ⟨S1x64, .f32⟩
  | 113 => ⟨S64x64, .f32⟩
  | 114 => ⟨S64x64, .f32⟩
  | 115 => ⟨S64, .f32⟩
  | 116 => ⟨S64, .f32⟩
  | 117 => ⟨S1x64x64, .f32⟩
  | 118 => ⟨S64x64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S100000, .i32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S1x64, .f32⟩
  | 9 => ⟨S64x64, .f32⟩
  | 10 => ⟨S64x64, .f32⟩
  | 11 => ⟨S64, .f32⟩
  | 12 => ⟨S64, .f32⟩
  | 13 => ⟨S100000x64, .f32⟩
  | 14 => ⟨S_, .f32⟩
  | 15 => ⟨S128x64, .f32⟩
  | 16 => ⟨S100000x1, .i32⟩
  | 17 => ⟨S128x64, .f32⟩
  | 18 => ⟨S1x64x2, .f32⟩
  | 19 => ⟨S64x2, .f32⟩
  | 20 => ⟨S128x2, .f32⟩
  | 21 => ⟨S128x2, .f32⟩
  | 22 => ⟨S1x2, .f32⟩
  | 23 => ⟨S2, .f32⟩
  | 24 => ⟨S1x2, .f32⟩
  | 25 => ⟨S128x2, .f32⟩
  | 26 => ⟨S128x2, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x64, .f32⟩
  | 36 => ⟨S_, .f32⟩
  | 37 => ⟨S100000x64, .f32⟩
  | 38 => ⟨S1000000x1, .i32⟩
  | 39 => ⟨S100000x64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S64, .f32⟩
  | 50 => ⟨S1x64, .f32⟩
  | 51 => ⟨S64, .f32⟩
  | 52 => ⟨S_, .f32⟩
  | 53 => ⟨S64, .f32⟩
  | 54 => ⟨S64, .f32⟩
  | 55 => ⟨S64, .f32⟩
  | 56 => ⟨S64, .f32⟩
  | 57 => ⟨S64, .f32⟩
  | 58 => ⟨S64, .f32⟩
  | 59 => ⟨S1x64, .f32⟩
  | 60 => ⟨S64x64, .f32⟩
  | 61 => ⟨S64x64, .f32⟩
  | 62 => ⟨S64, .f32⟩
  | 63 => ⟨S64, .f32⟩
  | 64 => ⟨S1x64x64, .f32⟩
  | 65 => ⟨S64x64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S64, .f32⟩
  | 72 => ⟨S1x64, .f32⟩
  | 73 => ⟨S64, .f32⟩
  | 74 => ⟨S1x64, .f32⟩
  | 75 => ⟨S64, .f32⟩
  | 76 => ⟨S_, .f32⟩
  | 77 => ⟨S64, .f32⟩
  | 78 => ⟨S64, .f32⟩
  | 79 => ⟨S64, .f32⟩
  | 80 => ⟨S64, .f32⟩
  | 81 => ⟨S64, .f32⟩
  | 82 => ⟨S64, .f32⟩
  | 83 => ⟨S1x64, .f32⟩
  | 84 => ⟨S64x64, .f32⟩
  | 85 => ⟨S64x64, .f32⟩
  | 86 => ⟨S64, .f32⟩
  | 87 => ⟨S64, .f32⟩
  | 88 => ⟨S100000x64, .f32⟩
  | 89 => ⟨S_, .f32⟩
  | 90 => ⟨S128x64, .f32⟩
  | 91 => ⟨S100000x1, .i32⟩
  | 92 => ⟨S128x64, .f32⟩
  | 93 => ⟨S1x64x2, .f32⟩
  | 94 => ⟨S64x2, .f32⟩
  | 95 => ⟨S128x2, .f32⟩
  | 96 => ⟨S128x2, .f32⟩
  | 97 => ⟨S1x2, .f32⟩
  | 98 => ⟨S2, .f32⟩
  | 99 => ⟨S1x2, .f32⟩
  | 100 => ⟨S128x2, .f32⟩
  | 101 => ⟨S128x2, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S_, .f32⟩
  | 112 => ⟨S100000x64, .f32⟩
  | 113 => ⟨S1000000x1, .i32⟩
  | 114 => ⟨S100000x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S_, .f32⟩
  | _ => ⟨S100000, .i32⟩

abbrev hbmTy0_2 (i : Nat) : BufTy := match i % 128 with
  | 0 => ⟨S64, .f32⟩
  | 1 => ⟨S64, .f32⟩
  | 2 => ⟨S64, .f32⟩
  | 3 => ⟨S64, .f32⟩
  | 4 => ⟨S64, .f32⟩
  | 5 => ⟨S64, .f32⟩
  | 6 => ⟨S1x64, .f32⟩
  | 7 => ⟨S64x64, .f32⟩
  | 8 => ⟨S64x64, .f32⟩
  | 9 => ⟨S64, .f32⟩
  | 10 => ⟨S64, .f32⟩
  | 11 => ⟨S1x64x64, .f32⟩
  | 12 => ⟨S64x64, .f32⟩
  | 13 => ⟨S1x64, .f32⟩
  | 14 => ⟨S64, .f32⟩
  | 15 => ⟨S1x64, .f32⟩
  | 16 => ⟨S64, .f32⟩
  | 17 => ⟨S1x64, .f32⟩
  | 18 => ⟨S64, .f32⟩
  | 19 => ⟨S1x64, .f32⟩
  | 20 => ⟨S64, .f32⟩
  | 21 => ⟨S1x64, .f32⟩
  | 22 => ⟨S64, .f32⟩
  | 23 => ⟨S_, .f32⟩
  | 24 => ⟨S64, .f32⟩
  | 25 => ⟨S64, .f32⟩
  | 26 => ⟨S64, .f32⟩
  | 27 => ⟨S64, .f32⟩
  | 28 => ⟨S64, .f32⟩
  | 29 => ⟨S64, .f32⟩
  | 30 => ⟨S1x64, .f32⟩
  | 31 => ⟨S64x64, .f32⟩
  | 32 => ⟨S64x64, .f32⟩
  | 33 => ⟨S64, .f32⟩
  | 34 => ⟨S64, .f32⟩
  | 35 => ⟨S100000x64, .f32⟩
  | 36 => ⟨S_, .f32⟩
  | 37 => ⟨S128x64, .f32⟩
  | 38 => ⟨S100000x1, .i32⟩
  | 39 => ⟨S128x64, .f32⟩
  | 40 => ⟨S1x64x2, .f32⟩
  | 41 => ⟨S64x2, .f32⟩
  | 42 => ⟨S128x2, .f32⟩
  | 43 => ⟨S128x2, .f32⟩
  | 44 => ⟨S1x2, .f32⟩
  | 45 => ⟨S2, .f32⟩
  | 46 => ⟨S1x2, .f32⟩
  | 47 => ⟨S128x2, .f32⟩
  | 48 => ⟨S128x2, .f32⟩
  | 49 => ⟨S_, .f32⟩
  | 50 => ⟨S128, .f32⟩
  | 51 => ⟨S_, .f32⟩
  | 52 => ⟨S128, .f32⟩
  | 53 => ⟨S128, .f32⟩
  | 54 => ⟨S128x1, .f32⟩
  | 55 => ⟨S128x2, .f32⟩
  | 56 => ⟨S128x2, .f32⟩
  | 57 => ⟨S128x2, .f32⟩
  | 58 => ⟨S_, .f32⟩
  | 59 => ⟨S128, .f32⟩
  | 60 => ⟨S128x1, .f32⟩
  | 61 => ⟨S128x2, .f32⟩
  | 62 => ⟨S128x2, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64, .f32⟩
  | .local _ .vmem, ⟨24, _⟩ => ⟨S64x64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64, .f32⟩
  | .local _ .vmem, ⟨34, _⟩ => ⟨S64x64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_2 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_3 : Ref sig .tc := ⟨.hbm, 80, rfl⟩
abbrev main_v45 : Ref sig .tc := ⟨.hbm, 81, rfl⟩
abbrev main_v46 : Ref sig .tc := ⟨.hbm, 82, rfl⟩
abbrev main_c_4 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_6 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_7 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_8 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_9 : Ref sig .tc := ⟨.hbm, 155, rfl⟩
abbrev main_v114 : Ref sig .tc := ⟨.hbm, 156, rfl⟩
abbrev main_v115 : Ref sig .tc := ⟨.hbm, 157, rfl⟩
abbrev main_c_10 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_11 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_12 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_13 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_14 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_c_15 : Ref sig .tc := ⟨.hbm, 230, rfl⟩
abbrev main_v183 : Ref sig .tc := ⟨.hbm, 231, rfl⟩
abbrev main_v184 : Ref sig .tc := ⟨.hbm, 232, rfl⟩
abbrev main_c_16 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_cst_17 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_cst_18 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_cst_19 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_cst_20 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_cst_21 : Ref sig .tc := ⟨.hbm, 305, rfl⟩
abbrev main_v252 : Ref sig .tc := ⟨.hbm, 306, rfl⟩
abbrev main_cst_22 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_cst_23 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S100000_S100000x1_0 : S100000.BroadcastsInDim S100000x1 (![0] : Fin 1 → Fin S100000x1.rank)
  bcast_S_S64 : S_.BroadcastsInDim S64 (![] : Fin 0 → Fin S64.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S1x64_S64x64_0_1 : S1x64.BroadcastsInDim S64x64 (![0, 1] : Fin 2 → Fin S64x64.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  slices_S4x64x2_S1x64x2_0_0_0 : S4x64x2.Slices ![0, 0, 0] S1x64x2
  shapeCasts_S1x64x2_S64x2 : S1x64x2.ShapeCasts S64x2
  slices_S4x2_S1x2_0_0 : S4x2.Slices ![0, 0] S1x2
  shapeCasts_S1x2_S2 : S1x2.ShapeCasts S2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S128x2 : S_.BroadcastsInDim S128x2 (![] : Fin 0 → Fin S128x2.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  bcast_S_S128x64 : S_.BroadcastsInDim S128x64 (![] : Fin 0 → Fin S128x64.rank)
  slices_S4x64x2_S1x64x2_1_0_0 : S4x64x2.Slices ![1, 0, 0] S1x64x2
  slices_S4x2_S1x2_1_0 : S4x2.Slices ![1, 0] S1x2
  bcast_S1x2_S128x2_0_1 : S1x2.BroadcastsInDim S128x2 (![0, 1] : Fin 2 → Fin S128x2.rank)
  slices_S3x64x64_S1x64x64_1_0_0 : S3x64x64.Slices ![1, 0, 0] S1x64x64
  slices_S3x64_S1x64_1_0 : S3x64.Slices ![1, 0] S1x64
  slices_S4x64x2_S1x64x2_2_0_0 : S4x64x2.Slices ![2, 0, 0] S1x64x2
  slices_S4x2_S1x2_2_0 : S4x2.Slices ![2, 0] S1x2
  slices_S3x64x64_S1x64x64_2_0_0 : S3x64x64.Slices ![2, 0, 0] S1x64x64
  slices_S3x64_S1x64_2_0 : S3x64.Slices ![2, 0] S1x64
  slices_S4x64x2_S1x64x2_3_0_0 : S4x64x2.Slices ![3, 0, 0] S1x64x2
  slices_S4x2_S1x2_3_0 : S4x2.Slices ![3, 0] S1x2
  reducesTo_S128x2_S128_d1 : S128x2.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  gather_S100000x128_S100000x1_S100000x128_1_0_n_n_0_1_1128_wf : GatherDims.WF S100000x128 S100000x1 S100000x128 [1] [0] [] [0] [] 1 ![1, 128]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S100000x64_S64x2_S100000x2_1_0_0_1_n_n_wf : DotDims.WF S100000x64 S64x2 S100000x2 [1] [0] [0] [1] [] []
  scatter_S128x2_S100000x1_S100000x2_1_0_0_1_wf : ScatterDims.WF S128x2 S100000x1 S100000x2 [1] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S128x64_S100000x1_S100000x64_1_0_0_1_wf : ScatterDims.WF S128x64 S100000x1 S100000x64 [1] [0] [0] 1
  dot_S128x64_S64x2_S128x2_1_0_0_1_n_n_wf : DotDims.WF S128x64 S64x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def scatter_S128x2_S100000x1_S100000x2_1_0_0_1 : ScatterDims S128x2 S100000x1 S100000x2 where
  updateWindowDims := [1]
  insertedWindowDims := [0]
  scatterDimsToOperandDims := [0]
  indexVectorDim := 1
  wf := scatter_S128x2_S100000x1_S100000x2_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v98) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v100) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v101) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v101) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v123) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v144) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v146) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v167) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v169) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v170) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v170) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v192) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v213) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v215) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v236) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v238) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v239) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000 : Shape := ⟨1, ![100000]⟩
abbrev S2x1000000 : Shape := ⟨2, ![2, 1000000]⟩
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S4x64x2 : Shape := ⟨3, ![4, 64, 2]⟩
abbrev S4x2 : Shape := ⟨2, ![4, 2]⟩
abbrev S1x1000000 : Shape := ⟨2, ![1, 1000000]⟩
abbrev S1000000 : Shape := ⟨1, ![1000000]⟩
abbrev S_ : Shape := ⟨0, ![]⟩
abbrev S100000x1 : Shape := ⟨2, ![100000, 1]⟩
abbrev S100000x64 : Shape := ⟨2, ![100000, 64]⟩
abbrev S1x64 : Shape := ⟨2, ![1, 64]⟩
abbrev S1x64x2 : Shape := ⟨3, ![1, 64, 2]⟩
abbrev S64x2 : Shape := ⟨2, ![64, 2]⟩
abbrev S100000x2 : Shape := ⟨2, ![100000, 2]⟩
abbrev S1x2 : Shape := ⟨2, ![1, 2]⟩
abbrev S2 : Shape := ⟨1, ![2]⟩
abbrev S128x2 : Shape := ⟨2, ![128, 2]⟩
abbrev S1000000x1 : Shape := ⟨2, ![1000000, 1]⟩
abbrev S1000000x64 : Shape := ⟨2, ![1000000, 64]⟩
abbrev S1x64x64 : Shape := ⟨3, ![1, 64, 64]⟩
abbrev S128 : Shape := ⟨1, ![128]⟩
abbrev S128x1 : Shape := ⟨2, ![128, 1]⟩

abbrev nBuf : Space → Nat
  | .hbm => 390
  | .vmem => 0
  | .smem => 0
  | _ => 0

abbrev hbmTy0_0 (i : Nat) : BufTy := match i % 128 with
  | 0 => ⟨S100000, .i32⟩
  | 1 => ⟨S2x1000000, .i32⟩
  | 2 => ⟨S100000, .i32⟩
  | 3 => ⟨S100000x128, .f32⟩
  | 4 => ⟨S128x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S3x64x64, .f32⟩
  | 17 => ⟨S3x64, .f32⟩
  | 18 => ⟨S3x64, .f32⟩
  | 19 => ⟨S3x64, .f32⟩
  | 20 => ⟨S3x64, .f32⟩
  | 21 => ⟨S3x64, .f32⟩
  | 22 => ⟨S3x64x64, .f32⟩
  | 23 => ⟨S3x64, .f32⟩
  | 24 => ⟨S3x64, .f32⟩
  | 25 => ⟨S3x64, .f32⟩
  | 26 => ⟨S3x64, .f32⟩
  | 27 => ⟨S3x64, .f32⟩
  | 28 => ⟨S4x64x2, .f32⟩
  | 29 => ⟨S4x2, .f32⟩
  | 30 => ⟨S1x1000000, .i32⟩
  | 31 => ⟨S1000000, .i32⟩
  | 32 => ⟨S1x1000000, .i32⟩
  | 33 => ⟨S1000000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S100000x64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S64, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S64, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S1x64x2, .f32⟩
  | 86 => ⟨S64x2, .f32⟩
  | 87 => ⟨S100000x2, .f32⟩
  | 88 => ⟨S1x2, .f32⟩
  | 89 => ⟨S2, .f32⟩
  | 90 => ⟨S1x2, .f32⟩
  | 91 => ⟨S100000x2, .f32⟩
  | 92 => ⟨S100000x2, .f32⟩
  | 93 => ⟨S_, .f32⟩
  | 94 => ⟨S128x2, .f32⟩
  | 95 => ⟨S100000x1, .i32⟩
  | 96 => ⟨S128x2, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .f32⟩
  | 107 => ⟨S100000x64, .f32⟩
  | 108 => ⟨S1000000x1, .i32⟩
  | 109 => ⟨S100000x64, .f32⟩
  | 110 => ⟨S100000x64, .f32⟩
  | 111 => ⟨S1x64x64, .f32⟩
  | 112 => ⟨S64x64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64x64, .f32⟩
  | 124 => ⟨S64x64, .f32⟩
  | 125 => ⟨S1x64, .f32⟩
  | 126 => ⟨S64, .f32⟩
  | 127 => ⟨S1x64, .f32⟩
  | _ => ⟨S100000, .i32⟩

abbrev hbmTy0_1 (i : Nat) : BufTy := match i % 128 with
  | 0 => ⟨S64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S100000x64, .f32⟩
  | 8 => ⟨S1x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S64, .f32⟩
  | 16 => ⟨S64, .f32⟩
  | 17 => ⟨S64, .f32⟩
  | 18 => ⟨S64, .f32⟩
  | 19 => ⟨S1x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S64, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .f32⟩
  | 50 => ⟨S128x64, .f32⟩
  | 51 => ⟨S100000x1, .i32⟩
  | 52 => ⟨S128x64, .f32⟩
  | 53 => ⟨S1x64x2, .f32⟩
  | 54 => ⟨S64x2, .f32⟩
  | 55 => ⟨S128x2, .f32⟩
  | 56 => ⟨S128x2, .f32⟩
  | 57 => ⟨S1x2, .f32⟩
  | 58 => ⟨S2, .f32⟩
  | 59 => ⟨S1x2, .f32⟩
  | 60 => ⟨S128x2, .f32⟩
  | 61 => ⟨S128x2, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S_, .f32⟩
  | 72 => ⟨S100000x64, .f32⟩
  | 73 => ⟨S1000000x1, .i32⟩
  | 74 => ⟨S100000x64, .f32⟩
  | 75 => ⟨S100000x64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S64, .f32⟩
  | 94 => ⟨S1x64, .f32⟩
  | 95 => ⟨S64, .f32⟩
  | 96 => ⟨S1x64, .f32⟩
  | 97 => ⟨S64, .f32⟩
  | 98 => ⟨S1x64, .f32⟩
  | 99 => ⟨S64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S64, .f32⟩
  | 109 => ⟨S64, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000, .i32⟩

abbrev hbmTy0_2 (i : Nat) : BufTy := match i % 128 with
  | 0 => ⟨S_, .f32⟩
  | 1 => ⟨S64, .f32⟩
  | 2 => ⟨S64, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S_, .f32⟩
  | 15 => ⟨S128x64, .f32⟩
  | 16 => ⟨S100000x1, .i32⟩
  | 17 => ⟨S128x64, .f32⟩
  | 18 => ⟨S1x64x2, .f32⟩
  | 19 => ⟨S64x2, .f32⟩
  | 20 => ⟨S128x2, .f32⟩
  | 21 => ⟨S128x2, .f32⟩
  | 22 => ⟨S1x2, .f32⟩
  | 23 => ⟨S2, .f32⟩
  | 24 => ⟨S1x2, .f32⟩
  | 25 => ⟨S128x2, .f32⟩
  | 26 => ⟨S128x2, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x64, .f32⟩
  | 36 => ⟨S_, .f32⟩
  | 37 => ⟨S100000x64, .f32⟩
  | 38 => ⟨S1000000x1, .i32⟩
  | 39 => ⟨S100000x64, .f32⟩
  | 40 => ⟨S100000x64, .f32⟩
  | 41 => ⟨S1x64x64, .f32⟩
  | 42 => ⟨S64x64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S64, .f32⟩
  | 51 => ⟨S1x64, .f32⟩
  | 52 => ⟨S64, .f32⟩
  | 53 => ⟨S1x64x64, .f32⟩
  | 54 => ⟨S64x64, .f32⟩
  | 55 => ⟨S1x64, .f32⟩
  | 56 => ⟨S64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S64, .f32⟩
  | 65 => ⟨S100000x64, .f32⟩
  | 66 => ⟨S1x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S64, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S64, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .f32⟩
  | 108 => ⟨S128x64, .f32⟩
  | 109 => ⟨S100000x1, .i32⟩
  | 110 => ⟨S128x64, .f32⟩
  | 111 => ⟨S1x64x2, .f32⟩
  | 112 => ⟨S64x2, .f32⟩
  | 113 => ⟨S128x2, .f32⟩
  | 114 => ⟨S128x2, .f32⟩
  | 115 => ⟨S1x2, .f32⟩
  | 116 => ⟨S2, .f32⟩
  | 117 => ⟨S1x2, .f32⟩
  | 118 => ⟨S128x2, .f32⟩
  | 119 => ⟨S128x2, .f32⟩
  | 120 => ⟨S_, .f32⟩
  | 121 => ⟨S128, .f32⟩
  | 122 => ⟨S_, .f32⟩
  | 123 => ⟨S128, .f32⟩
  | 124 => ⟨S128, .f32⟩
  | 125 => ⟨S128x1, .f32⟩
  | 126 => ⟨S128x2, .f32⟩
  | 127 => ⟨S128x2, .f32⟩
  | _ => ⟨S100000, .i32⟩

abbrev hbmTy0_3 (i : Nat) : BufTy := match i % 128 with
  | 0 => ⟨S128x2, .f32⟩
  | 1 => ⟨S_, .f32⟩
  | 2 => ⟨S128, .f32⟩
  | 3 => ⟨S128x1, .f32⟩
  | 4 => ⟨S128x2, .f32⟩
  | 5 => ⟨S128x2, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call0_cst : Ref sig .tc := ⟨.hbm, 61, rfl⟩
abbrev main_call0_v0 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_1 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call1_cst : Ref sig .tc := ⟨.hbm, 82, rfl⟩
abbrev main_call1_v0 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_2 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_3 : Ref sig .tc := ⟨.hbm, 97, rfl⟩
abbrev main_v58 : Ref sig .tc := ⟨.hbm, 98, rfl⟩
abbrev main_v59 : Ref sig .tc := ⟨.hbm, 99, rfl⟩
abbrev main_c_4 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_5 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_6 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call2_cst : Ref sig .tc := ⟨.hbm, 153, rfl⟩
abbrev main_call2_v0 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_7 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_call3_cst : Ref sig .tc := ⟨.hbm, 174, rfl⟩
abbrev main_call3_v0 : Ref sig .tc := ⟨.hbm, 175, rfl⟩
abbrev main_v128 : Ref sig .tc := ⟨.hbm, 176, rfl⟩
abbrev main_cst_8 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_9 : Ref sig .tc := ⟨.hbm, 190, rfl⟩
abbrev main_v141 : Ref sig .tc := ⟨.hbm, 191, rfl⟩
abbrev main_v142 : Ref sig .tc := ⟨.hbm, 192, rfl⟩
abbrev main_c_10 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_11 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_12 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_call4_cst : Ref sig .tc := ⟨.hbm, 246, rfl⟩
abbrev main_call4_v0 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_13 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_call5_cst : Ref sig .tc := ⟨.hbm, 267, rfl⟩
abbrev main_call5_v0 : Ref sig .tc := ⟨.hbm, 268, rfl⟩
abbrev main_v211 : Ref sig .tc := ⟨.hbm, 269, rfl⟩
abbrev main_cst_14 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_c_15 : Ref sig .tc := ⟨.hbm, 283, rfl⟩
abbrev main_v224 : Ref sig .tc := ⟨.hbm, 284, rfl⟩
abbrev main_v225 : Ref sig .tc := ⟨.hbm, 285, rfl⟩
abbrev main_c_16 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_cst_17 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_cst_18 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_call6_cst : Ref sig .tc := ⟨.hbm, 339, rfl⟩
abbrev main_call6_v0 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_cst_19 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_call7_cst : Ref sig .tc := ⟨.hbm, 360, rfl⟩
abbrev main_call7_v0 : Ref sig .tc := ⟨.hbm, 361, rfl⟩
abbrev main_v294 : Ref sig .tc := ⟨.hbm, 362, rfl⟩
abbrev main_cst_20 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_cst_21 : Ref sig .tc := ⟨.hbm, 376, rfl⟩
abbrev main_v307 : Ref sig .tc := ⟨.hbm, 377, rfl⟩
abbrev main_cst_22 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_cst_23 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  slices_S4x64x2_S1x64x2_0_0_0 : S4x64x2.Slices ![0, 0, 0] S1x64x2
  shapeCasts_S1x64x2_S64x2 : S1x64x2.ShapeCasts S64x2
  slices_S4x2_S1x2_0_0 : S4x2.Slices ![0, 0] S1x2
  shapeCasts_S1x2_S2 : S1x2.ShapeCasts S2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S128x2 : S_.BroadcastsInDim S128x2 (![] : Fin 0 → Fin S128x2.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S128x64 : S_.BroadcastsInDim S128x64 (![] : Fin 0 → Fin S128x64.rank)
  slices_S4x64x2_S1x64x2_1_0_0 : S4x64x2.Slices ![1, 0, 0] S1x64x2
  slices_S4x2_S1x2_1_0 : S4x2.Slices ![1, 0] S1x2
  bcast_S1x2_S128x2_0_1 : S1x2.BroadcastsInDim S128x2 (![0, 1] : Fin 2 → Fin S128x2.rank)
  slices_S3x64x64_S1x64x64_1_0_0 : S3x64x64.Slices ![1, 0, 0] S1x64x64
  slices_S3x64_S1x64_1_0 : S3x64.Slices ![1, 0] S1x64
  slices_S4x64x2_S1x64x2_2_0_0 : S4x64x2.Slices ![2, 0, 0] S1x64x2
  slices_S4x2_S1x2_2_0 : S4x2.Slices ![2, 0] S1x2
  slices_S3x64x64_S1x64x64_2_0_0 : S3x64x64.Slices ![2, 0, 0] S1x64x64
  slices_S3x64_S1x64_2_0 : S3x64.Slices ![2, 0] S1x64
  slices_S4x64x2_S1x64x2_3_0_0 : S4x64x2.Slices ![3, 0, 0] S1x64x2
  slices_S4x2_S1x2_3_0 : S4x2.Slices ![3, 0] S1x2
  reducesTo_S128x2_S128_d1 : S128x2.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  gather_S100000x128_S100000x1_S100000x128_1_0_n_n_0_1_1128_wf : GatherDims.WF S100000x128 S100000x1 S100000x128 [1] [0] [] [0] [] 1 ![1, 128]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []
  scatter_S128x2_S100000x1_S100000x2_1_0_0_1_wf : ScatterDims.WF S128x2 S100000x1 S100000x2 [1] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S128x64_S100000x1_S100000x64_1_0_0_1_wf : ScatterDims.WF S128x64 S100000x1 S100000x64 [1] [0] [0] 1
  dot_S128x64_S64x2_S128x2_1_0_0_1_n_n_wf : DotDims.WF S128x64 S64x2 S128x2 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def scatter_S128x2_S100000x1_S100000x2_1_0_0_1 : ScatterDims S128x2 S100000x1 S100000x2 where
  updateWindowDims := [1]
  insertedWindowDims := [0]
  scatterDimsToOperandDims := [0]
  indexVectorDim := 1
  wf := scatter_S128x2_S100000x1_S100000x2_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

class Facts : Prop extends Facts₀ where

variable [Facts]
-- ==== Proof.OpsH.lean ====
/-
  The reference program's host operations 334–360 of 360 (the last readout and the softmax), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 334–360 of the reference's @main, in order. -/
def cH : List (HloOp τ sig (Elt F)) :=
  [ nullary main_cst_20 (constant S_ .f32 0x00000000#32),
    unary main_cst_20 main_v295 (broadcastInDim S128x64 ![] bcast_S_S128x64 : (⟨S_, .f32⟩ : BufTy).Contents (Elt F) → (⟨S128x64, .f32⟩ : BufTy).Contents (Elt F)),
    unary main_arg2 main_v296 (broadcastInDim S100000x1 ![0] bcast_S100000_S100000x1_0 : (⟨S100000, .i32⟩ : BufTy).Contents (Elt F) → (⟨S100000x1, .i32⟩ : BufTy).Contents (Elt F)),
    ternary main_v295 main_v296 main_v294 main_v297 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    unary main_arg28 main_v298 ((extractStridedSlice S1x64x2 ![3, 0, 0] · slices_S4x64x2_S1x64x2_3_0_0) : (⟨S4x64x2, .f32⟩ : BufTy).Contents (Elt F) → (⟨S1x64x2, .f32⟩ : BufTy).Contents (Elt F)),
    reshape main_v298 main_v299 rfl shapeCasts_S1x64x2_S64x2,
    binary main_v297 main_v299 main_v300 ((fun l r => Host.dotGeneral dot_S128x64_S64x2_S128x2_1_0_0_1_n_n none l r) : (⟨S128x64, .f32⟩ : BufTy).Contents (Elt F) → (⟨S64x2, .f32⟩ : BufTy).Contents (Elt F) → (⟨S128x2, .f32⟩ : BufTy).Contents (Elt F)),
    binary main_v223 main_v300 main_v301 (addf : (⟨S128x2, .f32⟩ : BufTy).Contents (Elt F) → (⟨S128x2, .f32⟩ : BufTy).Contents (Elt F) → (⟨S128x2, .f32⟩ : BufTy).Contents (Elt F)),
    unary main_arg29 main_v302 ((extractStridedSlice S1x2 ![3, 0] · slices_S4x2_S1x2_3_0) : (⟨S4x2, .f32⟩ : BufTy).Contents (Elt F) → (⟨S1x2, .f32⟩ : BufTy).Contents (Elt F)),
    reshape main_v302 main_v303 rfl shapeCasts_S1x2_S2,
    unary main_v303 main_v304 (broadcastInDim S1x2 ![1] bcast_S2_S1x2_1 : (⟨S2, .f32⟩ : BufTy).Contents (Elt F) → (⟨S1x2, .f32⟩ : BufTy).Contents (Elt F)),
    unary main_v304 main_v305 (broadcastInDim S128x2 ![0, 1] bcast_S1x2_S128x2_0_1 : (⟨S1x2, .f32⟩ : BufTy).Contents (Elt F) → (⟨S128x2, .f32⟩ : BufTy).Contents (Elt F)),
    binary main_v301 main_v305 main_v306 (addf : (⟨S128x2, .f32⟩ : BufTy).Contents (Elt F) → (⟨S128x2, .f32⟩ : BufTy).Contents (Elt F) → (⟨S128x2, .f32⟩ : BufTy).Contents (Elt F)),
    nullary main_cst_21 (constant S_ .f32 0xFF800000#32),
    binary main_v306 main_cst_21 main_v307 ((fun x v => Host.reduce FloatOps.maximumf x v reducesTo_S128x2_S128_d1 h_S_) : (⟨S128x2, .f32⟩ : BufTy).Contents (Elt F) → (⟨S_, .f32⟩ : BufTy).Contents (Elt F) → (⟨S128, .f32⟩ : BufTy).Contents (Elt F)),
    nullary main_cst_22 (constant S_ .f32 0xFF800000#32),
    unary main_cst_22 main_v308 (broadcastInDim S128 ![] bcast_S_S128 : (⟨S_, .f32⟩ : BufTy).Contents (Elt F) → (⟨S128, .f32⟩ : BufTy).Contents (Elt F)),
    binary main_v308 main_v307 main_v309 (maximumf : (⟨S128, .f32⟩ : BufTy).Contents (Elt F) → (⟨S128, .f32⟩ : BufTy).Contents (Elt F) → (⟨S128, .f32⟩ : BufTy).Contents (Elt F)),
    unary main_v309 main_v310 (broadcastInDim S128x1 ![0] bcast_S128_S128x1_0 : (⟨S128, .f32⟩ : BufTy).Contents (Elt F) → (⟨S128x1, .f32⟩ : BufTy).Contents (Elt F)),
    unary main_v310 main_v311 (broadcastInDim S128x2 ![0, 1] bcast_S128x1_S128x2_0_1 : (⟨S128x1, .f32⟩ : BufTy).Contents (Elt F) → (⟨S128x2, .f32⟩ : BufTy).Contents (Elt F)),
    binary main_v306 main_v311 main_v312 (subf : (⟨S128x2, .f32⟩ : BufTy).Contents (Elt F) → (⟨S128x2, .f32⟩ : BufTy).Contents (Elt F) → (⟨S128x2, .f32⟩ : BufTy).Contents (Elt F)),
    unary main_v312 main_v313 (Host.exp : (⟨S128x2, .f32⟩ : BufTy).Contents (Elt F) → (⟨S128x2, .f32⟩ : BufTy).Contents (Elt F)),
    nullary main_cst_23 (constant S_ .f32 0x00000000#32),
    binary main_v313 main_cst_23 main_v314 ((fun x v => Host.reduceAdd x v reducesTo_S128x2_S128_d1 h_S_) : (⟨S128x2, .f32⟩ : BufTy).Contents (Elt F) → (⟨S_, .f32⟩ : BufTy).Contents (Elt F) → (⟨S128, .f32⟩ : BufTy).Contents (Elt F)),
    unary main_v314 main_v315 (broadcastInDim S128x1 ![0] bcast_S128_S128x1_0 : (⟨S128, .f32⟩ : BufTy).Contents (Elt F) → (⟨S128x1, .f32⟩ : BufTy).Contents (Elt F)),
    unary main_v315 main_v316 (broadcastInDim S128x2 ![0, 1] bcast_S128x1_S128x2_0_1 : (⟨S128x1, .f32⟩ : BufTy).Contents (Elt F) → (⟨S128x2, .f32⟩ : BufTy).Contents (Elt F)),
    binary main_v313 main_v316 main_v317 (Host.divf : (⟨S128x2, .f32⟩ : BufTy).Contents (Elt F) → (⟨S128x2, .f32⟩ : BufTy).Contents (Elt F) → (⟨S128x2, .f32⟩ : BufTy).Contents (Elt F)) ]

set_option maxHeartbeats 40000000 in
/-- Each of them touches TensorCore references only. -/
theorem cH_sub : (cH : List (HloOp τ sig (Elt F))).Forall fun op => op.bufs ⊆ tcRefs τ sig := by
  unfold cH
  exact ⟨nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

end Cert.ReferenceIdeal.RunChunks
end
-- ==== Proof.OpsG.lean ====
/-
  The reference program's host operations 268–333 of 360 (the fourth block), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 268–333 of the reference's @main, in order. -/
def cG : List (HloOp τ sig (Elt F)) :=
  [ unary main_arg16 main_v235 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v235 main_v236 rfl shapeCasts_S1x64x64_S64x64,
    unary main_arg17 main_v237 ((extractStridedSlice S1x64 ![2, 0] · slices_S3x64_S1x64_2_0) : (⟨S3x64, .f32⟩ : BufTy).Contents (Elt F) → (⟨S1x64, .f32⟩ : BufTy).Contents (Elt F)),
    reshape main_v237 main_v238 rfl shapeCasts_S1x64_S64,
    unary main_arg18 main_v239 ((extractStridedSlice S1x64 ![2, 0] · slices_S3x64_S1x64_2_0) : (⟨S3x64, .f32⟩ : BufTy).Contents (Elt F) → (⟨S1x64, .f32⟩ : BufTy).Contents (Elt F)),
    reshape main_v239 main_v240 rfl shapeCasts_S1x64_S64,
    unary main_arg19 main_v241 ((extractStridedSlice S1x64 ![2, 0] · slices_S3x64_S1x64_2_0) : (⟨S3x64, .f32⟩ : BufTy).Contents (Elt F) → (⟨S1x64, .f32⟩ : BufTy).Contents (Elt F)),
    reshape main_v241 main_v242 rfl shapeCasts_S1x64_S64,
    unary main_arg20 main_v243 ((extractStridedSlice S1x64 ![2, 0] · slices_S3x64_S1x64_2_0) : (⟨S3x64, .f32⟩ : BufTy).Contents (Elt F) → (⟨S1x64, .f32⟩ : BufTy).Contents (Elt F)),
    reshape main_v243 main_v244 rfl shapeCasts_S1x64_S64,
    unary main_arg21 main_v245 ((extractStridedSlice S1x64 ![2, 0] · slices_S3x64_S1x64_2_0) : (⟨S3x64, .f32⟩ : BufTy).Contents (Elt F) → (⟨S1x64, .f32⟩ : BufTy).Contents (Elt F)),
    reshape main_v245 main_v246 rfl shapeCasts_S1x64_S64,
    unary main_arg22 main_v247 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v247 main_v248 rfl shapeCasts_S1x64x64_S64x64,
    unary main_arg23 main_v249 ((extractStridedSlice S1x64 ![2, 0] · slices_S3x64_S1x64_2_0) : (⟨S3x64, .f32⟩ : BufTy).Contents (Elt F) → (⟨S1x64, .f32⟩ : BufTy).Contents (Elt F)),
    reshape main_v249 main_v250 rfl shapeCasts_S1x64_S64,
    unary main_arg24 main_v251 ((extractStridedSlice S1x64 ![2, 0] · slices_S3x64_S1x64_2_0) : (⟨S3x64, .f32⟩ : BufTy).Contents (Elt F) → (⟨S1x64, .f32⟩ : BufTy).Contents (Elt F)),
    reshape main_v251 main_v252 rfl shapeCasts_S1x64_S64,
    unary main_arg25 main_v253 ((extractStridedSlice S1x64 ![2, 0] · slices_S3x64_S1x64_2_0) : (⟨S3x64, .f32⟩ : BufTy).Contents (Elt F) → (⟨S1x64, .f32⟩ : BufTy).Contents (Elt F)),
    reshape main_v253 main_v254 rfl shapeCasts_S1x64_S64,
    unary main_arg26 main_v255 ((extractStridedSlice S1x64 ![2, 0] · slices_S3x64_S1x64_2_0) : (⟨S3x64, .f32⟩ : BufTy).Contents (Elt F) → (⟨S1x64, .f32⟩ : BufTy).Contents (Elt F)),
    reshape main_v255 main_v256 rfl shapeCasts_S1x64_S64,
    unary main_arg27 main_v257 ((extractStridedSlice S1x64 ![2, 0] · slices_S3x64_S1x64_2_0) : (⟨S3x64, .f32⟩ : BufTy).Contents (Elt F) → (⟨S1x64, .f32⟩ : BufTy).Contents (Elt F)),
    reshape main_v257 main_v258 rfl shapeCasts_S1x64_S64,
    binary main_v234 main_v236 main_v259 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v238 main_v260 (broadcastInDim S1x64 ![1] bcast_S64_S1x64_1 : (⟨S64, .f32⟩ : BufTy).Contents (Elt F) → (⟨S1x64, .f32⟩ : BufTy).Contents (Elt F)),
    unary main_v260 main_v261 (broadcastInDim S100000x64 ![0, 1] bcast_S1x64_S100000x64_0_1 : (⟨S1x64, .f32⟩ : BufTy).Contents (Elt F) → (⟨S100000x64, .f32⟩ : BufTy).Contents (Elt F)),
    binary main_v259 main_v261 main_v262 (addf : (⟨S100000x64, .f32⟩ : BufTy).Contents (Elt F) → (⟨S100000x64, .f32⟩ : BufTy).Contents (Elt F) → (⟨S100000x64, .f32⟩ : BufTy).Contents (Elt F)),
    unary main_v244 main_v263 (broadcastInDim S1x64 ![1] bcast_S64_S1x64_1 : (⟨S64, .f32⟩ : BufTy).Contents (Elt F) → (⟨S1x64, .f32⟩ : BufTy).Contents (Elt F)),
    unary main_v263 main_v264 (broadcastInDim S100000x64 ![0, 1] bcast_S1x64_S100000x64_0_1 : (⟨S1x64, .f32⟩ : BufTy).Contents (Elt F) → (⟨S100000x64, .f32⟩ : BufTy).Contents (Elt F)),
    binary main_v262 main_v264 main_v265 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v266 (broadcastInDim S64 ![] bcast_S_S64 : (⟨S_, .f32⟩ : BufTy).Contents (Elt F) → (⟨S64, .f32⟩ : BufTy).Contents (Elt F)),
    binary main_v246 main_v266 main_v267 (addf : (⟨S64, .f32⟩ : BufTy).Contents (Elt F) → (⟨S64, .f32⟩ : BufTy).Contents (Elt F) → (⟨S64, .f32⟩ : BufTy).Contents (Elt F)),
    unary main_v267 main_v268 (Host.sqrt : (⟨S64, .f32⟩ : BufTy).Contents (Elt F) → (⟨S64, .f32⟩ : BufTy).Contents (Elt F)),
    binary main_v240 main_v268 main_v269 (Host.divf : (⟨S64, .f32⟩ : BufTy).Contents (Elt F) → (⟨S64, .f32⟩ : BufTy).Contents (Elt F) → (⟨S64, .f32⟩ : BufTy).Contents (Elt F)),
    unary main_v269 main_v270 (broadcastInDim S1x64 ![1] bcast_S64_S1x64_1 : (⟨S64, .f32⟩ : BufTy).Contents (Elt F) → (⟨S1x64, .f32⟩ : BufTy).Contents (Elt F)),
    unary main_v270 main_v271 (broadcastInDim S100000x64 ![0, 1] bcast_S1x64_S100000x64_0_1 : (⟨S1x64, .f32⟩ : BufTy).Contents (Elt F) → (⟨S100000x64, .f32⟩ : BufTy).Contents (Elt F)),
    binary main_v265 main_v271 main_v272 (mulf : (⟨S100000x64, .f32⟩ : BufTy).Contents (Elt F) → (⟨S100000x64, .f32⟩ : BufTy).Contents (Elt F) → (⟨S100000x64, .f32⟩ : BufTy).Contents (Elt F)),
    unary main_v242 main_v273 (broadcastInDim S1x64 ![1] bcast_S64_S1x64_1 : (⟨S64, .f32⟩ : BufTy).Contents (Elt F) → (⟨S1x64, .f32⟩ : BufTy).Contents (Elt F)),
    unary main_v273 main_v274 (broadcastInDim S100000x64 ![0, 1] bcast_S1x64_S100000x64_0_1 : (⟨S1x64, .f32⟩ : BufTy).Contents (Elt F) → (⟨S100000x64, .f32⟩ : BufTy).Contents (Elt F)),
    binary main_v272 main_v274 main_v275 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v275) (TRef.of (T := ⟨S100000x64, .f32⟩) main_call6_v0) (TRef.of (T := ⟨S100000x64, .f32⟩) main_v276) maximumf,
    binary main_v276 main_v248 main_v277 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v250 main_v278 (broadcastInDim S1x64 ![1] bcast_S64_S1x64_1 : (⟨S64, .f32⟩ : BufTy).Contents (Elt F) → (⟨S1x64, .f32⟩ : BufTy).Contents (Elt F)),
    unary main_v278 main_v279 (broadcastInDim S100000x64 ![0, 1] bcast_S1x64_S100000x64_0_1 : (⟨S1x64, .f32⟩ : BufTy).Contents (Elt F) → (⟨S100000x64, .f32⟩ : BufTy).Contents (Elt F)),
    binary main_v277 main_v279 main_v280 (addf : (⟨S100000x64, .f32⟩ : BufTy).Contents (Elt F) → (⟨S100000x64, .f32⟩ : BufTy).Contents (Elt F) → (⟨S100000x64, .f32⟩ : BufTy).Contents (Elt F)),
    unary main_v256 main_v281 (broadcastInDim S1x64 ![1] bcast_S64_S1x64_1 : (⟨S64, .f32⟩ : BufTy).Contents (Elt F) → (⟨S1x64, .f32⟩ : BufTy).Contents (Elt F)),
    unary main_v281 main_v282 (broadcastInDim S100000x64 ![0, 1] bcast_S1x64_S100000x64_0_1 : (⟨S1x64, .f32⟩ : BufTy).Contents (Elt F) → (⟨S100000x64, .f32⟩ : BufTy).Contents (Elt F)),
    binary main_v280 main_v282 main_v283 (subf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v284 (broadcastInDim S64 ![] bcast_S_S64 : (⟨S_, .f32⟩ : BufTy).Contents (Elt F) → (⟨S64, .f32⟩ : BufTy).Contents (Elt F)),
    binary main_v258 main_v284 main_v285 (addf : (⟨S64, .f32⟩ : BufTy).Contents (Elt F) → (⟨S64, .f32⟩ : BufTy).Contents (Elt F) → (⟨S64, .f32⟩ : BufTy).Contents (Elt F)),
    unary main_v285 main_v286 (Host.sqrt : (⟨S64, .f32⟩ : BufTy).Contents (Elt F) → (⟨S64, .f32⟩ : BufTy).Contents (Elt F)),
    binary main_v252 main_v286 main_v287 (Host.divf : (⟨S64, .f32⟩ : BufTy).Contents (Elt F) → (⟨S64, .f32⟩ : BufTy).Contents (Elt F) → (⟨S64, .f32⟩ : BufTy).Contents (Elt F)),
    unary main_v287 main_v288 (broadcastInDim S1x64 ![1] bcast_S64_S1x64_1 : (⟨S64, .f32⟩ : BufTy).Contents (Elt F) → (⟨S1x64, .f32⟩ : BufTy).Contents (Elt F)),
    unary main_v288 main_v289 (broadcastInDim S100000x64 ![0, 1] bcast_S1x64_S100000x64_0_1 : (⟨S1x64, .f32⟩ : BufTy).Contents (Elt F) → (⟨S100000x64, .f32⟩ : BufTy).Contents (Elt F)),
    binary main_v283 main_v289 main_v290 (mulf : (⟨S100000x64, .f32⟩ : BufTy).Contents (Elt F) → (⟨S100000x64, .f32⟩ : BufTy).Contents (Elt F) → (⟨S100000x64, .f32⟩ : BufTy).Contents (Elt F)),
    unary main_v254 main_v291 (broadcastInDim S1x64 ![1] bcast_S64_S1x64_1 : (⟨S64, .f32⟩ : BufTy).Contents (Elt F) → (⟨S1x64, .f32⟩ : BufTy).Contents (Elt F)),
    unary main_v291 main_v292 (broadcastInDim S100000x64 ![0, 1] bcast_S1x64_S100000x64_0_1 : (⟨S1x64, .f32⟩ : BufTy).Contents (Elt F) → (⟨S100000x64, .f32⟩ : BufTy).Contents (Elt F)),
    binary main_v290 main_v292 main_v293 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v293) (TRef.of (T := ⟨S100000x64, .f32⟩) main_call7_v0) (TRef.of (T := ⟨S100000x64, .f32⟩) main_v294) maximumf ]

set_option maxHeartbeats 40000000 in
/-- Each of them touches TensorCore references only. -/
theorem cG_sub : (cG : List (HloOp τ sig (Elt F))).Forall fun op => op.bufs ⊆ tcRefs τ sig := by
  unfold cG
  exact ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

end Cert.ReferenceIdeal.RunChunks
end
-- ==== Proof.OpsF.lean ====
/-
  The reference program's host operations 241–267 of 360 (the third readout and aggregate), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 241–267 of the reference's @main, in order. -/
def cF : List (HloOp τ sig (Elt F)) :=
  [ nullary main_cst_14 (constant S_ .f32 0x00000000#32),
    unary main_cst_14 main_v212 (broadcastInDim S128x64 ![] bcast_S_S128x64 : (⟨S_, .f32⟩ : BufTy).Contents (Elt F) → (⟨S128x64, .f32⟩ : BufTy).Contents (Elt F)),
    unary main_arg2 main_v213 (broadcastInDim S100000x1 ![0] bcast_S100000_S100000x1_0 : (⟨S100000, .i32⟩ : BufTy).Contents (Elt F) → (⟨S100000x1, .i32⟩ : BufTy).Contents (Elt F)),
    ternary main_v212 main_v213 main_v211 main_v214 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    unary main_arg28 main_v215 ((extractStridedSlice S1x64x2 ![2, 0, 0] · slices_S4x64x2_S1x64x2_2_0_0) : (⟨S4x64x2, .f32⟩ : BufTy).Contents (Elt F) → (⟨S1x64x2, .f32⟩ : BufTy).Contents (Elt F)),
    reshape main_v215 main_v216 rfl shapeCasts_S1x64x2_S64x2,
    binary main_v214 main_v216 main_v217 ((fun l r => Host.dotGeneral dot_S128x64_S64x2_S128x2_1_0_0_1_n_n none l r) : (⟨S128x64, .f32⟩ : BufTy).Contents (Elt F) → (⟨S64x2, .f32⟩ : BufTy).Contents (Elt F) → (⟨S128x2, .f32⟩ : BufTy).Contents (Elt F)),
    binary main_v140 main_v217 main_v218 (addf : (⟨S128x2, .f32⟩ : BufTy).Contents (Elt F) → (⟨S128x2, .f32⟩ : BufTy).Contents (Elt F) → (⟨S128x2, .f32⟩ : BufTy).Contents (Elt F)),
    unary main_arg29 main_v219 ((extractStridedSlice S1x2 ![2, 0] · slices_S4x2_S1x2_2_0) : (⟨S4x2, .f32⟩ : BufTy).Contents (Elt F) → (⟨S1x2, .f32⟩ : BufTy).Contents (Elt F)),
    reshape main_v219 main_v220 rfl shapeCasts_S1x2_S2,
    unary main_v220 main_v221 (broadcastInDim S1x2 ![1] bcast_S2_S1x2_1 : (⟨S2, .f32⟩ : BufTy).Contents (Elt F) → (⟨S1x2, .f32⟩ : BufTy).Contents (Elt F)),
    unary main_v221 main_v222 (broadcastInDim S128x2 ![0, 1] bcast_S1x2_S128x2_0_1 : (⟨S1x2, .f32⟩ : BufTy).Contents (Elt F) → (⟨S128x2, .f32⟩ : BufTy).Contents (Elt F)),
    binary main_v218 main_v222 main_v223 (addf : (⟨S128x2, .f32⟩ : BufTy).Contents (Elt F) → (⟨S128x2, .f32⟩ : BufTy).Contents (Elt F) → (⟨S128x2, .f32⟩ : BufTy).Contents (Elt F)),
    nullary main_c_15 (constantI S_ 32 0#32),
    unary main_c_15 main_v224 (broadcastInDim S1000000 ![] bcast_S_S1000000 : (⟨S_, .i32⟩ : BufTy).Contents (Elt F) → (⟨S1000000, .i32⟩ : BufTy).Contents (Elt F)),
    binary main_v1 main_v224 main_v225 (cmpi .slt : (⟨S1000000, .i32⟩ : BufTy).Contents (Elt F) → (⟨S1000000, .i32⟩ : BufTy).Contents (Elt F) → (⟨S1000000, .i1⟩ : BufTy).Contents (Elt F)),
    nullary main_c_16 (constantI S_ 32 100000#32),
    unary main_c_16 main_v226 (broadcastInDim S1000000 ![] bcast_S_S1000000 : (⟨S_, .i32⟩ : BufTy).Contents (Elt F) → (⟨S1000000, .i32⟩ : BufTy).Contents (Elt F)),
    binary main_v1 main_v226 main_v227 (addi : (⟨S1000000, .i32⟩ : BufTy).Contents (Elt F) → (⟨S1000000, .i32⟩ : BufTy).Contents (Elt F) → (⟨S1000000, .i32⟩ : BufTy).Contents (Elt F)),
    ternary main_v225 main_v227 main_v1 main_v228 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v228 main_v229 (broadcastInDim S1000000x1 ![0] bcast_S1000000_S1000000x1_0 : (⟨S1000000, .i32⟩ : BufTy).Contents (Elt F) → (⟨S1000000x1, .i32⟩ : BufTy).Contents (Elt F)),
    binary main_v211 main_v229 main_v230 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_17 (constant S_ .f32 0x00000000#32),
    unary main_cst_17 main_v231 (broadcastInDim S100000x64 ![] bcast_S_S100000x64 : (⟨S_, .f32⟩ : BufTy).Contents (Elt F) → (⟨S100000x64, .f32⟩ : BufTy).Contents (Elt F)),
    unary main_v3 main_v232 (broadcastInDim S1000000x1 ![0] bcast_S1000000_S1000000x1_0 : (⟨S1000000, .i32⟩ : BufTy).Contents (Elt F) → (⟨S1000000x1, .i32⟩ : BufTy).Contents (Elt F)),
    ternary main_v231 main_v232 main_v230 main_v233 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v211 main_v233 main_v234 (addf : (⟨S100000x64, .f32⟩ : BufTy).Contents (Elt F) → (⟨S100000x64, .f32⟩ : BufTy).Contents (Elt F) → (⟨S100000x64, .f32⟩ : BufTy).Contents (Elt F)) ]

set_option maxHeartbeats 40000000 in
/-- Each of them touches TensorCore references only. -/
theorem cF_sub : (cF : List (HloOp τ sig (Elt F))).Forall fun op => op.bufs ⊆ tcRefs τ sig := by
  unfold cF
  exact ⟨nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

end Cert.ReferenceIdeal.RunChunks
end
-- ==== Proof.OpsE.lean ====
/-
  The reference program's host operations 175–240 of 360 (the third block), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 175–240 of the reference's @main, in order. -/
def cE : List (HloOp τ sig (Elt F)) :=
  [ unary main_arg16 main_v152 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v152 main_v153 rfl shapeCasts_S1x64x64_S64x64,
    unary main_arg17 main_v154 ((extractStridedSlice S1x64 ![1, 0] · slices_S3x64_S1x64_1_0) : (⟨S3x64, .f32⟩ : BufTy).Contents (Elt F) → (⟨S1x64, .f32⟩ : BufTy).Contents (Elt F)),
    reshape main_v154 main_v155 rfl shapeCasts_S1x64_S64,
    unary main_arg18 main_v156 ((extractStridedSlice S1x64 ![1, 0] · slices_S3x64_S1x64_1_0) : (⟨S3x64, .f32⟩ : BufTy).Contents (Elt F) → (⟨S1x64, .f32⟩ : BufTy).Contents (Elt F)),
    reshape main_v156 main_v157 rfl shapeCasts_S1x64_S64,
    unary main_arg19 main_v158 ((extractStridedSlice S1x64 ![1, 0] · slices_S3x64_S1x64_1_0) : (⟨S3x64, .f32⟩ : BufTy).Contents (Elt F) → (⟨S1x64, .f32⟩ : BufTy).Contents (Elt F)),
    reshape main_v158 main_v159 rfl shapeCasts_S1x64_S64,
    unary main_arg20 main_v160 ((extractStridedSlice S1x64 ![1, 0] · slices_S3x64_S1x64_1_0) : (⟨S3x64, .f32⟩ : BufTy).Contents (Elt F) → (⟨S1x64, .f32⟩ : BufTy).Contents (Elt F)),
    reshape main_v160 main_v161 rfl shapeCasts_S1x64_S64,
    unary main_arg21 main_v162 ((extractStridedSlice S1x64 ![1, 0] · slices_S3x64_S1x64_1_0) : (⟨S3x64, .f32⟩ : BufTy).Contents (Elt F) → (⟨S1x64, .f32⟩ : BufTy).Contents (Elt F)),
    reshape main_v162 main_v163 rfl shapeCasts_S1x64_S64,
    unary main_arg22 main_v164 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v164 main_v165 rfl shapeCasts_S1x64x64_S64x64,
    unary main_arg23 main_v166 ((extractStridedSlice S1x64 ![1, 0] · slices_S3x64_S1x64_1_0) : (⟨S3x64, .f32⟩ : BufTy).Contents (Elt F) → (⟨S1x64, .f32⟩ : BufTy).Contents (Elt F)),
    reshape main_v166 main_v167 rfl shapeCasts_S1x64_S64,
    unary main_arg24 main_v168 ((extractStridedSlice S1x64 ![1, 0] · slices_S3x64_S1x64_1_0) : (⟨S3x64, .f32⟩ : BufTy).Contents (Elt F) → (⟨S1x64, .f32⟩ : BufTy).Contents (Elt F)),
    reshape main_v168 main_v169 rfl shapeCasts_S1x64_S64,
    unary main_arg25 main_v170 ((extractStridedSlice S1x64 ![1, 0] · slices_S3x64_S1x64_1_0) : (⟨S3x64, .f32⟩ : BufTy).Contents (Elt F) → (⟨S1x64, .f32⟩ : BufTy).Contents (Elt F)),
    reshape main_v170 main_v171 rfl shapeCasts_S1x64_S64,
    unary main_arg26 main_v172 ((extractStridedSlice S1x64 ![1, 0] · slices_S3x64_S1x64_1_0) : (⟨S3x64, .f32⟩ : BufTy).Contents (Elt F) → (⟨S1x64, .f32⟩ : BufTy).Contents (Elt F)),
    reshape main_v172 main_v173 rfl shapeCasts_S1x64_S64,
    unary main_arg27 main_v174 ((extractStridedSlice S1x64 ![1, 0] · slices_S3x64_S1x64_1_0) : (⟨S3x64, .f32⟩ : BufTy).Contents (Elt F) → (⟨S1x64, .f32⟩ : BufTy).Contents (Elt F)),
    reshape main_v174 main_v175 rfl shapeCasts_S1x64_S64,
    binary main_v151 main_v153 main_v176 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v155 main_v177 (broadcastInDim S1x64 ![1] bcast_S64_S1x64_1 : (⟨S64, .f32⟩ : BufTy).Contents (Elt F) → (⟨S1x64, .f32⟩ : BufTy).Contents (Elt F)),
    unary main_v177 main_v178 (broadcastInDim S100000x64 ![0, 1] bcast_S1x64_S100000x64_0_1 : (⟨S1x64, .f32⟩ : BufTy).Contents (Elt F) → (⟨S100000x64, .f32⟩ : BufTy).Contents (Elt F)),
    binary main_v176 main_v178 main_v179 (addf : (⟨S100000x64, .f32⟩ : BufTy).Contents (Elt F) → (⟨S100000x64, .f32⟩ : BufTy).Contents (Elt F) → (⟨S100000x64, .f32⟩ : BufTy).Contents (Elt F)),
    unary main_v161 main_v180 (broadcastInDim S1x64 ![1] bcast_S64_S1x64_1 : (⟨S64, .f32⟩ : BufTy).Contents (Elt F) → (⟨S1x64, .f32⟩ : BufTy).Contents (Elt F)),
    unary main_v180 main_v181 (broadcastInDim S100000x64 ![0, 1] bcast_S1x64_S100000x64_0_1 : (⟨S1x64, .f32⟩ : BufTy).Contents (Elt F) → (⟨S100000x64, .f32⟩ : BufTy).Contents (Elt F)),
    binary main_v179 main_v181 main_v182 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v183 (broadcastInDim S64 ![] bcast_S_S64 : (⟨S_, .f32⟩ : BufTy).Contents (Elt F) → (⟨S64, .f32⟩ : BufTy).Contents (Elt F)),
    binary main_v163 main_v183 main_v184 (addf : (⟨S64, .f32⟩ : BufTy).Contents (Elt F) → (⟨S64, .f32⟩ : BufTy).Contents (Elt F) → (⟨S64, .f32⟩ : BufTy).Contents (Elt F)),
    unary main_v184 main_v185 (Host.sqrt : (⟨S64, .f32⟩ : BufTy).Contents (Elt F) → (⟨S64, .f32⟩ : BufTy).Contents (Elt F)),
    binary main_v157 main_v185 main_v186 (Host.divf : (⟨S64, .f32⟩ : BufTy).Contents (Elt F) → (⟨S64, .f32⟩ : BufTy).Contents (Elt F) → (⟨S64, .f32⟩ : BufTy).Contents (Elt F)),
    unary main_v186 main_v187 (broadcastInDim S1x64 ![1] bcast_S64_S1x64_1 : (⟨S64, .f32⟩ : BufTy).Contents (Elt F) → (⟨S1x64, .f32⟩ : BufTy).Contents (Elt F)),
    unary main_v187 main_v188 (broadcastInDim S100000x64 ![0, 1] bcast_S1x64_S100000x64_0_1 : (⟨S1x64, .f32⟩ : BufTy).Contents (Elt F) → (⟨S100000x64, .f32⟩ : BufTy).Contents (Elt F)),
    binary main_v182 main_v188 main_v189 (mulf : (⟨S100000x64, .f32⟩ : BufTy).Contents (Elt F) → (⟨S100000x64, .f32⟩ : BufTy).Contents (Elt F) → (⟨S100000x64, .f32⟩ : BufTy).Contents (Elt F)),
    unary main_v159 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v189 main_v191 main_v192 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v192) (TRef.of (T := ⟨S100000x64, .f32⟩) main_call4_v0) (TRef.of (T := ⟨S100000x64, .f32⟩) main_v193) maximumf,
    binary main_v193 main_v165 main_v194 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v167 main_v195 (broadcastInDim S1x64 ![1] bcast_S64_S1x64_1 : (⟨S64, .f32⟩ : BufTy).Contents (Elt F) → (⟨S1x64, .f32⟩ : BufTy).Contents (Elt F)),
    unary main_v195 main_v196 (broadcastInDim S100000x64 ![0, 1] bcast_S1x64_S100000x64_0_1 : (⟨S1x64, .f32⟩ : BufTy).Contents (Elt F) → (⟨S100000x64, .f32⟩ : BufTy).Contents (Elt F)),
    binary main_v194 main_v196 main_v197 (addf : (⟨S100000x64, .f32⟩ : BufTy).Contents (Elt F) → (⟨S100000x64, .f32⟩ : BufTy).Contents (Elt F) → (⟨S100000x64, .f32⟩ : BufTy).Contents (Elt F)),
    unary main_v173 main_v198 (broadcastInDim S1x64 ![1] bcast_S64_S1x64_1 : (⟨S64, .f32⟩ : BufTy).Contents (Elt F) → (⟨S1x64, .f32⟩ : BufTy).Contents (Elt F)),
    unary main_v198 main_v199 (broadcastInDim S100000x64 ![0, 1] bcast_S1x64_S100000x64_0_1 : (⟨S1x64, .f32⟩ : BufTy).Contents (Elt F) → (⟨S100000x64, .f32⟩ : BufTy).Contents (Elt F)),
    binary main_v197 main_v199 main_v200 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v201 (broadcastInDim S64 ![] bcast_S_S64 : (⟨S_, .f32⟩ : BufTy).Contents (Elt F) → (⟨S64, .f32⟩ : BufTy).Contents (Elt F)),
    binary main_v175 main_v201 main_v202 (addf : (⟨S64, .f32⟩ : BufTy).Contents (Elt F) → (⟨S64, .f32⟩ : BufTy).Contents (Elt F) → (⟨S64, .f32⟩ : BufTy).Contents (Elt F)),
    unary main_v202 main_v203 (Host.sqrt : (⟨S64, .f32⟩ : BufTy).Contents (Elt F) → (⟨S64, .f32⟩ : BufTy).Contents (Elt F)),
    binary main_v169 main_v203 main_v204 (Host.divf : (⟨S64, .f32⟩ : BufTy).Contents (Elt F) → (⟨S64, .f32⟩ : BufTy).Contents (Elt F) → (⟨S64, .f32⟩ : BufTy).Contents (Elt F)),
    unary main_v204 main_v205 (broadcastInDim S1x64 ![1] bcast_S64_S1x64_1 : (⟨S64, .f32⟩ : BufTy).Contents (Elt F) → (⟨S1x64, .f32⟩ : BufTy).Contents (Elt F)),
    unary main_v205 main_v206 (broadcastInDim S100000x64 ![0, 1] bcast_S1x64_S100000x64_0_1 : (⟨S1x64, .f32⟩ : BufTy).Contents (Elt F) → (⟨S100000x64, .f32⟩ : BufTy).Contents (Elt F)),
    binary main_v200 main_v206 main_v207 (mulf : (⟨S100000x64, .f32⟩ : BufTy).Contents (Elt F) → (⟨S100000x64, .f32⟩ : BufTy).Contents (Elt F) → (⟨S100000x64, .f32⟩ : BufTy).Contents (Elt F)),
    unary main_v171 main_v208 (broadcastInDim S1x64 ![1] bcast_S64_S1x64_1 : (⟨S64, .f32⟩ : BufTy).Contents (Elt F) → (⟨S1x64, .f32⟩ : BufTy).Contents (Elt F)),
    unary main_v208 main_v209 (broadcastInDim S100000x64 ![0, 1] bcast_S1x64_S100000x64_0_1 : (⟨S1x64, .f32⟩ : BufTy).Contents (Elt F) → (⟨S100000x64, .f32⟩ : BufTy).Contents (Elt F)),
    binary main_v207 main_v209 main_v210 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v210) (TRef.of (T := ⟨S100000x64, .f32⟩) main_call5_v0) (TRef.of (T := ⟨S100000x64, .f32⟩) main_v211) maximumf ]

set_option maxHeartbeats 40000000 in
/-- Each of them touches TensorCore references only. -/
theorem cE_sub : (cE : List (HloOp τ sig (Elt F))).Forall fun op => op.bufs ⊆ tcRefs τ sig := by
  unfold cE
  exact ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

end Cert.ReferenceIdeal.RunChunks
end
-- ==== Proof.OpsD.lean ====
/-
  The reference program's host operations 148–174 of 360 (the second readout and aggregate), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 148–174 of the reference's @main, in order. -/
def cD : List (HloOp τ sig (Elt F)) :=
  [ nullary main_cst_8 (constant S_ .f32 0x00000000#32),
    unary main_cst_8 main_v129 (broadcastInDim S128x64 ![] bcast_S_S128x64 : (⟨S_, .f32⟩ : BufTy).Contents (Elt F) → (⟨S128x64, .f32⟩ : BufTy).Contents (Elt F)),
    unary main_arg2 main_v130 (broadcastInDim S100000x1 ![0] bcast_S100000_S100000x1_0 : (⟨S100000, .i32⟩ : BufTy).Contents (Elt F) → (⟨S100000x1, .i32⟩ : BufTy).Contents (Elt F)),
    ternary main_v129 main_v130 main_v128 main_v131 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    unary main_arg28 main_v132 ((extractStridedSlice S1x64x2 ![1, 0, 0] · slices_S4x64x2_S1x64x2_1_0_0) : (⟨S4x64x2, .f32⟩ : BufTy).Contents (Elt F) → (⟨S1x64x2, .f32⟩ : BufTy).Contents (Elt F)),
    reshape main_v132 main_v133 rfl shapeCasts_S1x64x2_S64x2,
    binary main_v131 main_v133 main_v134 ((fun l r => Host.dotGeneral dot_S128x64_S64x2_S128x2_1_0_0_1_n_n none l r) : (⟨S128x64, .f32⟩ : BufTy).Contents (Elt F) → (⟨S64x2, .f32⟩ : BufTy).Contents (Elt F) → (⟨S128x2, .f32⟩ : BufTy).Contents (Elt F)),
    binary main_v57 main_v134 main_v135 (addf : (⟨S128x2, .f32⟩ : BufTy).Contents (Elt F) → (⟨S128x2, .f32⟩ : BufTy).Contents (Elt F) → (⟨S128x2, .f32⟩ : BufTy).Contents (Elt F)),
    unary main_arg29 main_v136 ((extractStridedSlice S1x2 ![1, 0] · slices_S4x2_S1x2_1_0) : (⟨S4x2, .f32⟩ : BufTy).Contents (Elt F) → (⟨S1x2, .f32⟩ : BufTy).Contents (Elt F)),
    reshape main_v136 main_v137 rfl shapeCasts_S1x2_S2,
    unary main_v137 main_v138 (broadcastInDim S1x2 ![1] bcast_S2_S1x2_1 : (⟨S2, .f32⟩ : BufTy).Contents (Elt F) → (⟨S1x2, .f32⟩ : BufTy).Contents (Elt F)),
    unary main_v138 main_v139 (broadcastInDim S128x2 ![0, 1] bcast_S1x2_S128x2_0_1 : (⟨S1x2, .f32⟩ : BufTy).Contents (Elt F) → (⟨S128x2, .f32⟩ : BufTy).Contents (Elt F)),
    binary main_v135 main_v139 main_v140 (addf : (⟨S128x2, .f32⟩ : BufTy).Contents (Elt F) → (⟨S128x2, .f32⟩ : BufTy).Contents (Elt F) → (⟨S128x2, .f32⟩ : BufTy).Contents (Elt F)),
    nullary main_c_9 (constantI S_ 32 0#32),
    unary main_c_9 main_v141 (broadcastInDim S1000000 ![] bcast_S_S1000000 : (⟨S_, .i32⟩ : BufTy).Contents (Elt F) → (⟨S1000000, .i32⟩ : BufTy).Contents (Elt F)),
    binary main_v1 main_v141 main_v142 (cmpi .slt : (⟨S1000000, .i32⟩ : BufTy).Contents (Elt F) → (⟨S1000000, .i32⟩ : BufTy).Contents (Elt F) → (⟨S1000000, .i1⟩ : BufTy).Contents (Elt F)),
    nullary main_c_10 (constantI S_ 32 100000#32),
    unary main_c_10 main_v143 (broadcastInDim S1000000 ![] bcast_S_S1000000 : (⟨S_, .i32⟩ : BufTy).Contents (Elt F) → (⟨S1000000, .i32⟩ : BufTy).Contents (Elt F)),
    binary main_v1 main_v143 main_v144 (addi : (⟨S1000000, .i32⟩ : BufTy).Contents (Elt F) → (⟨S1000000, .i32⟩ : BufTy).Contents (Elt F) → (⟨S1000000, .i32⟩ : BufTy).Contents (Elt F)),
    ternary main_v142 main_v144 main_v1 main_v145 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v145 main_v146 (broadcastInDim S1000000x1 ![0] bcast_S1000000_S1000000x1_0 : (⟨S1000000, .i32⟩ : BufTy).Contents (Elt F) → (⟨S1000000x1, .i32⟩ : BufTy).Contents (Elt F)),
    binary main_v128 main_v146 main_v147 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_11 (constant S_ .f32 0x00000000#32),
    unary main_cst_11 main_v148 (broadcastInDim S100000x64 ![] bcast_S_S100000x64 : (⟨S_, .f32⟩ : BufTy).Contents (Elt F) → (⟨S100000x64, .f32⟩ : BufTy).Contents (Elt F)),
    unary main_v3 main_v149 (broadcastInDim S1000000x1 ![0] bcast_S1000000_S1000000x1_0 : (⟨S1000000, .i32⟩ : BufTy).Contents (Elt F) → (⟨S1000000x1, .i32⟩ : BufTy).Contents (Elt F)),
    ternary main_v148 main_v149 main_v147 main_v150 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v128 main_v150 main_v151 (addf : (⟨S100000x64, .f32⟩ : BufTy).Contents (Elt F) → (⟨S100000x64, .f32⟩ : BufTy).Contents (Elt F) → (⟨S100000x64, .f32⟩ : BufTy).Contents (Elt F)) ]

set_option maxHeartbeats 40000000 in
/-- Each of them touches TensorCore references only. -/
theorem cD_sub : (cD : List (HloOp τ sig (Elt F))).Forall fun op => op.bufs ⊆ tcRefs τ sig := by
  unfold cD
  exact ⟨nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

end Cert.ReferenceIdeal.RunChunks
end
-- ==== Proof.OpsC.lean ====
/-
  The reference program's host operations 82–147 of 360 (the second block), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 82–147 of the reference's @main, in order. -/
def cC : List (HloOp τ sig (Elt F)) :=
  [ unary main_arg16 main_v69 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v69 main_v70 rfl shapeCasts_S1x64x64_S64x64,
    unary main_arg17 main_v71 ((extractStridedSlice S1x64 ![0, 0] · slices_S3x64_S1x64_0_0) : (⟨S3x64, .f32⟩ : BufTy).Contents (Elt F) → (⟨S1x64, .f32⟩ : BufTy).Contents (Elt F)),
    reshape main_v71 main_v72 rfl shapeCasts_S1x64_S64,
    unary main_arg18 main_v73 ((extractStridedSlice S1x64 ![0, 0] · slices_S3x64_S1x64_0_0) : (⟨S3x64, .f32⟩ : BufTy).Contents (Elt F) → (⟨S1x64, .f32⟩ : BufTy).Contents (Elt F)),
    reshape main_v73 main_v74 rfl shapeCasts_S1x64_S64,
    unary main_arg19 main_v75 ((extractStridedSlice S1x64 ![0, 0] · slices_S3x64_S1x64_0_0) : (⟨S3x64, .f32⟩ : BufTy).Contents (Elt F) → (⟨S1x64, .f32⟩ : BufTy).Contents (Elt F)),
    reshape main_v75 main_v76 rfl shapeCasts_S1x64_S64,
    unary main_arg20 main_v77 ((extractStridedSlice S1x64 ![0, 0] · slices_S3x64_S1x64_0_0) : (⟨S3x64, .f32⟩ : BufTy).Contents (Elt F) → (⟨S1x64, .f32⟩ : BufTy).Contents (Elt F)),
    reshape main_v77 main_v78 rfl shapeCasts_S1x64_S64,
    unary main_arg21 main_v79 ((extractStridedSlice S1x64 ![0, 0] · slices_S3x64_S1x64_0_0) : (⟨S3x64, .f32⟩ : BufTy).Contents (Elt F) → (⟨S1x64, .f32⟩ : BufTy).Contents (Elt F)),
    reshape main_v79 main_v80 rfl shapeCasts_S1x64_S64,
    unary main_arg22 main_v81 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v81 main_v82 rfl shapeCasts_S1x64x64_S64x64,
    unary main_arg23 main_v83 ((extractStridedSlice S1x64 ![0, 0] · slices_S3x64_S1x64_0_0) : (⟨S3x64, .f32⟩ : BufTy).Contents (Elt F) → (⟨S1x64, .f32⟩ : BufTy).Contents (Elt F)),
    reshape main_v83 main_v84 rfl shapeCasts_S1x64_S64,
    unary main_arg24 main_v85 ((extractStridedSlice S1x64 ![0, 0] · slices_S3x64_S1x64_0_0) : (⟨S3x64, .f32⟩ : BufTy).Contents (Elt F) → (⟨S1x64, .f32⟩ : BufTy).Contents (Elt F)),
    reshape main_v85 main_v86 rfl shapeCasts_S1x64_S64,
    unary main_arg25 main_v87 ((extractStridedSlice S1x64 ![0, 0] · slices_S3x64_S1x64_0_0) : (⟨S3x64, .f32⟩ : BufTy).Contents (Elt F) → (⟨S1x64, .f32⟩ : BufTy).Contents (Elt F)),
    reshape main_v87 main_v88 rfl shapeCasts_S1x64_S64,
    unary main_arg26 main_v89 ((extractStridedSlice S1x64 ![0, 0] · slices_S3x64_S1x64_0_0) : (⟨S3x64, .f32⟩ : BufTy).Contents (Elt F) → (⟨S1x64, .f32⟩ : BufTy).Contents (Elt F)),
    reshape main_v89 main_v90 rfl shapeCasts_S1x64_S64,
    unary main_arg27 main_v91 ((extractStridedSlice S1x64 ![0, 0] · slices_S3x64_S1x64_0_0) : (⟨S3x64, .f32⟩ : BufTy).Contents (Elt F) → (⟨S1x64, .f32⟩ : BufTy).Contents (Elt F)),
    reshape main_v91 main_v92 rfl shapeCasts_S1x64_S64,
    binary main_v68 main_v70 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v72 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)),
    unary main_v78 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v96 main_v98 main_v99 (subf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3727C5AC#32),
    unary main_cst_6 main_v100 (broadcastInDim S64 ![] bcast_S_S64 : (⟨S_, .f32⟩ : BufTy).Contents (Elt F) → (⟨S64, .f32⟩ : BufTy).Contents (Elt F)),
    binary main_v80 main_v100 main_v101 (addf : (⟨S64, .f32⟩ : BufTy).Contents (Elt F) → (⟨S64, .f32⟩ : BufTy).Contents (Elt F) → (⟨S64, .f32⟩ : BufTy).Contents (Elt F)),
    unary main_v101 main_v102 (Host.sqrt : (⟨S64, .f32⟩ : BufTy).Contents (Elt F) → (⟨S64, .f32⟩ : BufTy).Contents (Elt F)),
    binary main_v74 main_v102 main_v103 (Host.divf : (⟨S64, .f32⟩ : BufTy).Contents (Elt F) → (⟨S64, .f32⟩ : BufTy).Contents (Elt F) → (⟨S64, .f32⟩ : BufTy).Contents (Elt F)),
    unary main_v103 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)),
    binary main_v99 main_v105 main_v106 (mulf : (⟨S100000x64, .f32⟩ : BufTy).Contents (Elt F) → (⟨S100000x64, .f32⟩ : BufTy).Contents (Elt F) → (⟨S100000x64, .f32⟩ : BufTy).Contents (Elt F)),
    unary main_v76 main_v107 (broadcastInDim S1x64 ![1] bcast_S64_S1x64_1 : (⟨S64, .f32⟩ : BufTy).Contents (Elt F) → (⟨S1x64, .f32⟩ : BufTy).Contents (Elt F)),
    unary main_v107 main_v108 (broadcastInDim S100000x64 ![0, 1] bcast_S1x64_S100000x64_0_1 : (⟨S1x64, .f32⟩ : BufTy).Contents (Elt F) → (⟨S100000x64, .f32⟩ : BufTy).Contents (Elt F)),
    binary main_v106 main_v108 main_v109 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v109) (TRef.of (T := ⟨S100000x64, .f32⟩) main_call2_v0) (TRef.of (T := ⟨S100000x64, .f32⟩) main_v110) maximumf,
    binary main_v110 main_v82 main_v111 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v84 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v111 main_v113 main_v114 (addf : (⟨S100000x64, .f32⟩ : BufTy).Contents (Elt F) → (⟨S100000x64, .f32⟩ : BufTy).Contents (Elt F) → (⟨S100000x64, .f32⟩ : BufTy).Contents (Elt F)),
    unary main_v90 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v118 (broadcastInDim S64 ![] bcast_S_S64 : (⟨S_, .f32⟩ : BufTy).Contents (Elt F) → (⟨S64, .f32⟩ : BufTy).Contents (Elt F)),
    binary main_v92 main_v118 main_v119 (addf : (⟨S64, .f32⟩ : BufTy).Contents (Elt F) → (⟨S64, .f32⟩ : BufTy).Contents (Elt F) → (⟨S64, .f32⟩ : BufTy).Contents (Elt F)),
    unary main_v119 main_v120 (Host.sqrt : (⟨S64, .f32⟩ : BufTy).Contents (Elt F) → (⟨S64, .f32⟩ : BufTy).Contents (Elt F)),
    binary main_v86 main_v120 main_v121 (Host.divf : (⟨S64, .f32⟩ : BufTy).Contents (Elt F) → (⟨S64, .f32⟩ : BufTy).Contents (Elt F) → (⟨S64, .f32⟩ : BufTy).Contents (Elt F)),
    unary main_v121 main_v122 (broadcastInDim S1x64 ![1] bcast_S64_S1x64_1 : (⟨S64, .f32⟩ : BufTy).Contents (Elt F) → (⟨S1x64, .f32⟩ : BufTy).Contents (Elt F)),
    unary main_v122 main_v123 (broadcastInDim S100000x64 ![0, 1] bcast_S1x64_S100000x64_0_1 : (⟨S1x64, .f32⟩ : BufTy).Contents (Elt F) → (⟨S100000x64, .f32⟩ : BufTy).Contents (Elt F)),
    binary main_v117 main_v123 main_v124 (mulf : (⟨S100000x64, .f32⟩ : BufTy).Contents (Elt F) → (⟨S100000x64, .f32⟩ : BufTy).Contents (Elt F) → (⟨S100000x64, .f32⟩ : BufTy).Contents (Elt F)),
    unary main_v88 main_v125 (broadcastInDim S1x64 ![1] bcast_S64_S1x64_1 : (⟨S64, .f32⟩ : BufTy).Contents (Elt F) → (⟨S1x64, .f32⟩ : BufTy).Contents (Elt F)),
    unary main_v125 main_v126 (broadcastInDim S100000x64 ![0, 1] bcast_S1x64_S100000x64_0_1 : (⟨S1x64, .f32⟩ : BufTy).Contents (Elt F) → (⟨S100000x64, .f32⟩ : BufTy).Contents (Elt F)),
    binary main_v124 main_v126 main_v127 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v127) (TRef.of (T := ⟨S100000x64, .f32⟩) main_call3_v0) (TRef.of (T := ⟨S100000x64, .f32⟩) main_v128) maximumf ]

set_option maxHeartbeats 40000000 in
/-- Each of them touches TensorCore references only. -/
theorem cC_sub : (cC : List (HloOp τ sig (Elt F))).Forall fun op => op.bufs ⊆ tcRefs τ sig := by
  unfold cC
  exact ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

end Cert.ReferenceIdeal.RunChunks
end
-- ==== Proof.OpsB.lean ====
/-
  The reference program's host operations 56–81 of 360 (the first readout and the first neighbour aggregate), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 56–81 of the reference's @main, in order. -/
def cB : List (HloOp τ sig (Elt F)) :=
  [ unary main_arg28 main_v47 ((extractStridedSlice S1x64x2 ![0, 0, 0] · slices_S4x64x2_S1x64x2_0_0_0) : (⟨S4x64x2, .f32⟩ : BufTy).Contents (Elt F) → (⟨S1x64x2, .f32⟩ : BufTy).Contents (Elt F)),
    reshape main_v47 main_v48 rfl shapeCasts_S1x64x2_S64x2,
    binary main_v46 main_v48 main_v49 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg29 main_v50 ((extractStridedSlice S1x2 ![0, 0] · slices_S4x2_S1x2_0_0) : (⟨S4x2, .f32⟩ : BufTy).Contents (Elt F) → (⟨S1x2, .f32⟩ : BufTy).Contents (Elt F)),
    reshape main_v50 main_v51 rfl shapeCasts_S1x2_S2,
    unary main_v51 main_v52 (broadcastInDim S1x2 ![1] bcast_S2_S1x2_1 : (⟨S2, .f32⟩ : BufTy).Contents (Elt F) → (⟨S1x2, .f32⟩ : BufTy).Contents (Elt F)),
    unary main_v52 main_v53 (broadcastInDim S100000x2 ![0, 1] bcast_S1x2_S100000x2_0_1 : (⟨S1x2, .f32⟩ : BufTy).Contents (Elt F) → (⟨S100000x2, .f32⟩ : BufTy).Contents (Elt F)),
    binary main_v49 main_v53 main_v54 (addf : (⟨S100000x2, .f32⟩ : BufTy).Contents (Elt F) → (⟨S100000x2, .f32⟩ : BufTy).Contents (Elt F) → (⟨S100000x2, .f32⟩ : BufTy).Contents (Elt F)),
    nullary main_cst_2 (constant S_ .f32 0x00000000#32),
    unary main_cst_2 main_v55 (broadcastInDim S128x2 ![] bcast_S_S128x2 : (⟨S_, .f32⟩ : BufTy).Contents (Elt F) → (⟨S128x2, .f32⟩ : BufTy).Contents (Elt F)),
    unary main_arg2 main_v56 (broadcastInDim S100000x1 ![0] bcast_S100000_S100000x1_0 : (⟨S100000, .i32⟩ : BufTy).Contents (Elt F) → (⟨S100000x1, .i32⟩ : BufTy).Contents (Elt F)),
    ternary main_v55 main_v56 main_v54 main_v57 ((fun x i u => Host.scatterAdd scatter_S128x2_S100000x1_S100000x2_1_0_0_1 x i u) : (⟨S128x2, .f32⟩ : BufTy).Contents (Elt F) → (⟨S100000x1, .i32⟩ : BufTy).Contents (Elt F) → (⟨S100000x2, .f32⟩ : BufTy).Contents (Elt F) → (⟨S128x2, .f32⟩ : BufTy).Contents (Elt F)),
    nullary main_c_3 (constantI S_ 32 0#32),
    unary main_c_3 main_v58 (broadcastInDim S1000000 ![] bcast_S_S1000000 : (⟨S_, .i32⟩ : BufTy).Contents (Elt F) → (⟨S1000000, .i32⟩ : BufTy).Contents (Elt F)),
    binary main_v1 main_v58 main_v59 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v60 (broadcastInDim S1000000 ![] bcast_S_S1000000 : (⟨S_, .i32⟩ : BufTy).Contents (Elt F) → (⟨S1000000, .i32⟩ : BufTy).Contents (Elt F)),
    binary main_v1 main_v60 main_v61 (addi : (⟨S1000000, .i32⟩ : BufTy).Contents (Elt F) → (⟨S1000000, .i32⟩ : BufTy).Contents (Elt F) → (⟨S1000000, .i32⟩ : BufTy).Contents (Elt F)),
    ternary main_v59 main_v61 main_v1 main_v62 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v62 main_v63 (broadcastInDim S1000000x1 ![0] bcast_S1000000_S1000000x1_0 : (⟨S1000000, .i32⟩ : BufTy).Contents (Elt F) → (⟨S1000000x1, .i32⟩ : BufTy).Contents (Elt F)),
    binary main_v46 main_v63 main_v64 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_5 (constant S_ .f32 0x00000000#32),
    unary main_cst_5 main_v65 (broadcastInDim S100000x64 ![] bcast_S_S100000x64 : (⟨S_, .f32⟩ : BufTy).Contents (Elt F) → (⟨S100000x64, .f32⟩ : BufTy).Contents (Elt F)),
    unary main_v3 main_v66 (broadcastInDim S1000000x1 ![0] bcast_S1000000_S1000000x1_0 : (⟨S1000000, .i32⟩ : BufTy).Contents (Elt F) → (⟨S1000000x1, .i32⟩ : BufTy).Contents (Elt F)),
    ternary main_v65 main_v66 main_v64 main_v67 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v46 main_v67 main_v68 (addf : (⟨S100000x64, .f32⟩ : BufTy).Contents (Elt F) → (⟨S100000x64, .f32⟩ : BufTy).Contents (Elt F) → (⟨S100000x64, .f32⟩ : BufTy).Contents (Elt F)) ]

set_option maxHeartbeats 40000000 in
/-- Each of them touches TensorCore references only. -/
theorem cB_sub : (cB : List (HloOp τ sig (Elt F))).Forall fun op => op.bufs ⊆ tcRefs τ sig := by
  unfold cB
  exact ⟨unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

end Cert.ReferenceIdeal.RunChunks
end
-- ==== Proof.OpsA.lean ====
/-
  The reference program's host operations 1–55 of 360 (the gathered embedding rows and the first block), as one line of the program's
  operation list, and the fact that each touches TensorCore references only.
-/
import proofs.«170803_j37795712205240_1_alg».proof.Proof.Gen.ReferenceIdeal
import Idealize.ShloMosaic.Lib.StableHlo.Run

set_option maxRecDepth 8192
noncomputable section
namespace Cert.ReferenceIdeal.RunChunks
open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 1–55 of the reference's @main, in order. -/
def cA : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_c (constantI S_ 32 0#32),
    unary main_c main_v4 (broadcastInDim S100000 ![] bcast_S_S100000 : (⟨S_, .i32⟩ : BufTy).Contents (Elt F) → (⟨S100000, .i32⟩ : BufTy).Contents (Elt F)),
    binary main_arg0 main_v4 main_v5 (cmpi .slt : (⟨S100000, .i32⟩ : BufTy).Contents (Elt F) → (⟨S100000, .i32⟩ : BufTy).Contents (Elt F) → (⟨S100000, .i1⟩ : BufTy).Contents (Elt F)),
    nullary main_c_0 (constantI S_ 32 100000#32),
    unary main_c_0 main_v6 (broadcastInDim S100000 ![] bcast_S_S100000 : (⟨S_, .i32⟩ : BufTy).Contents (Elt F) → (⟨S100000, .i32⟩ : BufTy).Contents (Elt F)),
    binary main_arg0 main_v6 main_v7 (addi : (⟨S100000, .i32⟩ : BufTy).Contents (Elt F) → (⟨S100000, .i32⟩ : BufTy).Contents (Elt F) → (⟨S100000, .i32⟩ : BufTy).Contents (Elt F)),
    ternary main_v5 main_v7 main_arg0 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v8 main_v9 (broadcastInDim S100000x1 ![0] bcast_S100000_S100000x1_0 : (⟨S100000, .i32⟩ : BufTy).Contents (Elt F) → (⟨S100000x1, .i32⟩ : BufTy).Contents (Elt F)),
    binary main_arg3 main_v9 main_v10 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    binary main_v10 main_arg4 main_v11 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v12 (broadcastInDim S1x64 ![1] bcast_S64_S1x64_1 : (⟨S64, .f32⟩ : BufTy).Contents (Elt F) → (⟨S1x64, .f32⟩ : BufTy).Contents (Elt F)),
    unary main_v12 main_v13 (broadcastInDim S100000x64 ![0, 1] bcast_S1x64_S100000x64_0_1 : (⟨S1x64, .f32⟩ : BufTy).Contents (Elt F) → (⟨S100000x64, .f32⟩ : BufTy).Contents (Elt F)),
    binary main_v11 main_v13 main_v14 (addf : (⟨S100000x64, .f32⟩ : BufTy).Contents (Elt F) → (⟨S100000x64, .f32⟩ : BufTy).Contents (Elt F) → (⟨S100000x64, .f32⟩ : BufTy).Contents (Elt F)),
    unary main_arg8 main_v15 (broadcastInDim S1x64 ![1] bcast_S64_S1x64_1 : (⟨S64, .f32⟩ : BufTy).Contents (Elt F) → (⟨S1x64, .f32⟩ : BufTy).Contents (Elt F)),
    unary main_v15 main_v16 (broadcastInDim S100000x64 ![0, 1] bcast_S1x64_S100000x64_0_1 : (⟨S1x64, .f32⟩ : BufTy).Contents (Elt F) → (⟨S100000x64, .f32⟩ : BufTy).Contents (Elt F)),
    binary main_v14 main_v16 main_v17 (subf : (⟨S100000x64, .f32⟩ : BufTy).Contents (Elt F) → (⟨S100000x64, .f32⟩ : BufTy).Contents (Elt F) → (⟨S100000x64, .f32⟩ : BufTy).Contents (Elt F)),
    nullary main_cst (constant S_ .f32 0x3727C5AC#32),
    unary main_cst main_v18 (broadcastInDim S64 ![] bcast_S_S64 : (⟨S_, .f32⟩ : BufTy).Contents (Elt F) → (⟨S64, .f32⟩ : BufTy).Contents (Elt F)),
    binary main_arg9 main_v18 main_v19 (addf : (⟨S64, .f32⟩ : BufTy).Contents (Elt F) → (⟨S64, .f32⟩ : BufTy).Contents (Elt F) → (⟨S64, .f32⟩ : BufTy).Contents (Elt F)),
    unary main_v19 main_v20 (Host.sqrt : (⟨S64, .f32⟩ : BufTy).Contents (Elt F) → (⟨S64, .f32⟩ : BufTy).Contents (Elt F)),
    binary main_arg6 main_v20 main_v21 (Host.divf : (⟨S64, .f32⟩ : BufTy).Contents (Elt F) → (⟨S64, .f32⟩ : BufTy).Contents (Elt F) → (⟨S64, .f32⟩ : BufTy).Contents (Elt F)),
    unary main_v21 main_v22 (broadcastInDim S1x64 ![1] bcast_S64_S1x64_1 : (⟨S64, .f32⟩ : BufTy).Contents (Elt F) → (⟨S1x64, .f32⟩ : BufTy).Contents (Elt F)),
    unary main_v22 main_v23 (broadcastInDim S100000x64 ![0, 1] bcast_S1x64_S100000x64_0_1 : (⟨S1x64, .f32⟩ : BufTy).Contents (Elt F) → (⟨S100000x64, .f32⟩ : BufTy).Contents (Elt F)),
    binary main_v17 main_v23 main_v24 (mulf : (⟨S100000x64, .f32⟩ : BufTy).Contents (Elt F) → (⟨S100000x64, .f32⟩ : BufTy).Contents (Elt F) → (⟨S100000x64, .f32⟩ : BufTy).Contents (Elt F)),
    unary main_arg7 main_v25 (broadcastInDim S1x64 ![1] bcast_S64_S1x64_1 : (⟨S64, .f32⟩ : BufTy).Contents (Elt F) → (⟨S1x64, .f32⟩ : BufTy).Contents (Elt F)),
    unary main_v25 main_v26 (broadcastInDim S100000x64 ![0, 1] bcast_S1x64_S100000x64_0_1 : (⟨S1x64, .f32⟩ : BufTy).Contents (Elt F) → (⟨S100000x64, .f32⟩ : BufTy).Contents (Elt F)),
    binary main_v24 main_v26 main_v27 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v27) (TRef.of (T := ⟨S100000x64, .f32⟩) main_call0_v0) (TRef.of (T := ⟨S100000x64, .f32⟩) main_v28) maximumf,
    binary main_v28 main_arg10 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg11 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)),
    unary main_arg14 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v32 main_v34 main_v35 (subf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3727C5AC#32),
    unary main_cst_1 main_v36 (broadcastInDim S64 ![] bcast_S_S64 : (⟨S_, .f32⟩ : BufTy).Contents (Elt F) → (⟨S64, .f32⟩ : BufTy).Contents (Elt F)),
    binary main_arg15 main_v36 main_v37 (addf : (⟨S64, .f32⟩ : BufTy).Contents (Elt F) → (⟨S64, .f32⟩ : BufTy).Contents (Elt F) → (⟨S64, .f32⟩ : BufTy).Contents (Elt F)),
    unary main_v37 main_v38 (Host.sqrt : (⟨S64, .f32⟩ : BufTy).Contents (Elt F) → (⟨S64, .f32⟩ : BufTy).Contents (Elt F)),
    binary main_arg12 main_v38 main_v39 (Host.divf : (⟨S64, .f32⟩ : BufTy).Contents (Elt F) → (⟨S64, .f32⟩ : BufTy).Contents (Elt F) → (⟨S64, .f32⟩ : BufTy).Contents (Elt F)),
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v35 main_v41 main_v42 (mulf : (⟨S100000x64, .f32⟩ : BufTy).Contents (Elt F) → (⟨S100000x64, .f32⟩ : BufTy).Contents (Elt F) → (⟨S100000x64, .f32⟩ : BufTy).Contents (Elt F)),
    unary main_arg13 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v45) (TRef.of (T := ⟨S100000x64, .f32⟩) main_call1_v0) (TRef.of (T := ⟨S100000x64, .f32⟩) main_v46) maximumf ]

set_option maxHeartbeats 40000000 in
/-- Each of them touches TensorCore references only. -/
theorem cA_sub : (cA : List (HloOp τ sig (Elt F))).Forall fun op => op.bufs ⊆ tcRefs τ sig := by
  unfold cA
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

end Cert.ReferenceIdeal.RunChunks
end
-- ==== Proof.LibAfterAppend.lean ====
/-
  General lemma: running a line of host operations that is two lines end to end is running the first, then the second from
  the buffer contents the first leaves.
-/
import Idealize.ShloMosaic.Lib.StableHlo.Run

noncomputable section

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo

end
-- ==== Proof.RunChunkA.lean ====
/-
  The buffers the reference program's operations 1–55 (the gathered embedding rows and the first block) leave: each is the reference's own stage
  function of the argument arrays, because the line applies those stages' operations to buffers that already hold the
  earlier stages; and every argument array is as before, since no operation writes one.
-/
import proofs.«170803_j37795712205240_1_alg».proof.Proof.OpsA
import proofs.«170803_j37795712205240_1_alg».proof.Proof.ReadP
import proofs.«170803_j37795712205240_1_alg».proof.Proof.LibAfterAppend

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations. -/
def UA (U : Valuation τ sig (Elt Ideal)) : Valuation τ sig (Elt Ideal) := StableHlo.after cA U

variable (U : Valuation τ sig (Elt Ideal))

theorem a_v46 : UA U (Proc.devRef .tc main_v46) = (ReadP.val_main_v46 (F := Ideal) (U (Proc.devRef .tc main_arg0)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15))) := by
  show StableHlo.after cA U (Proc.devRef .tc main_v46) = _
  simp only [cA]
  after_results_simp
  all_goals rfl

theorem a_v1 : UA U (Proc.devRef .tc main_v1) = (ReadP.val_main_v1 (F := Ideal) (U (Proc.devRef .tc main_arg1))) := by
  show StableHlo.after cA U (Proc.devRef .tc main_v1) = _
  simp only [cA]
  after_results_simp
  all_goals rfl

theorem a_v3 : UA U (Proc.devRef .tc main_v3) = (ReadP.val_main_v3 (F := Ideal) (U (Proc.devRef .tc main_arg1))) := by
  show StableHlo.after cA U (Proc.devRef .tc main_v3) = _
  simp only [cA]
  after_results_simp
  all_goals rfl

theorem a_arg0 : UA U (Proc.devRef .tc main_arg0) = (U (Proc.devRef .tc main_arg0)) := by
  show StableHlo.after cA U (Proc.devRef .tc main_arg0) = _
  simp only [cA]
  after_results_simp
  all_goals rfl

theorem a_arg1 : UA U (Proc.devRef .tc main_arg1) = (U (Proc.devRef .tc main_arg1)) := by
  show StableHlo.after cA U (Proc.devRef .tc main_arg1) = _
  simp only [cA]
  after_results_simp
  all_goals rfl

theorem a_arg2 : UA U (Proc.devRef .tc main_arg2) = (U (Proc.devRef .tc main_arg2)) := by
  show StableHlo.after cA U (Proc.devRef .tc main_arg2) = _
  simp only [cA]
  after_results_simp
  all_goals rfl

theorem a_arg3 : UA U (Proc.devRef .tc main_arg3) = (U (Proc.devRef .tc main_arg3)) := by
  show StableHlo.after cA U (Proc.devRef .tc main_arg3) = _
  simp only [cA]
  after_results_simp
  all_goals rfl

theorem a_arg4 : UA U (Proc.devRef .tc main_arg4) = (U (Proc.devRef .tc main_arg4)) := by
  show StableHlo.after cA U (Proc.devRef .tc main_arg4) = _
  simp only [cA]
  after_results_simp
  all_goals rfl

theorem a_arg5 : UA U (Proc.devRef .tc main_arg5) = (U (Proc.devRef .tc main_arg5)) := by
  show StableHlo.after cA U (Proc.devRef .tc main_arg5) = _
  simp only [cA]
  after_results_simp
  all_goals rfl

theorem a_arg6 : UA U (Proc.devRef .tc main_arg6) = (U (Proc.devRef .tc main_arg6)) := by
  show StableHlo.after cA U (Proc.devRef .tc main_arg6) = _
  simp only [cA]
  after_results_simp
  all_goals rfl

theorem a_arg7 : UA U (Proc.devRef .tc main_arg7) = (U (Proc.devRef .tc main_arg7)) := by
  show StableHlo.after cA U (Proc.devRef .tc main_arg7) = _
  simp only [cA]
  after_results_simp
  all_goals rfl

theorem a_arg8 : UA U (Proc.devRef .tc main_arg8) = (U (Proc.devRef .tc main_arg8)) := by
  show StableHlo.after cA U (Proc.devRef .tc main_arg8) = _
  simp only [cA]
  after_results_simp
  all_goals rfl

theorem a_arg9 : UA U (Proc.devRef .tc main_arg9) = (U (Proc.devRef .tc main_arg9)) := by
  show StableHlo.after cA U (Proc.devRef .tc main_arg9) = _
  simp only [cA]
  after_results_simp
  all_goals rfl

theorem a_arg10 : UA U (Proc.devRef .tc main_arg10) = (U (Proc.devRef .tc main_arg10)) := by
  show StableHlo.after cA U (Proc.devRef .tc main_arg10) = _
  simp only [cA]
  after_results_simp
  all_goals rfl

theorem a_arg11 : UA U (Proc.devRef .tc main_arg11) = (U (Proc.devRef .tc main_arg11)) := by
  show StableHlo.after cA U (Proc.devRef .tc main_arg11) = _
  simp only [cA]
  after_results_simp
  all_goals rfl

theorem a_arg12 : UA U (Proc.devRef .tc main_arg12) = (U (Proc.devRef .tc main_arg12)) := by
  show StableHlo.after cA U (Proc.devRef .tc main_arg12) = _
  simp only [cA]
  after_results_simp
  all_goals rfl

theorem a_arg13 : UA U (Proc.devRef .tc main_arg13) = (U (Proc.devRef .tc main_arg13)) := by
  show StableHlo.after cA U (Proc.devRef .tc main_arg13) = _
  simp only [cA]
  after_results_simp
  all_goals rfl

theorem a_arg14 : UA U (Proc.devRef .tc main_arg14) = (U (Proc.devRef .tc main_arg14)) := by
  show StableHlo.after cA U (Proc.devRef .tc main_arg14) = _
  simp only [cA]
  after_results_simp
  all_goals rfl

theorem a_arg15 : UA U (Proc.devRef .tc main_arg15) = (U (Proc.devRef .tc main_arg15)) := by
  show StableHlo.after cA U (Proc.devRef .tc main_arg15) = _
  simp only [cA]
  after_results_simp
  all_goals rfl

theorem a_arg16 : UA U (Proc.devRef .tc main_arg16) = (U (Proc.devRef .tc main_arg16)) := by
  show StableHlo.after cA U (Proc.devRef .tc main_arg16) = _
  simp only [cA]
  after_results_simp
  all_goals rfl

theorem a_arg17 : UA U (Proc.devRef .tc main_arg17) = (U (Proc.devRef .tc main_arg17)) := by
  show StableHlo.after cA U (Proc.devRef .tc main_arg17) = _
  simp only [cA]
  after_results_simp
  all_goals rfl

theorem a_arg18 : UA U (Proc.devRef .tc main_arg18) = (U (Proc.devRef .tc main_arg18)) := by
  show StableHlo.after cA U (Proc.devRef .tc main_arg18) = _
  simp only [cA]
  after_results_simp
  all_goals rfl

theorem a_arg19 : UA U (Proc.devRef .tc main_arg19) = (U (Proc.devRef .tc main_arg19)) := by
  show StableHlo.after cA U (Proc.devRef .tc main_arg19) = _
  simp only [cA]
  after_results_simp
  all_goals rfl

theorem a_arg20 : UA U (Proc.devRef .tc main_arg20) = (U (Proc.devRef .tc main_arg20)) := by
  show StableHlo.after cA U (Proc.devRef .tc main_arg20) = _
  simp only [cA]
  after_results_simp
  all_goals rfl

theorem a_arg21 : UA U (Proc.devRef .tc main_arg21) = (U (Proc.devRef .tc main_arg21)) := by
  show StableHlo.after cA U (Proc.devRef .tc main_arg21) = _
  simp only [cA]
  after_results_simp
  all_goals rfl

theorem a_arg22 : UA U (Proc.devRef .tc main_arg22) = (U (Proc.devRef .tc main_arg22)) := by
  show StableHlo.after cA U (Proc.devRef .tc main_arg22) = _
  simp only [cA]
  after_results_simp
  all_goals rfl

theorem a_arg23 : UA U (Proc.devRef .tc main_arg23) = (U (Proc.devRef .tc main_arg23)) := by
  show StableHlo.after cA U (Proc.devRef .tc main_arg23) = _
  simp only [cA]
  after_results_simp
  all_goals rfl

theorem a_arg24 : UA U (Proc.devRef .tc main_arg24) = (U (Proc.devRef .tc main_arg24)) := by
  show StableHlo.after cA U (Proc.devRef .tc main_arg24) = _
  simp only [cA]
  after_results_simp
  all_goals rfl

theorem a_arg25 : UA U (Proc.devRef .tc main_arg25) = (U (Proc.devRef .tc main_arg25)) := by
  show StableHlo.after cA U (Proc.devRef .tc main_arg25) = _
  simp only [cA]
  after_results_simp
  all_goals rfl

theorem a_arg26 : UA U (Proc.devRef .tc main_arg26) = (U (Proc.devRef .tc main_arg26)) := by
  show StableHlo.after cA U (Proc.devRef .tc main_arg26) = _
  simp only [cA]
  after_results_simp
  all_goals rfl

theorem a_arg27 : UA U (Proc.devRef .tc main_arg27) = (U (Proc.devRef .tc main_arg27)) := by
  show StableHlo.after cA U (Proc.devRef .tc main_arg27) = _
  simp only [cA]
  after_results_simp
  all_goals rfl

theorem a_arg28 : UA U (Proc.devRef .tc main_arg28) = (U (Proc.devRef .tc main_arg28)) := by
  show StableHlo.after cA U (Proc.devRef .tc main_arg28) = _
  simp only [cA]
  after_results_simp
  all_goals rfl

theorem a_arg29 : UA U (Proc.devRef .tc main_arg29) = (U (Proc.devRef .tc main_arg29)) := by
  show StableHlo.after cA U (Proc.devRef .tc main_arg29) = _
  simp only [cA]
  after_results_simp
  all_goals rfl

end Cert.ReferenceIdeal.RunChunks
end
-- ==== Proof.RunChunkB.lean ====
/-
  The buffers the reference program's operations 56–81 (the first readout and the first neighbour aggregate) leave: each is the reference's own stage
  function of the argument arrays, because the line applies those stages' operations to buffers that already hold the
  earlier stages; and every argument array is as before, since no operation writes one.
-/
import proofs.«170803_j37795712205240_1_alg».proof.Proof.OpsB
import proofs.«170803_j37795712205240_1_alg».proof.Proof.RunChunkA

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations, from the contents the earlier lines leave. -/
def UB (U : Valuation τ sig (Elt Ideal)) : Valuation τ sig (Elt Ideal) := StableHlo.after cB (UA U)

variable (U : Valuation τ sig (Elt Ideal))

theorem b_v57 : UB U (Proc.devRef .tc main_v57) = (ReadP.val_main_v57 (F := Ideal) (U (Proc.devRef .tc main_arg0)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg28)) (U (Proc.devRef .tc main_arg29))) := by
  show StableHlo.after cB (UA U) (Proc.devRef .tc main_v57) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_v68 : UB U (Proc.devRef .tc main_v68) = (ReadP.val_main_v68 (F := Ideal) (U (Proc.devRef .tc main_arg0)) (U (Proc.devRef .tc main_arg1)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15))) := by
  show StableHlo.after cB (UA U) (Proc.devRef .tc main_v68) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_v1 : UB U (Proc.devRef .tc main_v1) = (ReadP.val_main_v1 (F := Ideal) (U (Proc.devRef .tc main_arg1))) := by
  show StableHlo.after cB (UA U) (Proc.devRef .tc main_v1) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_v3 : UB U (Proc.devRef .tc main_v3) = (ReadP.val_main_v3 (F := Ideal) (U (Proc.devRef .tc main_arg1))) := by
  show StableHlo.after cB (UA U) (Proc.devRef .tc main_v3) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg0 : UB U (Proc.devRef .tc main_arg0) = (U (Proc.devRef .tc main_arg0)) := by
  show StableHlo.after cB (UA U) (Proc.devRef .tc main_arg0) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg1 : UB U (Proc.devRef .tc main_arg1) = (U (Proc.devRef .tc main_arg1)) := by
  show StableHlo.after cB (UA U) (Proc.devRef .tc main_arg1) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg2 : UB U (Proc.devRef .tc main_arg2) = (U (Proc.devRef .tc main_arg2)) := by
  show StableHlo.after cB (UA U) (Proc.devRef .tc main_arg2) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg3 : UB U (Proc.devRef .tc main_arg3) = (U (Proc.devRef .tc main_arg3)) := by
  show StableHlo.after cB (UA U) (Proc.devRef .tc main_arg3) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg4 : UB U (Proc.devRef .tc main_arg4) = (U (Proc.devRef .tc main_arg4)) := by
  show StableHlo.after cB (UA U) (Proc.devRef .tc main_arg4) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg5 : UB U (Proc.devRef .tc main_arg5) = (U (Proc.devRef .tc main_arg5)) := by
  show StableHlo.after cB (UA U) (Proc.devRef .tc main_arg5) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg6 : UB U (Proc.devRef .tc main_arg6) = (U (Proc.devRef .tc main_arg6)) := by
  show StableHlo.after cB (UA U) (Proc.devRef .tc main_arg6) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg7 : UB U (Proc.devRef .tc main_arg7) = (U (Proc.devRef .tc main_arg7)) := by
  show StableHlo.after cB (UA U) (Proc.devRef .tc main_arg7) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg8 : UB U (Proc.devRef .tc main_arg8) = (U (Proc.devRef .tc main_arg8)) := by
  show StableHlo.after cB (UA U) (Proc.devRef .tc main_arg8) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg9 : UB U (Proc.devRef .tc main_arg9) = (U (Proc.devRef .tc main_arg9)) := by
  show StableHlo.after cB (UA U) (Proc.devRef .tc main_arg9) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg10 : UB U (Proc.devRef .tc main_arg10) = (U (Proc.devRef .tc main_arg10)) := by
  show StableHlo.after cB (UA U) (Proc.devRef .tc main_arg10) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg11 : UB U (Proc.devRef .tc main_arg11) = (U (Proc.devRef .tc main_arg11)) := by
  show StableHlo.after cB (UA U) (Proc.devRef .tc main_arg11) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg12 : UB U (Proc.devRef .tc main_arg12) = (U (Proc.devRef .tc main_arg12)) := by
  show StableHlo.after cB (UA U) (Proc.devRef .tc main_arg12) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg13 : UB U (Proc.devRef .tc main_arg13) = (U (Proc.devRef .tc main_arg13)) := by
  show StableHlo.after cB (UA U) (Proc.devRef .tc main_arg13) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg14 : UB U (Proc.devRef .tc main_arg14) = (U (Proc.devRef .tc main_arg14)) := by
  show StableHlo.after cB (UA U) (Proc.devRef .tc main_arg14) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg15 : UB U (Proc.devRef .tc main_arg15) = (U (Proc.devRef .tc main_arg15)) := by
  show StableHlo.after cB (UA U) (Proc.devRef .tc main_arg15) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg16 : UB U (Proc.devRef .tc main_arg16) = (U (Proc.devRef .tc main_arg16)) := by
  show StableHlo.after cB (UA U) (Proc.devRef .tc main_arg16) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg17 : UB U (Proc.devRef .tc main_arg17) = (U (Proc.devRef .tc main_arg17)) := by
  show StableHlo.after cB (UA U) (Proc.devRef .tc main_arg17) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg18 : UB U (Proc.devRef .tc main_arg18) = (U (Proc.devRef .tc main_arg18)) := by
  show StableHlo.after cB (UA U) (Proc.devRef .tc main_arg18) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg19 : UB U (Proc.devRef .tc main_arg19) = (U (Proc.devRef .tc main_arg19)) := by
  show StableHlo.after cB (UA U) (Proc.devRef .tc main_arg19) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg20 : UB U (Proc.devRef .tc main_arg20) = (U (Proc.devRef .tc main_arg20)) := by
  show StableHlo.after cB (UA U) (Proc.devRef .tc main_arg20) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg21 : UB U (Proc.devRef .tc main_arg21) = (U (Proc.devRef .tc main_arg21)) := by
  show StableHlo.after cB (UA U) (Proc.devRef .tc main_arg21) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg22 : UB U (Proc.devRef .tc main_arg22) = (U (Proc.devRef .tc main_arg22)) := by
  show StableHlo.after cB (UA U) (Proc.devRef .tc main_arg22) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg23 : UB U (Proc.devRef .tc main_arg23) = (U (Proc.devRef .tc main_arg23)) := by
  show StableHlo.after cB (UA U) (Proc.devRef .tc main_arg23) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg24 : UB U (Proc.devRef .tc main_arg24) = (U (Proc.devRef .tc main_arg24)) := by
  show StableHlo.after cB (UA U) (Proc.devRef .tc main_arg24) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg25 : UB U (Proc.devRef .tc main_arg25) = (U (Proc.devRef .tc main_arg25)) := by
  show StableHlo.after cB (UA U) (Proc.devRef .tc main_arg25) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg26 : UB U (Proc.devRef .tc main_arg26) = (U (Proc.devRef .tc main_arg26)) := by
  show StableHlo.after cB (UA U) (Proc.devRef .tc main_arg26) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg27 : UB U (Proc.devRef .tc main_arg27) = (U (Proc.devRef .tc main_arg27)) := by
  show StableHlo.after cB (UA U) (Proc.devRef .tc main_arg27) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg28 : UB U (Proc.devRef .tc main_arg28) = (U (Proc.devRef .tc main_arg28)) := by
  show StableHlo.after cB (UA U) (Proc.devRef .tc main_arg28) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

theorem b_arg29 : UB U (Proc.devRef .tc main_arg29) = (U (Proc.devRef .tc main_arg29)) := by
  show StableHlo.after cB (UA U) (Proc.devRef .tc main_arg29) = _
  simp only [cB]
  after_results_simp
  simp only [a_v46 U, a_v1 U, a_v3 U, a_arg0 U, a_arg1 U, a_arg2 U, a_arg3 U, a_arg4 U, a_arg5 U, a_arg6 U, a_arg7 U, a_arg8 U, a_arg9 U, a_arg10 U, a_arg11 U, a_arg12 U, a_arg13 U, a_arg14 U, a_arg15 U, a_arg16 U, a_arg17 U, a_arg18 U, a_arg19 U, a_arg20 U, a_arg21 U, a_arg22 U, a_arg23 U, a_arg24 U, a_arg25 U, a_arg26 U, a_arg27 U, a_arg28 U, a_arg29 U]
  all_goals rfl

end Cert.ReferenceIdeal.RunChunks
end
-- ==== Proof.RunChunkC.lean ====
/-
  The buffers the reference program's operations 82–147 (the second block) leave: each is the reference's own stage
  function of the argument arrays, because the line applies those stages' operations to buffers that already hold the
  earlier stages; and every argument array is as before, since no operation writes one.
-/
import proofs.«170803_j37795712205240_1_alg».proof.Proof.OpsC
import proofs.«170803_j37795712205240_1_alg».proof.Proof.RunChunkB

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations, from the contents the earlier lines leave. -/
def UC (U : Valuation τ sig (Elt Ideal)) : Valuation τ sig (Elt Ideal) := StableHlo.after cC (UB U)

variable (U : Valuation τ sig (Elt Ideal))

theorem c_v128 : UC U (Proc.devRef .tc main_v128) = (ReadP.val_main_v128 (F := Ideal) (U (Proc.devRef .tc main_arg0)) (U (Proc.devRef .tc main_arg1)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27))) := by
  show StableHlo.after cC (UB U) (Proc.devRef .tc main_v128) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_v57 : UC U (Proc.devRef .tc main_v57) = (ReadP.val_main_v57 (F := Ideal) (U (Proc.devRef .tc main_arg0)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg28)) (U (Proc.devRef .tc main_arg29))) := by
  show StableHlo.after cC (UB U) (Proc.devRef .tc main_v57) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_v1 : UC U (Proc.devRef .tc main_v1) = (ReadP.val_main_v1 (F := Ideal) (U (Proc.devRef .tc main_arg1))) := by
  show StableHlo.after cC (UB U) (Proc.devRef .tc main_v1) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_v3 : UC U (Proc.devRef .tc main_v3) = (ReadP.val_main_v3 (F := Ideal) (U (Proc.devRef .tc main_arg1))) := by
  show StableHlo.after cC (UB U) (Proc.devRef .tc main_v3) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg0 : UC U (Proc.devRef .tc main_arg0) = (U (Proc.devRef .tc main_arg0)) := by
  show StableHlo.after cC (UB U) (Proc.devRef .tc main_arg0) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg1 : UC U (Proc.devRef .tc main_arg1) = (U (Proc.devRef .tc main_arg1)) := by
  show StableHlo.after cC (UB U) (Proc.devRef .tc main_arg1) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg2 : UC U (Proc.devRef .tc main_arg2) = (U (Proc.devRef .tc main_arg2)) := by
  show StableHlo.after cC (UB U) (Proc.devRef .tc main_arg2) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg3 : UC U (Proc.devRef .tc main_arg3) = (U (Proc.devRef .tc main_arg3)) := by
  show StableHlo.after cC (UB U) (Proc.devRef .tc main_arg3) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg4 : UC U (Proc.devRef .tc main_arg4) = (U (Proc.devRef .tc main_arg4)) := by
  show StableHlo.after cC (UB U) (Proc.devRef .tc main_arg4) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg5 : UC U (Proc.devRef .tc main_arg5) = (U (Proc.devRef .tc main_arg5)) := by
  show StableHlo.after cC (UB U) (Proc.devRef .tc main_arg5) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg6 : UC U (Proc.devRef .tc main_arg6) = (U (Proc.devRef .tc main_arg6)) := by
  show StableHlo.after cC (UB U) (Proc.devRef .tc main_arg6) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg7 : UC U (Proc.devRef .tc main_arg7) = (U (Proc.devRef .tc main_arg7)) := by
  show StableHlo.after cC (UB U) (Proc.devRef .tc main_arg7) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg8 : UC U (Proc.devRef .tc main_arg8) = (U (Proc.devRef .tc main_arg8)) := by
  show StableHlo.after cC (UB U) (Proc.devRef .tc main_arg8) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg9 : UC U (Proc.devRef .tc main_arg9) = (U (Proc.devRef .tc main_arg9)) := by
  show StableHlo.after cC (UB U) (Proc.devRef .tc main_arg9) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg10 : UC U (Proc.devRef .tc main_arg10) = (U (Proc.devRef .tc main_arg10)) := by
  show StableHlo.after cC (UB U) (Proc.devRef .tc main_arg10) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg11 : UC U (Proc.devRef .tc main_arg11) = (U (Proc.devRef .tc main_arg11)) := by
  show StableHlo.after cC (UB U) (Proc.devRef .tc main_arg11) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg12 : UC U (Proc.devRef .tc main_arg12) = (U (Proc.devRef .tc main_arg12)) := by
  show StableHlo.after cC (UB U) (Proc.devRef .tc main_arg12) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg13 : UC U (Proc.devRef .tc main_arg13) = (U (Proc.devRef .tc main_arg13)) := by
  show StableHlo.after cC (UB U) (Proc.devRef .tc main_arg13) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg14 : UC U (Proc.devRef .tc main_arg14) = (U (Proc.devRef .tc main_arg14)) := by
  show StableHlo.after cC (UB U) (Proc.devRef .tc main_arg14) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg15 : UC U (Proc.devRef .tc main_arg15) = (U (Proc.devRef .tc main_arg15)) := by
  show StableHlo.after cC (UB U) (Proc.devRef .tc main_arg15) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg16 : UC U (Proc.devRef .tc main_arg16) = (U (Proc.devRef .tc main_arg16)) := by
  show StableHlo.after cC (UB U) (Proc.devRef .tc main_arg16) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg17 : UC U (Proc.devRef .tc main_arg17) = (U (Proc.devRef .tc main_arg17)) := by
  show StableHlo.after cC (UB U) (Proc.devRef .tc main_arg17) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg18 : UC U (Proc.devRef .tc main_arg18) = (U (Proc.devRef .tc main_arg18)) := by
  show StableHlo.after cC (UB U) (Proc.devRef .tc main_arg18) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg19 : UC U (Proc.devRef .tc main_arg19) = (U (Proc.devRef .tc main_arg19)) := by
  show StableHlo.after cC (UB U) (Proc.devRef .tc main_arg19) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg20 : UC U (Proc.devRef .tc main_arg20) = (U (Proc.devRef .tc main_arg20)) := by
  show StableHlo.after cC (UB U) (Proc.devRef .tc main_arg20) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg21 : UC U (Proc.devRef .tc main_arg21) = (U (Proc.devRef .tc main_arg21)) := by
  show StableHlo.after cC (UB U) (Proc.devRef .tc main_arg21) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg22 : UC U (Proc.devRef .tc main_arg22) = (U (Proc.devRef .tc main_arg22)) := by
  show StableHlo.after cC (UB U) (Proc.devRef .tc main_arg22) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg23 : UC U (Proc.devRef .tc main_arg23) = (U (Proc.devRef .tc main_arg23)) := by
  show StableHlo.after cC (UB U) (Proc.devRef .tc main_arg23) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg24 : UC U (Proc.devRef .tc main_arg24) = (U (Proc.devRef .tc main_arg24)) := by
  show StableHlo.after cC (UB U) (Proc.devRef .tc main_arg24) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg25 : UC U (Proc.devRef .tc main_arg25) = (U (Proc.devRef .tc main_arg25)) := by
  show StableHlo.after cC (UB U) (Proc.devRef .tc main_arg25) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg26 : UC U (Proc.devRef .tc main_arg26) = (U (Proc.devRef .tc main_arg26)) := by
  show StableHlo.after cC (UB U) (Proc.devRef .tc main_arg26) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg27 : UC U (Proc.devRef .tc main_arg27) = (U (Proc.devRef .tc main_arg27)) := by
  show StableHlo.after cC (UB U) (Proc.devRef .tc main_arg27) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg28 : UC U (Proc.devRef .tc main_arg28) = (U (Proc.devRef .tc main_arg28)) := by
  show StableHlo.after cC (UB U) (Proc.devRef .tc main_arg28) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

theorem c_arg29 : UC U (Proc.devRef .tc main_arg29) = (U (Proc.devRef .tc main_arg29)) := by
  show StableHlo.after cC (UB U) (Proc.devRef .tc main_arg29) = _
  simp only [cC]
  after_results_simp
  simp only [b_v57 U, b_v68 U, b_v1 U, b_v3 U, b_arg0 U, b_arg1 U, b_arg2 U, b_arg3 U, b_arg4 U, b_arg5 U, b_arg6 U, b_arg7 U, b_arg8 U, b_arg9 U, b_arg10 U, b_arg11 U, b_arg12 U, b_arg13 U, b_arg14 U, b_arg15 U, b_arg16 U, b_arg17 U, b_arg18 U, b_arg19 U, b_arg20 U, b_arg21 U, b_arg22 U, b_arg23 U, b_arg24 U, b_arg25 U, b_arg26 U, b_arg27 U, b_arg28 U, b_arg29 U]
  all_goals rfl

end Cert.ReferenceIdeal.RunChunks
end
-- ==== Proof.RunChunkD.lean ====
/-
  The buffers the reference program's operations 148–174 (the second readout and aggregate) leave: each is the reference's own stage
  function of the argument arrays, because the line applies those stages' operations to buffers that already hold the
  earlier stages; and every argument array is as before, since no operation writes one.
-/
import proofs.«170803_j37795712205240_1_alg».proof.Proof.OpsD
import proofs.«170803_j37795712205240_1_alg».proof.Proof.RunChunkC

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations, from the contents the earlier lines leave. -/
def UD (U : Valuation τ sig (Elt Ideal)) : Valuation τ sig (Elt Ideal) := StableHlo.after cD (UC U)

variable (U : Valuation τ sig (Elt Ideal))

theorem d_v140 : UD U (Proc.devRef .tc main_v140) = (ReadP.val_main_v140 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27)) (U (Proc.devRef .tc main_arg28)) (U (Proc.devRef .tc main_arg29))) := by
  show StableHlo.after cD (UC U) (Proc.devRef .tc main_v140) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_v151 : UD U (Proc.devRef .tc main_v151) = (ReadP.val_main_v151 (F := Ideal) (U (Proc.devRef .tc main_arg0)) (U (Proc.devRef .tc main_arg1)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27))) := by
  show StableHlo.after cD (UC U) (Proc.devRef .tc main_v151) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_v1 : UD U (Proc.devRef .tc main_v1) = (ReadP.val_main_v1 (F := Ideal) (U (Proc.devRef .tc main_arg1))) := by
  show StableHlo.after cD (UC U) (Proc.devRef .tc main_v1) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_v3 : UD U (Proc.devRef .tc main_v3) = (ReadP.val_main_v3 (F := Ideal) (U (Proc.devRef .tc main_arg1))) := by
  show StableHlo.after cD (UC U) (Proc.devRef .tc main_v3) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg0 : UD U (Proc.devRef .tc main_arg0) = (U (Proc.devRef .tc main_arg0)) := by
  show StableHlo.after cD (UC U) (Proc.devRef .tc main_arg0) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg1 : UD U (Proc.devRef .tc main_arg1) = (U (Proc.devRef .tc main_arg1)) := by
  show StableHlo.after cD (UC U) (Proc.devRef .tc main_arg1) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg2 : UD U (Proc.devRef .tc main_arg2) = (U (Proc.devRef .tc main_arg2)) := by
  show StableHlo.after cD (UC U) (Proc.devRef .tc main_arg2) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg3 : UD U (Proc.devRef .tc main_arg3) = (U (Proc.devRef .tc main_arg3)) := by
  show StableHlo.after cD (UC U) (Proc.devRef .tc main_arg3) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg4 : UD U (Proc.devRef .tc main_arg4) = (U (Proc.devRef .tc main_arg4)) := by
  show StableHlo.after cD (UC U) (Proc.devRef .tc main_arg4) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg5 : UD U (Proc.devRef .tc main_arg5) = (U (Proc.devRef .tc main_arg5)) := by
  show StableHlo.after cD (UC U) (Proc.devRef .tc main_arg5) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg6 : UD U (Proc.devRef .tc main_arg6) = (U (Proc.devRef .tc main_arg6)) := by
  show StableHlo.after cD (UC U) (Proc.devRef .tc main_arg6) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg7 : UD U (Proc.devRef .tc main_arg7) = (U (Proc.devRef .tc main_arg7)) := by
  show StableHlo.after cD (UC U) (Proc.devRef .tc main_arg7) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg8 : UD U (Proc.devRef .tc main_arg8) = (U (Proc.devRef .tc main_arg8)) := by
  show StableHlo.after cD (UC U) (Proc.devRef .tc main_arg8) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg9 : UD U (Proc.devRef .tc main_arg9) = (U (Proc.devRef .tc main_arg9)) := by
  show StableHlo.after cD (UC U) (Proc.devRef .tc main_arg9) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg10 : UD U (Proc.devRef .tc main_arg10) = (U (Proc.devRef .tc main_arg10)) := by
  show StableHlo.after cD (UC U) (Proc.devRef .tc main_arg10) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg11 : UD U (Proc.devRef .tc main_arg11) = (U (Proc.devRef .tc main_arg11)) := by
  show StableHlo.after cD (UC U) (Proc.devRef .tc main_arg11) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg12 : UD U (Proc.devRef .tc main_arg12) = (U (Proc.devRef .tc main_arg12)) := by
  show StableHlo.after cD (UC U) (Proc.devRef .tc main_arg12) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg13 : UD U (Proc.devRef .tc main_arg13) = (U (Proc.devRef .tc main_arg13)) := by
  show StableHlo.after cD (UC U) (Proc.devRef .tc main_arg13) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg14 : UD U (Proc.devRef .tc main_arg14) = (U (Proc.devRef .tc main_arg14)) := by
  show StableHlo.after cD (UC U) (Proc.devRef .tc main_arg14) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg15 : UD U (Proc.devRef .tc main_arg15) = (U (Proc.devRef .tc main_arg15)) := by
  show StableHlo.after cD (UC U) (Proc.devRef .tc main_arg15) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg16 : UD U (Proc.devRef .tc main_arg16) = (U (Proc.devRef .tc main_arg16)) := by
  show StableHlo.after cD (UC U) (Proc.devRef .tc main_arg16) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg17 : UD U (Proc.devRef .tc main_arg17) = (U (Proc.devRef .tc main_arg17)) := by
  show StableHlo.after cD (UC U) (Proc.devRef .tc main_arg17) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg18 : UD U (Proc.devRef .tc main_arg18) = (U (Proc.devRef .tc main_arg18)) := by
  show StableHlo.after cD (UC U) (Proc.devRef .tc main_arg18) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg19 : UD U (Proc.devRef .tc main_arg19) = (U (Proc.devRef .tc main_arg19)) := by
  show StableHlo.after cD (UC U) (Proc.devRef .tc main_arg19) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg20 : UD U (Proc.devRef .tc main_arg20) = (U (Proc.devRef .tc main_arg20)) := by
  show StableHlo.after cD (UC U) (Proc.devRef .tc main_arg20) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg21 : UD U (Proc.devRef .tc main_arg21) = (U (Proc.devRef .tc main_arg21)) := by
  show StableHlo.after cD (UC U) (Proc.devRef .tc main_arg21) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg22 : UD U (Proc.devRef .tc main_arg22) = (U (Proc.devRef .tc main_arg22)) := by
  show StableHlo.after cD (UC U) (Proc.devRef .tc main_arg22) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg23 : UD U (Proc.devRef .tc main_arg23) = (U (Proc.devRef .tc main_arg23)) := by
  show StableHlo.after cD (UC U) (Proc.devRef .tc main_arg23) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg24 : UD U (Proc.devRef .tc main_arg24) = (U (Proc.devRef .tc main_arg24)) := by
  show StableHlo.after cD (UC U) (Proc.devRef .tc main_arg24) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg25 : UD U (Proc.devRef .tc main_arg25) = (U (Proc.devRef .tc main_arg25)) := by
  show StableHlo.after cD (UC U) (Proc.devRef .tc main_arg25) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg26 : UD U (Proc.devRef .tc main_arg26) = (U (Proc.devRef .tc main_arg26)) := by
  show StableHlo.after cD (UC U) (Proc.devRef .tc main_arg26) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg27 : UD U (Proc.devRef .tc main_arg27) = (U (Proc.devRef .tc main_arg27)) := by
  show StableHlo.after cD (UC U) (Proc.devRef .tc main_arg27) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg28 : UD U (Proc.devRef .tc main_arg28) = (U (Proc.devRef .tc main_arg28)) := by
  show StableHlo.after cD (UC U) (Proc.devRef .tc main_arg28) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

theorem d_arg29 : UD U (Proc.devRef .tc main_arg29) = (U (Proc.devRef .tc main_arg29)) := by
  show StableHlo.after cD (UC U) (Proc.devRef .tc main_arg29) = _
  simp only [cD]
  after_results_simp
  simp only [c_v128 U, c_v57 U, c_v1 U, c_v3 U, c_arg0 U, c_arg1 U, c_arg2 U, c_arg3 U, c_arg4 U, c_arg5 U, c_arg6 U, c_arg7 U, c_arg8 U, c_arg9 U, c_arg10 U, c_arg11 U, c_arg12 U, c_arg13 U, c_arg14 U, c_arg15 U, c_arg16 U, c_arg17 U, c_arg18 U, c_arg19 U, c_arg20 U, c_arg21 U, c_arg22 U, c_arg23 U, c_arg24 U, c_arg25 U, c_arg26 U, c_arg27 U, c_arg28 U, c_arg29 U]
  all_goals rfl

end Cert.ReferenceIdeal.RunChunks
end
-- ==== Proof.RunChunkE.lean ====
/-
  The buffers the reference program's operations 175–240 (the third block) leave: each is the reference's own stage
  function of the argument arrays, because the line applies those stages' operations to buffers that already hold the
  earlier stages; and every argument array is as before, since no operation writes one.
-/
import proofs.«170803_j37795712205240_1_alg».proof.Proof.OpsE
import proofs.«170803_j37795712205240_1_alg».proof.Proof.RunChunkD

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations, from the contents the earlier lines leave. -/
def UE (U : Valuation τ sig (Elt Ideal)) : Valuation τ sig (Elt Ideal) := StableHlo.after cE (UD U)

variable (U : Valuation τ sig (Elt Ideal))

theorem e_v211 : UE U (Proc.devRef .tc main_v211) = (ReadP.val_main_v211 (F := Ideal) (U (Proc.devRef .tc main_arg0)) (U (Proc.devRef .tc main_arg1)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27))) := by
  show StableHlo.after cE (UD U) (Proc.devRef .tc main_v211) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_v140 : UE U (Proc.devRef .tc main_v140) = (ReadP.val_main_v140 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27)) (U (Proc.devRef .tc main_arg28)) (U (Proc.devRef .tc main_arg29))) := by
  show StableHlo.after cE (UD U) (Proc.devRef .tc main_v140) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_v1 : UE U (Proc.devRef .tc main_v1) = (ReadP.val_main_v1 (F := Ideal) (U (Proc.devRef .tc main_arg1))) := by
  show StableHlo.after cE (UD U) (Proc.devRef .tc main_v1) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_v3 : UE U (Proc.devRef .tc main_v3) = (ReadP.val_main_v3 (F := Ideal) (U (Proc.devRef .tc main_arg1))) := by
  show StableHlo.after cE (UD U) (Proc.devRef .tc main_v3) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg0 : UE U (Proc.devRef .tc main_arg0) = (U (Proc.devRef .tc main_arg0)) := by
  show StableHlo.after cE (UD U) (Proc.devRef .tc main_arg0) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg1 : UE U (Proc.devRef .tc main_arg1) = (U (Proc.devRef .tc main_arg1)) := by
  show StableHlo.after cE (UD U) (Proc.devRef .tc main_arg1) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg2 : UE U (Proc.devRef .tc main_arg2) = (U (Proc.devRef .tc main_arg2)) := by
  show StableHlo.after cE (UD U) (Proc.devRef .tc main_arg2) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg3 : UE U (Proc.devRef .tc main_arg3) = (U (Proc.devRef .tc main_arg3)) := by
  show StableHlo.after cE (UD U) (Proc.devRef .tc main_arg3) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg4 : UE U (Proc.devRef .tc main_arg4) = (U (Proc.devRef .tc main_arg4)) := by
  show StableHlo.after cE (UD U) (Proc.devRef .tc main_arg4) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg5 : UE U (Proc.devRef .tc main_arg5) = (U (Proc.devRef .tc main_arg5)) := by
  show StableHlo.after cE (UD U) (Proc.devRef .tc main_arg5) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg6 : UE U (Proc.devRef .tc main_arg6) = (U (Proc.devRef .tc main_arg6)) := by
  show StableHlo.after cE (UD U) (Proc.devRef .tc main_arg6) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg7 : UE U (Proc.devRef .tc main_arg7) = (U (Proc.devRef .tc main_arg7)) := by
  show StableHlo.after cE (UD U) (Proc.devRef .tc main_arg7) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg8 : UE U (Proc.devRef .tc main_arg8) = (U (Proc.devRef .tc main_arg8)) := by
  show StableHlo.after cE (UD U) (Proc.devRef .tc main_arg8) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg9 : UE U (Proc.devRef .tc main_arg9) = (U (Proc.devRef .tc main_arg9)) := by
  show StableHlo.after cE (UD U) (Proc.devRef .tc main_arg9) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg10 : UE U (Proc.devRef .tc main_arg10) = (U (Proc.devRef .tc main_arg10)) := by
  show StableHlo.after cE (UD U) (Proc.devRef .tc main_arg10) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg11 : UE U (Proc.devRef .tc main_arg11) = (U (Proc.devRef .tc main_arg11)) := by
  show StableHlo.after cE (UD U) (Proc.devRef .tc main_arg11) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg12 : UE U (Proc.devRef .tc main_arg12) = (U (Proc.devRef .tc main_arg12)) := by
  show StableHlo.after cE (UD U) (Proc.devRef .tc main_arg12) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg13 : UE U (Proc.devRef .tc main_arg13) = (U (Proc.devRef .tc main_arg13)) := by
  show StableHlo.after cE (UD U) (Proc.devRef .tc main_arg13) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg14 : UE U (Proc.devRef .tc main_arg14) = (U (Proc.devRef .tc main_arg14)) := by
  show StableHlo.after cE (UD U) (Proc.devRef .tc main_arg14) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg15 : UE U (Proc.devRef .tc main_arg15) = (U (Proc.devRef .tc main_arg15)) := by
  show StableHlo.after cE (UD U) (Proc.devRef .tc main_arg15) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg16 : UE U (Proc.devRef .tc main_arg16) = (U (Proc.devRef .tc main_arg16)) := by
  show StableHlo.after cE (UD U) (Proc.devRef .tc main_arg16) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg17 : UE U (Proc.devRef .tc main_arg17) = (U (Proc.devRef .tc main_arg17)) := by
  show StableHlo.after cE (UD U) (Proc.devRef .tc main_arg17) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg18 : UE U (Proc.devRef .tc main_arg18) = (U (Proc.devRef .tc main_arg18)) := by
  show StableHlo.after cE (UD U) (Proc.devRef .tc main_arg18) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg19 : UE U (Proc.devRef .tc main_arg19) = (U (Proc.devRef .tc main_arg19)) := by
  show StableHlo.after cE (UD U) (Proc.devRef .tc main_arg19) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg20 : UE U (Proc.devRef .tc main_arg20) = (U (Proc.devRef .tc main_arg20)) := by
  show StableHlo.after cE (UD U) (Proc.devRef .tc main_arg20) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg21 : UE U (Proc.devRef .tc main_arg21) = (U (Proc.devRef .tc main_arg21)) := by
  show StableHlo.after cE (UD U) (Proc.devRef .tc main_arg21) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg22 : UE U (Proc.devRef .tc main_arg22) = (U (Proc.devRef .tc main_arg22)) := by
  show StableHlo.after cE (UD U) (Proc.devRef .tc main_arg22) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg23 : UE U (Proc.devRef .tc main_arg23) = (U (Proc.devRef .tc main_arg23)) := by
  show StableHlo.after cE (UD U) (Proc.devRef .tc main_arg23) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg24 : UE U (Proc.devRef .tc main_arg24) = (U (Proc.devRef .tc main_arg24)) := by
  show StableHlo.after cE (UD U) (Proc.devRef .tc main_arg24) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg25 : UE U (Proc.devRef .tc main_arg25) = (U (Proc.devRef .tc main_arg25)) := by
  show StableHlo.after cE (UD U) (Proc.devRef .tc main_arg25) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg26 : UE U (Proc.devRef .tc main_arg26) = (U (Proc.devRef .tc main_arg26)) := by
  show StableHlo.after cE (UD U) (Proc.devRef .tc main_arg26) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg27 : UE U (Proc.devRef .tc main_arg27) = (U (Proc.devRef .tc main_arg27)) := by
  show StableHlo.after cE (UD U) (Proc.devRef .tc main_arg27) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg28 : UE U (Proc.devRef .tc main_arg28) = (U (Proc.devRef .tc main_arg28)) := by
  show StableHlo.after cE (UD U) (Proc.devRef .tc main_arg28) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

theorem e_arg29 : UE U (Proc.devRef .tc main_arg29) = (U (Proc.devRef .tc main_arg29)) := by
  show StableHlo.after cE (UD U) (Proc.devRef .tc main_arg29) = _
  simp only [cE]
  after_results_simp
  simp only [d_v140 U, d_v151 U, d_v1 U, d_v3 U, d_arg0 U, d_arg1 U, d_arg2 U, d_arg3 U, d_arg4 U, d_arg5 U, d_arg6 U, d_arg7 U, d_arg8 U, d_arg9 U, d_arg10 U, d_arg11 U, d_arg12 U, d_arg13 U, d_arg14 U, d_arg15 U, d_arg16 U, d_arg17 U, d_arg18 U, d_arg19 U, d_arg20 U, d_arg21 U, d_arg22 U, d_arg23 U, d_arg24 U, d_arg25 U, d_arg26 U, d_arg27 U, d_arg28 U, d_arg29 U]
  all_goals rfl

end Cert.ReferenceIdeal.RunChunks
end
-- ==== Proof.RunChunkF.lean ====
/-
  The buffers the reference program's operations 241–267 (the third readout and aggregate) leave: each is the reference's own stage
  function of the argument arrays, because the line applies those stages' operations to buffers that already hold the
  earlier stages; and every argument array is as before, since no operation writes one.
-/
import proofs.«170803_j37795712205240_1_alg».proof.Proof.OpsF
import proofs.«170803_j37795712205240_1_alg».proof.Proof.RunChunkE

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations, from the contents the earlier lines leave. -/
def UF (U : Valuation τ sig (Elt Ideal)) : Valuation τ sig (Elt Ideal) := StableHlo.after cF (UE U)

variable (U : Valuation τ sig (Elt Ideal))

theorem f_v223 : UF U (Proc.devRef .tc main_v223) = (ReadP.val_main_v223 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27)) (U (Proc.devRef .tc main_arg28)) (U (Proc.devRef .tc main_arg29))) := by
  show StableHlo.after cF (UE U) (Proc.devRef .tc main_v223) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_v234 : UF U (Proc.devRef .tc main_v234) = (ReadP.val_main_v234 (F := Ideal) (U (Proc.devRef .tc main_arg0)) (U (Proc.devRef .tc main_arg1)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27))) := by
  show StableHlo.after cF (UE U) (Proc.devRef .tc main_v234) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg0 : UF U (Proc.devRef .tc main_arg0) = (U (Proc.devRef .tc main_arg0)) := by
  show StableHlo.after cF (UE U) (Proc.devRef .tc main_arg0) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg1 : UF U (Proc.devRef .tc main_arg1) = (U (Proc.devRef .tc main_arg1)) := by
  show StableHlo.after cF (UE U) (Proc.devRef .tc main_arg1) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg2 : UF U (Proc.devRef .tc main_arg2) = (U (Proc.devRef .tc main_arg2)) := by
  show StableHlo.after cF (UE U) (Proc.devRef .tc main_arg2) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg3 : UF U (Proc.devRef .tc main_arg3) = (U (Proc.devRef .tc main_arg3)) := by
  show StableHlo.after cF (UE U) (Proc.devRef .tc main_arg3) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg4 : UF U (Proc.devRef .tc main_arg4) = (U (Proc.devRef .tc main_arg4)) := by
  show StableHlo.after cF (UE U) (Proc.devRef .tc main_arg4) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg5 : UF U (Proc.devRef .tc main_arg5) = (U (Proc.devRef .tc main_arg5)) := by
  show StableHlo.after cF (UE U) (Proc.devRef .tc main_arg5) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg6 : UF U (Proc.devRef .tc main_arg6) = (U (Proc.devRef .tc main_arg6)) := by
  show StableHlo.after cF (UE U) (Proc.devRef .tc main_arg6) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg7 : UF U (Proc.devRef .tc main_arg7) = (U (Proc.devRef .tc main_arg7)) := by
  show StableHlo.after cF (UE U) (Proc.devRef .tc main_arg7) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg8 : UF U (Proc.devRef .tc main_arg8) = (U (Proc.devRef .tc main_arg8)) := by
  show StableHlo.after cF (UE U) (Proc.devRef .tc main_arg8) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg9 : UF U (Proc.devRef .tc main_arg9) = (U (Proc.devRef .tc main_arg9)) := by
  show StableHlo.after cF (UE U) (Proc.devRef .tc main_arg9) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg10 : UF U (Proc.devRef .tc main_arg10) = (U (Proc.devRef .tc main_arg10)) := by
  show StableHlo.after cF (UE U) (Proc.devRef .tc main_arg10) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg11 : UF U (Proc.devRef .tc main_arg11) = (U (Proc.devRef .tc main_arg11)) := by
  show StableHlo.after cF (UE U) (Proc.devRef .tc main_arg11) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg12 : UF U (Proc.devRef .tc main_arg12) = (U (Proc.devRef .tc main_arg12)) := by
  show StableHlo.after cF (UE U) (Proc.devRef .tc main_arg12) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg13 : UF U (Proc.devRef .tc main_arg13) = (U (Proc.devRef .tc main_arg13)) := by
  show StableHlo.after cF (UE U) (Proc.devRef .tc main_arg13) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg14 : UF U (Proc.devRef .tc main_arg14) = (U (Proc.devRef .tc main_arg14)) := by
  show StableHlo.after cF (UE U) (Proc.devRef .tc main_arg14) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg15 : UF U (Proc.devRef .tc main_arg15) = (U (Proc.devRef .tc main_arg15)) := by
  show StableHlo.after cF (UE U) (Proc.devRef .tc main_arg15) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg16 : UF U (Proc.devRef .tc main_arg16) = (U (Proc.devRef .tc main_arg16)) := by
  show StableHlo.after cF (UE U) (Proc.devRef .tc main_arg16) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg17 : UF U (Proc.devRef .tc main_arg17) = (U (Proc.devRef .tc main_arg17)) := by
  show StableHlo.after cF (UE U) (Proc.devRef .tc main_arg17) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg18 : UF U (Proc.devRef .tc main_arg18) = (U (Proc.devRef .tc main_arg18)) := by
  show StableHlo.after cF (UE U) (Proc.devRef .tc main_arg18) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg19 : UF U (Proc.devRef .tc main_arg19) = (U (Proc.devRef .tc main_arg19)) := by
  show StableHlo.after cF (UE U) (Proc.devRef .tc main_arg19) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg20 : UF U (Proc.devRef .tc main_arg20) = (U (Proc.devRef .tc main_arg20)) := by
  show StableHlo.after cF (UE U) (Proc.devRef .tc main_arg20) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg21 : UF U (Proc.devRef .tc main_arg21) = (U (Proc.devRef .tc main_arg21)) := by
  show StableHlo.after cF (UE U) (Proc.devRef .tc main_arg21) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg22 : UF U (Proc.devRef .tc main_arg22) = (U (Proc.devRef .tc main_arg22)) := by
  show StableHlo.after cF (UE U) (Proc.devRef .tc main_arg22) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg23 : UF U (Proc.devRef .tc main_arg23) = (U (Proc.devRef .tc main_arg23)) := by
  show StableHlo.after cF (UE U) (Proc.devRef .tc main_arg23) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg24 : UF U (Proc.devRef .tc main_arg24) = (U (Proc.devRef .tc main_arg24)) := by
  show StableHlo.after cF (UE U) (Proc.devRef .tc main_arg24) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg25 : UF U (Proc.devRef .tc main_arg25) = (U (Proc.devRef .tc main_arg25)) := by
  show StableHlo.after cF (UE U) (Proc.devRef .tc main_arg25) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg26 : UF U (Proc.devRef .tc main_arg26) = (U (Proc.devRef .tc main_arg26)) := by
  show StableHlo.after cF (UE U) (Proc.devRef .tc main_arg26) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg27 : UF U (Proc.devRef .tc main_arg27) = (U (Proc.devRef .tc main_arg27)) := by
  show StableHlo.after cF (UE U) (Proc.devRef .tc main_arg27) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg28 : UF U (Proc.devRef .tc main_arg28) = (U (Proc.devRef .tc main_arg28)) := by
  show StableHlo.after cF (UE U) (Proc.devRef .tc main_arg28) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

theorem f_arg29 : UF U (Proc.devRef .tc main_arg29) = (U (Proc.devRef .tc main_arg29)) := by
  show StableHlo.after cF (UE U) (Proc.devRef .tc main_arg29) = _
  simp only [cF]
  after_results_simp
  simp only [e_v211 U, e_v140 U, e_v1 U, e_v3 U, e_arg0 U, e_arg1 U, e_arg2 U, e_arg3 U, e_arg4 U, e_arg5 U, e_arg6 U, e_arg7 U, e_arg8 U, e_arg9 U, e_arg10 U, e_arg11 U, e_arg12 U, e_arg13 U, e_arg14 U, e_arg15 U, e_arg16 U, e_arg17 U, e_arg18 U, e_arg19 U, e_arg20 U, e_arg21 U, e_arg22 U, e_arg23 U, e_arg24 U, e_arg25 U, e_arg26 U, e_arg27 U, e_arg28 U, e_arg29 U]
  all_goals rfl

end Cert.ReferenceIdeal.RunChunks
end
-- ==== Proof.RunChunkG.lean ====
/-
  The buffers the reference program's operations 268–333 (the fourth block) leave: each is the reference's own stage
  function of the argument arrays, because the line applies those stages' operations to buffers that already hold the
  earlier stages; and every argument array is as before, since no operation writes one.
-/
import proofs.«170803_j37795712205240_1_alg».proof.Proof.OpsG
import proofs.«170803_j37795712205240_1_alg».proof.Proof.RunChunkF

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations, from the contents the earlier lines leave. -/
def UG (U : Valuation τ sig (Elt Ideal)) : Valuation τ sig (Elt Ideal) := StableHlo.after cG (UF U)

variable (U : Valuation τ sig (Elt Ideal))

theorem g_v294 : UG U (Proc.devRef .tc main_v294) = (ReadP.val_main_v294 (F := Ideal) (U (Proc.devRef .tc main_arg0)) (U (Proc.devRef .tc main_arg1)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27))) := by
  show StableHlo.after cG (UF U) (Proc.devRef .tc main_v294) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_v223 : UG U (Proc.devRef .tc main_v223) = (ReadP.val_main_v223 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27)) (U (Proc.devRef .tc main_arg28)) (U (Proc.devRef .tc main_arg29))) := by
  show StableHlo.after cG (UF U) (Proc.devRef .tc main_v223) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg0 : UG U (Proc.devRef .tc main_arg0) = (U (Proc.devRef .tc main_arg0)) := by
  show StableHlo.after cG (UF U) (Proc.devRef .tc main_arg0) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg1 : UG U (Proc.devRef .tc main_arg1) = (U (Proc.devRef .tc main_arg1)) := by
  show StableHlo.after cG (UF U) (Proc.devRef .tc main_arg1) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg2 : UG U (Proc.devRef .tc main_arg2) = (U (Proc.devRef .tc main_arg2)) := by
  show StableHlo.after cG (UF U) (Proc.devRef .tc main_arg2) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg3 : UG U (Proc.devRef .tc main_arg3) = (U (Proc.devRef .tc main_arg3)) := by
  show StableHlo.after cG (UF U) (Proc.devRef .tc main_arg3) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg4 : UG U (Proc.devRef .tc main_arg4) = (U (Proc.devRef .tc main_arg4)) := by
  show StableHlo.after cG (UF U) (Proc.devRef .tc main_arg4) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg5 : UG U (Proc.devRef .tc main_arg5) = (U (Proc.devRef .tc main_arg5)) := by
  show StableHlo.after cG (UF U) (Proc.devRef .tc main_arg5) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg6 : UG U (Proc.devRef .tc main_arg6) = (U (Proc.devRef .tc main_arg6)) := by
  show StableHlo.after cG (UF U) (Proc.devRef .tc main_arg6) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg7 : UG U (Proc.devRef .tc main_arg7) = (U (Proc.devRef .tc main_arg7)) := by
  show StableHlo.after cG (UF U) (Proc.devRef .tc main_arg7) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg8 : UG U (Proc.devRef .tc main_arg8) = (U (Proc.devRef .tc main_arg8)) := by
  show StableHlo.after cG (UF U) (Proc.devRef .tc main_arg8) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg9 : UG U (Proc.devRef .tc main_arg9) = (U (Proc.devRef .tc main_arg9)) := by
  show StableHlo.after cG (UF U) (Proc.devRef .tc main_arg9) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg10 : UG U (Proc.devRef .tc main_arg10) = (U (Proc.devRef .tc main_arg10)) := by
  show StableHlo.after cG (UF U) (Proc.devRef .tc main_arg10) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg11 : UG U (Proc.devRef .tc main_arg11) = (U (Proc.devRef .tc main_arg11)) := by
  show StableHlo.after cG (UF U) (Proc.devRef .tc main_arg11) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg12 : UG U (Proc.devRef .tc main_arg12) = (U (Proc.devRef .tc main_arg12)) := by
  show StableHlo.after cG (UF U) (Proc.devRef .tc main_arg12) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg13 : UG U (Proc.devRef .tc main_arg13) = (U (Proc.devRef .tc main_arg13)) := by
  show StableHlo.after cG (UF U) (Proc.devRef .tc main_arg13) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg14 : UG U (Proc.devRef .tc main_arg14) = (U (Proc.devRef .tc main_arg14)) := by
  show StableHlo.after cG (UF U) (Proc.devRef .tc main_arg14) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg15 : UG U (Proc.devRef .tc main_arg15) = (U (Proc.devRef .tc main_arg15)) := by
  show StableHlo.after cG (UF U) (Proc.devRef .tc main_arg15) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg16 : UG U (Proc.devRef .tc main_arg16) = (U (Proc.devRef .tc main_arg16)) := by
  show StableHlo.after cG (UF U) (Proc.devRef .tc main_arg16) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg17 : UG U (Proc.devRef .tc main_arg17) = (U (Proc.devRef .tc main_arg17)) := by
  show StableHlo.after cG (UF U) (Proc.devRef .tc main_arg17) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg18 : UG U (Proc.devRef .tc main_arg18) = (U (Proc.devRef .tc main_arg18)) := by
  show StableHlo.after cG (UF U) (Proc.devRef .tc main_arg18) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg19 : UG U (Proc.devRef .tc main_arg19) = (U (Proc.devRef .tc main_arg19)) := by
  show StableHlo.after cG (UF U) (Proc.devRef .tc main_arg19) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg20 : UG U (Proc.devRef .tc main_arg20) = (U (Proc.devRef .tc main_arg20)) := by
  show StableHlo.after cG (UF U) (Proc.devRef .tc main_arg20) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg21 : UG U (Proc.devRef .tc main_arg21) = (U (Proc.devRef .tc main_arg21)) := by
  show StableHlo.after cG (UF U) (Proc.devRef .tc main_arg21) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg22 : UG U (Proc.devRef .tc main_arg22) = (U (Proc.devRef .tc main_arg22)) := by
  show StableHlo.after cG (UF U) (Proc.devRef .tc main_arg22) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg23 : UG U (Proc.devRef .tc main_arg23) = (U (Proc.devRef .tc main_arg23)) := by
  show StableHlo.after cG (UF U) (Proc.devRef .tc main_arg23) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg24 : UG U (Proc.devRef .tc main_arg24) = (U (Proc.devRef .tc main_arg24)) := by
  show StableHlo.after cG (UF U) (Proc.devRef .tc main_arg24) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg25 : UG U (Proc.devRef .tc main_arg25) = (U (Proc.devRef .tc main_arg25)) := by
  show StableHlo.after cG (UF U) (Proc.devRef .tc main_arg25) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg26 : UG U (Proc.devRef .tc main_arg26) = (U (Proc.devRef .tc main_arg26)) := by
  show StableHlo.after cG (UF U) (Proc.devRef .tc main_arg26) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg27 : UG U (Proc.devRef .tc main_arg27) = (U (Proc.devRef .tc main_arg27)) := by
  show StableHlo.after cG (UF U) (Proc.devRef .tc main_arg27) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg28 : UG U (Proc.devRef .tc main_arg28) = (U (Proc.devRef .tc main_arg28)) := by
  show StableHlo.after cG (UF U) (Proc.devRef .tc main_arg28) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

theorem g_arg29 : UG U (Proc.devRef .tc main_arg29) = (U (Proc.devRef .tc main_arg29)) := by
  show StableHlo.after cG (UF U) (Proc.devRef .tc main_arg29) = _
  simp only [cG]
  after_results_simp
  simp only [f_v223 U, f_v234 U, f_arg0 U, f_arg1 U, f_arg2 U, f_arg3 U, f_arg4 U, f_arg5 U, f_arg6 U, f_arg7 U, f_arg8 U, f_arg9 U, f_arg10 U, f_arg11 U, f_arg12 U, f_arg13 U, f_arg14 U, f_arg15 U, f_arg16 U, f_arg17 U, f_arg18 U, f_arg19 U, f_arg20 U, f_arg21 U, f_arg22 U, f_arg23 U, f_arg24 U, f_arg25 U, f_arg26 U, f_arg27 U, f_arg28 U, f_arg29 U]
  all_goals rfl

end Cert.ReferenceIdeal.RunChunks
end
-- ==== Proof.RunChunkH.lean ====
/-
  The buffers the reference program's operations 334–360 (the last readout and the softmax) leave: each is the reference's own stage
  function of the argument arrays, because the line applies those stages' operations to buffers that already hold the
  earlier stages; and every argument array is as before, since no operation writes one.
-/
import proofs.«170803_j37795712205240_1_alg».proof.Proof.OpsH
import proofs.«170803_j37795712205240_1_alg».proof.Proof.RunChunkG

set_option maxRecDepth 16384
set_option maxHeartbeats 4000000
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The buffer contents after those operations, from the contents the earlier lines leave. -/
def UH (U : Valuation τ sig (Elt Ideal)) : Valuation τ sig (Elt Ideal) := StableHlo.after cH (UG U)

variable (U : Valuation τ sig (Elt Ideal))

theorem h_v317 : UH U (Proc.devRef .tc main_v317) = (ReadP.val_main_v317 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) (U (Proc.devRef .tc main_arg23)) (U (Proc.devRef .tc main_arg24)) (U (Proc.devRef .tc main_arg25)) (U (Proc.devRef .tc main_arg26)) (U (Proc.devRef .tc main_arg27)) (U (Proc.devRef .tc main_arg28)) (U (Proc.devRef .tc main_arg29))) := by
  show StableHlo.after cH (UG U) (Proc.devRef .tc main_v317) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg0 : UH U (Proc.devRef .tc main_arg0) = (U (Proc.devRef .tc main_arg0)) := by
  show StableHlo.after cH (UG U) (Proc.devRef .tc main_arg0) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg1 : UH U (Proc.devRef .tc main_arg1) = (U (Proc.devRef .tc main_arg1)) := by
  show StableHlo.after cH (UG U) (Proc.devRef .tc main_arg1) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg2 : UH U (Proc.devRef .tc main_arg2) = (U (Proc.devRef .tc main_arg2)) := by
  show StableHlo.after cH (UG U) (Proc.devRef .tc main_arg2) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg3 : UH U (Proc.devRef .tc main_arg3) = (U (Proc.devRef .tc main_arg3)) := by
  show StableHlo.after cH (UG U) (Proc.devRef .tc main_arg3) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg4 : UH U (Proc.devRef .tc main_arg4) = (U (Proc.devRef .tc main_arg4)) := by
  show StableHlo.after cH (UG U) (Proc.devRef .tc main_arg4) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg5 : UH U (Proc.devRef .tc main_arg5) = (U (Proc.devRef .tc main_arg5)) := by
  show StableHlo.after cH (UG U) (Proc.devRef .tc main_arg5) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg6 : UH U (Proc.devRef .tc main_arg6) = (U (Proc.devRef .tc main_arg6)) := by
  show StableHlo.after cH (UG U) (Proc.devRef .tc main_arg6) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg7 : UH U (Proc.devRef .tc main_arg7) = (U (Proc.devRef .tc main_arg7)) := by
  show StableHlo.after cH (UG U) (Proc.devRef .tc main_arg7) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg8 : UH U (Proc.devRef .tc main_arg8) = (U (Proc.devRef .tc main_arg8)) := by
  show StableHlo.after cH (UG U) (Proc.devRef .tc main_arg8) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg9 : UH U (Proc.devRef .tc main_arg9) = (U (Proc.devRef .tc main_arg9)) := by
  show StableHlo.after cH (UG U) (Proc.devRef .tc main_arg9) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg10 : UH U (Proc.devRef .tc main_arg10) = (U (Proc.devRef .tc main_arg10)) := by
  show StableHlo.after cH (UG U) (Proc.devRef .tc main_arg10) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg11 : UH U (Proc.devRef .tc main_arg11) = (U (Proc.devRef .tc main_arg11)) := by
  show StableHlo.after cH (UG U) (Proc.devRef .tc main_arg11) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg12 : UH U (Proc.devRef .tc main_arg12) = (U (Proc.devRef .tc main_arg12)) := by
  show StableHlo.after cH (UG U) (Proc.devRef .tc main_arg12) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg13 : UH U (Proc.devRef .tc main_arg13) = (U (Proc.devRef .tc main_arg13)) := by
  show StableHlo.after cH (UG U) (Proc.devRef .tc main_arg13) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg14 : UH U (Proc.devRef .tc main_arg14) = (U (Proc.devRef .tc main_arg14)) := by
  show StableHlo.after cH (UG U) (Proc.devRef .tc main_arg14) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg15 : UH U (Proc.devRef .tc main_arg15) = (U (Proc.devRef .tc main_arg15)) := by
  show StableHlo.after cH (UG U) (Proc.devRef .tc main_arg15) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg16 : UH U (Proc.devRef .tc main_arg16) = (U (Proc.devRef .tc main_arg16)) := by
  show StableHlo.after cH (UG U) (Proc.devRef .tc main_arg16) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg17 : UH U (Proc.devRef .tc main_arg17) = (U (Proc.devRef .tc main_arg17)) := by
  show StableHlo.after cH (UG U) (Proc.devRef .tc main_arg17) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg18 : UH U (Proc.devRef .tc main_arg18) = (U (Proc.devRef .tc main_arg18)) := by
  show StableHlo.after cH (UG U) (Proc.devRef .tc main_arg18) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg19 : UH U (Proc.devRef .tc main_arg19) = (U (Proc.devRef .tc main_arg19)) := by
  show StableHlo.after cH (UG U) (Proc.devRef .tc main_arg19) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg20 : UH U (Proc.devRef .tc main_arg20) = (U (Proc.devRef .tc main_arg20)) := by
  show StableHlo.after cH (UG U) (Proc.devRef .tc main_arg20) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg21 : UH U (Proc.devRef .tc main_arg21) = (U (Proc.devRef .tc main_arg21)) := by
  show StableHlo.after cH (UG U) (Proc.devRef .tc main_arg21) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg22 : UH U (Proc.devRef .tc main_arg22) = (U (Proc.devRef .tc main_arg22)) := by
  show StableHlo.after cH (UG U) (Proc.devRef .tc main_arg22) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg23 : UH U (Proc.devRef .tc main_arg23) = (U (Proc.devRef .tc main_arg23)) := by
  show StableHlo.after cH (UG U) (Proc.devRef .tc main_arg23) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg24 : UH U (Proc.devRef .tc main_arg24) = (U (Proc.devRef .tc main_arg24)) := by
  show StableHlo.after cH (UG U) (Proc.devRef .tc main_arg24) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg25 : UH U (Proc.devRef .tc main_arg25) = (U (Proc.devRef .tc main_arg25)) := by
  show StableHlo.after cH (UG U) (Proc.devRef .tc main_arg25) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg26 : UH U (Proc.devRef .tc main_arg26) = (U (Proc.devRef .tc main_arg26)) := by
  show StableHlo.after cH (UG U) (Proc.devRef .tc main_arg26) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg27 : UH U (Proc.devRef .tc main_arg27) = (U (Proc.devRef .tc main_arg27)) := by
  show StableHlo.after cH (UG U) (Proc.devRef .tc main_arg27) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg28 : UH U (Proc.devRef .tc main_arg28) = (U (Proc.devRef .tc main_arg28)) := by
  show StableHlo.after cH (UG U) (Proc.devRef .tc main_arg28) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

theorem h_arg29 : UH U (Proc.devRef .tc main_arg29) = (U (Proc.devRef .tc main_arg29)) := by
  show StableHlo.after cH (UG U) (Proc.devRef .tc main_arg29) = _
  simp only [cH]
  after_results_simp
  simp only [g_v294 U, g_v223 U, g_arg0 U, g_arg1 U, g_arg2 U, g_arg3 U, g_arg4 U, g_arg5 U, g_arg6 U, g_arg7 U, g_arg8 U, g_arg9 U, g_arg10 U, g_arg11 U, g_arg12 U, g_arg13 U, g_arg14 U, g_arg15 U, g_arg16 U, g_arg17 U, g_arg18 U, g_arg19 U, g_arg20 U, g_arg21 U, g_arg22 U, g_arg23 U, g_arg24 U, g_arg25 U, g_arg26 U, g_arg27 U, g_arg28 U, g_arg29 U]
  all_goals rfl

end Cert.ReferenceIdeal.RunChunks
end
-- ==== Proof.RefRun.lean ====
/-
  The reference program's run, put together from its eight lines. The program is 360 host operations and nothing else: it
  is the eight lines run one after the other, so every weakly fair execution terminates with each buffer at what the
  operations, applied in order, leave in it. The result buffer ends at the last line's result — the reference's last stage
  function of the argument arrays — and no operation writes an argument array.
-/
import proofs.«170803_j37795712205240_1_alg».proof.Proof.RunChunkH

set_option maxRecDepth 16384
noncomputable section
namespace Cert.ReferenceIdeal.RunChunks
open Cert.ReferenceIdeal Cert.ReferenceIdeal.Gen Idealize.ShloMosaic Idealize.ShloMosaic.TcCoe Idealize.SL.Sem Idealize.ShloMosaic.StableHlo

/-- The reference's @main as one line: its eight lines end to end. -/
def opsAll {F : FTy → Type} [FloatOps F] : List (HloOp τ sig (Elt F)) := cA ++ (cB ++ (cC ++ (cD ++ (cE ++ (cF ++ (cG ++ cH))))))

set_option maxHeartbeats 40000000 in
/-- The printed @main is that line of operations. -/
theorem main_eq {F : FTy → Type} [FloatOps F] (c : Dev nD) : main (F := F) c = seq (opsAll (F := F)) := by
  unfold opsAll cA cB cC cD cE cF cG cH
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: each line's do. -/
theorem opsAll_sub {F : FTy → Type} [FloatOps F] : (opsAll : List (HloOp τ sig (Elt F))).Forall fun op => op.bufs ⊆ tcRefs τ sig := by
  refine List.forall_iff_forall_mem.mpr fun op hop => ?_
  unfold opsAll at hop
  simp only [List.mem_append] at hop
  rcases hop with h | h | h | h | h | h | h | h
  · exact List.forall_iff_forall_mem.mp cA_sub op h
  · exact List.forall_iff_forall_mem.mp cB_sub op h
  · exact List.forall_iff_forall_mem.mp cC_sub op h
  · exact List.forall_iff_forall_mem.mp cD_sub op h
  · exact List.forall_iff_forall_mem.mp cE_sub op h
  · exact List.forall_iff_forall_mem.mp cF_sub op h
  · exact List.forall_iff_forall_mem.mp cG_sub op h
  · exact List.forall_iff_forall_mem.mp cH_sub op h

/-- Running the whole line is running the eight lines in turn. -/
theorem after_opsAll (U : Valuation τ sig (Elt Ideal)) : StableHlo.after (opsAll (F := Ideal)) U = UH U := by
  unfold opsAll
  simp only [after_append]
  rfl

/-- Every weakly fair execution of the reference terminates with the result at its last stage function of the arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v317) = (ReadP.val_main_v317 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c main_v317).trans ((congrFun (after_opsAll _) _).trans (h_v317 _)),
      (h c main_arg0).trans ((congrFun (after_opsAll _) _).trans (h_arg0 _)),
      (h c main_arg1).trans ((congrFun (after_opsAll _) _).trans (h_arg1 _)),
      (h c main_arg2).trans ((congrFun (after_opsAll _) _).trans (h_arg2 _)),
      (h c main_arg3).trans ((congrFun (after_opsAll _) _).trans (h_arg3 _)),
      (h c main_arg4).trans ((congrFun (after_opsAll _) _).trans (h_arg4 _)),
      (h c main_arg5).trans ((congrFun (after_opsAll _) _).trans (h_arg5 _)),
      (h c main_arg6).trans ((congrFun (after_opsAll _) _).trans (h_arg6 _)),
      (h c main_arg7).trans ((congrFun (after_opsAll _) _).trans (h_arg7 _)),
      (h c main_arg8).trans ((congrFun (after_opsAll _) _).trans (h_arg8 _)),
      (h c main_arg9).trans ((congrFun (after_opsAll _) _).trans (h_arg9 _)),
      (h c main_arg10).trans ((congrFun (after_opsAll _) _).trans (h_arg10 _)),
      (h c main_arg11).trans ((congrFun (after_opsAll _) _).trans (h_arg11 _)),
      (h c main_arg12).trans ((congrFun (after_opsAll _) _).trans (h_arg12 _)),
      (h c main_arg13).trans ((congrFun (after_opsAll _) _).trans (h_arg13 _)),
      (h c main_arg14).trans ((congrFun (after_opsAll _) _).trans (h_arg14 _)),
      (h c main_arg15).trans ((congrFun (after_opsAll _) _).trans (h_arg15 _)),
      (h c main_arg16).trans ((congrFun (after_opsAll _) _).trans (h_arg16 _)),
      (h c main_arg17).trans ((congrFun (after_opsAll _) _).trans (h_arg17 _)),
      (h c main_arg18).trans ((congrFun (after_opsAll _) _).trans (h_arg18 _)),
      (h c main_arg19).trans ((congrFun (after_opsAll _) _).trans (h_arg19 _)),
      (h c main_arg20).trans ((congrFun (after_opsAll _) _).trans (h_arg20 _)),
      (h c main_arg21).trans ((congrFun (after_opsAll _) _).trans (h_arg21 _)),
      (h c main_arg22).trans ((congrFun (after_opsAll _) _).trans (h_arg22 _)),
      (h c main_arg23).trans ((congrFun (after_opsAll _) _).trans (h_arg23 _)),
      (h c main_arg24).trans ((congrFun (after_opsAll _) _).trans (h_arg24 _)),
      (h c main_arg25).trans ((congrFun (after_opsAll _) _).trans (h_arg25 _)),
      (h c main_arg26).trans ((congrFun (after_opsAll _) _).trans (h_arg26 _)),
      (h c main_arg27).trans ((congrFun (after_opsAll _) _).trans (h_arg27 _)),
      (h c main_arg28).trans ((congrFun (after_opsAll _) _).trans (h_arg28 _)),
      (h c main_arg29).trans ((congrFun (after_opsAll _) _).trans (h_arg29 _))⟩)
    (run_seq scopedRefs_eq scopedSems_eq defs main (fun _ => opsAll) main_eq (fun _ => opsAll_sub) m ρ)

end Cert.ReferenceIdeal.RunChunks
end
-- ==== Proof.KernelRun.lean ====
/-
  The kernel program's run with its result named. The program is five stretches of host operations around four
  kernel regions. Its buffer contents at each boundary form a fold from the launch memory: a host stretch applies its
  operations in order, a region replaces each of its arrays by what its grid points wrote back. Every weakly fair
  execution terminates with every unscoped buffer at the end of that fold; kept here are the result buffer, at the
  fold's value, and the thirty argument arrays, unchanged.
-/
import proofs.«170803_j37795712205240_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the value the
    fold of the host stretches and the four regions' write-backs gives it, and every argument array ends as launched. -/
theorem run_result : θ_run defs (onTc (τ := τ) (main (F := F))) ⟨m, fun _ => 0, ρ⟩ (fun r => ∀ c : Dev nD,
      r.2.mem ((c.tc : Thread nD τ).loc main_v262) = W9 m ρ c (Proc.devRef .tc main_v262)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v262 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c),
       (h c _ (mem_uc main_arg27 (by decide))).trans (W9_main_arg27 m ρ c),
       (h c _ (mem_uc main_arg28 (by decide))).trans (W9_main_arg28 m ρ c),
       (h c _ (mem_uc main_arg29 (by decide))).trans (W9_main_arg29 m ρ c)⟩)

end Cert.KernelIdeal.Gen

end
-- ==== Proof.PreFacts.lean ====
/-
  What the precondition says about the argument arrays, entry by entry.

  The precondition is a conjunction of 31 "for all entries" tests, each folded to a single truth value by a
  reduction with "and" over every axis. Twenty-seven of them say |x| < +∞ for every entry x of one floating
  argument; at the extended reals |x| is max(x, -x), so the test excludes x = +∞ (then max = +∞) and x = -∞
  (then -x = +∞): the entry is a real number. The last four say x + ε > 0 for every entry x of four of the
  arguments, with ε the constant whose 32-bit word is 0x3727C5AC, kept here as that word's value and not evaluated.

  A conjunction of one-bit words is 1 exactly when both are 1, and an "and"-reduction over all axes that is 1
  had a 1 at every entry; so each test holds at each index, and the comparison there reads off as the
  order fact of the extended reals.
-/
import proofs.«170803_j37795712205240_1_alg».proof.Defs
import Idealize.ShloMosaic.Lib.ReduceAll
import Idealize.ShloMosaic.Lib.ValueIdx
import Idealize.ShloMosaic.PureOps.Ideal.Laws

set_option maxRecDepth 16384

noncomputable section

namespace Cert.PreFacts

open Idealize.ShloMosaic Idealize.SL.Sem
open Cert.Pre_finite_inputs

/-- The rank-0 shape has exactly one index (a function out of the empty type). -/
instance : Subsingleton S_.Idx := ⟨fun a b => funext fun d => d.elim0⟩

/-- A one-bit word built from a Boolean is the word 1 only when the Boolean is true. -/
theorem ofBool_one (b : Bool) (h : BitVec.ofBool b = 1#1) : b = true := by
  cases b
  · exact absurd h (by decide)
  · rfl

/-- An extended real whose absolute value max(x, -x) is strictly below +∞ is a real number:
    x = +∞ gives max = +∞, and x = -∞ gives -x = +∞, so both infinities are excluded. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- The ordered comparison "x + k > (the zero word)" being true says 0 < x + k in the extended reals. -/
theorem pos_of_cmp (x k : EReal)
    (h : Ideal.cmp .ogt (x + k) (Ideal.ofBits .f32 0x00000000#32) = 1#1) : (0 : EReal) < x + k := by
  rw [Ideal.ofBits_zero_f32] at h
  have hb := ofBool_one _ h
  simpa using hb

variable (m : (ℓ : Loc Cert.KernelIdeal.nD Cert.KernelIdeal.τ Cert.KernelIdeal.sig) → Buf (Elt Ideal) ℓ)

/-- The entrywise facts at device `c`: every entry of each of the 27 floating arguments is a real number,
    and every entry of arguments 9, 15, 21 and 27 stays positive after adding the constant ε (word 0x3727C5AC). -/
structure ArgFacts (c : Dev Cert.KernelIdeal.nD) : Prop where
  /-- every entry of argument 3 (shape [100000, 128]) is a real number -/
  real_arg3 : ∀ i, ∃ r : ℝ, (m ((c.tc : Thread Cert.KernelIdeal.nD Cert.KernelIdeal.τ).loc Cert.KernelIdeal.main_arg3)) i = (r : EReal)
  /-- every entry of argument 4 (shape [128, 64]) is a real number -/
  real_arg4 : ∀ i, ∃ r : ℝ, (m ((c.tc : Thread Cert.KernelIdeal.nD Cert.KernelIdeal.τ).loc Cert.KernelIdeal.main_arg4)) i = (r : EReal)
  /-- every entry of argument 5 (shape [64]) is a real number -/
  real_arg5 : ∀ i, ∃ r : ℝ, (m ((c.tc : Thread Cert.KernelIdeal.nD Cert.KernelIdeal.τ).loc Cert.KernelIdeal.main_arg5)) i = (r : EReal)
  /-- every entry of argument 6 (shape [64]) is a real number -/
  real_arg6 : ∀ i, ∃ r : ℝ, (m ((c.tc : Thread Cert.KernelIdeal.nD Cert.KernelIdeal.τ).loc Cert.KernelIdeal.main_arg6)) i = (r : EReal)
  /-- every entry of argument 7 (shape [64]) is a real number -/
  real_arg7 : ∀ i, ∃ r : ℝ, (m ((c.tc : Thread Cert.KernelIdeal.nD Cert.KernelIdeal.τ).loc Cert.KernelIdeal.main_arg7)) i = (r : EReal)
  /-- every entry of argument 8 (shape [64]) is a real number -/
  real_arg8 : ∀ i, ∃ r : ℝ, (m ((c.tc : Thread Cert.KernelIdeal.nD Cert.KernelIdeal.τ).loc Cert.KernelIdeal.main_arg8)) i = (r : EReal)
  /-- every entry of argument 9 (shape [64]) is a real number -/
  real_arg9 : ∀ i, ∃ r : ℝ, (m ((c.tc : Thread Cert.KernelIdeal.nD Cert.KernelIdeal.τ).loc Cert.KernelIdeal.main_arg9)) i = (r : EReal)
  /-- every entry of argument 10 (shape [64, 64]) is a real number -/
  real_arg10 : ∀ i, ∃ r : ℝ, (m ((c.tc : Thread Cert.KernelIdeal.nD Cert.KernelIdeal.τ).loc Cert.KernelIdeal.main_arg10)) i = (r : EReal)
  /-- every entry of argument 11 (shape [64]) is a real number -/
  real_arg11 : ∀ i, ∃ r : ℝ, (m ((c.tc : Thread Cert.KernelIdeal.nD Cert.KernelIdeal.τ).loc Cert.KernelIdeal.main_arg11)) i = (r : EReal)
  /-- every entry of argument 12 (shape [64]) is a real number -/
  real_arg12 : ∀ i, ∃ r : ℝ, (m ((c.tc : Thread Cert.KernelIdeal.nD Cert.KernelIdeal.τ).loc Cert.KernelIdeal.main_arg12)) i = (r : EReal)
  /-- every entry of argument 13 (shape [64]) is a real number -/
  real_arg13 : ∀ i, ∃ r : ℝ, (m ((c.tc : Thread Cert.KernelIdeal.nD Cert.KernelIdeal.τ).loc Cert.KernelIdeal.main_arg13)) i = (r : EReal)
  /-- every entry of argument 14 (shape [64]) is a real number -/
  real_arg14 : ∀ i, ∃ r : ℝ, (m ((c.tc : Thread Cert.KernelIdeal.nD Cert.KernelIdeal.τ).loc Cert.KernelIdeal.main_arg14)) i = (r : EReal)
  /-- every entry of argument 15 (shape [64]) is a real number -/
  real_arg15 : ∀ i, ∃ r : ℝ, (m ((c.tc : Thread Cert.KernelIdeal.nD Cert.KernelIdeal.τ).loc Cert.KernelIdeal.main_arg15)) i = (r : EReal)
  /-- every entry of argument 16 (shape [3, 64, 64]) is a real number -/
  real_arg16 : ∀ i, ∃ r : ℝ, (m ((c.tc : Thread Cert.KernelIdeal.nD Cert.KernelIdeal.τ).loc Cert.KernelIdeal.main_arg16)) i = (r : EReal)
  /-- every entry of argument 17 (shape [3, 64]) is a real number -/
  real_arg17 : ∀ i, ∃ r : ℝ, (m ((c.tc : Thread Cert.KernelIdeal.nD Cert.KernelIdeal.τ).loc Cert.KernelIdeal.main_arg17)) i = (r : EReal)
  /-- every entry of argument 18 (shape [3, 64]) is a real number -/
  real_arg18 : ∀ i, ∃ r : ℝ, (m ((c.tc : Thread Cert.KernelIdeal.nD Cert.KernelIdeal.τ).loc Cert.KernelIdeal.main_arg18)) i = (r : EReal)
  /-- every entry of argument 19 (shape [3, 64]) is a real number -/
  real_arg19 : ∀ i, ∃ r : ℝ, (m ((c.tc : Thread Cert.KernelIdeal.nD Cert.KernelIdeal.τ).loc Cert.KernelIdeal.main_arg19)) i = (r : EReal)
  /-- every entry of argument 20 (shape [3, 64]) is a real number -/
  real_arg20 : ∀ i, ∃ r : ℝ, (m ((c.tc : Thread Cert.KernelIdeal.nD Cert.KernelIdeal.τ).loc Cert.KernelIdeal.main_arg20)) i = (r : EReal)
  /-- every entry of argument 21 (shape [3, 64]) is a real number -/
  real_arg21 : ∀ i, ∃ r : ℝ, (m ((c.tc : Thread Cert.KernelIdeal.nD Cert.KernelIdeal.τ).loc Cert.KernelIdeal.main_arg21)) i = (r : EReal)
  /-- every entry of argument 22 (shape [3, 64, 64]) is a real number -/
  real_arg22 : ∀ i, ∃ r : ℝ, (m ((c.tc : Thread Cert.KernelIdeal.nD Cert.KernelIdeal.τ).loc Cert.KernelIdeal.main_arg22)) i = (r : EReal)
  /-- every entry of argument 23 (shape [3, 64]) is a real number -/
  real_arg23 : ∀ i, ∃ r : ℝ, (m ((c.tc : Thread Cert.KernelIdeal.nD Cert.KernelIdeal.τ).loc Cert.KernelIdeal.main_arg23)) i = (r : EReal)
  /-- every entry of argument 24 (shape [3, 64]) is a real number -/
  real_arg24 : ∀ i, ∃ r : ℝ, (m ((c.tc : Thread Cert.KernelIdeal.nD Cert.KernelIdeal.τ).loc Cert.KernelIdeal.main_arg24)) i = (r : EReal)
  /-- every entry of argument 25 (shape [3, 64]) is a real number -/
  real_arg25 : ∀ i, ∃ r : ℝ, (m ((c.tc : Thread Cert.KernelIdeal.nD Cert.KernelIdeal.τ).loc Cert.KernelIdeal.main_arg25)) i = (r : EReal)
  /-- every entry of argument 26 (shape [3, 64]) is a real number -/
  real_arg26 : ∀ i, ∃ r : ℝ, (m ((c.tc : Thread Cert.KernelIdeal.nD Cert.KernelIdeal.τ).loc Cert.KernelIdeal.main_arg26)) i = (r : EReal)
  /-- every entry of argument 27 (shape [3, 64]) is a real number -/
  real_arg27 : ∀ i, ∃ r : ℝ, (m ((c.tc : Thread Cert.KernelIdeal.nD Cert.KernelIdeal.τ).loc Cert.KernelIdeal.main_arg27)) i = (r : EReal)
  /-- every entry of argument 28 (shape [4, 64, 2]) is a real number -/
  real_arg28 : ∀ i, ∃ r : ℝ, (m ((c.tc : Thread Cert.KernelIdeal.nD Cert.KernelIdeal.τ).loc Cert.KernelIdeal.main_arg28)) i = (r : EReal)
  /-- every entry of argument 29 (shape [4, 2]) is a real number -/
  real_arg29 : ∀ i, ∃ r : ℝ, (m ((c.tc : Thread Cert.KernelIdeal.nD Cert.KernelIdeal.τ).loc Cert.KernelIdeal.main_arg29)) i = (r : EReal)
  /-- every entry of argument 9 (shape [64]) plus ε is positive -/
  pos_arg9 : ∀ i, (0 : EReal) < @HAdd.hAdd EReal EReal EReal instHAdd ((m ((c.tc : Thread Cert.KernelIdeal.nD Cert.KernelIdeal.τ).loc Cert.KernelIdeal.main_arg9)) i) (Ideal.ofBits .f32 0x3727C5AC#32)
  /-- every entry of argument 15 (shape [64]) plus ε is positive -/
  pos_arg15 : ∀ i, (0 : EReal) < @HAdd.hAdd EReal EReal EReal instHAdd ((m ((c.tc : Thread Cert.KernelIdeal.nD Cert.KernelIdeal.τ).loc Cert.KernelIdeal.main_arg15)) i) (Ideal.ofBits .f32 0x3727C5AC#32)
  /-- every entry of argument 21 (shape [3, 64]) plus ε is positive -/
  pos_arg21 : ∀ i, (0 : EReal) < @HAdd.hAdd EReal EReal EReal instHAdd ((m ((c.tc : Thread Cert.KernelIdeal.nD Cert.KernelIdeal.τ).loc Cert.KernelIdeal.main_arg21)) i) (Ideal.ofBits .f32 0x3727C5AC#32)
  /-- every entry of argument 27 (shape [3, 64]) plus ε is positive -/
  pos_arg27 : ∀ i, (0 : EReal) < @HAdd.hAdd EReal EReal EReal instHAdd ((m ((c.tc : Thread Cert.KernelIdeal.nD Cert.KernelIdeal.τ).loc Cert.KernelIdeal.main_arg27)) i) (Ideal.ofBits .f32 0x3727C5AC#32)

variable [hF : Cert.Pre_finite_inputs.Facts]

/-- The precondition, all ones on every device, gives the entrywise facts on each device: take its one index,
    split the 31-fold conjunction, and read each all-axes "and"-reduction back at an arbitrary entry. -/
theorem of_pre (h : Cert.Pre_KernelIdeal m) (c : Dev Cert.KernelIdeal.nD) : ArgFacts m c := by
  have e := congrFun (h c) ValueIdx.ix0
  dsimp only [fn, fn_part1, fn_part2, fn_part3, fn_part4, fn_part5, fn_part6, fn_part7, fn_part8, fn_part9] at e
  simp only [andi, IntOp.andi_eq_one] at e
  obtain ⟨⟨⟨⟨⟨⟨⟨⟨⟨⟨⟨⟨⟨⟨⟨⟨⟨⟨⟨⟨⟨⟨⟨⟨⟨⟨⟨⟨⟨⟨e3, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩, e26⟩, e27⟩, e28⟩, e29⟩, p9⟩, p15⟩, p21⟩, p27⟩ := e
  exact {
    real_arg3 := fun i => real_of_abs_lt _ (Host.reduce_andi_all _ _ _ _ _ e3 i)
    real_arg4 := fun i => real_of_abs_lt _ (Host.reduce_andi_all _ _ _ _ _ e4 i)
    real_arg5 := fun i => real_of_abs_lt _ (Host.reduce_andi_all _ _ _ _ _ e5 i)
    real_arg6 := fun i => real_of_abs_lt _ (Host.reduce_andi_all _ _ _ _ _ e6 i)
    real_arg7 := fun i => real_of_abs_lt _ (Host.reduce_andi_all _ _ _ _ _ e7 i)
    real_arg8 := fun i => real_of_abs_lt _ (Host.reduce_andi_all _ _ _ _ _ e8 i)
    real_arg9 := fun i => real_of_abs_lt _ (Host.reduce_andi_all _ _ _ _ _ e9 i)
    real_arg10 := fun i => real_of_abs_lt _ (Host.reduce_andi_all _ _ _ _ _ e10 i)
    real_arg11 := fun i => real_of_abs_lt _ (Host.reduce_andi_all _ _ _ _ _ e11 i)
    real_arg12 := fun i => real_of_abs_lt _ (Host.reduce_andi_all _ _ _ _ _ e12 i)
    real_arg13 := fun i => real_of_abs_lt _ (Host.reduce_andi_all _ _ _ _ _ e13 i)
    real_arg14 := fun i => real_of_abs_lt _ (Host.reduce_andi_all _ _ _ _ _ e14 i)
    real_arg15 := fun i => real_of_abs_lt _ (Host.reduce_andi_all _ _ _ _ _ e15 i)
    real_arg16 := fun i => real_of_abs_lt _ (Host.reduce_andi_all _ _ _ _ _ e16 i)
    real_arg17 := fun i => real_of_abs_lt _ (Host.reduce_andi_all _ _ _ _ _ e17 i)
    real_arg18 := fun i => real_of_abs_lt _ (Host.reduce_andi_all _ _ _ _ _ e18 i)
    real_arg19 := fun i => real_of_abs_lt _ (Host.reduce_andi_all _ _ _ _ _ e19 i)
    real_arg20 := fun i => real_of_abs_lt _ (Host.reduce_andi_all _ _ _ _ _ e20 i)
    real_arg21 := fun i => real_of_abs_lt _ (Host.reduce_andi_all _ _ _ _ _ e21 i)
    real_arg22 := fun i => real_of_abs_lt _ (Host.reduce_andi_all _ _ _ _ _ e22 i)
    real_arg23 := fun i => real_of_abs_lt _ (Host.reduce_andi_all _ _ _ _ _ e23 i)
    real_arg24 := fun i => real_of_abs_lt _ (Host.reduce_andi_all _ _ _ _ _ e24 i)
    real_arg25 := fun i => real_of_abs_lt _ (Host.reduce_andi_all _ _ _ _ _ e25 i)
    real_arg26 := fun i => real_of_abs_lt _ (Host.reduce_andi_all _ _ _ _ _ e26 i)
    real_arg27 := fun i => real_of_abs_lt _ (Host.reduce_andi_all _ _ _ _ _ e27 i)
    real_arg28 := fun i => real_of_abs_lt _ (Host.reduce_andi_all _ _ _ _ _ e28 i)
    real_arg29 := fun i => real_of_abs_lt _ (Host.reduce_andi_all _ _ _ _ _ e29 i)
    pos_arg9 := fun i => pos_of_cmp _ _ (Host.reduce_andi_all _ _ _ _ _ p9 i)
    pos_arg15 := fun i => pos_of_cmp _ _ (Host.reduce_andi_all _ _ _ _ _ p15 i)
    pos_arg21 := fun i => pos_of_cmp _ _ (Host.reduce_andi_all _ _ _ _ _ p21 i)
    pos_arg27 := fun i => pos_of_cmp _ _ (Host.reduce_andi_all _ _ _ _ _ p27 i) }

end Cert.PreFacts

end
-- ==== Proof.PayloadAt.lean ====
/-
  The kernel bodies' arithmetic read at one entry. Each body is two dense layers: a block of rows times a weight matrix,
  plus a bias row, clipped below at zero, twice. A change of float format is the identity on the extended reals, and a
  matrix product into a zero accumulator is the plain sum over the contracted index, so entry (p, q) of what a body
  stores is  max (Σ_k max (Σ_l x(p,l)·W1(l,k) + b1(k)) 0 · W2(k,q) + b2(q)) 0 ,  with x replaced by the sum of the two
  row blocks in the bodies that add an aggregate first.
-/
import proofs.«170803_j37795712205240_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.PayloadAt

open Idealize.ShloMosaic Idealize.ShloMosaic.ValueIdx Cert.KernelIdeal Cert.KernelIdeal.Gen
open scoped BigOperators

theorem lhsA_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000,128] block times a [128,64] matrix into a zero accumulator, at entry (p, q): the sum over the 128 columns. -/
theorem mm128 (a : FVec Ideal S5000x128 .bf16) (b : FVec Ideal S128x64 .bf16) (p : Fin 5000) (q : Fin 64) :
    FloatOps.matmul dot_S5000x128_S128x64_S5000x64_1_0_0_1_n_n none a b (constant S5000x64 .f32 0x00000000#32) (ix2 p q)
      = ∑ l : Fin 128, a (ix2 p l) * b (ix2 l q) := by
  rw [Ideal.matmul_constant_zero_apply, ← Equiv.sum_comp (ValueIdx.contrEquiv1 dot_S5000x128_S128x64_S5000x64_1_0_0_1_n_n 128 rfl rfl).symm]
  refine Finset.sum_congr rfl fun l _ => ?_
  have hk := ValueIdx.contrEquiv1_symm_val dot_S5000x128_S128x64_S5000x64_1_0_0_1_n_n 128 rfl rfl l
  have el : dot_S5000x128_S128x64_S5000x64_1_0_0_1_n_n.lhsIdx (ix2 p q) ((ValueIdx.contrEquiv1 dot_S5000x128_S128x64_S5000x64_1_0_0_1_n_n 128 rfl rfl).symm l) = ix2 p l :=
    funext fun a => Fin.ext (by
      match a with
      | ⟨0, _⟩ => exact lhsA_0 _ _
      | ⟨1, _⟩ => exact (lhsA_1 _ _).trans hk)
  have er : dot_S5000x128_S128x64_S5000x64_1_0_0_1_n_n.rhsIdx (ix2 p q) ((ValueIdx.contrEquiv1 dot_S5000x128_S128x64_S5000x64_1_0_0_1_n_n 128 rfl rfl).symm l) = ix2 l q :=
    funext fun a => Fin.ext (by
      match a with
      | ⟨0, _⟩ => exact (rhsA_0 _ _).trans hk
      | ⟨1, _⟩ => exact rhsA_1 _ _)
  rw [el, er]

theorem lhsB_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] block times a [64,64] matrix into a zero accumulator, at entry (p, q): the sum over the 64 columns. -/
theorem mm64 (a : FVec Ideal S5000x64 .bf16) (b : FVec Ideal S64x64 .bf16) (p : Fin 5000) (q : Fin 64) :
    FloatOps.matmul dot_S5000x64_S64x64_S5000x64_1_0_0_1_n_n none a b (constant S5000x64 .f32 0x00000000#32) (ix2 p q)
      = ∑ l : Fin 64, a (ix2 p l) * b (ix2 l q) := by
  rw [Ideal.matmul_constant_zero_apply, ← Equiv.sum_comp (ValueIdx.contrEquiv1 dot_S5000x64_S64x64_S5000x64_1_0_0_1_n_n 64 rfl rfl).symm]
  refine Finset.sum_congr rfl fun l _ => ?_
  have hk := ValueIdx.contrEquiv1_symm_val dot_S5000x64_S64x64_S5000x64_1_0_0_1_n_n 64 rfl rfl l
  have el : dot_S5000x64_S64x64_S5000x64_1_0_0_1_n_n.lhsIdx (ix2 p q) ((ValueIdx.contrEquiv1 dot_S5000x64_S64x64_S5000x64_1_0_0_1_n_n 64 rfl rfl).symm l) = ix2 p l :=
    funext fun a => Fin.ext (by
      match a with
      | ⟨0, _⟩ => exact lhsB_0 _ _
      | ⟨1, _⟩ => exact (lhsB_1 _ _).trans hk)
  have er : dot_S5000x64_S64x64_S5000x64_1_0_0_1_n_n.rhsIdx (ix2 p q) ((ValueIdx.contrEquiv1 dot_S5000x64_S64x64_S5000x64_1_0_0_1_n_n 64 rfl rfl).symm l) = ix2 l q :=
    funext fun a => Fin.ext (by
      match a with
      | ⟨0, _⟩ => exact (rhsB_0 _ _).trans hk
      | ⟨1, _⟩ => exact rhsB_1 _ _)
  rw [el, er]

/-- A bias vector [64], seen as a row [1,64] and spread over 5000 rows, at entry (p, q): its entry q. -/
theorem biasRow (b : FVec Ideal S64 .f32) (p : Fin 5000) (q : Fin 64) :
    broadcastTo S5000x64 (shapeCast S1x64 (shapeCast S64 b shapeCasts_S64_S64) shapeCasts_S64_S1x64) broadcasts_S1x64_S5000x64 (ix2 p q) = b (ix1 q) := by
  rw [broadcastTo_1b_ab_apply, shapeCast_a_1a_apply, shapeCast_self]

/-- The first body at entry (p, q): two dense layers, each clipped below at zero. -/
theorem k0_at (x0 : Vec Ideal S5000x128 .f32) (x1 : Vec Ideal S128x64 .f32) (x2 : Vec Ideal S64 .f32) (x3 : Vec Ideal S64x64 .f32) (x4 : Vec Ideal S64 .f32) (p : Fin 5000) (q : Fin 64) :
    k0_pay1 (F := Ideal) x0 x1 x2 x3 x4 (ix2 p q)
      = max ((∑ k : Fin 64, max ((∑ l : Fin 128, x0 (ix2 p l) * x1 (ix2 l k)) + x2 (ix1 k)) 0 * x3 (ix2 k q)) + x4 (ix1 q)) 0 := by
  unfold k0_pay1
  show max ((FloatOps.matmul (F := Ideal) dot_S5000x64_S64x64_S5000x64_1_0_0_1_n_n none _ _ (constant S5000x64 .f32 0x00000000#32) (ix2 p q) : EReal)
      + (broadcastTo S5000x64 (shapeCast S1x64 (shapeCast S64 x4 shapeCasts_S64_S64) shapeCasts_S64_S1x64) broadcasts_S1x64_S5000x64 (ix2 p q) : EReal))
      (Ideal.ofBits .f32 0x00000000#32) = _
  rw [mm64, biasRow, Ideal.ofBits_zero_f32]
  refine congrArg (fun z => max (z + x4 (ix1 q)) 0) (Finset.sum_congr rfl fun k _ => ?_)
  show max ((FloatOps.matmul (F := Ideal) dot_S5000x128_S128x64_S5000x64_1_0_0_1_n_n none _ _ (constant S5000x64 .f32 0x00000000#32) (ix2 p k) : EReal)
      + (broadcastTo S5000x64 (shapeCast S1x64 (shapeCast S64 x2 shapeCasts_S64_S64) shapeCasts_S64_S1x64) broadcasts_S1x64_S5000x64 (ix2 p k) : EReal))
      (Ideal.ofBits .f32 0x00000000#32) * (shapeCast S64x64 x3 shapeCasts_S64x64_S64x64 (ix2 k q) : EReal) = _
  rw [mm128, biasRow, Ideal.ofBits_zero_f32]
  simp only [shapeCast_self]
  rfl

/-- A body that first adds the aggregate: the same two layers, the first applied to the sum of the two row blocks. -/
theorem k1_at (x0 x1 : Vec Ideal S5000x64 .f32) (w1 : Vec Ideal S64x64 .f32) (b1 : Vec Ideal S64 .f32) (w2 : Vec Ideal S64x64 .f32) (b2 : Vec Ideal S64 .f32) (p : Fin 5000) (q : Fin 64) :
    k1_pay1 (F := Ideal) x0 x1 w1 b1 w2 b2 (ix2 p q)
      = max ((∑ k : Fin 64, max ((∑ l : Fin 64, (x0 (ix2 p l) + x1 (ix2 p l)) * w1 (ix2 l k)) + b1 (ix1 k)) 0 * w2 (ix2 k q)) + b2 (ix1 q)) 0 := by
  unfold k1_pay1
  show max ((FloatOps.matmul (F := Ideal) dot_S5000x64_S64x64_S5000x64_1_0_0_1_n_n none _ _ (constant S5000x64 .f32 0x00000000#32) (ix2 p q) : EReal)
      + (broadcastTo S5000x64 (shapeCast S1x64 (shapeCast S64 b2 shapeCasts_S64_S64) shapeCasts_S64_S1x64) broadcasts_S1x64_S5000x64 (ix2 p q) : EReal))
      (Ideal.ofBits .f32 0x00000000#32) = _
  rw [mm64, biasRow, Ideal.ofBits_zero_f32]
  refine congrArg (fun z => max (z + b2 (ix1 q)) 0) (Finset.sum_congr rfl fun k _ => ?_)
  show max ((FloatOps.matmul (F := Ideal) dot_S5000x64_S64x64_S5000x64_1_0_0_1_n_n none _ _ (constant S5000x64 .f32 0x00000000#32) (ix2 p k) : EReal)
      + (broadcastTo S5000x64 (shapeCast S1x64 (shapeCast S64 b1 shapeCasts_S64_S64) shapeCasts_S64_S1x64) broadcasts_S1x64_S5000x64 (ix2 p k) : EReal))
      (Ideal.ofBits .f32 0x00000000#32) * (shapeCast S64x64 w2 shapeCasts_S64x64_S64x64 (ix2 k q) : EReal) = _
  rw [mm64, biasRow, Ideal.ofBits_zero_f32]
  simp only [shapeCast_self]
  rfl

/-- A body that first adds the aggregate: the same two layers, the first applied to the sum of the two row blocks. -/
theorem k2_at (x0 x1 : Vec Ideal S5000x64 .f32) (w1 : Vec Ideal S64x64 .f32) (b1 : Vec Ideal S64 .f32) (w2 : Vec Ideal S64x64 .f32) (b2 : Vec Ideal S64 .f32) (p : Fin 5000) (q : Fin 64) :
    k2_pay1 (F := Ideal) x0 x1 w1 b1 w2 b2 (ix2 p q)
      = max ((∑ k : Fin 64, max ((∑ l : Fin 64, (x0 (ix2 p l) + x1 (ix2 p l)) * w1 (ix2 l k)) + b1 (ix1 k)) 0 * w2 (ix2 k q)) + b2 (ix1 q)) 0 := by
  unfold k2_pay1
  show max ((FloatOps.matmul (F := Ideal) dot_S5000x64_S64x64_S5000x64_1_0_0_1_n_n none _ _ (constant S5000x64 .f32 0x00000000#32) (ix2 p q) : EReal)
      + (broadcastTo S5000x64 (shapeCast S1x64 (shapeCast S64 b2 shapeCasts_S64_S64) shapeCasts_S64_S1x64) broadcasts_S1x64_S5000x64 (ix2 p q) : EReal))
      (Ideal.ofBits .f32 0x00000000#32) = _
  rw [mm64, biasRow, Ideal.ofBits_zero_f32]
  refine congrArg (fun z => max (z + b2 (ix1 q)) 0) (Finset.sum_congr rfl fun k _ => ?_)
  show max ((FloatOps.matmul (F := Ideal) dot_S5000x64_S64x64_S5000x64_1_0_0_1_n_n none _ _ (constant S5000x64 .f32 0x00000000#32) (ix2 p k) : EReal)
      + (broadcastTo S5000x64 (shapeCast S1x64 (shapeCast S64 b1 shapeCasts_S64_S64) shapeCasts_S64_S1x64) broadcasts_S1x64_S5000x64 (ix2 p k) : EReal))
      (Ideal.ofBits .f32 0x00000000#32) * (shapeCast S64x64 w2 shapeCasts_S64x64_S64x64 (ix2 k q) : EReal) = _
  rw [mm64, biasRow, Ideal.ofBits_zero_f32]
  simp only [shapeCast_self]
  rfl

/-- A body that first adds the aggregate: the same two layers, the first applied to the sum of the two row blocks. -/
theorem k3_at (x0 x1 : Vec Ideal S5000x64 .f32) (w1 : Vec Ideal S64x64 .f32) (b1 : Vec Ideal S64 .f32) (w2 : Vec Ideal S64x64 .f32) (b2 : Vec Ideal S64 .f32) (p : Fin 5000) (q : Fin 64) :
    k3_pay1 (F := Ideal) x0 x1 w1 b1 w2 b2 (ix2 p q)
      = max ((∑ k : Fin 64, max ((∑ l : Fin 64, (x0 (ix2 p l) + x1 (ix2 p l)) * w1 (ix2 l k)) + b1 (ix1 k)) 0 * w2 (ix2 k q)) + b2 (ix1 q)) 0 := by
  unfold k3_pay1
  show max ((FloatOps.matmul (F := Ideal) dot_S5000x64_S64x64_S5000x64_1_0_0_1_n_n none _ _ (constant S5000x64 .f32 0x00000000#32) (ix2 p q) : EReal)
      + (broadcastTo S5000x64 (shapeCast S1x64 (shapeCast S64 b2 shapeCasts_S64_S64) shapeCasts_S64_S1x64) broadcasts_S1x64_S5000x64 (ix2 p q) : EReal))
      (Ideal.ofBits .f32 0x00000000#32) = _
  rw [mm64, biasRow, Ideal.ofBits_zero_f32]
  refine congrArg (fun z => max (z + b2 (ix1 q)) 0) (Finset.sum_congr rfl fun k _ => ?_)
  show max ((FloatOps.matmul (F := Ideal) dot_S5000x64_S64x64_S5000x64_1_0_0_1_n_n none _ _ (constant S5000x64 .f32 0x00000000#32) (ix2 p k) : EReal)
      + (broadcastTo S5000x64 (shapeCast S1x64 (shapeCast S64 b1 shapeCasts_S64_S64) shapeCasts_S64_S1x64) broadcasts_S1x64_S5000x64 (ix2 p k) : EReal))
      (Ideal.ofBits .f32 0x00000000#32) * (shapeCast S64x64 w2 shapeCasts_S64x64_S64x64 (ix2 k q) : EReal) = _
  rw [mm64, biasRow, Ideal.ofBits_zero_f32]
  simp only [shapeCast_self]
  rfl

/-! ## The regions' whole-array functions and the folded parameters -/

/-- A row vector [64] spread down 128 rows. -/
abbrev bc128 (s : FVec Ideal S64 .f32) : FVec Ideal S128x64 .f32 :=
  broadcastInDim S128x64 ![0, 1] bcast_S1x64_S128x64_0_1 (broadcastInDim S1x64 ![1] bcast_S64_S1x64_1 s)
/-- A row vector [64] spread down 64 rows. -/
abbrev bc64 (s : FVec Ideal S64 .f32) : FVec Ideal S64x64 .f32 :=
  broadcastInDim S64x64 ![0, 1] bcast_S1x64_S64x64_0_1 (broadcastInDim S1x64 ![1] bcast_S64_S1x64_1 s)
/-- A bias with the normalisation folded in: b·s + (bt − m·s). -/
abbrev foldB (b bt mu s : FVec Ideal S64 .f32) : FVec Ideal S64 .f32 := addf (mulf b s) (subf bt (mulf mu s))

/-- Entry (l, k) of a row vector spread down 128 rows is its entry k. -/
theorem bc128_at (s : FVec Ideal S64 .f32) (l : Fin 128) (k : Fin 64) : bc128 s (ix2 l k) = s (ix1 k) := by
  unfold bc128
  rw [broadcastInDim_apply _ bcast_S1x64_S128x64_0_1 _ (ix2 l k) (ix2 (0 : Fin 1) k) (fun a => match a with
    | ⟨0, _⟩ => by show 0 = if (1 : Nat) = 1 then 0 else l.val; rw [if_pos rfl]
    | ⟨1, _⟩ => by show k.val = if (64 : Nat) = 1 then 0 else k.val; rw [if_neg (by decide)])]
  exact broadcastInDim_apply _ bcast_S64_S1x64_1 s (ix2 (0 : Fin 1) k) (ix1 k) (fun a => match a with
    | ⟨0, _⟩ => by show k.val = if (64 : Nat) = 1 then 0 else k.val; rw [if_neg (by decide)])

/-- Entry (l, k) of a row vector spread down 64 rows is its entry k. -/
theorem bc64_at (s : FVec Ideal S64 .f32) (l : Fin 64) (k : Fin 64) : bc64 s (ix2 l k) = s (ix1 k) := by
  unfold bc64
  rw [broadcastInDim_apply _ bcast_S1x64_S64x64_0_1 _ (ix2 l k) (ix2 (0 : Fin 1) k) (fun a => match a with
    | ⟨0, _⟩ => by show 0 = if (1 : Nat) = 1 then 0 else l.val; rw [if_pos rfl]
    | ⟨1, _⟩ => by show k.val = if (64 : Nat) = 1 then 0 else k.val; rw [if_neg (by decide)])]
  exact broadcastInDim_apply _ bcast_S64_S1x64_1 s (ix2 (0 : Fin 1) k) (ix1 k) (fun a => match a with
    | ⟨0, _⟩ => by show k.val = if (64 : Nat) = 1 then 0 else k.val; rw [if_neg (by decide)])

/-- Two dense layers, each clipped below at zero, of row `i 0` of `X`, read at column `i 1`. -/
def G0 (X : S100000x128.Idx → EReal) (W1 : S128x64.Idx → EReal) (b1 : S64.Idx → EReal) (W2 : S64x64.Idx → EReal) (b2 : S64.Idx → EReal) : S100000x64.Idx → EReal :=
  fun i => max ((∑ k : Fin 64, max ((∑ l : Fin 128, X (ix2 ⟨(i 0).val, (i 0).isLt⟩ l) * W1 (ix2 l k)) + b1 (ix1 k)) 0 * W2 (ix2 k ⟨(i 1).val, (i 1).isLt⟩)) + b2 (ix1 ⟨(i 1).val, (i 1).isLt⟩)) 0

/-- Two dense layers, each clipped below at zero, of row `i 0` of `X + A`, read at column `i 1`. -/
def Gc (X A : S100000x64.Idx → EReal) (W1 : S64x64.Idx → EReal) (b1 : S64.Idx → EReal) (W2 : S64x64.Idx → EReal) (b2 : S64.Idx → EReal) : S100000x64.Idx → EReal :=
  fun i => max ((∑ k : Fin 64, max ((∑ l : Fin 64, (X (ix2 ⟨(i 0).val, (i 0).isLt⟩ l) + A (ix2 ⟨(i 0).val, (i 0).isLt⟩ l)) * W1 (ix2 l k)) + b1 (ix1 k)) 0 * W2 (ix2 k ⟨(i 1).val, (i 1).isLt⟩)) + b2 (ix1 ⟨(i 1).val, (i 1).isLt⟩)) 0

end Cert.KernelIdeal.PayloadAt

end
-- ==== Proof.Chain1.lean ====
/-
  The buffers the first region finds, after the first stretch of host operations: the gathered embedding rows, and the
  two layers' weights and biases with the normalisation folded in — weights W·s, bias b·s + (bt − m·s), where
  s = g / sqrt(v + eps) is the reference's own scale —, each written with the reference program's stage functions; the
  edge endpoints, and the arguments later stretches read, which no operation writes.
-/
import proofs.«170803_j37795712205240_1_alg».proof.Proof.Gen.KernelIdeal.Frame
import proofs.«170803_j37795712205240_1_alg».proof.Proof.ReadP
import proofs.«170803_j37795712205240_1_alg».proof.Proof.PayloadAt
import Idealize.ShloMosaic.Lib.StableHlo.Run

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)

theorem w1_v10 : W1 m ρ c (Proc.devRef .tc main_v10) = (Cert.ReferenceIdeal.ReadP.val_main_v10 (F := Ideal) (m ((c.tc : Thread nD τ).loc main_arg0)) (m ((c.tc : Thread nD τ).loc main_arg3))) := by
  show StableHlo.after hostOps0 _ (Proc.devRef .tc main_v10) = _
  simp only [hostOps0]
  after_results_simp
  all_goals rfl

theorem w1_v19 : W1 m ρ c (Proc.devRef .tc main_v19) = mulf (m ((c.tc : Thread nD τ).loc main_arg4)) (bc128 (Cert.ReferenceIdeal.ReadP.val_main_v21 (F := Ideal) (m ((c.tc : Thread nD τ).loc main_arg6)) (m ((c.tc : Thread nD τ).loc main_arg9)))) := by
  show StableHlo.after hostOps0 _ (Proc.devRef .tc main_v19) = _
  simp only [hostOps0]
  after_results_simp
  all_goals rfl

theorem w1_v21 : W1 m ρ c (Proc.devRef .tc main_v21) = foldB (m ((c.tc : Thread nD τ).loc main_arg5)) (m ((c.tc : Thread nD τ).loc main_arg7)) (m ((c.tc : Thread nD τ).loc main_arg8)) (Cert.ReferenceIdeal.ReadP.val_main_v21 (F := Ideal) (m ((c.tc : Thread nD τ).loc main_arg6)) (m ((c.tc : Thread nD τ).loc main_arg9))) := by
  show StableHlo.after hostOps0 _ (Proc.devRef .tc main_v21) = _
  simp only [hostOps0]
  after_results_simp
  all_goals rfl

theorem w1_v30 : W1 m ρ c (Proc.devRef .tc main_v30) = mulf (m ((c.tc : Thread nD τ).loc main_arg10)) (bc64 (Cert.ReferenceIdeal.ReadP.val_main_v39 (F := Ideal) (m ((c.tc : Thread nD τ).loc main_arg12)) (m ((c.tc : Thread nD τ).loc main_arg15)))) := by
  show StableHlo.after hostOps0 _ (Proc.devRef .tc main_v30) = _
  simp only [hostOps0]
  after_results_simp
  all_goals rfl

theorem w1_v32 : W1 m ρ c (Proc.devRef .tc main_v32) = foldB (m ((c.tc : Thread nD τ).loc main_arg11)) (m ((c.tc : Thread nD τ).loc main_arg13)) (m ((c.tc : Thread nD τ).loc main_arg14)) (Cert.ReferenceIdeal.ReadP.val_main_v39 (F := Ideal) (m ((c.tc : Thread nD τ).loc main_arg12)) (m ((c.tc : Thread nD τ).loc main_arg15))) := by
  show StableHlo.after hostOps0 _ (Proc.devRef .tc main_v32) = _
  simp only [hostOps0]
  after_results_simp
  all_goals rfl

theorem w1_v1 : W1 m ρ c (Proc.devRef .tc main_v1) = (Cert.ReferenceIdeal.ReadP.val_main_v1 (F := Ideal) (m ((c.tc : Thread nD τ).loc main_arg1))) := by
  show StableHlo.after hostOps0 _ (Proc.devRef .tc main_v1) = _
  simp only [hostOps0]
  after_results_simp
  all_goals rfl

theorem w1_v3 : W1 m ρ c (Proc.devRef .tc main_v3) = (Cert.ReferenceIdeal.ReadP.val_main_v3 (F := Ideal) (m ((c.tc : Thread nD τ).loc main_arg1))) := by
  show StableHlo.after hostOps0 _ (Proc.devRef .tc main_v3) = _
  simp only [hostOps0]
  after_results_simp
  all_goals rfl

theorem w1_arg2 : W1 m ρ c (Proc.devRef .tc main_arg2) = (m ((c.tc : Thread nD τ).loc main_arg2)) := by
  show StableHlo.after hostOps0 _ (Proc.devRef .tc main_arg2) = _
  simp only [hostOps0]
  after_results_simp
  all_goals rfl

theorem w1_arg16 : W1 m ρ c (Proc.devRef .tc main_arg16) = (m ((c.tc : Thread nD τ).loc main_arg16)) := by
  show StableHlo.after hostOps0 _ (Proc.devRef .tc main_arg16) = _
  simp only [hostOps0]
  after_results_simp
  all_goals rfl

theorem w1_arg17 : W1 m ρ c (Proc.devRef .tc main_arg17) = (m ((c.tc : Thread nD τ).loc main_arg17)) := by
  show StableHlo.after hostOps0 _ (Proc.devRef .tc main_arg17) = _
  simp only [hostOps0]
  after_results_simp
  all_goals rfl

theorem w1_arg18 : W1 m ρ c (Proc.devRef .tc main_arg18) = (m ((c.tc : Thread nD τ).loc main_arg18)) := by
  show StableHlo.after hostOps0 _ (Proc.devRef .tc main_arg18) = _
  simp only [hostOps0]
  after_results_simp
  all_goals rfl

theorem w1_arg19 : W1 m ρ c (Proc.devRef .tc main_arg19) = (m ((c.tc : Thread nD τ).loc main_arg19)) := by
  show StableHlo.after hostOps0 _ (Proc.devRef .tc main_arg19) = _
  simp only [hostOps0]
  after_results_simp
  all_goals rfl

theorem w1_arg20 : W1 m ρ c (Proc.devRef .tc main_arg20) = (m ((c.tc : Thread nD τ).loc main_arg20)) := by
  show StableHlo.after hostOps0 _ (Proc.devRef .tc main_arg20) = _
  simp only [hostOps0]
  after_results_simp
  all_goals rfl

theorem w1_arg21 : W1 m ρ c (Proc.devRef .tc main_arg21) = (m ((c.tc : Thread nD τ).loc main_arg21)) := by
  show StableHlo.after hostOps0 _ (Proc.devRef .tc main_arg21) = _
  simp only [hostOps0]
  after_results_simp
  all_goals rfl

theorem w1_arg22 : W1 m ρ c (Proc.devRef .tc main_arg22) = (m ((c.tc : Thread nD τ).loc main_arg22)) := by
  show StableHlo.after hostOps0 _ (Proc.devRef .tc main_arg22) = _
  simp only [hostOps0]
  after_results_simp
  all_goals rfl

theorem w1_arg23 : W1 m ρ c (Proc.devRef .tc main_arg23) = (m ((c.tc : Thread nD τ).loc main_arg23)) := by
  show StableHlo.after hostOps0 _ (Proc.devRef .tc main_arg23) = _
  simp only [hostOps0]
  after_results_simp
  all_goals rfl

theorem w1_arg24 : W1 m ρ c (Proc.devRef .tc main_arg24) = (m ((c.tc : Thread nD τ).loc main_arg24)) := by
  show StableHlo.after hostOps0 _ (Proc.devRef .tc main_arg24) = _
  simp only [hostOps0]
  after_results_simp
  all_goals rfl

theorem w1_arg25 : W1 m ρ c (Proc.devRef .tc main_arg25) = (m ((c.tc : Thread nD τ).loc main_arg25)) := by
  show StableHlo.after hostOps0 _ (Proc.devRef .tc main_arg25) = _
  simp only [hostOps0]
  after_results_simp
  all_goals rfl

theorem w1_arg26 : W1 m ρ c (Proc.devRef .tc main_arg26) = (m ((c.tc : Thread nD τ).loc main_arg26)) := by
  show StableHlo.after hostOps0 _ (Proc.devRef .tc main_arg26) = _
  simp only [hostOps0]
  after_results_simp
  all_goals rfl

theorem w1_arg27 : W1 m ρ c (Proc.devRef .tc main_arg27) = (m ((c.tc : Thread nD τ).loc main_arg27)) := by
  show StableHlo.after hostOps0 _ (Proc.devRef .tc main_arg27) = _
  simp only [hostOps0]
  after_results_simp
  all_goals rfl

theorem w1_arg28 : W1 m ρ c (Proc.devRef .tc main_arg28) = (m ((c.tc : Thread nD τ).loc main_arg28)) := by
  show StableHlo.after hostOps0 _ (Proc.devRef .tc main_arg28) = _
  simp only [hostOps0]
  after_results_simp
  all_goals rfl

theorem w1_arg29 : W1 m ρ c (Proc.devRef .tc main_arg29) = (m ((c.tc : Thread nD τ).loc main_arg29)) := by
  show StableHlo.after hostOps0 _ (Proc.devRef .tc main_arg29) = _
  simp only [hostOps0]
  after_results_simp
  all_goals rfl

end Cert.KernelIdeal.Chain
end
-- ==== Proof.Region0.lean ====
/-
  The first kernel region as one function of the arrays it reads. The grid has twenty points; point t reads rows
  5000 t … 5000 t + 4999 of the gathered input and the whole of the two weight matrices and two bias rows, and writes the
  same rows of the output. Entry (r, j) of the output array after the region is therefore the two dense layers applied to
  row r of the input: max (Σ_k max (Σ_l X(r,l)·W1(l,k) + b1(k)) 0 · W2(k,j) + b2(j)) 0, the row blocks tiling the array.
-/
import proofs.«170803_j37795712205240_1_alg».proof.Proof.Gen.KernelIdeal.Frame
import proofs.«170803_j37795712205240_1_alg».proof.Proof.PayloadAt
import Idealize.ShloMosaic.Lib.Pipeline.Value
import Idealize.ShloMosaic.Lib.ValueIdx

set_option maxRecDepth 16384
noncomputable section
namespace Cert.KernelIdeal.Region0
open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the input's and the output's row blocks move together, block t at point t; the weight
    and bias windows stay at block zero. -/
theorem idx_facts : ∀ t : Fin cfg0.N, win0_0.index t (0 : Fin 2) = win0_5.index t (0 : Fin 2) ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (1 : Fin 2) = 0 ∧ win0_5.index t (0 : Fin 2) = t.val :=
  (by decide +kernel : ∀ t : Fin grid0.N, _)

theorem row_lt (t : Fin cfg0.N) (p : Fin 5000) : t.val * 5000 + p.val < 100000 := by
  have := t.isLt; have h : cfg0.N = 20 := N_0; have := p.isLt; omega

/-- Row p of the input block at point t is row 5000 t + p of the array. -/
theorem blk_x (c : Dev nD) (t : Fin cfg0.N) (p : Fin 5000) (l : Fin 128) :
    iblk0 V c 0 t (ix2 p l) = V c main_v10 (ix2 ⟨t.val * 5000 + p.val, row_lt t p⟩ l) := by
  obtain ⟨e0, e1, e2, e3, e4, e5, e6, e7, e8, e9⟩ := idx_facts t
  show V c main_v10 (((cfg0.win 0).blk t).view.emb (ix2 p l)) = _
  refine congrArg (V c main_v10) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * l.val = l.val; omega

theorem blk_w1 (c : Dev nD) (t : Fin cfg0.N) (l : Fin 128) (k : Fin 64) :
    iblk0 V c 1 t (ix2 l k) = V c main_v19 (ix2 l k) := by
  obtain ⟨e0, e1, e2, e3, e4, e5, e6, e7, e8, e9⟩ := idx_facts t
  show V c main_v19 (((cfg0.win 1).blk t).view.emb (ix2 l k)) = _
  refine congrArg (V c main_v19) (funext fun a => Fin.ext ?_)
  match a with
  | ⟨0, _⟩ => show win0_1.index t (0 : Fin 2) * 128 + 1 * l.val = l.val; omega
  | ⟨1, _⟩ => show win0_1.index t (1 : Fin 2) * 64 + 1 * k.val = k.val; omega

theorem blk_b1 (c : Dev nD) (t : Fin cfg0.N) (k : Fin 64) :
    iblk0 V c 2 t (ix1 k) = V c main_v21 (ix1 k) := by
  obtain ⟨e0, e1, e2, e3, e4, e5, e6, e7, e8, e9⟩ := idx_facts t
  show V c main_v21 (((cfg0.win 2).blk t).view.emb (ix1 k)) = _
  refine congrArg (V c main_v21) (funext fun a => Fin.ext ?_)
  match a with
  | ⟨0, _⟩ => show win0_2.index t (0 : Fin 1) * 64 + 1 * k.val = k.val; omega

theorem blk_w2 (c : Dev nD) (t : Fin cfg0.N) (k : Fin 64) (q : Fin 64) :
    iblk0 V c 3 t (ix2 k q) = V c main_v30 (ix2 k q) := by
  obtain ⟨e0, e1, e2, e3, e4, e5, e6, e7, e8, e9⟩ := idx_facts t
  show V c main_v30 (((cfg0.win 3).blk t).view.emb (ix2 k q)) = _
  refine congrArg (V c main_v30) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem blk_b2 (c : Dev nD) (t : Fin cfg0.N) (q : Fin 64) :
    iblk0 V c 4 t (ix1 q) = V c main_v32 (ix1 q) := by
  obtain ⟨e0, e1, e2, e3, e4, e5, e6, e7, e8, e9⟩ := idx_facts t
  show V c main_v32 (((cfg0.win 4).blk t).view.emb (ix1 q)) = _
  refine congrArg (V c main_v32) (funext fun a => Fin.ext ?_)
  match a with
  | ⟨0, _⟩ => show win0_4.index t (0 : Fin 1) * 64 + 1 * q.val = q.val; omega

/-- `G` at entry (p, q) of the output block of point t: row 5000 t + p, column q. -/
theorem G_at_blk (X : S100000x128.Idx → EReal) (W1 : S128x64.Idx → EReal) (b1 : S64.Idx → EReal) (W2 : S64x64.Idx → EReal) (b2 : S64.Idx → EReal)
    (t : Fin cfg0.N) (p : Fin 5000) (q : Fin 64) :
    PayloadAt.G0 X W1 b1 W2 b2 (((cfg0.win 5).blk t).view.emb (ix2 p q))
      = max ((∑ k : Fin 64, max ((∑ l : Fin 128, X (ix2 ⟨t.val * 5000 + p.val, row_lt t p⟩ l) * W1 (ix2 l k)) + b1 (ix1 k)) 0 * W2 (ix2 k q)) + b2 (ix1 q)) 0 := by
  obtain ⟨e0, e1, e2, e3, e4, e5, e6, e7, e8, e9⟩ := idx_facts t
  have h0 : (⟨((((cfg0.win 5).blk t).view.emb (ix2 p q)) 0).val, ((((cfg0.win 5).blk t).view.emb (ix2 p q)) 0).isLt⟩ : Fin 100000)
      = ⟨t.val * 5000 + p.val, row_lt t p⟩ :=
    Fin.ext (by show win0_5.index t (0 : Fin 2) * 5000 + 1 * p.val = t.val * 5000 + p.val; omega)
  have h1 : (⟨((((cfg0.win 5).blk t).view.emb (ix2 p q)) 1).val, ((((cfg0.win 5).blk t).view.emb (ix2 p q)) 1).isLt⟩ : Fin 64) = q :=
    Fin.ext (by show win0_5.index t (1 : Fin 2) * 64 + 1 * q.val = q.val; omega)
  unfold PayloadAt.G0
  rw [h0, h1]

/-- What point t writes back is block t of `G` of the arrays the region finds. -/
theorem flushed_eq (c : Dev nD) (t : Fin cfg0.N) :
    (dat0 V c).flushed 5 t = ((cfg0.win 5).blk t).view.read (Elt Ideal)
      (PayloadAt.G0 (V c main_v10) (V c main_v19) (V c main_v21) (V c main_v30) (V c main_v32)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S64) hz1, View.ld_unit_zero (S := S64x64) hz]
  funext y
  obtain ⟨p, q, rfl⟩ : ∃ (p : Fin 5000) (q : Fin 64), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = PayloadAt.G0 (V c main_v10) (V c main_v19) (V c main_v21) (V c main_v30) (V c main_v32) (((cfg0.win 5).blk t).view.emb (ix2 p q))
  rw [PayloadAt.k0_at, G_at_blk]
  simp only [blk_x V c t, blk_w1 V c t, blk_b1 V c t, blk_w2 V c t, blk_b2 V c t]

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v33).slice (win0_5.rect t)).set ↔ _
  rw [View.set_slice_whole, Rect.mem_set_unit]
  exact Iff.rfl

/-- The twenty row blocks tile the output: row r is in the block of point r / 5000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by omega⟩
  obtain ⟨e0, e1, e2, e3, e4, e5, e6, e7, e8, e9⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the region: `G` of the arrays the region finds, everywhere. -/
theorem array_eq (c : Dev nD) :
    (dat0 V c).arrAt 5 cfg0.N = PayloadAt.G0 (V c main_v10) (V c main_v19) (V c main_v21) (V c main_v30) (V c main_v32) :=
  (dat0 V c).arrAt_eq_of_cover 5 _ (fun t _ => flushed_eq V c t) cover

end Cert.KernelIdeal.Region0
end
-- ==== Proof.RefLayers.lean ====
/-
  The reference program's four two-layer blocks, each read at one entry.

  Every block computes  relu (bn₂ (relu (bn₁ (X · W₁ + b₁)) · W₂ + b₂))  where a normalisation is
  bn (y) = (y - m) * s + t  column by column, with the scale  s = g / sqrt (v + ε)  left as the stage that
  computes it. At entry (r, j) this is a sum over the 64 hidden columns k of the first layer's output at (r, k)
  (itself a sum over the block's input columns l) times the second weight at (k, j). The block's input X, the
  weights, the biases and the normalisation's vectors are left as the stages that produce them; nothing about
  how those stages compute their values is used here.
-/
import proofs.«170803_j37795712205240_1_alg».proof.Proof.ReadP
import Idealize.ShloMosaic.Lib.ValueIdx
import Idealize.ShloMosaic.PureOps.Ideal.Laws

set_option maxRecDepth 16384

noncomputable section

open scoped BigOperators

namespace Cert.ReferenceIdeal.RefLayers

open Cert.ReferenceIdeal Cert.ReferenceIdeal.ReadP Idealize.ShloMosaic Idealize.ShloMosaic.ValueIdx

variable (x0 : (⟨S100000, .i32⟩ : BufTy).Contents (Elt Ideal))
  (x1 : (⟨S2x1000000, .i32⟩ : BufTy).Contents (Elt Ideal))
  (x3 : (⟨S100000x128, .f32⟩ : BufTy).Contents (Elt Ideal))
  (x4 : (⟨S128x64, .f32⟩ : BufTy).Contents (Elt Ideal))
  (x5 : (⟨S64, .f32⟩ : BufTy).Contents (Elt Ideal))
  (x6 : (⟨S64, .f32⟩ : BufTy).Contents (Elt Ideal))
  (x7 : (⟨S64, .f32⟩ : BufTy).Contents (Elt Ideal))
  (x8 : (⟨S64, .f32⟩ : BufTy).Contents (Elt Ideal))
  (x9 : (⟨S64, .f32⟩ : BufTy).Contents (Elt Ideal))
  (x10 : (⟨S64x64, .f32⟩ : BufTy).Contents (Elt Ideal))
  (x11 : (⟨S64, .f32⟩ : BufTy).Contents (Elt Ideal))
  (x12 : (⟨S64, .f32⟩ : BufTy).Contents (Elt Ideal))
  (x13 : (⟨S64, .f32⟩ : BufTy).Contents (Elt Ideal))
  (x14 : (⟨S64, .f32⟩ : BufTy).Contents (Elt Ideal))
  (x15 : (⟨S64, .f32⟩ : BufTy).Contents (Elt Ideal))
  (x16 : (⟨S3x64x64, .f32⟩ : BufTy).Contents (Elt Ideal))
  (x17 : (⟨S3x64, .f32⟩ : BufTy).Contents (Elt Ideal))
  (x18 : (⟨S3x64, .f32⟩ : BufTy).Contents (Elt Ideal))
  (x19 : (⟨S3x64, .f32⟩ : BufTy).Contents (Elt Ideal))
  (x20 : (⟨S3x64, .f32⟩ : BufTy).Contents (Elt Ideal))
  (x21 : (⟨S3x64, .f32⟩ : BufTy).Contents (Elt Ideal))
  (x22 : (⟨S3x64x64, .f32⟩ : BufTy).Contents (Elt Ideal))
  (x23 : (⟨S3x64, .f32⟩ : BufTy).Contents (Elt Ideal))
  (x24 : (⟨S3x64, .f32⟩ : BufTy).Contents (Elt Ideal))
  (x25 : (⟨S3x64, .f32⟩ : BufTy).Contents (Elt Ideal))
  (x26 : (⟨S3x64, .f32⟩ : BufTy).Contents (Elt Ideal))
  (x27 : (⟨S3x64, .f32⟩ : BufTy).Contents (Elt Ideal))

/-! ## The first block -/

/-- First layer's bias: a length-64 vector repeated along the rows, read at row `a`, column `c`, is the vector at `c`. -/
theorem v13_at (a : Fin 100000) (c : Fin 64) :
    val_main_v13 (F := Ideal) x5 (ix2 a c) = x5 (ix1 c) := by
  rw [val_main_v13_apply, val_main_v12_apply]
  have h : idx_main_v12 (idx_main_v13 (ix2 a c)) = ix1 c := funext fun d => Fin.ext (by match d with | ⟨0, _⟩ => rfl)
  rw [h]

/-- First layer's running mean: a length-64 vector repeated along the rows, read at row `a`, column `c`, is the vector at `c`. -/
theorem v16_at (a : Fin 100000) (c : Fin 64) :
    val_main_v16 (F := Ideal) x8 (ix2 a c) = x8 (ix1 c) := by
  rw [val_main_v16_apply, val_main_v15_apply]
  have h : idx_main_v15 (idx_main_v16 (ix2 a c)) = ix1 c := funext fun d => Fin.ext (by match d with | ⟨0, _⟩ => rfl)
  rw [h]

/-- First layer's scale: a length-64 vector repeated along the rows, read at row `a`, column `c`, is the vector at `c`. -/
theorem v23_at (a : Fin 100000) (c : Fin 64) :
    val_main_v23 (F := Ideal) x6 x9 (ix2 a c) = val_main_v21 (F := Ideal) x6 x9 (ix1 c) := by
  rw [val_main_v23_apply, val_main_v22_apply]
  have h : idx_main_v22 (idx_main_v23 (ix2 a c)) = ix1 c := funext fun d => Fin.ext (by match d with | ⟨0, _⟩ => rfl)
  rw [h]

/-- First layer's shift: a length-64 vector repeated along the rows, read at row `a`, column `c`, is the vector at `c`. -/
theorem v26_at (a : Fin 100000) (c : Fin 64) :
    val_main_v26 (F := Ideal) x7 (ix2 a c) = x7 (ix1 c) := by
  rw [val_main_v26_apply, val_main_v25_apply]
  have h : idx_main_v25 (idx_main_v26 (ix2 a c)) = ix1 c := funext fun d => Fin.ext (by match d with | ⟨0, _⟩ => rfl)
  rw [h]

/-- Second layer's bias: a length-64 vector repeated along the rows, read at row `a`, column `c`, is the vector at `c`. -/
theorem v31_at (a : Fin 100000) (c : Fin 64) :
    val_main_v31 (F := Ideal) x11 (ix2 a c) = x11 (ix1 c) := by
  rw [val_main_v31_apply, val_main_v30_apply]
  have h : idx_main_v30 (idx_main_v31 (ix2 a c)) = ix1 c := funext fun d => Fin.ext (by match d with | ⟨0, _⟩ => rfl)
  rw [h]

/-- Second layer's running mean: a length-64 vector repeated along the rows, read at row `a`, column `c`, is the vector at `c`. -/
theorem v34_at (a : Fin 100000) (c : Fin 64) :
    val_main_v34 (F := Ideal) x14 (ix2 a c) = x14 (ix1 c) := by
  rw [val_main_v34_apply, val_main_v33_apply]
  have h : idx_main_v33 (idx_main_v34 (ix2 a c)) = ix1 c := funext fun d => Fin.ext (by match d with | ⟨0, _⟩ => rfl)
  rw [h]

/-- Second layer's scale: a length-64 vector repeated along the rows, read at row `a`, column `c`, is the vector at `c`. -/
theorem v41_at (a : Fin 100000) (c : Fin 64) :
    val_main_v41 (F := Ideal) x12 x15 (ix2 a c) = val_main_v39 (F := Ideal) x12 x15 (ix1 c) := by
  rw [val_main_v41_apply, val_main_v40_apply]
  have h : idx_main_v40 (idx_main_v41 (ix2 a c)) = ix1 c := funext fun d => Fin.ext (by match d with | ⟨0, _⟩ => rfl)
  rw [h]

/-- Second layer's shift: a length-64 vector repeated along the rows, read at row `a`, column `c`, is the vector at `c`. -/
theorem v44_at (a : Fin 100000) (c : Fin 64) :
    val_main_v44 (F := Ideal) x13 (ix2 a c) = x13 (ix1 c) := by
  rw [val_main_v44_apply, val_main_v43_apply]
  have h : idx_main_v43 (idx_main_v44 (ix2 a c)) = ix1 c := funext fun d => Fin.ext (by match d with | ⟨0, _⟩ => rfl)
  rw [h]

/-- The first matrix product at entry `(a, c)`: the sum over the contracted axis of the input row `a` times the weight column `c`. -/
theorem v11_at (a : Fin 100000) (c : Fin 64) :
    val_main_v11 (F := Ideal) x0 x3 x4 (ix2 a c) = ∑ l : Fin 128, val_main_v10 (F := Ideal) x0 x3 (ix2 a l) * x4 (ix2 l c) := by
  rw [val_main_v11_apply]
  refine Finset.sum_congr rfl fun l _ => ?_
  have hl : lidx_main_v11 (ix2 a c) l = ix2 a l := funext fun d => Fin.ext (by match d with | ⟨0, _⟩ => rfl | ⟨1, _⟩ => rfl)
  have hr : ridx_main_v11 (ix2 a c) l = ix2 l c := funext fun d => Fin.ext (by match d with | ⟨0, _⟩ => rfl | ⟨1, _⟩ => rfl)
  rw [hl, hr]

/-- The first layer's output at entry `(a, k)`: the affine map, then the normalisation `(y - m) * s + t`, then the positive part. -/
theorem v28_at (a : Fin 100000) (k : Fin 64) :
    val_main_v28 (F := Ideal) x0 x3 x4 x5 x6 x7 x8 x9 (ix2 a k) =
      max ((((∑ l : Fin 128, val_main_v10 (F := Ideal) x0 x3 (ix2 a l) * x4 (ix2 l k)) + x5 (ix1 k)) - x8 (ix1 k)) * val_main_v21 (F := Ideal) x6 x9 (ix1 k) + x7 (ix1 k)) 0 := by
  rw [val_main_v28_apply, val_main_v27_apply, val_main_v24_apply, val_main_v17_apply, val_main_v14_apply,
    v11_at, v13_at, v16_at, v23_at, v26_at, val_main_call0_v0_apply, val_main_call0_cst_apply,
    Ideal.maximumf_def, Ideal.addf_def, Ideal.mulf_def, Ideal.subf_def, Ideal.addf_def, Ideal.ofBits_def, Ideal.ofBits_zero_f32]

/-- The second matrix product at entry `(r, j)`: the sum over `k` of the first layer's output at `(r, k)` times the weight at `(k, j)`. -/
theorem v29_at (r : Fin 100000) (j : Fin 64) :
    val_main_v29 (F := Ideal) x0 x3 x4 x5 x6 x7 x8 x9 x10 (ix2 r j) =
      ∑ k : Fin 64, max ((((∑ l : Fin 128, val_main_v10 (F := Ideal) x0 x3 (ix2 r l) * x4 (ix2 l k)) + x5 (ix1 k)) - x8 (ix1 k)) * val_main_v21 (F := Ideal) x6 x9 (ix1 k) + x7 (ix1 k)) 0 * x10 (ix2 k j) := by
  rw [val_main_v29_apply]
  refine Finset.sum_congr rfl fun k _ => ?_
  have hl : lidx_main_v29 (ix2 r j) k = ix2 r k := funext fun d => Fin.ext (by match d with | ⟨0, _⟩ => rfl | ⟨1, _⟩ => rfl)
  have hr : ridx_main_v29 (ix2 r j) k = ix2 k j := funext fun d => Fin.ext (by match d with | ⟨0, _⟩ => rfl | ⟨1, _⟩ => rfl)
  rw [hl, hr, v28_at]

/-- The block's output at entry `(r, j)`: two layers, each an affine map followed by `(y - m) * s + t` and the positive part. -/
theorem ref0_at (r : Fin 100000) (j : Fin 64) :
    val_main_v46 (F := Ideal) x0 x3 x4 x5 x6 x7 x8 x9 x10 x11 x12 x13 x14 x15 (ix2 r j) =
      max ((((∑ k : Fin 64, max ((((∑ l : Fin 128, val_main_v10 (F := Ideal) x0 x3 (ix2 r l) * x4 (ix2 l k)) + x5 (ix1 k)) - x8 (ix1 k)) * val_main_v21 (F := Ideal) x6 x9 (ix1 k) + x7 (ix1 k)) 0 * x10 (ix2 k j)) + x11 (ix1 j)) - x14 (ix1 j)) * val_main_v39 (F := Ideal) x12 x15 (ix1 j) + x13 (ix1 j)) 0 := by
  rw [val_main_v46_apply, val_main_v45_apply, val_main_v42_apply, val_main_v35_apply, val_main_v32_apply,
    v29_at, v31_at, v34_at, v41_at, v44_at, val_main_call1_v0_apply, val_main_call1_cst_apply,
    Ideal.maximumf_def, Ideal.addf_def, Ideal.mulf_def, Ideal.subf_def, Ideal.addf_def, Ideal.ofBits_def, Ideal.ofBits_zero_f32]

/-! ## The second block -/

/-- First layer's bias: a length-64 vector repeated along the rows, read at row `a`, column `c`, is the vector at `c`. -/
theorem v95_at (a : Fin 100000) (c : Fin 64) :
    val_main_v95 (F := Ideal) x17 (ix2 a c) = val_main_v72 (F := Ideal) x17 (ix1 c) := by
  rw [val_main_v95_apply, val_main_v94_apply]
  have h : idx_main_v94 (idx_main_v95 (ix2 a c)) = ix1 c := funext fun d => Fin.ext (by match d with | ⟨0, _⟩ => rfl)
  rw [h]

/-- First layer's running mean: a length-64 vector repeated along the rows, read at row `a`, column `c`, is the vector at `c`. -/
theorem v98_at (a : Fin 100000) (c : Fin 64) :
    val_main_v98 (F := Ideal) x20 (ix2 a c) = val_main_v78 (F := Ideal) x20 (ix1 c) := by
  rw [val_main_v98_apply, val_main_v97_apply]
  have h : idx_main_v97 (idx_main_v98 (ix2 a c)) = ix1 c := funext fun d => Fin.ext (by match d with | ⟨0, _⟩ => rfl)
  rw [h]

/-- First layer's scale: a length-64 vector repeated along the rows, read at row `a`, column `c`, is the vector at `c`. -/
theorem v105_at (a : Fin 100000) (c : Fin 64) :
    val_main_v105 (F := Ideal) x18 x21 (ix2 a c) = val_main_v103 (F := Ideal) x18 x21 (ix1 c) := by
  rw [val_main_v105_apply, val_main_v104_apply]
  have h : idx_main_v104 (idx_main_v105 (ix2 a c)) = ix1 c := funext fun d => Fin.ext (by match d with | ⟨0, _⟩ => rfl)
  rw [h]

/-- First layer's shift: a length-64 vector repeated along the rows, read at row `a`, column `c`, is the vector at `c`. -/
theorem v108_at (a : Fin 100000) (c : Fin 64) :
    val_main_v108 (F := Ideal) x19 (ix2 a c) = val_main_v76 (F := Ideal) x19 (ix1 c) := by
  rw [val_main_v108_apply, val_main_v107_apply]
  have h : idx_main_v107 (idx_main_v108 (ix2 a c)) = ix1 c := funext fun d => Fin.ext (by match d with | ⟨0, _⟩ => rfl)
  rw [h]

/-- Second layer's bias: a length-64 vector repeated along the rows, read at row `a`, column `c`, is the vector at `c`. -/
theorem v113_at (a : Fin 100000) (c : Fin 64) :
    val_main_v113 (F := Ideal) x23 (ix2 a c) = val_main_v84 (F := Ideal) x23 (ix1 c) := by
  rw [val_main_v113_apply, val_main_v112_apply]
  have h : idx_main_v112 (idx_main_v113 (ix2 a c)) = ix1 c := funext fun d => Fin.ext (by match d with | ⟨0, _⟩ => rfl)
  rw [h]

/-- Second layer's running mean: a length-64 vector repeated along the rows, read at row `a`, column `c`, is the vector at `c`. -/
theorem v116_at (a : Fin 100000) (c : Fin 64) :
    val_main_v116 (F := Ideal) x26 (ix2 a c) = val_main_v90 (F := Ideal) x26 (ix1 c) := by
  rw [val_main_v116_apply, val_main_v115_apply]
  have h : idx_main_v115 (idx_main_v116 (ix2 a c)) = ix1 c := funext fun d => Fin.ext (by match d with | ⟨0, _⟩ => rfl)
  rw [h]

/-- Second layer's scale: a length-64 vector repeated along the rows, read at row `a`, column `c`, is the vector at `c`. -/
theorem v123_at (a : Fin 100000) (c : Fin 64) :
    val_main_v123 (F := Ideal) x24 x27 (ix2 a c) = val_main_v121 (F := Ideal) x24 x27 (ix1 c) := by
  rw [val_main_v123_apply, val_main_v122_apply]
  have h : idx_main_v122 (idx_main_v123 (ix2 a c)) = ix1 c := funext fun d => Fin.ext (by match d with | ⟨0, _⟩ => rfl)
  rw [h]

/-- Second layer's shift: a length-64 vector repeated along the rows, read at row `a`, column `c`, is the vector at `c`. -/
theorem v126_at (a : Fin 100000) (c : Fin 64) :
    val_main_v126 (F := Ideal) x25 (ix2 a c) = val_main_v88 (F := Ideal) x25 (ix1 c) := by
  rw [val_main_v126_apply, val_main_v125_apply]
  have h : idx_main_v125 (idx_main_v126 (ix2 a c)) = ix1 c := funext fun d => Fin.ext (by match d with | ⟨0, _⟩ => rfl)
  rw [h]

/-- The first matrix product at entry `(a, c)`: the sum over the contracted axis of the input row `a` times the weight column `c`. -/
theorem v93_at (a : Fin 100000) (c : Fin 64) :
    val_main_v93 (F := Ideal) x0 x1 x3 x4 x5 x6 x7 x8 x9 x10 x11 x12 x13 x14 x15 x16 (ix2 a c) = ∑ l : Fin 64, (val_main_v46 (F := Ideal) x0 x3 x4 x5 x6 x7 x8 x9 x10 x11 x12 x13 x14 x15 (ix2 a l) + val_main_v67 (F := Ideal) x0 x1 x3 x4 x5 x6 x7 x8 x9 x10 x11 x12 x13 x14 x15 (ix2 a l)) * val_main_v70 (F := Ideal) x16 (ix2 l c) := by
  rw [val_main_v93_apply]
  refine Finset.sum_congr rfl fun l _ => ?_
  have hl : lidx_main_v93 (ix2 a c) l = ix2 a l := funext fun d => Fin.ext (by match d with | ⟨0, _⟩ => rfl | ⟨1, _⟩ => rfl)
  have hr : ridx_main_v93 (ix2 a c) l = ix2 l c := funext fun d => Fin.ext (by match d with | ⟨0, _⟩ => rfl | ⟨1, _⟩ => rfl)
  rw [hl, hr, val_main_v68_apply, Ideal.addf_def]

/-- The first layer's output at entry `(a, k)`: the affine map, then the normalisation `(y - m) * s + t`, then the positive part. -/
theorem v110_at (a : Fin 100000) (k : Fin 64) :
    val_main_v110 (F := Ideal) x0 x1 x3 x4 x5 x6 x7 x8 x9 x10 x11 x12 x13 x14 x15 x16 x17 x18 x19 x20 x21 (ix2 a k) =
      max ((((∑ l : Fin 64, (val_main_v46 (F := Ideal) x0 x3 x4 x5 x6 x7 x8 x9 x10 x11 x12 x13 x14 x15 (ix2 a l) + val_main_v67 (F := Ideal) x0 x1 x3 x4 x5 x6 x7 x8 x9 x10 x11 x12 x13 x14 x15 (ix2 a l)) * val_main_v70 (F := Ideal) x16 (ix2 l k)) + val_main_v72 (F := Ideal) x17 (ix1 k)) - val_main_v78 (F := Ideal) x20 (ix1 k)) * val_main_v103 (F := Ideal) x18 x21 (ix1 k) + val_main_v76 (F := Ideal) x19 (ix1 k)) 0 := by
  rw [val_main_v110_apply, val_main_v109_apply, val_main_v106_apply, val_main_v99_apply, val_main_v96_apply,
    v93_at, v95_at, v98_at, v105_at, v108_at, val_main_call2_v0_apply, val_main_call2_cst_apply,
    Ideal.maximumf_def, Ideal.addf_def, Ideal.mulf_def, Ideal.subf_def, Ideal.addf_def, Ideal.ofBits_def, Ideal.ofBits_zero_f32]

/-- The second matrix product at entry `(r, j)`: the sum over `k` of the first layer's output at `(r, k)` times the weight at `(k, j)`. -/
theorem v111_at (r : Fin 100000) (j : Fin 64) :
    val_main_v111 (F := Ideal) x0 x1 x3 x4 x5 x6 x7 x8 x9 x10 x11 x12 x13 x14 x15 x16 x17 x18 x19 x20 x21 x22 (ix2 r j) =
      ∑ k : Fin 64, max ((((∑ l : Fin 64, (val_main_v46 (F := Ideal) x0 x3 x4 x5 x6 x7 x8 x9 x10 x11 x12 x13 x14 x15 (ix2 r l) + val_main_v67 (F := Ideal) x0 x1 x3 x4 x5 x6 x7 x8 x9 x10 x11 x12 x13 x14 x15 (ix2 r l)) * val_main_v70 (F := Ideal) x16 (ix2 l k)) + val_main_v72 (F := Ideal) x17 (ix1 k)) - val_main_v78 (F := Ideal) x20 (ix1 k)) * val_main_v103 (F := Ideal) x18 x21 (ix1 k) + val_main_v76 (F := Ideal) x19 (ix1 k)) 0 * val_main_v82 (F := Ideal) x22 (ix2 k j) := by
  rw [val_main_v111_apply]
  refine Finset.sum_congr rfl fun k _ => ?_
  have hl : lidx_main_v111 (ix2 r j) k = ix2 r k := funext fun d => Fin.ext (by match d with | ⟨0, _⟩ => rfl | ⟨1, _⟩ => rfl)
  have hr : ridx_main_v111 (ix2 r j) k = ix2 k j := funext fun d => Fin.ext (by match d with | ⟨0, _⟩ => rfl | ⟨1, _⟩ => rfl)
  rw [hl, hr, v110_at]

/-- The block's output at entry `(r, j)`: two layers, each an affine map followed by `(y - m) * s + t` and the positive part. -/
theorem ref1_at (r : Fin 100000) (j : Fin 64) :
    val_main_v128 (F := Ideal) x0 x1 x3 x4 x5 x6 x7 x8 x9 x10 x11 x12 x13 x14 x15 x16 x17 x18 x19 x20 x21 x22 x23 x24 x25 x26 x27 (ix2 r j) =
      max ((((∑ k : Fin 64, max ((((∑ l : Fin 64, (val_main_v46 (F := Ideal) x0 x3 x4 x5 x6 x7 x8 x9 x10 x11 x12 x13 x14 x15 (ix2 r l) + val_main_v67 (F := Ideal) x0 x1 x3 x4 x5 x6 x7 x8 x9 x10 x11 x12 x13 x14 x15 (ix2 r l)) * val_main_v70 (F := Ideal) x16 (ix2 l k)) + val_main_v72 (F := Ideal) x17 (ix1 k)) - val_main_v78 (F := Ideal) x20 (ix1 k)) * val_main_v103 (F := Ideal) x18 x21 (ix1 k) + val_main_v76 (F := Ideal) x19 (ix1 k)) 0 * val_main_v82 (F := Ideal) x22 (ix2 k j)) + val_main_v84 (F := Ideal) x23 (ix1 j)) - val_main_v90 (F := Ideal) x26 (ix1 j)) * val_main_v121 (F := Ideal) x24 x27 (ix1 j) + val_main_v88 (F := Ideal) x25 (ix1 j)) 0 := by
  rw [val_main_v128_apply, val_main_v127_apply, val_main_v124_apply, val_main_v117_apply, val_main_v114_apply,
    v111_at, v113_at, v116_at, v123_at, v126_at, val_main_call3_v0_apply, val_main_call3_cst_apply,
    Ideal.maximumf_def, Ideal.addf_def, Ideal.mulf_def, Ideal.subf_def, Ideal.addf_def, Ideal.ofBits_def, Ideal.ofBits_zero_f32]

/-! ## The third block -/

/-- First layer's bias: a length-64 vector repeated along the rows, read at row `a`, column `c`, is the vector at `c`. -/
theorem v178_at (a : Fin 100000) (c : Fin 64) :
    val_main_v178 (F := Ideal) x17 (ix2 a c) = val_main_v155 (F := Ideal) x17 (ix1 c) := by
  rw [val_main_v178_apply, val_main_v177_apply]
  have h : idx_main_v177 (idx_main_v178 (ix2 a c)) = ix1 c := funext fun d => Fin.ext (by match d with | ⟨0, _⟩ => rfl)
  rw [h]

/-- First layer's running mean: a length-64 vector repeated along the rows, read at row `a`, column `c`, is the vector at `c`. -/
theorem v181_at (a : Fin 100000) (c : Fin 64) :
    val_main_v181 (F := Ideal) x20 (ix2 a c) = val_main_v161 (F := Ideal) x20 (ix1 c) := by
  rw [val_main_v181_apply, val_main_v180_apply]
  have h : idx_main_v180 (idx_main_v181 (ix2 a c)) = ix1 c := funext fun d => Fin.ext (by match d with | ⟨0, _⟩ => rfl)
  rw [h]

/-- First layer's scale: a length-64 vector repeated along the rows, read at row `a`, column `c`, is the vector at `c`. -/
theorem v188_at (a : Fin 100000) (c : Fin 64) :
    val_main_v188 (F := Ideal) x18 x21 (ix2 a c) = val_main_v186 (F := Ideal) x18 x21 (ix1 c) := by
  rw [val_main_v188_apply, val_main_v187_apply]
  have h : idx_main_v187 (idx_main_v188 (ix2 a c)) = ix1 c := funext fun d => Fin.ext (by match d with | ⟨0, _⟩ => rfl)
  rw [h]

/-- First layer's shift: a length-64 vector repeated along the rows, read at row `a`, column `c`, is the vector at `c`. -/
theorem v191_at (a : Fin 100000) (c : Fin 64) :
    val_main_v191 (F := Ideal) x19 (ix2 a c) = val_main_v159 (F := Ideal) x19 (ix1 c) := by
  rw [val_main_v191_apply, val_main_v190_apply]
  have h : idx_main_v190 (idx_main_v191 (ix2 a c)) = ix1 c := funext fun d => Fin.ext (by match d with | ⟨0, _⟩ => rfl)
  rw [h]

/-- Second layer's bias: a length-64 vector repeated along the rows, read at row `a`, column `c`, is the vector at `c`. -/
theorem v196_at (a : Fin 100000) (c : Fin 64) :
    val_main_v196 (F := Ideal) x23 (ix2 a c) = val_main_v167 (F := Ideal) x23 (ix1 c) := by
  rw [val_main_v196_apply, val_main_v195_apply]
  have h : idx_main_v195 (idx_main_v196 (ix2 a c)) = ix1 c := funext fun d => Fin.ext (by match d with | ⟨0, _⟩ => rfl)
  rw [h]

/-- Second layer's running mean: a length-64 vector repeated along the rows, read at row `a`, column `c`, is the vector at `c`. -/
theorem v199_at (a : Fin 100000) (c : Fin 64) :
    val_main_v199 (F := Ideal) x26 (ix2 a c) = val_main_v173 (F := Ideal) x26 (ix1 c) := by
  rw [val_main_v199_apply, val_main_v198_apply]
  have h : idx_main_v198 (idx_main_v199 (ix2 a c)) = ix1 c := funext fun d => Fin.ext (by match d with | ⟨0, _⟩ => rfl)
  rw [h]

/-- Second layer's scale: a length-64 vector repeated along the rows, read at row `a`, column `c`, is the vector at `c`. -/
theorem v206_at (a : Fin 100000) (c : Fin 64) :
    val_main_v206 (F := Ideal) x24 x27 (ix2 a c) = val_main_v204 (F := Ideal) x24 x27 (ix1 c) := by
  rw [val_main_v206_apply, val_main_v205_apply]
  have h : idx_main_v205 (idx_main_v206 (ix2 a c)) = ix1 c := funext fun d => Fin.ext (by match d with | ⟨0, _⟩ => rfl)
  rw [h]

/-- Second layer's shift: a length-64 vector repeated along the rows, read at row `a`, column `c`, is the vector at `c`. -/
theorem v209_at (a : Fin 100000) (c : Fin 64) :
    val_main_v209 (F := Ideal) x25 (ix2 a c) = val_main_v171 (F := Ideal) x25 (ix1 c) := by
  rw [val_main_v209_apply, val_main_v208_apply]
  have h : idx_main_v208 (idx_main_v209 (ix2 a c)) = ix1 c := funext fun d => Fin.ext (by match d with | ⟨0, _⟩ => rfl)
  rw [h]

/-- The first matrix product at entry `(a, c)`: the sum over the contracted axis of the input row `a` times the weight column `c`. -/
theorem v176_at (a : Fin 100000) (c : Fin 64) :
    val_main_v176 (F := Ideal) x0 x1 x3 x4 x5 x6 x7 x8 x9 x10 x11 x12 x13 x14 x15 x16 x17 x18 x19 x20 x21 x22 x23 x24 x25 x26 x27 (ix2 a c) = ∑ l : Fin 64, (val_main_v128 (F := Ideal) x0 x1 x3 x4 x5 x6 x7 x8 x9 x10 x11 x12 x13 x14 x15 x16 x17 x18 x19 x20 x21 x22 x23 x24 x25 x26 x27 (ix2 a l) + val_main_v150 (F := Ideal) x0 x1 x3 x4 x5 x6 x7 x8 x9 x10 x11 x12 x13 x14 x15 x16 x17 x18 x19 x20 x21 x22 x23 x24 x25 x26 x27 (ix2 a l)) * val_main_v153 (F := Ideal) x16 (ix2 l c) := by
  rw [val_main_v176_apply]
  refine Finset.sum_congr rfl fun l _ => ?_
  have hl : lidx_main_v176 (ix2 a c) l = ix2 a l := funext fun d => Fin.ext (by match d with | ⟨0, _⟩ => rfl | ⟨1, _⟩ => rfl)
  have hr : ridx_main_v176 (ix2 a c) l = ix2 l c := funext fun d => Fin.ext (by match d with | ⟨0, _⟩ => rfl | ⟨1, _⟩ => rfl)
  rw [hl, hr, val_main_v151_apply, Ideal.addf_def]

/-- The first layer's output at entry `(a, k)`: the affine map, then the normalisation `(y - m) * s + t`, then the positive part. -/
theorem v193_at (a : Fin 100000) (k : Fin 64) :
    val_main_v193 (F := Ideal) x0 x1 x3 x4 x5 x6 x7 x8 x9 x10 x11 x12 x13 x14 x15 x16 x17 x18 x19 x20 x21 x22 x23 x24 x25 x26 x27 (ix2 a k) =
      max ((((∑ l : Fin 64, (val_main_v128 (F := Ideal) x0 x1 x3 x4 x5 x6 x7 x8 x9 x10 x11 x12 x13 x14 x15 x16 x17 x18 x19 x20 x21 x22 x23 x24 x25 x26 x27 (ix2 a l) + val_main_v150 (F := Ideal) x0 x1 x3 x4 x5 x6 x7 x8 x9 x10 x11 x12 x13 x14 x15 x16 x17 x18 x19 x20 x21 x22 x23 x24 x25 x26 x27 (ix2 a l)) * val_main_v153 (F := Ideal) x16 (ix2 l k)) + val_main_v155 (F := Ideal) x17 (ix1 k)) - val_main_v161 (F := Ideal) x20 (ix1 k)) * val_main_v186 (F := Ideal) x18 x21 (ix1 k) + val_main_v159 (F := Ideal) x19 (ix1 k)) 0 := by
  rw [val_main_v193_apply, val_main_v192_apply, val_main_v189_apply, val_main_v182_apply, val_main_v179_apply,
    v176_at, v178_at, v181_at, v188_at, v191_at, val_main_call4_v0_apply, val_main_call4_cst_apply,
    Ideal.maximumf_def, Ideal.addf_def, Ideal.mulf_def, Ideal.subf_def, Ideal.addf_def, Ideal.ofBits_def, Ideal.ofBits_zero_f32]

/-- The second matrix product at entry `(r, j)`: the sum over `k` of the first layer's output at `(r, k)` times the weight at `(k, j)`. -/
theorem v194_at (r : Fin 100000) (j : Fin 64) :
    val_main_v194 (F := Ideal) x0 x1 x3 x4 x5 x6 x7 x8 x9 x10 x11 x12 x13 x14 x15 x16 x17 x18 x19 x20 x21 x22 x23 x24 x25 x26 x27 (ix2 r j) =
      ∑ k : Fin 64, max ((((∑ l : Fin 64, (val_main_v128 (F := Ideal) x0 x1 x3 x4 x5 x6 x7 x8 x9 x10 x11 x12 x13 x14 x15 x16 x17 x18 x19 x20 x21 x22 x23 x24 x25 x26 x27 (ix2 r l) + val_main_v150 (F := Ideal) x0 x1 x3 x4 x5 x6 x7 x8 x9 x10 x11 x12 x13 x14 x15 x16 x17 x18 x19 x20 x21 x22 x23 x24 x25 x26 x27 (ix2 r l)) * val_main_v153 (F := Ideal) x16 (ix2 l k)) + val_main_v155 (F := Ideal) x17 (ix1 k)) - val_main_v161 (F := Ideal) x20 (ix1 k)) * val_main_v186 (F := Ideal) x18 x21 (ix1 k) + val_main_v159 (F := Ideal) x19 (ix1 k)) 0 * val_main_v165 (F := Ideal) x22 (ix2 k j) := by
  rw [val_main_v194_apply]
  refine Finset.sum_congr rfl fun k _ => ?_
  have hl : lidx_main_v194 (ix2 r j) k = ix2 r k := funext fun d => Fin.ext (by match d with | ⟨0, _⟩ => rfl | ⟨1, _⟩ => rfl)
  have hr : ridx_main_v194 (ix2 r j) k = ix2 k j := funext fun d => Fin.ext (by match d with | ⟨0, _⟩ => rfl | ⟨1, _⟩ => rfl)
  rw [hl, hr, v193_at]

/-- The block's output at entry `(r, j)`: two layers, each an affine map followed by `(y - m) * s + t` and the positive part. -/
theorem ref2_at (r : Fin 100000) (j : Fin 64) :
    val_main_v211 (F := Ideal) x0 x1 x3 x4 x5 x6 x7 x8 x9 x10 x11 x12 x13 x14 x15 x16 x17 x18 x19 x20 x21 x22 x23 x24 x25 x26 x27 (ix2 r j) =
      max ((((∑ k : Fin 64, max ((((∑ l : Fin 64, (val_main_v128 (F := Ideal) x0 x1 x3 x4 x5 x6 x7 x8 x9 x10 x11 x12 x13 x14 x15 x16 x17 x18 x19 x20 x21 x22 x23 x24 x25 x26 x27 (ix2 r l) + val_main_v150 (F := Ideal) x0 x1 x3 x4 x5 x6 x7 x8 x9 x10 x11 x12 x13 x14 x15 x16 x17 x18 x19 x20 x21 x22 x23 x24 x25 x26 x27 (ix2 r l)) * val_main_v153 (F := Ideal) x16 (ix2 l k)) + val_main_v155 (F := Ideal) x17 (ix1 k)) - val_main_v161 (F := Ideal) x20 (ix1 k)) * val_main_v186 (F := Ideal) x18 x21 (ix1 k) + val_main_v159 (F := Ideal) x19 (ix1 k)) 0 * val_main_v165 (F := Ideal) x22 (ix2 k j)) + val_main_v167 (F := Ideal) x23 (ix1 j)) - val_main_v173 (F := Ideal) x26 (ix1 j)) * val_main_v204 (F := Ideal) x24 x27 (ix1 j) + val_main_v171 (F := Ideal) x25 (ix1 j)) 0 := by
  rw [val_main_v211_apply, val_main_v210_apply, val_main_v207_apply, val_main_v200_apply, val_main_v197_apply,
    v194_at, v196_at, v199_at, v206_at, v209_at, val_main_call5_v0_apply, val_main_call5_cst_apply,
    Ideal.maximumf_def, Ideal.addf_def, Ideal.mulf_def, Ideal.subf_def, Ideal.addf_def, Ideal.ofBits_def, Ideal.ofBits_zero_f32]

/-! ## The fourth block -/

/-- First layer's bias: a length-64 vector repeated along the rows, read at row `a`, column `c`, is the vector at `c`. -/
theorem v261_at (a : Fin 100000) (c : Fin 64) :
    val_main_v261 (F := Ideal) x17 (ix2 a c) = val_main_v238 (F := Ideal) x17 (ix1 c) := by
  rw [val_main_v261_apply, val_main_v260_apply]
  have h : idx_main_v260 (idx_main_v261 (ix2 a c)) = ix1 c := funext fun d => Fin.ext (by match d with | ⟨0, _⟩ => rfl)
  rw [h]

/-- First layer's running mean: a length-64 vector repeated along the rows, read at row `a`, column `c`, is the vector at `c`. -/
theorem v264_at (a : Fin 100000) (c : Fin 64) :
    val_main_v264 (F := Ideal) x20 (ix2 a c) = val_main_v244 (F := Ideal) x20 (ix1 c) := by
  rw [val_main_v264_apply, val_main_v263_apply]
  have h : idx_main_v263 (idx_main_v264 (ix2 a c)) = ix1 c := funext fun d => Fin.ext (by match d with | ⟨0, _⟩ => rfl)
  rw [h]

/-- First layer's scale: a length-64 vector repeated along the rows, read at row `a`, column `c`, is the vector at `c`. -/
theorem v271_at (a : Fin 100000) (c : Fin 64) :
    val_main_v271 (F := Ideal) x18 x21 (ix2 a c) = val_main_v269 (F := Ideal) x18 x21 (ix1 c) := by
  rw [val_main_v271_apply, val_main_v270_apply]
  have h : idx_main_v270 (idx_main_v271 (ix2 a c)) = ix1 c := funext fun d => Fin.ext (by match d with | ⟨0, _⟩ => rfl)
  rw [h]

/-- First layer's shift: a length-64 vector repeated along the rows, read at row `a`, column `c`, is the vector at `c`. -/
theorem v274_at (a : Fin 100000) (c : Fin 64) :
    val_main_v274 (F := Ideal) x19 (ix2 a c) = val_main_v242 (F := Ideal) x19 (ix1 c) := by
  rw [val_main_v274_apply, val_main_v273_apply]
  have h : idx_main_v273 (idx_main_v274 (ix2 a c)) = ix1 c := funext fun d => Fin.ext (by match d with | ⟨0, _⟩ => rfl)
  rw [h]

/-- Second layer's bias: a length-64 vector repeated along the rows, read at row `a`, column `c`, is the vector at `c`. -/
theorem v279_at (a : Fin 100000) (c : Fin 64) :
    val_main_v279 (F := Ideal) x23 (ix2 a c) = val_main_v250 (F := Ideal) x23 (ix1 c) := by
  rw [val_main_v279_apply, val_main_v278_apply]
  have h : idx_main_v278 (idx_main_v279 (ix2 a c)) = ix1 c := funext fun d => Fin.ext (by match d with | ⟨0, _⟩ => rfl)
  rw [h]

/-- Second layer's running mean: a length-64 vector repeated along the rows, read at row `a`, column `c`, is the vector at `c`. -/
theorem v282_at (a : Fin 100000) (c : Fin 64) :
    val_main_v282 (F := Ideal) x26 (ix2 a c) = val_main_v256 (F := Ideal) x26 (ix1 c) := by
  rw [val_main_v282_apply, val_main_v281_apply]
  have h : idx_main_v281 (idx_main_v282 (ix2 a c)) = ix1 c := funext fun d => Fin.ext (by match d with | ⟨0, _⟩ => rfl)
  rw [h]

/-- Second layer's scale: a length-64 vector repeated along the rows, read at row `a`, column `c`, is the vector at `c`. -/
theorem v289_at (a : Fin 100000) (c : Fin 64) :
    val_main_v289 (F := Ideal) x24 x27 (ix2 a c) = val_main_v287 (F := Ideal) x24 x27 (ix1 c) := by
  rw [val_main_v289_apply, val_main_v288_apply]
  have h : idx_main_v288 (idx_main_v289 (ix2 a c)) = ix1 c := funext fun d => Fin.ext (by match d with | ⟨0, _⟩ => rfl)
  rw [h]

/-- Second layer's shift: a length-64 vector repeated along the rows, read at row `a`, column `c`, is the vector at `c`. -/
theorem v292_at (a : Fin 100000) (c : Fin 64) :
    val_main_v292 (F := Ideal) x25 (ix2 a c) = val_main_v254 (F := Ideal) x25 (ix1 c) := by
  rw [val_main_v292_apply, val_main_v291_apply]
  have h : idx_main_v291 (idx_main_v292 (ix2 a c)) = ix1 c := funext fun d => Fin.ext (by match d with | ⟨0, _⟩ => rfl)
  rw [h]

/-- The first matrix product at entry `(a, c)`: the sum over the contracted axis of the input row `a` times the weight column `c`. -/
theorem v259_at (a : Fin 100000) (c : Fin 64) :
    val_main_v259 (F := Ideal) x0 x1 x3 x4 x5 x6 x7 x8 x9 x10 x11 x12 x13 x14 x15 x16 x17 x18 x19 x20 x21 x22 x23 x24 x25 x26 x27 (ix2 a c) = ∑ l : Fin 64, (val_main_v211 (F := Ideal) x0 x1 x3 x4 x5 x6 x7 x8 x9 x10 x11 x12 x13 x14 x15 x16 x17 x18 x19 x20 x21 x22 x23 x24 x25 x26 x27 (ix2 a l) + val_main_v233 (F := Ideal) x0 x1 x3 x4 x5 x6 x7 x8 x9 x10 x11 x12 x13 x14 x15 x16 x17 x18 x19 x20 x21 x22 x23 x24 x25 x26 x27 (ix2 a l)) * val_main_v236 (F := Ideal) x16 (ix2 l c) := by
  rw [val_main_v259_apply]
  refine Finset.sum_congr rfl fun l _ => ?_
  have hl : lidx_main_v259 (ix2 a c) l = ix2 a l := funext fun d => Fin.ext (by match d with | ⟨0, _⟩ => rfl | ⟨1, _⟩ => rfl)
  have hr : ridx_main_v259 (ix2 a c) l = ix2 l c := funext fun d => Fin.ext (by match d with | ⟨0, _⟩ => rfl | ⟨1, _⟩ => rfl)
  rw [hl, hr, val_main_v234_apply, Ideal.addf_def]

/-- The first layer's output at entry `(a, k)`: the affine map, then the normalisation `(y - m) * s + t`, then the positive part. -/
theorem v276_at (a : Fin 100000) (k : Fin 64) :
    val_main_v276 (F := Ideal) x0 x1 x3 x4 x5 x6 x7 x8 x9 x10 x11 x12 x13 x14 x15 x16 x17 x18 x19 x20 x21 x22 x23 x24 x25 x26 x27 (ix2 a k) =
      max ((((∑ l : Fin 64, (val_main_v211 (F := Ideal) x0 x1 x3 x4 x5 x6 x7 x8 x9 x10 x11 x12 x13 x14 x15 x16 x17 x18 x19 x20 x21 x22 x23 x24 x25 x26 x27 (ix2 a l) + val_main_v233 (F := Ideal) x0 x1 x3 x4 x5 x6 x7 x8 x9 x10 x11 x12 x13 x14 x15 x16 x17 x18 x19 x20 x21 x22 x23 x24 x25 x26 x27 (ix2 a l)) * val_main_v236 (F := Ideal) x16 (ix2 l k)) + val_main_v238 (F := Ideal) x17 (ix1 k)) - val_main_v244 (F := Ideal) x20 (ix1 k)) * val_main_v269 (F := Ideal) x18 x21 (ix1 k) + val_main_v242 (F := Ideal) x19 (ix1 k)) 0 := by
  rw [val_main_v276_apply, val_main_v275_apply, val_main_v272_apply, val_main_v265_apply, val_main_v262_apply,
    v259_at, v261_at, v264_at, v271_at, v274_at, val_main_call6_v0_apply, val_main_call6_cst_apply,
    Ideal.maximumf_def, Ideal.addf_def, Ideal.mulf_def, Ideal.subf_def, Ideal.addf_def, Ideal.ofBits_def, Ideal.ofBits_zero_f32]

/-- The second matrix product at entry `(r, j)`: the sum over `k` of the first layer's output at `(r, k)` times the weight at `(k, j)`. -/
theorem v277_at (r : Fin 100000) (j : Fin 64) :
    val_main_v277 (F := Ideal) x0 x1 x3 x4 x5 x6 x7 x8 x9 x10 x11 x12 x13 x14 x15 x16 x17 x18 x19 x20 x21 x22 x23 x24 x25 x26 x27 (ix2 r j) =
      ∑ k : Fin 64, max ((((∑ l : Fin 64, (val_main_v211 (F := Ideal) x0 x1 x3 x4 x5 x6 x7 x8 x9 x10 x11 x12 x13 x14 x15 x16 x17 x18 x19 x20 x21 x22 x23 x24 x25 x26 x27 (ix2 r l) + val_main_v233 (F := Ideal) x0 x1 x3 x4 x5 x6 x7 x8 x9 x10 x11 x12 x13 x14 x15 x16 x17 x18 x19 x20 x21 x22 x23 x24 x25 x26 x27 (ix2 r l)) * val_main_v236 (F := Ideal) x16 (ix2 l k)) + val_main_v238 (F := Ideal) x17 (ix1 k)) - val_main_v244 (F := Ideal) x20 (ix1 k)) * val_main_v269 (F := Ideal) x18 x21 (ix1 k) + val_main_v242 (F := Ideal) x19 (ix1 k)) 0 * val_main_v248 (F := Ideal) x22 (ix2 k j) := by
  rw [val_main_v277_apply]
  refine Finset.sum_congr rfl fun k _ => ?_
  have hl : lidx_main_v277 (ix2 r j) k = ix2 r k := funext fun d => Fin.ext (by match d with | ⟨0, _⟩ => rfl | ⟨1, _⟩ => rfl)
  have hr : ridx_main_v277 (ix2 r j) k = ix2 k j := funext fun d => Fin.ext (by match d with | ⟨0, _⟩ => rfl | ⟨1, _⟩ => rfl)
  rw [hl, hr, v276_at]

/-- The block's output at entry `(r, j)`: two layers, each an affine map followed by `(y - m) * s + t` and the positive part. -/
theorem ref3_at (r : Fin 100000) (j : Fin 64) :
    val_main_v294 (F := Ideal) x0 x1 x3 x4 x5 x6 x7 x8 x9 x10 x11 x12 x13 x14 x15 x16 x17 x18 x19 x20 x21 x22 x23 x24 x25 x26 x27 (ix2 r j) =
      max ((((∑ k : Fin 64, max ((((∑ l : Fin 64, (val_main_v211 (F := Ideal) x0 x1 x3 x4 x5 x6 x7 x8 x9 x10 x11 x12 x13 x14 x15 x16 x17 x18 x19 x20 x21 x22 x23 x24 x25 x26 x27 (ix2 r l) + val_main_v233 (F := Ideal) x0 x1 x3 x4 x5 x6 x7 x8 x9 x10 x11 x12 x13 x14 x15 x16 x17 x18 x19 x20 x21 x22 x23 x24 x25 x26 x27 (ix2 r l)) * val_main_v236 (F := Ideal) x16 (ix2 l k)) + val_main_v238 (F := Ideal) x17 (ix1 k)) - val_main_v244 (F := Ideal) x20 (ix1 k)) * val_main_v269 (F := Ideal) x18 x21 (ix1 k) + val_main_v242 (F := Ideal) x19 (ix1 k)) 0 * val_main_v248 (F := Ideal) x22 (ix2 k j)) + val_main_v250 (F := Ideal) x23 (ix1 j)) - val_main_v256 (F := Ideal) x26 (ix1 j)) * val_main_v287 (F := Ideal) x24 x27 (ix1 j) + val_main_v254 (F := Ideal) x25 (ix1 j)) 0 := by
  rw [val_main_v294_apply, val_main_v293_apply, val_main_v290_apply, val_main_v283_apply, val_main_v280_apply,
    v277_at, v279_at, v282_at, v289_at, v292_at, val_main_call7_v0_apply, val_main_call7_cst_apply,
    Ideal.maximumf_def, Ideal.addf_def, Ideal.mulf_def, Ideal.subf_def, Ideal.addf_def, Ideal.ofBits_def, Ideal.ofBits_zero_f32]

end Cert.ReferenceIdeal.RefLayers
-- ==== Proof.LibRealEntries.lean ====
/-
  Arrays of extended reals all of whose entries are real numbers, and the host operations that
  keep them so. At the ideal values a float is an extended real; an array none of whose entries is
  an infinity stays such under reading at computed indices, accumulating scatters, finite sums,
  sums / differences / products / maxima of entries, and matrix products; and a quotient by the
  square root of a positive quantity is a real number.
-/
import Idealize.ShloMosaic.PureOps.Ideal
import Idealize.ShloMosaic.PureOps.Ideal.Laws
noncomputable section
open scoped BigOperators
namespace Idealize.ShloMosaic.RealEntries
open Idealize.ShloMosaic

/-- An array of extended reals every entry of which is (the coercion of) a real number. -/
def AllReal {α : Type*} (x : α → EReal) : Prop := ∀ i, ∃ r : ℝ, x i = (r : EReal)

/-! ### Closure at one entry -/

/-- The sum of two real numbers is a real number. -/
theorem add_real {a b : EReal} (ha : ∃ r : ℝ, a = (r : EReal)) (hb : ∃ r : ℝ, b = (r : EReal)) :
    ∃ r : ℝ, a + b = (r : EReal) := by
  obtain ⟨r, rfl⟩ := ha; obtain ⟨t, rfl⟩ := hb
  exact ⟨r + t, (EReal.coe_add r t).symm⟩

/-- The difference of two real numbers is a real number. -/
theorem sub_real {a b : EReal} (ha : ∃ r : ℝ, a = (r : EReal)) (hb : ∃ r : ℝ, b = (r : EReal)) :
    ∃ r : ℝ, a - b = (r : EReal) := by
  obtain ⟨r, rfl⟩ := ha; obtain ⟨t, rfl⟩ := hb
  exact ⟨r - t, (EReal.coe_sub r t).symm⟩

/-- The product of two real numbers is a real number. -/
theorem mul_real {a b : EReal} (ha : ∃ r : ℝ, a = (r : EReal)) (hb : ∃ r : ℝ, b = (r : EReal)) :
    ∃ r : ℝ, a * b = (r : EReal) := by
  obtain ⟨r, rfl⟩ := ha; obtain ⟨t, rfl⟩ := hb
  exact ⟨r * t, (EReal.coe_mul r t).symm⟩

/-- The larger of two real numbers is a real number (one of the two). -/
theorem max_real {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The negative of a real number is a real number. -/
theorem neg_real {a : EReal} (ha : ∃ r : ℝ, a = (r : EReal)) : ∃ r : ℝ, -a = (r : EReal) := by
  obtain ⟨r, rfl⟩ := ha
  exact ⟨-r, (EReal.coe_neg r).symm⟩

/-- A finite sum of real numbers is a real number. -/
theorem sum_real {ι : Type*} (t : Finset ι) (f : ι → EReal) (hf : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a s ha ih =>
    rw [Finset.sum_insert ha]
    exact add_real (hf a (Finset.mem_insert_self a s)) (ih fun i hi => hf i (Finset.mem_insert_of_mem hi))

/-! ### Closure of whole arrays under the elementwise operations -/

section Elementwise
variable {s : Shape} {φ : FTy}

/-- The entrywise sum of two arrays of real numbers is an array of real numbers. -/
theorem addf_allReal (x y : FVec Ideal s φ) (hx : AllReal x) (hy : AllReal y) : AllReal (addf x y) :=
  fun i => add_real (hx i) (hy i)

/-- The entrywise difference of two arrays of real numbers is an array of real numbers. -/
theorem subf_allReal (x y : FVec Ideal s φ) (hx : AllReal x) (hy : AllReal y) : AllReal (subf x y) :=
  fun i => sub_real (hx i) (hy i)

/-- The entrywise product of two arrays of real numbers is an array of real numbers. -/
theorem mulf_allReal (x y : FVec Ideal s φ) (hx : AllReal x) (hy : AllReal y) : AllReal (mulf x y) :=
  fun i => mul_real (hx i) (hy i)

/-- The entrywise maximum of two arrays of real numbers is an array of real numbers. -/
theorem maximumf_allReal (x y : FVec Ideal s φ) (hx : AllReal x) (hy : AllReal y) : AllReal (maximumf x y) :=
  fun i => max_real (hx i) (hy i)

end Elementwise

/-! ### Reading at computed indices -/

/-- An array that reads an array of real numbers at computed indices is an array of real numbers. -/
theorem comp_allReal {α β : Type*} (x : α → EReal) (f : β → α) (hx : AllReal x) : AllReal fun j => x (f j) :=
  fun j => hx (f j)

/-- A gather reads its operand at a computed index, so a gather of real numbers consists of real numbers,
    whatever the dimension numbers and the start indices. -/
theorem gather_allReal {s si t : Shape} {w : Nat} (d : GatherDims s si t) (x : s.Idx → EReal) (idx : IVec si w)
    (hx : AllReal x) : AllReal (Host.gather d x idx) :=
  fun j => hx (d.operandIdx j idx)

/-- A broadcast reads its operand at a computed index, so a broadcast of real numbers consists of real numbers. -/
theorem broadcastInDim_allReal {s t : Shape} (dims : Fin s.rank → Fin t.rank) (h : s.BroadcastsInDim t dims)
    (x : s.Idx → EReal) (hx : AllReal x) : AllReal (broadcastInDim t dims h x) :=
  fun _ => hx _

/-- A reshape reads its operand at a computed index, so a reshape of real numbers consists of real numbers. -/
theorem shapeCast_allReal {s t : Shape} (h : s.ShapeCasts t) (x : s.Idx → EReal) (hx : AllReal x) :
    AllReal (shapeCast t x h) :=
  fun _ => hx _

/-- A slice reads its operand at a computed index, so a slice of real numbers consists of real numbers. -/
theorem extractStridedSlice_allReal {s t : Shape} (off : Fin s.rank → Nat) (h : s.Slices off t) (x : s.Idx → EReal)
    (hx : AllReal x) : AllReal (extractStridedSlice t off x h) :=
  fun _ => hx _

/-! ### The accumulating scatter -/

/-- Each entry of an accumulating scatter is the operand's entry plus a finite sum of update entries;
    so from real operand and update entries it is a real number. -/
theorem scatterAdd_allReal {s si u : Shape} {w : Nat} (d : ScatterDims s si u) (x : s.Idx → EReal) (idx : IVec si w)
    (upd : u.Idx → EReal) (hx : AllReal x) (hu : AllReal upd) : AllReal (Ideal.hostScatterAdd d x idx upd) :=
  fun i => add_real (hx i) (sum_real _ _ fun j _ => hu j)

/-- The same of the host program's accumulating scatter read at the ideal values, at every float format. -/
theorem Host_scatterAdd_allReal {s si u : Shape} {w : Nat} {φ : FTy} (d : ScatterDims s si u) (x : FVec Ideal s φ)
    (idx : IVec si w) (upd : FVec Ideal u φ) (hx : AllReal x) (hu : AllReal upd) :
    AllReal (Host.scatterAdd d x idx upd) :=
  scatterAdd_allReal d x idx upd hx hu

/-! ### The sum along axes -/

/-- Each entry of a sum along axes is the initial value plus a finite sum of operand entries; so from a real
    initial value and real operand entries it is a real number. -/
theorem hostReduceAdd_allReal {s t : Shape} {axes : List (Fin s.rank)} (h : s.ReducesTo axes t) (x : s.Idx → EReal)
    (init : EReal) (hx : AllReal x) (hi : ∃ r : ℝ, init = (r : EReal)) : AllReal (Ideal.hostReduceAdd h x init) :=
  fun _ => add_real hi (sum_real _ _ fun i _ => hx i)

/-- The same of the host program's sum along axes read at the ideal values, at every float format. -/
theorem Host_reduceAdd_allReal {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) :=
  hostReduceAdd_allReal h x _ hx (hi _)

/-! ### The matrix product -/

/-- Each entry of a matrix product is a finite sum of products of the operands' entries; so the product
    of two arrays of real numbers is an array of real numbers. -/
theorem dotGeneral_allReal {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := by
  intro j
  show ∃ r : ℝ, FloatOps.dotGeneral d prec .single lhs rhs j = (r : EReal)
  rw [Ideal.dotGeneral_apply]
  exact sum_real _ _ fun k _ => mul_real (hl _) (hr _)

/-! ### The normalisation scale -/

/-- A real number divided by the square root of a positive extended real is a real number: the square
    root of `+∞` is `+∞`, whose inverse is `0`; the square root of a positive real is a positive real. -/
theorem div_sqrt_real {g t : EReal} (hg : ∃ r : ℝ, g = (r : EReal)) (hpos : 0 < t) :
    ∃ r : ℝ, Ideal.div g (Ideal.sqrt t) = (r : EReal) := by
  obtain ⟨a, rfl⟩ := hg
  induction t using EReal.rec with
  | bot => exact absurd hpos (not_lt.mpr bot_le)
  | top =>
    refine ⟨0, ?_⟩
    rw [Ideal.sqrt_top, Ideal.div, if_neg EReal.top_ne_zero, EReal.inv_top, mul_zero, EReal.coe_zero]
  | coe t =>
    have ht : 0 < t := EReal.coe_pos.mp hpos
    have hs : 0 < Real.sqrt t := Real.sqrt_pos.mpr ht
    rw [Ideal.sqrt_coe, if_neg (not_lt.mpr ht.le), Ideal.div_coe hs.ne']
    exact ⟨a * (1 / Real.sqrt t), (EReal.coe_mul _ _).symm⟩

/-- The normalisation scale `g / √(v + e)` is a real number when `g` is real and `v + e` is positive. -/
theorem scale_real (g v e : EReal) (hg : ∃ r : ℝ, g = (r : EReal)) (_hv : ∃ r : ℝ, v = (r : EReal))
    (hpos : 0 < v + e) : ∃ r : ℝ, Ideal.div g (Ideal.sqrt (v + e)) = (r : EReal) :=
  div_sqrt_real hg hpos

/-- The host program's quotient by a square root of a sum, read at an entry, is the quotient of the entries. -/
theorem Host_divf_sqrt_addf_apply {s : Shape} {φ : FTy} (g v e : FVec Ideal s φ) (i : s.Idx) :
    Host.divf g (Host.sqrt (addf v e)) i = Ideal.div (g i) (Ideal.sqrt (v i + e i)) := rfl

/-- The host program's quotient by a square root, read at an entry, is the quotient of the entries. -/
theorem Host_divf_sqrt_apply {s : Shape} {φ : FTy} (g t : FVec Ideal s φ) (i : s.Idx) :
    Host.divf g (Host.sqrt t) i = Ideal.div (g i) (Ideal.sqrt (t i)) := rfl

/-- The array of normalisation scales `g / √(v + e)` consists of real numbers when `g` does and every
    `v i + e i` is positive. -/
theorem scale_allReal {s : Shape} {φ : FTy} (g v e : FVec Ideal s φ) (hg : AllReal g)
    (hpos : ∀ i, 0 < v i + e i) : AllReal (Host.divf g (Host.sqrt (addf v e))) :=
  fun i => div_sqrt_real (hg i) (hpos i)

end Idealize.ShloMosaic.RealEntries
-- ==== Proof.RefReal.lean ====
/-
  Which stages of the reference program hold only real numbers when its arguments do.

  At the ideal values a float is an extended real. Every stage below is one operation applied to
  earlier stages, and each such operation keeps arrays of real numbers arrays of real numbers:
  reading at computed indices (gathers, slices, reshapes, broadcasts), entrywise sums, differences,
  products and maxima, matrix products (finite sums of products) and accumulating scatters (an
  entry plus a finite sum of entries). The one division is the normalisation scale
  `g / √(v + ε)`: it is a real number as soon as `g` is one and `v + ε` is positive, whether
  or not `v` itself is finite. So the hypotheses are: the float arguments consist of real numbers,
  and each variance argument stays positive after the constant `ε` is added.

  A theorem `real_vN` says that stage `%N` consists of real numbers; `pos_vN`, for a stage that
  is one row of a variance argument, says that this row plus `ε` is positive.
-/
import proofs.«170803_j37795712205240_1_alg».proof.Proof.ReadP
import proofs.«170803_j37795712205240_1_alg».proof.Proof.LibRealEntries
import Idealize.ShloMosaic.PureOps.Ideal.Laws

set_option maxRecDepth 16384

noncomputable section

namespace Cert.ReferenceIdeal.RefReal

open Cert.ReferenceIdeal Cert.ReferenceIdeal.ReadP Idealize.ShloMosaic Idealize.ShloMosaic.RealEntries

/-- The array all of whose entries are the float zero consists of real numbers: that float is the real `0`. -/
theorem zero_allReal (s : Shape) : AllReal (constant (F := Ideal) s .f32 0x00000000#32) :=
  fun _ => ⟨0, by
    show Ideal.ofBits .f32 0x00000000#32 = ((0 : ℝ) : EReal)
    rw [Ideal.ofBits_zero_f32, EReal.coe_zero]⟩

/- `PosEps x`: every entry of `x` stays positive after the constant `ε` (the float whose word is
   `0x3727C5AC`) is added. Only a shorthand of this file: a statement that uses it is, once read,
   the statement with the right-hand side written out, at whatever index type `x` has. -/
set_option quotPrecheck false in
local notation "PosEps" x:max =>
  ∀ i, (0 : EReal) < @HAdd.hAdd EReal EReal EReal instHAdd (x i) (Ideal.ofBits .f32 0x3727C5AC#32)

/-! The arguments of the reference program: three integer arrays and twenty-seven float arrays. -/
variable {x0 : (⟨S100000, .i32⟩ : BufTy).Contents (Elt Ideal)}
  {x1 : (⟨S2x1000000, .i32⟩ : BufTy).Contents (Elt Ideal)}
  {x2 : (⟨S100000, .i32⟩ : BufTy).Contents (Elt Ideal)}
  {x3 : (⟨S100000x128, .f32⟩ : BufTy).Contents (Elt Ideal)}
  {x4 : (⟨S128x64, .f32⟩ : BufTy).Contents (Elt Ideal)}
  {x5 x6 x7 x8 x9 : (⟨S64, .f32⟩ : BufTy).Contents (Elt Ideal)}
  {x10 : (⟨S64x64, .f32⟩ : BufTy).Contents (Elt Ideal)}
  {x11 x12 x13 x14 x15 : (⟨S64, .f32⟩ : BufTy).Contents (Elt Ideal)}
  {x16 : (⟨S3x64x64, .f32⟩ : BufTy).Contents (Elt Ideal)}
  {x17 x18 x19 x20 x21 : (⟨S3x64, .f32⟩ : BufTy).Contents (Elt Ideal)}
  {x22 : (⟨S3x64x64, .f32⟩ : BufTy).Contents (Elt Ideal)}
  {x23 x24 x25 x26 x27 : (⟨S3x64, .f32⟩ : BufTy).Contents (Elt Ideal)}
  {x28 : (⟨S4x64x2, .f32⟩ : BufTy).Contents (Elt Ideal)}
  {x29 : (⟨S4x2, .f32⟩ : BufTy).Contents (Elt Ideal)}

/-- Stage %10, the rows of the table read at the node indices. A gather reads an array of real numbers at computed indices. -/
theorem real_v10 (h3 : AllReal x3) :
    AllReal (val_main_v10 (F := Ideal) x0 x3) := by
  unfold val_main_v10
  exact gather_allReal _ _ _ h3

/-- Stage %11. A matrix product of two arrays of real numbers. -/
theorem real_v11 (h3 : AllReal x3) (h4 : AllReal x4) :
    AllReal (val_main_v11 (F := Ideal) x0 x3 x4) := by
  unfold val_main_v11
  exact dotGeneral_allReal _ _ _ _ (real_v10 h3) h4

/-- Stage %12. A broadcast of an array of real numbers. -/
theorem real_v12 (h5 : AllReal x5) :
    AllReal (val_main_v12 (F := Ideal) x5) := by
  unfold val_main_v12
  exact broadcastInDim_allReal _ _ _ h5

/-- Stage %13. A broadcast of an array of real numbers. -/
theorem real_v13 (h5 : AllReal x5) :
    AllReal (val_main_v13 (F := Ideal) x5) := by
  unfold val_main_v13
  exact broadcastInDim_allReal _ _ _ (real_v12 h5)

/-- Stage %14. An entrywise sum of two arrays of real numbers. -/
theorem real_v14 (h3 : AllReal x3) (h4 : AllReal x4) (h5 : AllReal x5) :
    AllReal (val_main_v14 (F := Ideal) x0 x3 x4 x5) := by
  unfold val_main_v14
  exact addf_allReal _ _ (real_v11 h3 h4) (real_v13 h5)

/-- Stage %15. A broadcast of an array of real numbers. -/
theorem real_v15 (h8 : AllReal x8) :
    AllReal (val_main_v15 (F := Ideal) x8) := by
  unfold val_main_v15
  exact broadcastInDim_allReal _ _ _ h8

/-- Stage %16. A broadcast of an array of real numbers. -/
theorem real_v16 (h8 : AllReal x8) :
    AllReal (val_main_v16 (F := Ideal) x8) := by
  unfold val_main_v16
  exact broadcastInDim_allReal _ _ _ (real_v15 h8)

/-- Stage %17. An entrywise difference of two arrays of real numbers. -/
theorem real_v17 (h3 : AllReal x3) (h4 : AllReal x4) (h5 : AllReal x5) (h8 : AllReal x8) :
    AllReal (val_main_v17 (F := Ideal) x0 x3 x4 x5 x8) := by
  unfold val_main_v17
  exact subf_allReal _ _ (real_v14 h3 h4 h5) (real_v16 h8)

/-- Stage %21, the first scale of the first block. A real number over the square root of a positive quantity. -/
theorem real_v21 (h6 : AllReal x6) (p9 : PosEps x9) :
    AllReal (val_main_v21 (F := Ideal) x6 x9) := by
  unfold val_main_v21 val_main_v20 val_main_v19
  exact scale_allReal _ _ _ h6 (fun i => p9 i)

/-- Stage %22. A broadcast of an array of real numbers. -/
theorem real_v22 (h6 : AllReal x6) (p9 : PosEps x9) :
    AllReal (val_main_v22 (F := Ideal) x6 x9) := by
  unfold val_main_v22
  exact broadcastInDim_allReal _ _ _ (real_v21 h6 p9)

/-- Stage %23. A broadcast of an array of real numbers. -/
theorem real_v23 (h6 : AllReal x6) (p9 : PosEps x9) :
    AllReal (val_main_v23 (F := Ideal) x6 x9) := by
  unfold val_main_v23
  exact broadcastInDim_allReal _ _ _ (real_v22 h6 p9)

/-- Stage %24. An entrywise product of two arrays of real numbers. -/
theorem real_v24 (h3 : AllReal x3) (h4 : AllReal x4) (h5 : AllReal x5) (h6 : AllReal x6) (h8 : AllReal x8)
    (p9 : PosEps x9) :
    AllReal (val_main_v24 (F := Ideal) x0 x3 x4 x5 x6 x8 x9) := by
  unfold val_main_v24
  exact mulf_allReal _ _ (real_v17 h3 h4 h5 h8) (real_v23 h6 p9)

/-- Stage %25. A broadcast of an array of real numbers. -/
theorem real_v25 (h7 : AllReal x7) :
    AllReal (val_main_v25 (F := Ideal) x7) := by
  unfold val_main_v25
  exact broadcastInDim_allReal _ _ _ h7

/-- Stage %26. A broadcast of an array of real numbers. -/
theorem real_v26 (h7 : AllReal x7) :
    AllReal (val_main_v26 (F := Ideal) x7) := by
  unfold val_main_v26
  exact broadcastInDim_allReal _ _ _ (real_v25 h7)

/-- Stage %27. An entrywise sum of two arrays of real numbers. -/
theorem real_v27 (h3 : AllReal x3) (h4 : AllReal x4) (h5 : AllReal x5) (h6 : AllReal x6) (h7 : AllReal x7)
    (h8 : AllReal x8) (p9 : PosEps x9) :
    AllReal (val_main_v27 (F := Ideal) x0 x3 x4 x5 x6 x7 x8 x9) := by
  unfold val_main_v27
  exact addf_allReal _ _ (real_v24 h3 h4 h5 h6 h8 p9) (real_v26 h7)

/-- Stage `call0_cst`. The constant zero. -/
theorem real_call0_cst :
    AllReal (val_main_call0_cst (F := Ideal)) := by
  unfold val_main_call0_cst
  exact zero_allReal _

/-- Stage `call0_v0`. A broadcast of an array of real numbers. -/
theorem real_call0_v0 :
    AllReal (val_main_call0_v0 (F := Ideal)) := by
  unfold val_main_call0_v0
  exact broadcastInDim_allReal _ _ _ real_call0_cst

/-- Stage %28, the first half of the first block. An entrywise maximum of two arrays of real numbers. -/
theorem real_v28 (h3 : AllReal x3) (h4 : AllReal x4) (h5 : AllReal x5) (h6 : AllReal x6) (h7 : AllReal x7)
    (h8 : AllReal x8) (p9 : PosEps x9) :
    AllReal (val_main_v28 (F := Ideal) x0 x3 x4 x5 x6 x7 x8 x9) := by
  unfold val_main_v28
  exact maximumf_allReal _ _ (real_v27 h3 h4 h5 h6 h7 h8 p9) real_call0_v0

/-- Stage %29. A matrix product of two arrays of real numbers. -/
theorem real_v29 (h3 : AllReal x3) (h4 : AllReal x4) (h5 : AllReal x5) (h6 : AllReal x6) (h7 : AllReal x7)
    (h8 : AllReal x8) (p9 : PosEps x9) (h10 : AllReal x10) :
    AllReal (val_main_v29 (F := Ideal) x0 x3 x4 x5 x6 x7 x8 x9 x10) := by
  unfold val_main_v29
  exact dotGeneral_allReal _ _ _ _ (real_v28 h3 h4 h5 h6 h7 h8 p9) h10

/-- Stage %30. A broadcast of an array of real numbers. -/
theorem real_v30 (h11 : AllReal x11) :
    AllReal (val_main_v30 (F := Ideal) x11) := by
  unfold val_main_v30
  exact broadcastInDim_allReal _ _ _ h11

/-- Stage %31. A broadcast of an array of real numbers. -/
theorem real_v31 (h11 : AllReal x11) :
    AllReal (val_main_v31 (F := Ideal) x11) := by
  unfold val_main_v31
  exact broadcastInDim_allReal _ _ _ (real_v30 h11)

/-- Stage %32. An entrywise sum of two arrays of real numbers. -/
theorem real_v32 (h3 : AllReal x3) (h4 : AllReal x4) (h5 : AllReal x5) (h6 : AllReal x6) (h7 : AllReal x7)
    (h8 : AllReal x8) (p9 : PosEps x9) (h10 : AllReal x10) (h11 : AllReal x11) :
    AllReal (val_main_v32 (F := Ideal) x0 x3 x4 x5 x6 x7 x8 x9 x10 x11) := by
  unfold val_main_v32
  exact addf_allReal _ _ (real_v29 h3 h4 h5 h6 h7 h8 p9 h10) (real_v31 h11)

/-- Stage %33. A broadcast of an array of real numbers. -/
theorem real_v33 (h14 : AllReal x14) :
    AllReal (val_main_v33 (F := Ideal) x14) := by
  unfold val_main_v33
  exact broadcastInDim_allReal _ _ _ h14

/-- Stage %34. A broadcast of an array of real numbers. -/
theorem real_v34 (h14 : AllReal x14) :
    AllReal (val_main_v34 (F := Ideal) x14) := by
  unfold val_main_v34
  exact broadcastInDim_allReal _ _ _ (real_v33 h14)

/-- Stage %35. An entrywise difference of two arrays of real numbers. -/
theorem real_v35 (h3 : AllReal x3) (h4 : AllReal x4) (h5 : AllReal x5) (h6 : AllReal x6) (h7 : AllReal x7)
    (h8 : AllReal x8) (p9 : PosEps x9) (h10 : AllReal x10) (h11 : AllReal x11) (h14 : AllReal x14) :
    AllReal (val_main_v35 (F := Ideal) x0 x3 x4 x5 x6 x7 x8 x9 x10 x11 x14) := by
  unfold val_main_v35
  exact subf_allReal _ _ (real_v32 h3 h4 h5 h6 h7 h8 p9 h10 h11) (real_v34 h14)

/-- Stage %39, the second scale of the first block. A real number over the square root of a positive quantity. -/
theorem real_v39 (h12 : AllReal x12) (p15 : PosEps x15) :
    AllReal (val_main_v39 (F := Ideal) x12 x15) := by
  unfold val_main_v39 val_main_v38 val_main_v37
  exact scale_allReal _ _ _ h12 (fun i => p15 i)

/-- Stage %40. A broadcast of an array of real numbers. -/
theorem real_v40 (h12 : AllReal x12) (p15 : PosEps x15) :
    AllReal (val_main_v40 (F := Ideal) x12 x15) := by
  unfold val_main_v40
  exact broadcastInDim_allReal _ _ _ (real_v39 h12 p15)

/-- Stage %41. A broadcast of an array of real numbers. -/
theorem real_v41 (h12 : AllReal x12) (p15 : PosEps x15) :
    AllReal (val_main_v41 (F := Ideal) x12 x15) := by
  unfold val_main_v41
  exact broadcastInDim_allReal _ _ _ (real_v40 h12 p15)

/-- Stage %42. An entrywise product of two arrays of real numbers. -/
theorem real_v42 (h3 : AllReal x3) (h4 : AllReal x4) (h5 : AllReal x5) (h6 : AllReal x6) (h7 : AllReal x7)
    (h8 : AllReal x8) (p9 : PosEps x9) (h10 : AllReal x10) (h11 : AllReal x11) (h12 : AllReal x12)
    (h14 : AllReal x14) (p15 : PosEps x15) :
    AllReal (val_main_v42 (F := Ideal) x0 x3 x4 x5 x6 x7 x8 x9 x10 x11 x12 x14 x15) := by
  unfold val_main_v42
  exact mulf_allReal _ _ (real_v35 h3 h4 h5 h6 h7 h8 p9 h10 h11 h14) (real_v41 h12 p15)

/-- Stage %43. A broadcast of an array of real numbers. -/
theorem real_v43 (h13 : AllReal x13) :
    AllReal (val_main_v43 (F := Ideal) x13) := by
  unfold val_main_v43
  exact broadcastInDim_allReal _ _ _ h13

/-- Stage %44. A broadcast of an array of real numbers. -/
theorem real_v44 (h13 : AllReal x13) :
    AllReal (val_main_v44 (F := Ideal) x13) := by
  unfold val_main_v44
  exact broadcastInDim_allReal _ _ _ (real_v43 h13)

/-- Stage %45. An entrywise sum of two arrays of real numbers. -/
theorem real_v45 (h3 : AllReal x3) (h4 : AllReal x4) (h5 : AllReal x5) (h6 : AllReal x6) (h7 : AllReal x7)
    (h8 : AllReal x8) (p9 : PosEps x9) (h10 : AllReal x10) (h11 : AllReal x11) (h12 : AllReal x12)
    (h13 : AllReal x13) (h14 : AllReal x14) (p15 : PosEps x15) :
    AllReal (val_main_v45 (F := Ideal) x0 x3 x4 x5 x6 x7 x8 x9 x10 x11 x12 x13 x14 x15) := by
  unfold val_main_v45
  exact addf_allReal _ _ (real_v42 h3 h4 h5 h6 h7 h8 p9 h10 h11 h12 h14 p15) (real_v44 h13)

/-- Stage `call1_cst`. The constant zero. -/
theorem real_call1_cst :
    AllReal (val_main_call1_cst (F := Ideal)) := by
  unfold val_main_call1_cst
  exact zero_allReal _

/-- Stage `call1_v0`. A broadcast of an array of real numbers. -/
theorem real_call1_v0 :
    AllReal (val_main_call1_v0 (F := Ideal)) := by
  unfold val_main_call1_v0
  exact broadcastInDim_allReal _ _ _ real_call1_cst

/-- Stage %46, the output of the first block. An entrywise maximum of two arrays of real numbers. -/
theorem real_v46 (h3 : AllReal x3) (h4 : AllReal x4) (h5 : AllReal x5) (h6 : AllReal x6) (h7 : AllReal x7)
    (h8 : AllReal x8) (p9 : PosEps x9) (h10 : AllReal x10) (h11 : AllReal x11) (h12 : AllReal x12)
    (h13 : AllReal x13) (h14 : AllReal x14) (p15 : PosEps x15) :
    AllReal (val_main_v46 (F := Ideal) x0 x3 x4 x5 x6 x7 x8 x9 x10 x11 x12 x13 x14 x15) := by
  unfold val_main_v46
  exact maximumf_allReal _ _ (real_v45 h3 h4 h5 h6 h7 h8 p9 h10 h11 h12 h13 h14 p15) real_call1_v0

/-- Stage %64, the rows of the first block's output read at the edges' sources. A gather reads an array of real numbers at computed indices. Here stage %46 is assumed to consist of real numbers. -/
theorem real_v64
    (h : AllReal (val_main_v46 (F := Ideal) x0 x3 x4 x5 x6 x7 x8 x9 x10 x11 x12 x13 x14 x15)) :
    AllReal (val_main_v64 (F := Ideal) x0 x1 x3 x4 x5 x6 x7 x8 x9 x10 x11 x12 x13 x14 x15) := by
  unfold val_main_v64
  exact gather_allReal _ _ _ h

/-- Stage `cst_5`. The constant zero. -/
theorem real_cst_5 :
    AllReal (val_main_cst_5 (F := Ideal)) := by
  unfold val_main_cst_5
  exact zero_allReal _

/-- Stage %65. A broadcast of an array of real numbers. -/
theorem real_v65 :
    AllReal (val_main_v65 (F := Ideal)) := by
  unfold val_main_v65
  exact broadcastInDim_allReal _ _ _ real_cst_5

/-- Stage %67, the first aggregate: those rows summed at the edges' targets. An accumulating scatter of real numbers onto an array of real numbers. Here stage %46 is assumed to consist of real numbers. -/
theorem real_v67
    (h : AllReal (val_main_v46 (F := Ideal) x0 x3 x4 x5 x6 x7 x8 x9 x10 x11 x12 x13 x14 x15)) :
    AllReal (val_main_v67 (F := Ideal) x0 x1 x3 x4 x5 x6 x7 x8 x9 x10 x11 x12 x13 x14 x15) := by
  unfold val_main_v67
  exact Host_scatterAdd_allReal _ _ _ _ real_v65 (real_v64 h)

/-- Stage %68, the first block's output plus its aggregate. An entrywise sum of two arrays of real numbers. Here stage %46 is assumed to consist of real numbers. -/
theorem real_v68
    (h : AllReal (val_main_v46 (F := Ideal) x0 x3 x4 x5 x6 x7 x8 x9 x10 x11 x12 x13 x14 x15)) :
    AllReal (val_main_v68 (F := Ideal) x0 x1 x3 x4 x5 x6 x7 x8 x9 x10 x11 x12 x13 x14 x15) := by
  unfold val_main_v68
  exact addf_allReal _ _ h (real_v67 h)

/-- Stage %69. A slice of an array of real numbers. -/
theorem real_v69 (h16 : AllReal x16) :
    AllReal (val_main_v69 (F := Ideal) x16) := by
  unfold val_main_v69
  exact extractStridedSlice_allReal _ _ _ h16

/-- Stage %70. A reshape of an array of real numbers. -/
theorem real_v70 (h16 : AllReal x16) :
    AllReal (val_main_v70 (F := Ideal) x16) := by
  unfold val_main_v70
  exact shapeCast_allReal _ _ (real_v69 h16)

/-- Stage %71. A slice of an array of real numbers. -/
theorem real_v71 (h17 : AllReal x17) :
    AllReal (val_main_v71 (F := Ideal) x17) := by
  unfold val_main_v71
  exact extractStridedSlice_allReal _ _ _ h17

/-- Stage %72. A reshape of an array of real numbers. -/
theorem real_v72 (h17 : AllReal x17) :
    AllReal (val_main_v72 (F := Ideal) x17) := by
  unfold val_main_v72
  exact shapeCast_allReal _ _ (real_v71 h17)

/-- Stage %73. A slice of an array of real numbers. -/
theorem real_v73 (h18 : AllReal x18) :
    AllReal (val_main_v73 (F := Ideal) x18) := by
  unfold val_main_v73
  exact extractStridedSlice_allReal _ _ _ h18

/-- Stage %74. A reshape of an array of real numbers. -/
theorem real_v74 (h18 : AllReal x18) :
    AllReal (val_main_v74 (F := Ideal) x18) := by
  unfold val_main_v74
  exact shapeCast_allReal _ _ (real_v73 h18)

/-- Stage %75. A slice of an array of real numbers. -/
theorem real_v75 (h19 : AllReal x19) :
    AllReal (val_main_v75 (F := Ideal) x19) := by
  unfold val_main_v75
  exact extractStridedSlice_allReal _ _ _ h19

/-- Stage %76. A reshape of an array of real numbers. -/
theorem real_v76 (h19 : AllReal x19) :
    AllReal (val_main_v76 (F := Ideal) x19) := by
  unfold val_main_v76
  exact shapeCast_allReal _ _ (real_v75 h19)

/-- Stage %77. A slice of an array of real numbers. -/
theorem real_v77 (h20 : AllReal x20) :
    AllReal (val_main_v77 (F := Ideal) x20) := by
  unfold val_main_v77
  exact extractStridedSlice_allReal _ _ _ h20

/-- Stage %78. A reshape of an array of real numbers. -/
theorem real_v78 (h20 : AllReal x20) :
    AllReal (val_main_v78 (F := Ideal) x20) := by
  unfold val_main_v78
  exact shapeCast_allReal _ _ (real_v77 h20)

/-- Stage %80 is one row of a variance argument, so it stays positive after the constant is added. -/
theorem pos_v80 (p21 : PosEps x21) : PosEps (val_main_v80 (F := Ideal) x21) := by
  intro i
  rw [val_main_v80_apply, val_main_v79_apply]
  exact p21 _

/-- Stage %81. A slice of an array of real numbers. -/
theorem real_v81 (h22 : AllReal x22) :
    AllReal (val_main_v81 (F := Ideal) x22) := by
  unfold val_main_v81
  exact extractStridedSlice_allReal _ _ _ h22

/-- Stage %82. A reshape of an array of real numbers. -/
theorem real_v82 (h22 : AllReal x22) :
    AllReal (val_main_v82 (F := Ideal) x22) := by
  unfold val_main_v82
  exact shapeCast_allReal _ _ (real_v81 h22)

/-- Stage %83. A slice of an array of real numbers. -/
theorem real_v83 (h23 : AllReal x23) :
    AllReal (val_main_v83 (F := Ideal) x23) := by
  unfold val_main_v83
  exact extractStridedSlice_allReal _ _ _ h23

/-- Stage %84. A reshape of an array of real numbers. -/
theorem real_v84 (h23 : AllReal x23) :
    AllReal (val_main_v84 (F := Ideal) x23) := by
  unfold val_main_v84
  exact shapeCast_allReal _ _ (real_v83 h23)

/-- Stage %85. A slice of an array of real numbers. -/
theorem real_v85 (h24 : AllReal x24) :
    AllReal (val_main_v85 (F := Ideal) x24) := by
  unfold val_main_v85
  exact extractStridedSlice_allReal _ _ _ h24

/-- Stage %86. A reshape of an array of real numbers. -/
theorem real_v86 (h24 : AllReal x24) :
    AllReal (val_main_v86 (F := Ideal) x24) := by
  unfold val_main_v86
  exact shapeCast_allReal _ _ (real_v85 h24)

/-- Stage %87. A slice of an array of real numbers. -/
theorem real_v87 (h25 : AllReal x25) :
    AllReal (val_main_v87 (F := Ideal) x25) := by
  unfold val_main_v87
  exact extractStridedSlice_allReal _ _ _ h25

/-- Stage %88. A reshape of an array of real numbers. -/
theorem real_v88 (h25 : AllReal x25) :
    AllReal (val_main_v88 (F := Ideal) x25) := by
  unfold val_main_v88
  exact shapeCast_allReal _ _ (real_v87 h25)

/-- Stage %89. A slice of an array of real numbers. -/
theorem real_v89 (h26 : AllReal x26) :
    AllReal (val_main_v89 (F := Ideal) x26) := by
  unfold val_main_v89
  exact extractStridedSlice_allReal _ _ _ h26

/-- Stage %90. A reshape of an array of real numbers. -/
theorem real_v90 (h26 : AllReal x26) :
    AllReal (val_main_v90 (F := Ideal) x26) := by
  unfold val_main_v90
  exact shapeCast_allReal _ _ (real_v89 h26)

/-- Stage %92 is one row of a variance argument, so it stays positive after the constant is added. -/
theorem pos_v92 (p27 : PosEps x27) : PosEps (val_main_v92 (F := Ideal) x27) := by
  intro i
  rw [val_main_v92_apply, val_main_v91_apply]
  exact p27 _

/-- Stage %103, the first scale of the second block. A real number over the square root of a positive quantity. -/
theorem real_v103 (h18 : AllReal x18) (p21 : PosEps x21) :
    AllReal (val_main_v103 (F := Ideal) x18 x21) := by
  unfold val_main_v103 val_main_v102 val_main_v101
  exact scale_allReal _ _ _ (real_v74 h18) (fun i => pos_v80 p21 i)

/-- Stage %121, the second scale of the second block. A real number over the square root of a positive quantity. -/
theorem real_v121 (h24 : AllReal x24) (p27 : PosEps x27) :
    AllReal (val_main_v121 (F := Ideal) x24 x27) := by
  unfold val_main_v121 val_main_v120 val_main_v119
  exact scale_allReal _ _ _ (real_v86 h24) (fun i => pos_v92 p27 i)

/-- Stage %147. A gather reads an array of real numbers at computed indices. Here stage %128 is assumed to consist of real numbers. -/
theorem real_v147
    (h : AllReal (val_main_v128 (F := Ideal) x0 x1 x3 x4 x5 x6 x7 x8 x9 x10 x11 x12 x13 x14 x15 x16 x17 x18 x19 x20
      x21 x22 x23 x24 x25 x26 x27)) :
    AllReal (val_main_v147 (F := Ideal) x0 x1 x3 x4 x5 x6 x7 x8 x9 x10 x11 x12 x13 x14 x15 x16 x17 x18 x19 x20 x21 x22
      x23 x24 x25 x26 x27) := by
  unfold val_main_v147
  exact gather_allReal _ _ _ h

/-- Stage `cst_11`. The constant zero. -/
theorem real_cst_11 :
    AllReal (val_main_cst_11 (F := Ideal)) := by
  unfold val_main_cst_11
  exact zero_allReal _

/-- Stage %148. A broadcast of an array of real numbers. -/
theorem real_v148 :
    AllReal (val_main_v148 (F := Ideal)) := by
  unfold val_main_v148
  exact broadcastInDim_allReal _ _ _ real_cst_11

/-- Stage %150, the second aggregate. An accumulating scatter of real numbers onto an array of real numbers. Here stage %128 is assumed to consist of real numbers. -/
theorem real_v150
    (h : AllReal (val_main_v128 (F := Ideal) x0 x1 x3 x4 x5 x6 x7 x8 x9 x10 x11 x12 x13 x14 x15 x16 x17 x18 x19 x20
      x21 x22 x23 x24 x25 x26 x27)) :
    AllReal (val_main_v150 (F := Ideal) x0 x1 x3 x4 x5 x6 x7 x8 x9 x10 x11 x12 x13 x14 x15 x16 x17 x18 x19 x20 x21 x22
      x23 x24 x25 x26 x27) := by
  unfold val_main_v150
  exact Host_scatterAdd_allReal _ _ _ _ real_v148 (real_v147 h)

/-- Stage %151, the second block's output plus its aggregate. An entrywise sum of two arrays of real numbers. Here stage %128 is assumed to consist of real numbers. -/
theorem real_v151
    (h : AllReal (val_main_v128 (F := Ideal) x0 x1 x3 x4 x5 x6 x7 x8 x9 x10 x11 x12 x13 x14 x15 x16 x17 x18 x19 x20
      x21 x22 x23 x24 x25 x26 x27)) :
    AllReal (val_main_v151 (F := Ideal) x0 x1 x3 x4 x5 x6 x7 x8 x9 x10 x11 x12 x13 x14 x15 x16 x17 x18 x19 x20 x21 x22
      x23 x24 x25 x26 x27) := by
  unfold val_main_v151
  exact addf_allReal _ _ h (real_v150 h)

/-- Stage %152. A slice of an array of real numbers. -/
theorem real_v152 (h16 : AllReal x16) :
    AllReal (val_main_v152 (F := Ideal) x16) := by
  unfold val_main_v152
  exact extractStridedSlice_allReal _ _ _ h16

/-- Stage %153. A reshape of an array of real numbers. -/
theorem real_v153 (h16 : AllReal x16) :
    AllReal (val_main_v153 (F := Ideal) x16) := by
  unfold val_main_v153
  exact shapeCast_allReal _ _ (real_v152 h16)

/-- Stage %154. A slice of an array of real numbers. -/
theorem real_v154 (h17 : AllReal x17) :
    AllReal (val_main_v154 (F := Ideal) x17) := by
  unfold val_main_v154
  exact extractStridedSlice_allReal _ _ _ h17

/-- Stage %155. A reshape of an array of real numbers. -/
theorem real_v155 (h17 : AllReal x17) :
    AllReal (val_main_v155 (F := Ideal) x17) := by
  unfold val_main_v155
  exact shapeCast_allReal _ _ (real_v154 h17)

/-- Stage %156. A slice of an array of real numbers. -/
theorem real_v156 (h18 : AllReal x18) :
    AllReal (val_main_v156 (F := Ideal) x18) := by
  unfold val_main_v156
  exact extractStridedSlice_allReal _ _ _ h18

/-- Stage %157. A reshape of an array of real numbers. -/
theorem real_v157 (h18 : AllReal x18) :
    AllReal (val_main_v157 (F := Ideal) x18) := by
  unfold val_main_v157
  exact shapeCast_allReal _ _ (real_v156 h18)

/-- Stage %158. A slice of an array of real numbers. -/
theorem real_v158 (h19 : AllReal x19) :
    AllReal (val_main_v158 (F := Ideal) x19) := by
  unfold val_main_v158
  exact extractStridedSlice_allReal _ _ _ h19

/-- Stage %159. A reshape of an array of real numbers. -/
theorem real_v159 (h19 : AllReal x19) :
    AllReal (val_main_v159 (F := Ideal) x19) := by
  unfold val_main_v159
  exact shapeCast_allReal _ _ (real_v158 h19)

/-- Stage %160. A slice of an array of real numbers. -/
theorem real_v160 (h20 : AllReal x20) :
    AllReal (val_main_v160 (F := Ideal) x20) := by
  unfold val_main_v160
  exact extractStridedSlice_allReal _ _ _ h20

/-- Stage %161. A reshape of an array of real numbers. -/
theorem real_v161 (h20 : AllReal x20) :
    AllReal (val_main_v161 (F := Ideal) x20) := by
  unfold val_main_v161
  exact shapeCast_allReal _ _ (real_v160 h20)

/-- Stage %163 is one row of a variance argument, so it stays positive after the constant is added. -/
theorem pos_v163 (p21 : PosEps x21) : PosEps (val_main_v163 (F := Ideal) x21) := by
  intro i
  rw [val_main_v163_apply, val_main_v162_apply]
  exact p21 _

/-- Stage %164. A slice of an array of real numbers. -/
theorem real_v164 (h22 : AllReal x22) :
    AllReal (val_main_v164 (F := Ideal) x22) := by
  unfold val_main_v164
  exact extractStridedSlice_allReal _ _ _ h22

/-- Stage %165. A reshape of an array of real numbers. -/
theorem real_v165 (h22 : AllReal x22) :
    AllReal (val_main_v165 (F := Ideal) x22) := by
  unfold val_main_v165
  exact shapeCast_allReal _ _ (real_v164 h22)

/-- Stage %166. A slice of an array of real numbers. -/
theorem real_v166 (h23 : AllReal x23) :
    AllReal (val_main_v166 (F := Ideal) x23) := by
  unfold val_main_v166
  exact extractStridedSlice_allReal _ _ _ h23

/-- Stage %167. A reshape of an array of real numbers. -/
theorem real_v167 (h23 : AllReal x23) :
    AllReal (val_main_v167 (F := Ideal) x23) := by
  unfold val_main_v167
  exact shapeCast_allReal _ _ (real_v166 h23)

/-- Stage %168. A slice of an array of real numbers. -/
theorem real_v168 (h24 : AllReal x24) :
    AllReal (val_main_v168 (F := Ideal) x24) := by
  unfold val_main_v168
  exact extractStridedSlice_allReal _ _ _ h24

/-- Stage %169. A reshape of an array of real numbers. -/
theorem real_v169 (h24 : AllReal x24) :
    AllReal (val_main_v169 (F := Ideal) x24) := by
  unfold val_main_v169
  exact shapeCast_allReal _ _ (real_v168 h24)

/-- Stage %170. A slice of an array of real numbers. -/
theorem real_v170 (h25 : AllReal x25) :
    AllReal (val_main_v170 (F := Ideal) x25) := by
  unfold val_main_v170
  exact extractStridedSlice_allReal _ _ _ h25

/-- Stage %171. A reshape of an array of real numbers. -/
theorem real_v171 (h25 : AllReal x25) :
    AllReal (val_main_v171 (F := Ideal) x25) := by
  unfold val_main_v171
  exact shapeCast_allReal _ _ (real_v170 h25)

/-- Stage %172. A slice of an array of real numbers. -/
theorem real_v172 (h26 : AllReal x26) :
    AllReal (val_main_v172 (F := Ideal) x26) := by
  unfold val_main_v172
  exact extractStridedSlice_allReal _ _ _ h26

/-- Stage %173. A reshape of an array of real numbers. -/
theorem real_v173 (h26 : AllReal x26) :
    AllReal (val_main_v173 (F := Ideal) x26) := by
  unfold val_main_v173
  exact shapeCast_allReal _ _ (real_v172 h26)

/-- Stage %175 is one row of a variance argument, so it stays positive after the constant is added. -/
theorem pos_v175 (p27 : PosEps x27) : PosEps (val_main_v175 (F := Ideal) x27) := by
  intro i
  rw [val_main_v175_apply, val_main_v174_apply]
  exact p27 _

/-- Stage %186, the first scale of the third block. A real number over the square root of a positive quantity. -/
theorem real_v186 (h18 : AllReal x18) (p21 : PosEps x21) :
    AllReal (val_main_v186 (F := Ideal) x18 x21) := by
  unfold val_main_v186 val_main_v185 val_main_v184
  exact scale_allReal _ _ _ (real_v157 h18) (fun i => pos_v163 p21 i)

/-- Stage %204, the second scale of the third block. A real number over the square root of a positive quantity. -/
theorem real_v204 (h24 : AllReal x24) (p27 : PosEps x27) :
    AllReal (val_main_v204 (F := Ideal) x24 x27) := by
  unfold val_main_v204 val_main_v203 val_main_v202
  exact scale_allReal _ _ _ (real_v169 h24) (fun i => pos_v175 p27 i)

/-- Stage %230. A gather reads an array of real numbers at computed indices. Here stage %211 is assumed to consist of real numbers. -/
theorem real_v230
    (h : AllReal (val_main_v211 (F := Ideal) x0 x1 x3 x4 x5 x6 x7 x8 x9 x10 x11 x12 x13 x14 x15 x16 x17 x18 x19 x20
      x21 x22 x23 x24 x25 x26 x27)) :
    AllReal (val_main_v230 (F := Ideal) x0 x1 x3 x4 x5 x6 x7 x8 x9 x10 x11 x12 x13 x14 x15 x16 x17 x18 x19 x20 x21 x22
      x23 x24 x25 x26 x27) := by
  unfold val_main_v230
  exact gather_allReal _ _ _ h

/-- Stage `cst_17`. The constant zero. -/
theorem real_cst_17 :
    AllReal (val_main_cst_17 (F := Ideal)) := by
  unfold val_main_cst_17
  exact zero_allReal _

/-- Stage %231. A broadcast of an array of real numbers. -/
theorem real_v231 :
    AllReal (val_main_v231 (F := Ideal)) := by
  unfold val_main_v231
  exact broadcastInDim_allReal _ _ _ real_cst_17

/-- Stage %233, the third aggregate. An accumulating scatter of real numbers onto an array of real numbers. Here stage %211 is assumed to consist of real numbers. -/
theorem real_v233
    (h : AllReal (val_main_v211 (F := Ideal) x0 x1 x3 x4 x5 x6 x7 x8 x9 x10 x11 x12 x13 x14 x15 x16 x17 x18 x19 x20
      x21 x22 x23 x24 x25 x26 x27)) :
    AllReal (val_main_v233 (F := Ideal) x0 x1 x3 x4 x5 x6 x7 x8 x9 x10 x11 x12 x13 x14 x15 x16 x17 x18 x19 x20 x21 x22
      x23 x24 x25 x26 x27) := by
  unfold val_main_v233
  exact Host_scatterAdd_allReal _ _ _ _ real_v231 (real_v230 h)

/-- Stage %234, the third block's output plus its aggregate. An entrywise sum of two arrays of real numbers. Here stage %211 is assumed to consist of real numbers. -/
theorem real_v234
    (h : AllReal (val_main_v211 (F := Ideal) x0 x1 x3 x4 x5 x6 x7 x8 x9 x10 x11 x12 x13 x14 x15 x16 x17 x18 x19 x20
      x21 x22 x23 x24 x25 x26 x27)) :
    AllReal (val_main_v234 (F := Ideal) x0 x1 x3 x4 x5 x6 x7 x8 x9 x10 x11 x12 x13 x14 x15 x16 x17 x18 x19 x20 x21 x22
      x23 x24 x25 x26 x27) := by
  unfold val_main_v234
  exact addf_allReal _ _ h (real_v233 h)

/-- Stage %235. A slice of an array of real numbers. -/
theorem real_v235 (h16 : AllReal x16) :
    AllReal (val_main_v235 (F := Ideal) x16) := by
  unfold val_main_v235
  exact extractStridedSlice_allReal _ _ _ h16

/-- Stage %236. A reshape of an array of real numbers. -/
theorem real_v236 (h16 : AllReal x16) :
    AllReal (val_main_v236 (F := Ideal) x16) := by
  unfold val_main_v236
  exact shapeCast_allReal _ _ (real_v235 h16)

/-- Stage %237. A slice of an array of real numbers. -/
theorem real_v237 (h17 : AllReal x17) :
    AllReal (val_main_v237 (F := Ideal) x17) := by
  unfold val_main_v237
  exact extractStridedSlice_allReal _ _ _ h17

/-- Stage %238. A reshape of an array of real numbers. -/
theorem real_v238 (h17 : AllReal x17) :
    AllReal (val_main_v238 (F := Ideal) x17) := by
  unfold val_main_v238
  exact shapeCast_allReal _ _ (real_v237 h17)

/-- Stage %239. A slice of an array of real numbers. -/
theorem real_v239 (h18 : AllReal x18) :
    AllReal (val_main_v239 (F := Ideal) x18) := by
  unfold val_main_v239
  exact extractStridedSlice_allReal _ _ _ h18

/-- Stage %240. A reshape of an array of real numbers. -/
theorem real_v240 (h18 : AllReal x18) :
    AllReal (val_main_v240 (F := Ideal) x18) := by
  unfold val_main_v240
  exact shapeCast_allReal _ _ (real_v239 h18)

/-- Stage %241. A slice of an array of real numbers. -/
theorem real_v241 (h19 : AllReal x19) :
    AllReal (val_main_v241 (F := Ideal) x19) := by
  unfold val_main_v241
  exact extractStridedSlice_allReal _ _ _ h19

/-- Stage %242. A reshape of an array of real numbers. -/
theorem real_v242 (h19 : AllReal x19) :
    AllReal (val_main_v242 (F := Ideal) x19) := by
  unfold val_main_v242
  exact shapeCast_allReal _ _ (real_v241 h19)

/-- Stage %243. A slice of an array of real numbers. -/
theorem real_v243 (h20 : AllReal x20) :
    AllReal (val_main_v243 (F := Ideal) x20) := by
  unfold val_main_v243
  exact extractStridedSlice_allReal _ _ _ h20

/-- Stage %244. A reshape of an array of real numbers. -/
theorem real_v244 (h20 : AllReal x20) :
    AllReal (val_main_v244 (F := Ideal) x20) := by
  unfold val_main_v244
  exact shapeCast_allReal _ _ (real_v243 h20)

/-- Stage %246 is one row of a variance argument, so it stays positive after the constant is added. -/
theorem pos_v246 (p21 : PosEps x21) : PosEps (val_main_v246 (F := Ideal) x21) := by
  intro i
  rw [val_main_v246_apply, val_main_v245_apply]
  exact p21 _

/-- Stage %247. A slice of an array of real numbers. -/
theorem real_v247 (h22 : AllReal x22) :
    AllReal (val_main_v247 (F := Ideal) x22) := by
  unfold val_main_v247
  exact extractStridedSlice_allReal _ _ _ h22

/-- Stage %248. A reshape of an array of real numbers. -/
theorem real_v248 (h22 : AllReal x22) :
    AllReal (val_main_v248 (F := Ideal) x22) := by
  unfold val_main_v248
  exact shapeCast_allReal _ _ (real_v247 h22)

/-- Stage %249. A slice of an array of real numbers. -/
theorem real_v249 (h23 : AllReal x23) :
    AllReal (val_main_v249 (F := Ideal) x23) := by
  unfold val_main_v249
  exact extractStridedSlice_allReal _ _ _ h23

/-- Stage %250. A reshape of an array of real numbers. -/
theorem real_v250 (h23 : AllReal x23) :
    AllReal (val_main_v250 (F := Ideal) x23) := by
  unfold val_main_v250
  exact shapeCast_allReal _ _ (real_v249 h23)

/-- Stage %251. A slice of an array of real numbers. -/
theorem real_v251 (h24 : AllReal x24) :
    AllReal (val_main_v251 (F := Ideal) x24) := by
  unfold val_main_v251
  exact extractStridedSlice_allReal _ _ _ h24

/-- Stage %252. A reshape of an array of real numbers. -/
theorem real_v252 (h24 : AllReal x24) :
    AllReal (val_main_v252 (F := Ideal) x24) := by
  unfold val_main_v252
  exact shapeCast_allReal _ _ (real_v251 h24)

/-- Stage %253. A slice of an array of real numbers. -/
theorem real_v253 (h25 : AllReal x25) :
    AllReal (val_main_v253 (F := Ideal) x25) := by
  unfold val_main_v253
  exact extractStridedSlice_allReal _ _ _ h25

/-- Stage %254. A reshape of an array of real numbers. -/
theorem real_v254 (h25 : AllReal x25) :
    AllReal (val_main_v254 (F := Ideal) x25) := by
  unfold val_main_v254
  exact shapeCast_allReal _ _ (real_v253 h25)

/-- Stage %255. A slice of an array of real numbers. -/
theorem real_v255 (h26 : AllReal x26) :
    AllReal (val_main_v255 (F := Ideal) x26) := by
  unfold val_main_v255
  exact extractStridedSlice_allReal _ _ _ h26

/-- Stage %256. A reshape of an array of real numbers. -/
theorem real_v256 (h26 : AllReal x26) :
    AllReal (val_main_v256 (F := Ideal) x26) := by
  unfold val_main_v256
  exact shapeCast_allReal _ _ (real_v255 h26)

/-- Stage %258 is one row of a variance argument, so it stays positive after the constant is added. -/
theorem pos_v258 (p27 : PosEps x27) : PosEps (val_main_v258 (F := Ideal) x27) := by
  intro i
  rw [val_main_v258_apply, val_main_v257_apply]
  exact p27 _

/-- Stage %269, the first scale of the fourth block. A real number over the square root of a positive quantity. -/
theorem real_v269 (h18 : AllReal x18) (p21 : PosEps x21) :
    AllReal (val_main_v269 (F := Ideal) x18 x21) := by
  unfold val_main_v269 val_main_v268 val_main_v267
  exact scale_allReal _ _ _ (real_v240 h18) (fun i => pos_v246 p21 i)

/-- Stage %287, the second scale of the fourth block. A real number over the square root of a positive quantity. -/
theorem real_v287 (h24 : AllReal x24) (p27 : PosEps x27) :
    AllReal (val_main_v287 (F := Ideal) x24 x27) := by
  unfold val_main_v287 val_main_v286 val_main_v285
  exact scale_allReal _ _ _ (real_v252 h24) (fun i => pos_v258 p27 i)

end Cert.ReferenceIdeal.RefReal

end
-- ==== Proof.LibFoldedAffine.lean ====
import Idealize.ShloMosaic.PureOps.Ideal
noncomputable section
open scoped BigOperators
namespace Idealize.ShloMosaic.FoldedAffine

/-!
# Folding an affine normalisation into a linear layer

For real quantities, applying `y ↦ (y - m) * s + bt` after a linear layer
`y = Σ_l x_l * W_l + b` is the same as one linear layer with weights `W_l * s` and bias
`b * s + (bt - m * s)`.  On the extended reals the two sides can differ at infinities, so
every lemma assumes each quantity is (the image of) a real number; the proofs move the
embedding `ℝ → EReal` outward and finish with an identity of real numbers.
-/

/-- The embedding of the reals into the extended reals commutes with finite sums. -/
theorem coe_sum {ι : Type*} (t : Finset ι) (f : ι → ℝ) :
    (∑ i ∈ t, ((f i : ℝ) : EReal)) = (((∑ i ∈ t, f i : ℝ)) : EReal) := by
  classical
  refine Finset.induction_on t ?_ ?_
  · simp
  · intro a s ha ih
    rw [Finset.sum_insert ha, Finset.sum_insert ha, ih, EReal.coe_add]

/-- A dot product of embedded real vectors, accumulated from zero, is the embedded real
dot product. -/
theorem zero_add_sum_coe_mul {ι : Type*} [Fintype ι] (xr Wr : ι → ℝ) :
    (0 : EReal) + ∑ l, ((xr l : ℝ) : EReal) * ((Wr l : ℝ) : EReal)
      = ((∑ l, xr l * Wr l : ℝ) : EReal) := by
  have h : ∀ l ∈ (Finset.univ : Finset ι),
      ((xr l : ℝ) : EReal) * ((Wr l : ℝ) : EReal) = ((xr l * Wr l : ℝ) : EReal) :=
    fun l _ => (EReal.coe_mul (xr l) (Wr l)).symm
  rw [Finset.sum_congr rfl h, coe_sum, zero_add]

/-- A dot product of real vectors, accumulated from zero in the extended reals, is real. -/
theorem sum_mul_real {ι : Type*} [Fintype ι] (x W : ι → EReal)
    (hx : ∀ l, ∃ r : ℝ, x l = (r : EReal)) (hW : ∀ l, ∃ r : ℝ, W l = (r : EReal)) :
    ∃ r : ℝ, (0 : EReal) + ∑ l, x l * W l = (r : EReal) := by
  choose xr hxr using hx
  choose Wr hWr using hW
  refine ⟨∑ l, xr l * Wr l, ?_⟩
  have hxf : x = fun l => ((xr l : ℝ) : EReal) := funext hxr
  have hWf : W = fun l => ((Wr l : ℝ) : EReal) := funext hWr
  subst hxf
  subst hWf
  exact zero_add_sum_coe_mul xr Wr

/-- For real quantities, scaling the weights by `s` and using the bias
`b * s + (bt - m * s)` gives the same value as the linear layer followed by the affine map
`y ↦ (y - m) * s + bt`. -/
theorem folded_eq {ι : Type*} [Fintype ι] (x W : ι → EReal) (b m bt s : EReal)
    (hx : ∀ l, ∃ r : ℝ, x l = (r : EReal)) (hW : ∀ l, ∃ r : ℝ, W l = (r : EReal))
    (hb : ∃ r : ℝ, b = (r : EReal)) (hm : ∃ r : ℝ, m = (r : EReal))
    (hbt : ∃ r : ℝ, bt = (r : EReal)) (hs : ∃ r : ℝ, s = (r : EReal)) :
    ((0 : EReal) + ∑ l, x l * (W l * s)) + (b * s + (bt - m * s))
      = ((((0 : EReal) + ∑ l, x l * W l) + b) - m) * s + bt := by
  choose xr hxr using hx
  choose Wr hWr using hW
  obtain ⟨br, rfl⟩ := hb
  obtain ⟨mr, rfl⟩ := hm
  obtain ⟨btr, rfl⟩ := hbt
  obtain ⟨sr, rfl⟩ := hs
  have hxf : x = fun l => ((xr l : ℝ) : EReal) := funext hxr
  have hWf : W = fun l => ((Wr l : ℝ) : EReal) := funext hWr
  subst hxf
  subst hWf
  -- the scaled weights are again embedded reals
  have hWs : ∀ l ∈ (Finset.univ : Finset ι),
      ((xr l : ℝ) : EReal) * (((Wr l : ℝ) : EReal) * ((sr : ℝ) : EReal))
        = ((xr l : ℝ) : EReal) * (((Wr l * sr : ℝ)) : EReal) :=
    fun l _ => by rw [EReal.coe_mul]
  have hL : (0 : EReal) + ∑ l, ((xr l : ℝ) : EReal) * (((Wr l : ℝ) : EReal) * ((sr : ℝ) : EReal))
      = ((∑ l, xr l * (Wr l * sr) : ℝ) : EReal) := by
    rw [Finset.sum_congr rfl hWs]
    exact zero_add_sum_coe_mul xr (fun l => Wr l * sr)
  have hR : (0 : EReal) + ∑ l, ((xr l : ℝ) : EReal) * ((Wr l : ℝ) : EReal)
      = ((∑ l, xr l * Wr l : ℝ) : EReal) := zero_add_sum_coe_mul xr Wr
  -- the identity of real numbers behind the statement
  have hsum : (∑ l, xr l * (Wr l * sr)) = (∑ l, xr l * Wr l) * sr := by
    rw [Finset.sum_mul]
    exact Finset.sum_congr rfl (fun l _ => (mul_assoc (xr l) (Wr l) sr).symm)
  have hreal : (∑ l, xr l * (Wr l * sr)) + (br * sr + (btr - mr * sr))
      = (((∑ l, xr l * Wr l) + br) - mr) * sr + btr := by
    rw [hsum]; ring
  show ((0 : EReal) + ∑ l, ((xr l : ℝ) : EReal) * (((Wr l : ℝ) : EReal) * ((sr : ℝ) : EReal)))
        + (((br : ℝ) : EReal) * ((sr : ℝ) : EReal)
            + (((btr : ℝ) : EReal) - ((mr : ℝ) : EReal) * ((sr : ℝ) : EReal)))
      = ((((0 : EReal) + ∑ l, ((xr l : ℝ) : EReal) * ((Wr l : ℝ) : EReal)) + ((br : ℝ) : EReal))
            - ((mr : ℝ) : EReal)) * ((sr : ℝ) : EReal) + ((btr : ℝ) : EReal)
  rw [hL, hR]
  rw [← EReal.coe_mul, ← EReal.coe_mul, ← EReal.coe_sub, ← EReal.coe_add, ← EReal.coe_add,
    ← EReal.coe_add, ← EReal.coe_sub, ← EReal.coe_mul, ← EReal.coe_add, hreal]

/-- For real quantities, the linear layer followed by the affine map
`y ↦ (y - m) * s + bt` is a real number. -/
theorem folded_real {ι : Type*} [Fintype ι] (x W : ι → EReal) (b m bt s : EReal)
    (hx : ∀ l, ∃ r : ℝ, x l = (r : EReal)) (hW : ∀ l, ∃ r : ℝ, W l = (r : EReal))
    (hb : ∃ r : ℝ, b = (r : EReal)) (hm : ∃ r : ℝ, m = (r : EReal))
    (hbt : ∃ r : ℝ, bt = (r : EReal)) (hs : ∃ r : ℝ, s = (r : EReal)) :
    ∃ r : ℝ, ((((0 : EReal) + ∑ l, x l * W l) + b) - m) * s + bt = (r : EReal) := by
  obtain ⟨yr, hy⟩ := sum_mul_real x W hx hW
  obtain ⟨br, rfl⟩ := hb
  obtain ⟨mr, rfl⟩ := hm
  obtain ⟨btr, rfl⟩ := hbt
  obtain ⟨sr, rfl⟩ := hs
  refine ⟨((yr + br) - mr) * sr + btr, ?_⟩
  rw [hy, ← EReal.coe_add, ← EReal.coe_sub, ← EReal.coe_mul, ← EReal.coe_add]

/-- The maximum of a real number and zero is a real number. -/
theorem max_zero_real (y : EReal) (hy : ∃ r : ℝ, y = (r : EReal)) :
    ∃ r : ℝ, max y 0 = (r : EReal) := by
  obtain ⟨r, rfl⟩ := hy
  rcases le_total ((r : ℝ) : EReal) 0 with h | h
  · exact ⟨0, by rw [max_eq_right h, EReal.coe_zero]⟩
  · exact ⟨r, by rw [max_eq_left h]⟩

/-! ## Two layers

Two dense layers, each followed by an affine normalisation and clipped below at zero. With the normalisations folded
into the weights and biases, the first layer's outputs are the same real numbers as without folding, so the second
layer, fed those, folds in the same way. -/

/-- One folded layer clipped at zero equals the normalised layer clipped at zero (no leading zero in the sums). -/
theorem layer_eq {ι : Type*} [Fintype ι] (x W : ι → EReal) (b m bt s : EReal)
    (hx : ∀ l, ∃ r : ℝ, x l = (r : EReal)) (hW : ∀ l, ∃ r : ℝ, W l = (r : EReal))
    (hb : ∃ r : ℝ, b = (r : EReal)) (hm : ∃ r : ℝ, m = (r : EReal))
    (hbt : ∃ r : ℝ, bt = (r : EReal)) (hs : ∃ r : ℝ, s = (r : EReal)) :
    max ((∑ l, x l * (W l * s)) + (b * s + (bt - m * s))) 0 = max ((((∑ l, x l * W l) + b) - m) * s + bt) 0 := by
  have h := folded_eq x W b m bt s hx hW hb hm hbt hs
  rw [zero_add, zero_add] at h
  rw [h]

/-- The normalised layer clipped at zero is a real number. -/
theorem layer_real {ι : Type*} [Fintype ι] (x W : ι → EReal) (b m bt s : EReal)
    (hx : ∀ l, ∃ r : ℝ, x l = (r : EReal)) (hW : ∀ l, ∃ r : ℝ, W l = (r : EReal))
    (hb : ∃ r : ℝ, b = (r : EReal)) (hm : ∃ r : ℝ, m = (r : EReal))
    (hbt : ∃ r : ℝ, bt = (r : EReal)) (hs : ∃ r : ℝ, s = (r : EReal)) :
    ∃ r : ℝ, max ((((∑ l, x l * W l) + b) - m) * s + bt) 0 = (r : EReal) := by
  have h := folded_real x W b m bt s hx hW hb hm hbt hs
  rw [zero_add] at h
  exact max_zero_real _ h

/-- Two folded layers equal two normalised layers, entry by entry, and the common value is a real number. -/
theorem two_layers {ι κ : Type*} [Fintype ι] [Fintype κ] (x : ι → EReal) (W1 : ι → κ → EReal) (b1 m1 bt1 s1 : κ → EReal)
    (W2 : κ → EReal) (b2 m2 bt2 s2 : EReal)
    (hx : ∀ l, ∃ r : ℝ, x l = (r : EReal)) (hW1 : ∀ l k, ∃ r : ℝ, W1 l k = (r : EReal))
    (hb1 : ∀ k, ∃ r : ℝ, b1 k = (r : EReal)) (hm1 : ∀ k, ∃ r : ℝ, m1 k = (r : EReal))
    (hbt1 : ∀ k, ∃ r : ℝ, bt1 k = (r : EReal)) (hs1 : ∀ k, ∃ r : ℝ, s1 k = (r : EReal))
    (hW2 : ∀ k, ∃ r : ℝ, W2 k = (r : EReal))
    (hb2 : ∃ r : ℝ, b2 = (r : EReal)) (hm2 : ∃ r : ℝ, m2 = (r : EReal))
    (hbt2 : ∃ r : ℝ, bt2 = (r : EReal)) (hs2 : ∃ r : ℝ, s2 = (r : EReal)) :
    max ((∑ k, max ((∑ l, x l * (W1 l k * s1 k)) + (b1 k * s1 k + (bt1 k - m1 k * s1 k))) 0 * (W2 k * s2))
          + (b2 * s2 + (bt2 - m2 * s2))) 0
      = max ((((∑ k, max ((((∑ l, x l * W1 l k) + b1 k) - m1 k) * s1 k + bt1 k) 0 * W2 k) + b2) - m2) * s2 + bt2) 0
    ∧ ∃ r : ℝ, max ((((∑ k, max ((((∑ l, x l * W1 l k) + b1 k) - m1 k) * s1 k + bt1 k) 0 * W2 k) + b2) - m2) * s2 + bt2) 0
        = (r : EReal) := by
  have h1 : ∀ k, max ((∑ l, x l * (W1 l k * s1 k)) + (b1 k * s1 k + (bt1 k - m1 k * s1 k))) 0
      = max ((((∑ l, x l * W1 l k) + b1 k) - m1 k) * s1 k + bt1 k) 0 :=
    fun k => layer_eq x (fun l => W1 l k) (b1 k) (m1 k) (bt1 k) (s1 k) hx (fun l => hW1 l k) (hb1 k) (hm1 k) (hbt1 k) (hs1 k)
  have hr : ∀ k, ∃ r : ℝ, max ((((∑ l, x l * W1 l k) + b1 k) - m1 k) * s1 k + bt1 k) 0 = (r : EReal) :=
    fun k => layer_real x (fun l => W1 l k) (b1 k) (m1 k) (bt1 k) (s1 k) hx (fun l => hW1 l k) (hb1 k) (hm1 k) (hbt1 k) (hs1 k)
  have hsum : (∑ k, max ((∑ l, x l * (W1 l k * s1 k)) + (b1 k * s1 k + (bt1 k - m1 k * s1 k))) 0 * (W2 k * s2))
      = ∑ k, max ((((∑ l, x l * W1 l k) + b1 k) - m1 k) * s1 k + bt1 k) 0 * (W2 k * s2) :=
    Finset.sum_congr rfl fun k _ => by rw [h1 k]
  rw [hsum]
  exact ⟨layer_eq (fun k => max ((((∑ l, x l * W1 l k) + b1 k) - m1 k) * s1 k + bt1 k) 0) W2 b2 m2 bt2 s2 hr hW2 hb2 hm2 hbt2 hs2,
    layer_real (fun k => max ((((∑ l, x l * W1 l k) + b1 k) - m1 k) * s1 k + bt1 k) 0) W2 b2 m2 bt2 s2 hr hW2 hb2 hm2 hbt2 hs2⟩

end Idealize.ShloMosaic.FoldedAffine
-- ==== Proof.Bridge.lean ====
/-
  Folding the normalisation into the layers changes nothing when every entry is a real number. A region computes
  max (Σ_k max (Σ_l x_l·Wf1(l,k) + bf1(k)) 0 · Wf2(k,j) + bf2(j)) 0 with folded weights Wf = W·s and folded biases
  bf = b·s + (bt − m·s); the reference computes max ((((Σ_k h_k·W2(k,j)) + b2(j)) − m2(j))·s2(j) + bt2(j)) 0 with
  h_k = max ((((Σ_l x_l·W1(l,k)) + b1(k)) − m1(k))·s1(k) + bt1(k)) 0. For real entries the first layer's outputs agree and
  are real, so the second layer, fed those, agrees as well: the two whole-array functions are equal.
-/
import proofs.«170803_j37795712205240_1_alg».proof.Proof.PayloadAt
import proofs.«170803_j37795712205240_1_alg».proof.Proof.LibFoldedAffine
import proofs.«170803_j37795712205240_1_alg».proof.Proof.LibRealEntries
import Idealize.ShloMosaic.Lib.ValueIdx

set_option maxRecDepth 16384
noncomputable section
namespace Cert.KernelIdeal.Bridge
open Idealize.ShloMosaic Idealize.ShloMosaic.ValueIdx Idealize.ShloMosaic.RealEntries Idealize.ShloMosaic.FoldedAffine
open Cert.KernelIdeal Cert.KernelIdeal.PayloadAt
open scoped BigOperators

/-- The reference's two normalised layers of row `i 0` of `X`, read at column `i 1`. -/
def R0 (X : FVec Ideal S100000x128 .f32) (W1 : FVec Ideal S128x64 .f32) (b1 m1 bt1 s1 : FVec Ideal S64 .f32)
    (W2 : FVec Ideal S64x64 .f32) (b2 m2 bt2 s2 : FVec Ideal S64 .f32) : S100000x64.Idx → EReal :=
  fun i => max ((((∑ k : Fin 64, max ((((∑ l : Fin 128, X (ix2 ⟨(i 0).val, (i 0).isLt⟩ l) * W1 (ix2 l k)) + b1 (ix1 k)) - m1 (ix1 k)) * s1 (ix1 k) + bt1 (ix1 k)) 0
      * W2 (ix2 k ⟨(i 1).val, (i 1).isLt⟩)) + b2 (ix1 ⟨(i 1).val, (i 1).isLt⟩)) - m2 (ix1 ⟨(i 1).val, (i 1).isLt⟩)) * s2 (ix1 ⟨(i 1).val, (i 1).isLt⟩) + bt2 (ix1 ⟨(i 1).val, (i 1).isLt⟩)) 0

/-- The reference's two normalised layers of row `i 0` of `X + A`, read at column `i 1`. -/
def Rc (X A : FVec Ideal S100000x64 .f32) (W1 : FVec Ideal S64x64 .f32) (b1 m1 bt1 s1 : FVec Ideal S64 .f32)
    (W2 : FVec Ideal S64x64 .f32) (b2 m2 bt2 s2 : FVec Ideal S64 .f32) : S100000x64.Idx → EReal :=
  fun i => max ((((∑ k : Fin 64, max ((((∑ l : Fin 64, (X (ix2 ⟨(i 0).val, (i 0).isLt⟩ l) + A (ix2 ⟨(i 0).val, (i 0).isLt⟩ l)) * W1 (ix2 l k)) + b1 (ix1 k)) - m1 (ix1 k)) * s1 (ix1 k) + bt1 (ix1 k)) 0
      * W2 (ix2 k ⟨(i 1).val, (i 1).isLt⟩)) + b2 (ix1 ⟨(i 1).val, (i 1).isLt⟩)) - m2 (ix1 ⟨(i 1).val, (i 1).isLt⟩)) * s2 (ix1 ⟨(i 1).val, (i 1).isLt⟩) + bt2 (ix1 ⟨(i 1).val, (i 1).isLt⟩)) 0

/-- The first region's function of the folded parameters is the reference's normalised form, for real entries. -/
theorem dense (X : FVec Ideal S100000x128 .f32) (W1 : FVec Ideal S128x64 .f32) (b1 m1 bt1 s1 : FVec Ideal S64 .f32)
    (W2 : FVec Ideal S64x64 .f32) (b2 m2 bt2 s2 : FVec Ideal S64 .f32)
    (hX : AllReal X) (hW1 : AllReal W1) (hb1 : AllReal b1) (hm1 : AllReal m1) (hbt1 : AllReal bt1) (hs1 : AllReal s1)
    (hW2 : AllReal W2) (hb2 : AllReal b2) (hm2 : AllReal m2) (hbt2 : AllReal bt2) (hs2 : AllReal s2) :
    G0 X (mulf (F := Ideal) (φ := .f32) W1 (bc128 s1)) (foldB b1 bt1 m1 s1) (mulf (F := Ideal) (φ := .f32) W2 (bc64 s2)) (foldB b2 bt2 m2 s2)
      = R0 X W1 b1 m1 bt1 s1 W2 b2 m2 bt2 s2 := by
  funext i
  unfold G0 R0
  have hW1f : ∀ (l : Fin 128) (k : Fin 64), (mulf (F := Ideal) (φ := .f32) W1 (bc128 s1)) (ix2 l k) = (W1 (ix2 l k) : EReal) * s1 (ix1 k) := fun l k => by
    show (W1 (ix2 l k) : EReal) * bc128 s1 (ix2 l k) = _
    rw [bc128_at]
  have hW2f : ∀ (k j : Fin 64), (mulf (F := Ideal) (φ := .f32) W2 (bc64 s2)) (ix2 k j) = (W2 (ix2 k j) : EReal) * s2 (ix1 j) := fun k j => by
    show (W2 (ix2 k j) : EReal) * bc64 s2 (ix2 k j) = _
    rw [bc64_at]
  simp only [hW1f, hW2f]
  exact (two_layers (fun l : Fin 128 => X (ix2 ⟨(i 0).val, (i 0).isLt⟩ l)) (fun (l : Fin 128) (k : Fin 64) => W1 (ix2 l k))
    (fun k : Fin 64 => b1 (ix1 k)) (fun k => m1 (ix1 k)) (fun k => bt1 (ix1 k)) (fun k => s1 (ix1 k))
    (fun k : Fin 64 => W2 (ix2 k ⟨(i 1).val, (i 1).isLt⟩)) (b2 (ix1 ⟨(i 1).val, (i 1).isLt⟩)) (m2 (ix1 ⟨(i 1).val, (i 1).isLt⟩)) (bt2 (ix1 ⟨(i 1).val, (i 1).isLt⟩)) (s2 (ix1 ⟨(i 1).val, (i 1).isLt⟩))
    (fun l => hX _) (fun l k => hW1 _) (fun k => hb1 _) (fun k => hm1 _) (fun k => hbt1 _) (fun k => hs1 _)
    (fun k => hW2 _) (hb2 _) (hm2 _) (hbt2 _) (hs2 _)).1

/-- A later region's function of the folded parameters is the reference's normalised form, for real entries. -/
theorem conv (X A : FVec Ideal S100000x64 .f32) (W1 : FVec Ideal S64x64 .f32) (b1 m1 bt1 s1 : FVec Ideal S64 .f32)
    (W2 : FVec Ideal S64x64 .f32) (b2 m2 bt2 s2 : FVec Ideal S64 .f32)
    (hX : AllReal X) (hA : AllReal A) (hW1 : AllReal W1) (hb1 : AllReal b1) (hm1 : AllReal m1) (hbt1 : AllReal bt1) (hs1 : AllReal s1)
    (hW2 : AllReal W2) (hb2 : AllReal b2) (hm2 : AllReal m2) (hbt2 : AllReal bt2) (hs2 : AllReal s2) :
    Gc X A (mulf (F := Ideal) (φ := .f32) W1 (bc64 s1)) (foldB b1 bt1 m1 s1) (mulf (F := Ideal) (φ := .f32) W2 (bc64 s2)) (foldB b2 bt2 m2 s2)
      = Rc X A W1 b1 m1 bt1 s1 W2 b2 m2 bt2 s2 := by
  funext i
  unfold Gc Rc
  have hW1f : ∀ (l k : Fin 64), (mulf (F := Ideal) (φ := .f32) W1 (bc64 s1)) (ix2 l k) = (W1 (ix2 l k) : EReal) * s1 (ix1 k) := fun l k => by
    show (W1 (ix2 l k) : EReal) * bc64 s1 (ix2 l k) = _
    rw [bc64_at]
  have hW2f : ∀ (k j : Fin 64), (mulf (F := Ideal) (φ := .f32) W2 (bc64 s2)) (ix2 k j) = (W2 (ix2 k j) : EReal) * s2 (ix1 j) := fun k j => by
    show (W2 (ix2 k j) : EReal) * bc64 s2 (ix2 k j) = _
    rw [bc64_at]
  simp only [hW1f, hW2f]
  exact (two_layers (fun l : Fin 64 => (X (ix2 ⟨(i 0).val, (i 0).isLt⟩ l) : EReal) + A (ix2 ⟨(i 0).val, (i 0).isLt⟩ l)) (fun (l : Fin 64) (k : Fin 64) => W1 (ix2 l k))
    (fun k : Fin 64 => b1 (ix1 k)) (fun k => m1 (ix1 k)) (fun k => bt1 (ix1 k)) (fun k => s1 (ix1 k))
    (fun k : Fin 64 => W2 (ix2 k ⟨(i 1).val, (i 1).isLt⟩)) (b2 (ix1 ⟨(i 1).val, (i 1).isLt⟩)) (m2 (ix1 ⟨(i 1).val, (i 1).isLt⟩)) (bt2 (ix1 ⟨(i 1).val, (i 1).isLt⟩)) (s2 (ix1 ⟨(i 1).val, (i 1).isLt⟩))
    (fun l => add_real (hX _) (hA _)) (fun l k => hW1 _) (fun k => hb1 _) (fun k => hm1 _) (fun k => hbt1 _) (fun k => hs1 _)
    (fun k => hW2 _) (hb2 _) (hm2 _) (hbt2 _) (hs2 _)).1

/-- The normalised form holds only real numbers, for real entries (the next region reads it). -/
theorem R0_real (X : FVec Ideal S100000x128 .f32) (W1 : FVec Ideal S128x64 .f32) (b1 m1 bt1 s1 : FVec Ideal S64 .f32)
    (W2 : FVec Ideal S64x64 .f32) (b2 m2 bt2 s2 : FVec Ideal S64 .f32)
    (hX : AllReal X) (hW1 : AllReal W1) (hb1 : AllReal b1) (hm1 : AllReal m1) (hbt1 : AllReal bt1) (hs1 : AllReal s1)
    (hW2 : AllReal W2) (hb2 : AllReal b2) (hm2 : AllReal m2) (hbt2 : AllReal bt2) (hs2 : AllReal s2) :
    AllReal (R0 X W1 b1 m1 bt1 s1 W2 b2 m2 bt2 s2) := fun i =>
  (two_layers (fun l : Fin 128 => X (ix2 ⟨(i 0).val, (i 0).isLt⟩ l)) (fun (l : Fin 128) (k : Fin 64) => W1 (ix2 l k))
    (fun k : Fin 64 => b1 (ix1 k)) (fun k => m1 (ix1 k)) (fun k => bt1 (ix1 k)) (fun k => s1 (ix1 k))
    (fun k : Fin 64 => W2 (ix2 k ⟨(i 1).val, (i 1).isLt⟩)) (b2 (ix1 ⟨(i 1).val, (i 1).isLt⟩)) (m2 (ix1 ⟨(i 1).val, (i 1).isLt⟩)) (bt2 (ix1 ⟨(i 1).val, (i 1).isLt⟩)) (s2 (ix1 ⟨(i 1).val, (i 1).isLt⟩))
    (fun l => hX _) (fun l k => hW1 _) (fun k => hb1 _) (fun k => hm1 _) (fun k => hbt1 _) (fun k => hs1 _)
    (fun k => hW2 _) (hb2 _) (hm2 _) (hbt2 _) (hs2 _)).2

theorem Rc_real (X A : FVec Ideal S100000x64 .f32) (W1 : FVec Ideal S64x64 .f32) (b1 m1 bt1 s1 : FVec Ideal S64 .f32)
    (W2 : FVec Ideal S64x64 .f32) (b2 m2 bt2 s2 : FVec Ideal S64 .f32)
    (hX : AllReal X) (hA : AllReal A) (hW1 : AllReal W1) (hb1 : AllReal b1) (hm1 : AllReal m1) (hbt1 : AllReal bt1) (hs1 : AllReal s1)
    (hW2 : AllReal W2) (hb2 : AllReal b2) (hm2 : AllReal m2) (hbt2 : AllReal bt2) (hs2 : AllReal s2) :
    AllReal (Rc X A W1 b1 m1 bt1 s1 W2 b2 m2 bt2 s2) := fun i =>
  (two_layers (fun l : Fin 64 => (X (ix2 ⟨(i 0).val, (i 0).isLt⟩ l) : EReal) + A (ix2 ⟨(i 0).val, (i 0).isLt⟩ l)) (fun (l : Fin 64) (k : Fin 64) => W1 (ix2 l k))
    (fun k : Fin 64 => b1 (ix1 k)) (fun k => m1 (ix1 k)) (fun k => bt1 (ix1 k)) (fun k => s1 (ix1 k))
    (fun k : Fin 64 => W2 (ix2 k ⟨(i 1).val, (i 1).isLt⟩)) (b2 (ix1 ⟨(i 1).val, (i 1).isLt⟩)) (m2 (ix1 ⟨(i 1).val, (i 1).isLt⟩)) (bt2 (ix1 ⟨(i 1).val, (i 1).isLt⟩)) (s2 (ix1 ⟨(i 1).val, (i 1).isLt⟩))
    (fun l => add_real (hX _) (hA _)) (fun l k => hW1 _) (fun k => hb1 _) (fun k => hm1 _) (fun k => hbt1 _) (fun k => hs1 _)
    (fun k => hW2 _) (hb2 _) (hm2 _) (hbt2 _) (hs2 _)).2

end Cert.KernelIdeal.Bridge
end
-- ==== Proof.RefBlocks.lean ====
/-
  The reference program's four blocks against the regions' functions. Each block of the reference — two dense layers,
  each followed by the normalisation (y − m)·s + bt and clipped below at zero — read at an entry is the normalised
  two-layer form of its inputs; its inputs are arrays of real numbers (the arguments are finite, a gather reads an array at
  computed places, an accumulating scatter adds finitely many entries, and the scale divides by the square root of a
  positive number), so the region's function of the folded weights and biases is that block's output.
-/
import proofs.«170803_j37795712205240_1_alg».proof.Proof.ReadP
import proofs.«170803_j37795712205240_1_alg».proof.Proof.RefLayers
import proofs.«170803_j37795712205240_1_alg».proof.Proof.RefReal
import proofs.«170803_j37795712205240_1_alg».proof.Proof.Bridge
import proofs.«170803_j37795712205240_1_alg».proof.Proof.PreFacts

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt Idealize.ShloMosaic.RealEntries

variable (m : (ℓ : Loc nD τ sig) → Buf (Elt Ideal) ℓ) (c : Dev nD) (hF : Cert.PreFacts.ArgFacts m c)

theorem r0_eq : Bridge.R0 (Cert.ReferenceIdeal.ReadP.val_main_v10 (F := Ideal) (m ((c.tc : Thread nD τ).loc main_arg0)) (m ((c.tc : Thread nD τ).loc main_arg3))) (m ((c.tc : Thread nD τ).loc main_arg4)) (m ((c.tc : Thread nD τ).loc main_arg5)) (m ((c.tc : Thread nD τ).loc main_arg8)) (m ((c.tc : Thread nD τ).loc main_arg7)) (Cert.ReferenceIdeal.ReadP.val_main_v21 (F := Ideal) (m ((c.tc : Thread nD τ).loc main_arg6)) (m ((c.tc : Thread nD τ).loc main_arg9))) (m ((c.tc : Thread nD τ).loc main_arg10)) (m ((c.tc : Thread nD τ).loc main_arg11)) (m ((c.tc : Thread nD τ).loc main_arg14)) (m ((c.tc : Thread nD τ).loc main_arg13)) (Cert.ReferenceIdeal.ReadP.val_main_v39 (F := Ideal) (m ((c.tc : Thread nD τ).loc main_arg12)) (m ((c.tc : Thread nD τ).loc main_arg15))) = (Cert.ReferenceIdeal.ReadP.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  funext i
  obtain ⟨r, j, rfl⟩ : ∃ (r : Fin 100000) (j : Fin 64), i = ValueIdx.ix2 r j := ⟨i 0, i 1, ValueIdx.eq_ix2 i⟩
  rw [Cert.ReferenceIdeal.RefLayers.ref0_at]
  rfl

include hF

/-- The first block's output holds only real numbers. -/
theorem real_b0 : AllReal (Cert.ReferenceIdeal.ReadP.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  rw [← r0_eq m c]
  exact Bridge.R0_real _ _ _ _ _ _ _ _ _ _ _ (Cert.ReferenceIdeal.RefReal.real_v10 hF.real_arg3) hF.real_arg4 hF.real_arg5 hF.real_arg8 hF.real_arg7 (Cert.ReferenceIdeal.RefReal.real_v21 hF.real_arg6 hF.pos_arg9) hF.real_arg10 hF.real_arg11 hF.real_arg14 hF.real_arg13 (Cert.ReferenceIdeal.RefReal.real_v39 hF.real_arg12 hF.pos_arg15)

/-- The first region's function of the folded parameters is the first block's output. -/
theorem g0_eq : G0 (Cert.ReferenceIdeal.ReadP.val_main_v10 (F := Ideal) (m ((c.tc : Thread nD τ).loc main_arg0)) (m ((c.tc : Thread nD τ).loc main_arg3))) (mulf (F := Ideal) (φ := .f32) (m ((c.tc : Thread nD τ).loc main_arg4)) (bc128 (Cert.ReferenceIdeal.ReadP.val_main_v21 (F := Ideal) (m ((c.tc : Thread nD τ).loc main_arg6)) (m ((c.tc : Thread nD τ).loc main_arg9))))) (foldB (m ((c.tc : Thread nD τ).loc main_arg5)) (m ((c.tc : Thread nD τ).loc main_arg7)) (m ((c.tc : Thread nD τ).loc main_arg8)) (Cert.ReferenceIdeal.ReadP.val_main_v21 (F := Ideal) (m ((c.tc : Thread nD τ).loc main_arg6)) (m ((c.tc : Thread nD τ).loc main_arg9))))
    (mulf (F := Ideal) (φ := .f32) (m ((c.tc : Thread nD τ).loc main_arg10)) (bc64 (Cert.ReferenceIdeal.ReadP.val_main_v39 (F := Ideal) (m ((c.tc : Thread nD τ).loc main_arg12)) (m ((c.tc : Thread nD τ).loc main_arg15))))) (foldB (m ((c.tc : Thread nD τ).loc main_arg11)) (m ((c.tc : Thread nD τ).loc main_arg13)) (m ((c.tc : Thread nD τ).loc main_arg14)) (Cert.ReferenceIdeal.ReadP.val_main_v39 (F := Ideal) (m ((c.tc : Thread nD τ).loc main_arg12)) (m ((c.tc : Thread nD τ).loc main_arg15)))) = (Cert.ReferenceIdeal.ReadP.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :=
  (Bridge.dense _ _ _ _ _ _ _ _ _ _ _ (Cert.ReferenceIdeal.RefReal.real_v10 hF.real_arg3) hF.real_arg4 hF.real_arg5 hF.real_arg8 hF.real_arg7 (Cert.ReferenceIdeal.RefReal.real_v21 hF.real_arg6 hF.pos_arg9) hF.real_arg10 hF.real_arg11 hF.real_arg14 hF.real_arg13 (Cert.ReferenceIdeal.RefReal.real_v39 hF.real_arg12 hF.pos_arg15)).trans (r0_eq m c)

/-- The aggregate the second block adds holds only real numbers. -/
theorem real_a1 : AllReal (Cert.ReferenceIdeal.ReadP.val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := Cert.ReferenceIdeal.RefReal.real_v67 (real_b0 m c hF)
omit hF in
theorem r1_eq : Bridge.Rc (Cert.ReferenceIdeal.ReadP.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (Cert.ReferenceIdeal.ReadP.val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (Cert.ReferenceIdeal.ReadP.val_main_v70 (F := Ideal) (m ((c.tc : Thread nD τ).loc main_arg16))) (Cert.ReferenceIdeal.ReadP.val_main_v72 (F := Ideal) (m ((c.tc : Thread nD τ).loc main_arg17))) (Cert.ReferenceIdeal.ReadP.val_main_v78 (F := Ideal) (m ((c.tc : Thread nD τ).loc main_arg20))) (Cert.ReferenceIdeal.ReadP.val_main_v76 (F := Ideal) (m ((c.tc : Thread nD τ).loc main_arg19))) (Cert.ReferenceIdeal.ReadP.val_main_v103 (F := Ideal) (m ((c.tc : Thread nD τ).loc main_arg18)) (m ((c.tc : Thread nD τ).loc main_arg21))) (Cert.ReferenceIdeal.ReadP.val_main_v82 (F := Ideal) (m ((c.tc : Thread nD τ).loc main_arg22))) (Cert.ReferenceIdeal.ReadP.val_main_v84 (F := Ideal) (m ((c.tc : Thread nD τ).loc main_arg23))) (Cert.ReferenceIdeal.ReadP.val_main_v90 (F := Ideal) (m ((c.tc : Thread nD τ).loc main_arg26))) (Cert.ReferenceIdeal.ReadP.val_main_v88 (F := Ideal) (m ((c.tc : Thread nD τ).loc main_arg25))) (Cert.ReferenceIdeal.ReadP.val_main_v121 (F := Ideal) (m ((c.tc : Thread nD τ).loc main_arg24)) (m ((c.tc : Thread nD τ).loc main_arg27))) = (Cert.ReferenceIdeal.ReadP.val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  funext i
  obtain ⟨r, j, rfl⟩ : ∃ (r : Fin 100000) (j : Fin 64), i = ValueIdx.ix2 r j := ⟨i 0, i 1, ValueIdx.eq_ix2 i⟩
  rw [Cert.ReferenceIdeal.RefLayers.ref1_at]
  rfl

/-- The block's output holds only real numbers. -/
theorem real_b1 : AllReal (Cert.ReferenceIdeal.ReadP.val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  rw [← r1_eq m c]
  exact Bridge.Rc_real _ _ _ _ _ _ _ _ _ _ _ _ (real_b0 m c hF) (real_a1 m c hF) (Cert.ReferenceIdeal.RefReal.real_v70 hF.real_arg16) (Cert.ReferenceIdeal.RefReal.real_v72 hF.real_arg17) (Cert.ReferenceIdeal.RefReal.real_v78 hF.real_arg20) (Cert.ReferenceIdeal.RefReal.real_v76 hF.real_arg19) (Cert.ReferenceIdeal.RefReal.real_v103 hF.real_arg18 hF.pos_arg21) (Cert.ReferenceIdeal.RefReal.real_v82 hF.real_arg22) (Cert.ReferenceIdeal.RefReal.real_v84 hF.real_arg23) (Cert.ReferenceIdeal.RefReal.real_v90 hF.real_arg26) (Cert.ReferenceIdeal.RefReal.real_v88 hF.real_arg25) (Cert.ReferenceIdeal.RefReal.real_v121 hF.real_arg24 hF.pos_arg27)

/-- The region's function of the folded parameters is the block's output. -/
theorem g1_eq : Gc (Cert.ReferenceIdeal.ReadP.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (Cert.ReferenceIdeal.ReadP.val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (mulf (F := Ideal) (φ := .f32) (Cert.ReferenceIdeal.ReadP.val_main_v70 (F := Ideal) (m ((c.tc : Thread nD τ).loc main_arg16))) (bc64 (Cert.ReferenceIdeal.ReadP.val_main_v103 (F := Ideal) (m ((c.tc : Thread nD τ).loc main_arg18)) (m ((c.tc : Thread nD τ).loc main_arg21))))) (foldB (Cert.ReferenceIdeal.ReadP.val_main_v72 (F := Ideal) (m ((c.tc : Thread nD τ).loc main_arg17))) (Cert.ReferenceIdeal.ReadP.val_main_v76 (F := Ideal) (m ((c.tc : Thread nD τ).loc main_arg19))) (Cert.ReferenceIdeal.ReadP.val_main_v78 (F := Ideal) (m ((c.tc : Thread nD τ).loc main_arg20))) (Cert.ReferenceIdeal.ReadP.val_main_v103 (F := Ideal) (m ((c.tc : Thread nD τ).loc main_arg18)) (m ((c.tc : Thread nD τ).loc main_arg21))))
    (mulf (F := Ideal) (φ := .f32) (Cert.ReferenceIdeal.ReadP.val_main_v82 (F := Ideal) (m ((c.tc : Thread nD τ).loc main_arg22))) (bc64 (Cert.ReferenceIdeal.ReadP.val_main_v121 (F := Ideal) (m ((c.tc : Thread nD τ).loc main_arg24)) (m ((c.tc : Thread nD τ).loc main_arg27))))) (foldB (Cert.ReferenceIdeal.ReadP.val_main_v84 (F := Ideal) (m ((c.tc : Thread nD τ).loc main_arg23))) (Cert.ReferenceIdeal.ReadP.val_main_v88 (F := Ideal) (m ((c.tc : Thread nD τ).loc main_arg25))) (Cert.ReferenceIdeal.ReadP.val_main_v90 (F := Ideal) (m ((c.tc : Thread nD τ).loc main_arg26))) (Cert.ReferenceIdeal.ReadP.val_main_v121 (F := Ideal) (m ((c.tc : Thread nD τ).loc main_arg24)) (m ((c.tc : Thread nD τ).loc main_arg27)))) = (Cert.ReferenceIdeal.ReadP.val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :=
  (Bridge.conv _ _ _ _ _ _ _ _ _ _ _ _ (real_b0 m c hF) (real_a1 m c hF) (Cert.ReferenceIdeal.RefReal.real_v70 hF.real_arg16) (Cert.ReferenceIdeal.RefReal.real_v72 hF.real_arg17) (Cert.ReferenceIdeal.RefReal.real_v78 hF.real_arg20) (Cert.ReferenceIdeal.RefReal.real_v76 hF.real_arg19) (Cert.ReferenceIdeal.RefReal.real_v103 hF.real_arg18 hF.pos_arg21) (Cert.ReferenceIdeal.RefReal.real_v82 hF.real_arg22) (Cert.ReferenceIdeal.RefReal.real_v84 hF.real_arg23) (Cert.ReferenceIdeal.RefReal.real_v90 hF.real_arg26) (Cert.ReferenceIdeal.RefReal.real_v88 hF.real_arg25) (Cert.ReferenceIdeal.RefReal.real_v121 hF.real_arg24 hF.pos_arg27)).trans (r1_eq m c)

/-- The aggregate the third block adds holds only real numbers. -/
theorem real_a2 : AllReal (Cert.ReferenceIdeal.ReadP.val_main_v150 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := Cert.ReferenceIdeal.RefReal.real_v150 (real_b1 m c hF)
omit hF in
theorem r2_eq : Bridge.Rc (Cert.ReferenceIdeal.ReadP.val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.ReferenceIdeal.ReadP.val_main_v150 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.ReferenceIdeal.ReadP.val_main_v153 (F := Ideal) (m ((c.tc : Thread nD τ).loc main_arg16))) (Cert.ReferenceIdeal.ReadP.val_main_v155 (F := Ideal) (m ((c.tc : Thread nD τ).loc main_arg17))) (Cert.ReferenceIdeal.ReadP.val_main_v161 (F := Ideal) (m ((c.tc : Thread nD τ).loc main_arg20))) (Cert.ReferenceIdeal.ReadP.val_main_v159 (F := Ideal) (m ((c.tc : Thread nD τ).loc main_arg19))) (Cert.ReferenceIdeal.ReadP.val_main_v186 (F := Ideal) (m ((c.tc : Thread nD τ).loc main_arg18)) (m ((c.tc : Thread nD τ).loc main_arg21))) (Cert.ReferenceIdeal.ReadP.val_main_v165 (F := Ideal) (m ((c.tc : Thread nD τ).loc main_arg22))) (Cert.ReferenceIdeal.ReadP.val_main_v167 (F := Ideal) (m ((c.tc : Thread nD τ).loc main_arg23))) (Cert.ReferenceIdeal.ReadP.val_main_v173 (F := Ideal) (m ((c.tc : Thread nD τ).loc main_arg26))) (Cert.ReferenceIdeal.ReadP.val_main_v171 (F := Ideal) (m ((c.tc : Thread nD τ).loc main_arg25))) (Cert.ReferenceIdeal.ReadP.val_main_v204 (F := Ideal) (m ((c.tc : Thread nD τ).loc main_arg24)) (m ((c.tc : Thread nD τ).loc main_arg27))) = (Cert.ReferenceIdeal.ReadP.val_main_v211 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  funext i
  obtain ⟨r, j, rfl⟩ : ∃ (r : Fin 100000) (j : Fin 64), i = ValueIdx.ix2 r j := ⟨i 0, i 1, ValueIdx.eq_ix2 i⟩
  rw [Cert.ReferenceIdeal.RefLayers.ref2_at]
  rfl

/-- The block's output holds only real numbers. -/
theorem real_b2 : AllReal (Cert.ReferenceIdeal.ReadP.val_main_v211 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  rw [← r2_eq m c]
  exact Bridge.Rc_real _ _ _ _ _ _ _ _ _ _ _ _ (real_b1 m c hF) (real_a2 m c hF) (Cert.ReferenceIdeal.RefReal.real_v153 hF.real_arg16) (Cert.ReferenceIdeal.RefReal.real_v155 hF.real_arg17) (Cert.ReferenceIdeal.RefReal.real_v161 hF.real_arg20) (Cert.ReferenceIdeal.RefReal.real_v159 hF.real_arg19) (Cert.ReferenceIdeal.RefReal.real_v186 hF.real_arg18 hF.pos_arg21) (Cert.ReferenceIdeal.RefReal.real_v165 hF.real_arg22) (Cert.ReferenceIdeal.RefReal.real_v167 hF.real_arg23) (Cert.ReferenceIdeal.RefReal.real_v173 hF.real_arg26) (Cert.ReferenceIdeal.RefReal.real_v171 hF.real_arg25) (Cert.ReferenceIdeal.RefReal.real_v204 hF.real_arg24 hF.pos_arg27)

/-- The region's function of the folded parameters is the block's output. -/
theorem g2_eq : Gc (Cert.ReferenceIdeal.ReadP.val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.ReferenceIdeal.ReadP.val_main_v150 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (mulf (F := Ideal) (φ := .f32) (Cert.ReferenceIdeal.ReadP.val_main_v153 (F := Ideal) (m ((c.tc : Thread nD τ).loc main_arg16))) (bc64 (Cert.ReferenceIdeal.ReadP.val_main_v186 (F := Ideal) (m ((c.tc : Thread nD τ).loc main_arg18)) (m ((c.tc : Thread nD τ).loc main_arg21))))) (foldB (Cert.ReferenceIdeal.ReadP.val_main_v155 (F := Ideal) (m ((c.tc : Thread nD τ).loc main_arg17))) (Cert.ReferenceIdeal.ReadP.val_main_v159 (F := Ideal) (m ((c.tc : Thread nD τ).loc main_arg19))) (Cert.ReferenceIdeal.ReadP.val_main_v161 (F := Ideal) (m ((c.tc : Thread nD τ).loc main_arg20))) (Cert.ReferenceIdeal.ReadP.val_main_v186 (F := Ideal) (m ((c.tc : Thread nD τ).loc main_arg18)) (m ((c.tc : Thread nD τ).loc main_arg21))))
    (mulf (F := Ideal) (φ := .f32) (Cert.ReferenceIdeal.ReadP.val_main_v165 (F := Ideal) (m ((c.tc : Thread nD τ).loc main_arg22))) (bc64 (Cert.ReferenceIdeal.ReadP.val_main_v204 (F := Ideal) (m ((c.tc : Thread nD τ).loc main_arg24)) (m ((c.tc : Thread nD τ).loc main_arg27))))) (foldB (Cert.ReferenceIdeal.ReadP.val_main_v167 (F := Ideal) (m ((c.tc : Thread nD τ).loc main_arg23))) (Cert.ReferenceIdeal.ReadP.val_main_v171 (F := Ideal) (m ((c.tc : Thread nD τ).loc main_arg25))) (Cert.ReferenceIdeal.ReadP.val_main_v173 (F := Ideal) (m ((c.tc : Thread nD τ).loc main_arg26))) (Cert.ReferenceIdeal.ReadP.val_main_v204 (F := Ideal) (m ((c.tc : Thread nD τ).loc main_arg24)) (m ((c.tc : Thread nD τ).loc main_arg27)))) = (Cert.ReferenceIdeal.ReadP.val_main_v211 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :=
  (Bridge.conv _ _ _ _ _ _ _ _ _ _ _ _ (real_b1 m c hF) (real_a2 m c hF) (Cert.ReferenceIdeal.RefReal.real_v153 hF.real_arg16) (Cert.ReferenceIdeal.RefReal.real_v155 hF.real_arg17) (Cert.ReferenceIdeal.RefReal.real_v161 hF.real_arg20) (Cert.ReferenceIdeal.RefReal.real_v159 hF.real_arg19) (Cert.ReferenceIdeal.RefReal.real_v186 hF.real_arg18 hF.pos_arg21) (Cert.ReferenceIdeal.RefReal.real_v165 hF.real_arg22) (Cert.ReferenceIdeal.RefReal.real_v167 hF.real_arg23) (Cert.ReferenceIdeal.RefReal.real_v173 hF.real_arg26) (Cert.ReferenceIdeal.RefReal.real_v171 hF.real_arg25) (Cert.ReferenceIdeal.RefReal.real_v204 hF.real_arg24 hF.pos_arg27)).trans (r2_eq m c)

/-- The aggregate the fourth block adds holds only real numbers. -/
theorem real_a3 : AllReal (Cert.ReferenceIdeal.ReadP.val_main_v233 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := Cert.ReferenceIdeal.RefReal.real_v233 (real_b2 m c hF)
omit hF in
theorem r3_eq : Bridge.Rc (Cert.ReferenceIdeal.ReadP.val_main_v211 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.ReferenceIdeal.ReadP.val_main_v233 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.ReferenceIdeal.ReadP.val_main_v236 (F := Ideal) (m ((c.tc : Thread nD τ).loc main_arg16))) (Cert.ReferenceIdeal.ReadP.val_main_v238 (F := Ideal) (m ((c.tc : Thread nD τ).loc main_arg17))) (Cert.ReferenceIdeal.ReadP.val_main_v244 (F := Ideal) (m ((c.tc : Thread nD τ).loc main_arg20))) (Cert.ReferenceIdeal.ReadP.val_main_v242 (F := Ideal) (m ((c.tc : Thread nD τ).loc main_arg19))) (Cert.ReferenceIdeal.ReadP.val_main_v269 (F := Ideal) (m ((c.tc : Thread nD τ).loc main_arg18)) (m ((c.tc : Thread nD τ).loc main_arg21))) (Cert.ReferenceIdeal.ReadP.val_main_v248 (F := Ideal) (m ((c.tc : Thread nD τ).loc main_arg22))) (Cert.ReferenceIdeal.ReadP.val_main_v250 (F := Ideal) (m ((c.tc : Thread nD τ).loc main_arg23))) (Cert.ReferenceIdeal.ReadP.val_main_v256 (F := Ideal) (m ((c.tc : Thread nD τ).loc main_arg26))) (Cert.ReferenceIdeal.ReadP.val_main_v254 (F := Ideal) (m ((c.tc : Thread nD τ).loc main_arg25))) (Cert.ReferenceIdeal.ReadP.val_main_v287 (F := Ideal) (m ((c.tc : Thread nD τ).loc main_arg24)) (m ((c.tc : Thread nD τ).loc main_arg27))) = (Cert.ReferenceIdeal.ReadP.val_main_v294 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  funext i
  obtain ⟨r, j, rfl⟩ : ∃ (r : Fin 100000) (j : Fin 64), i = ValueIdx.ix2 r j := ⟨i 0, i 1, ValueIdx.eq_ix2 i⟩
  rw [Cert.ReferenceIdeal.RefLayers.ref3_at]
  rfl

/-- The block's output holds only real numbers. -/
theorem real_b3 : AllReal (Cert.ReferenceIdeal.ReadP.val_main_v294 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  rw [← r3_eq m c]
  exact Bridge.Rc_real _ _ _ _ _ _ _ _ _ _ _ _ (real_b2 m c hF) (real_a3 m c hF) (Cert.ReferenceIdeal.RefReal.real_v236 hF.real_arg16) (Cert.ReferenceIdeal.RefReal.real_v238 hF.real_arg17) (Cert.ReferenceIdeal.RefReal.real_v244 hF.real_arg20) (Cert.ReferenceIdeal.RefReal.real_v242 hF.real_arg19) (Cert.ReferenceIdeal.RefReal.real_v269 hF.real_arg18 hF.pos_arg21) (Cert.ReferenceIdeal.RefReal.real_v248 hF.real_arg22) (Cert.ReferenceIdeal.RefReal.real_v250 hF.real_arg23) (Cert.ReferenceIdeal.RefReal.real_v256 hF.real_arg26) (Cert.ReferenceIdeal.RefReal.real_v254 hF.real_arg25) (Cert.ReferenceIdeal.RefReal.real_v287 hF.real_arg24 hF.pos_arg27)

/-- The region's function of the folded parameters is the block's output. -/
theorem g3_eq : Gc (Cert.ReferenceIdeal.ReadP.val_main_v211 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (Cert.ReferenceIdeal.ReadP.val_main_v233 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (mulf (F := Ideal) (φ := .f32) (Cert.ReferenceIdeal.ReadP.val_main_v236 (F := Ideal) (m ((c.tc : Thread nD τ).loc main_arg16))) (bc64 (Cert.ReferenceIdeal.ReadP.val_main_v269 (F := Ideal) (m ((c.tc : Thread nD τ).loc main_arg18)) (m ((c.tc : Thread nD τ).loc main_arg21))))) (foldB (Cert.ReferenceIdeal.ReadP.val_main_v238 (F := Ideal) (m ((c.tc : Thread nD τ).loc main_arg17))) (Cert.ReferenceIdeal.ReadP.val_main_v242 (F := Ideal) (m ((c.tc : Thread nD τ).loc main_arg19))) (Cert.ReferenceIdeal.ReadP.val_main_v244 (F := Ideal) (m ((c.tc : Thread nD τ).loc main_arg20))) (Cert.ReferenceIdeal.ReadP.val_main_v269 (F := Ideal) (m ((c.tc : Thread nD τ).loc main_arg18)) (m ((c.tc : Thread nD τ).loc main_arg21))))
    (mulf (F := Ideal) (φ := .f32) (Cert.ReferenceIdeal.ReadP.val_main_v248 (F := Ideal) (m ((c.tc : Thread nD τ).loc main_arg22))) (bc64 (Cert.ReferenceIdeal.ReadP.val_main_v287 (F := Ideal) (m ((c.tc : Thread nD τ).loc main_arg24)) (m ((c.tc : Thread nD τ).loc main_arg27))))) (foldB (Cert.ReferenceIdeal.ReadP.val_main_v250 (F := Ideal) (m ((c.tc : Thread nD τ).loc main_arg23))) (Cert.ReferenceIdeal.ReadP.val_main_v254 (F := Ideal) (m ((c.tc : Thread nD τ).loc main_arg25))) (Cert.ReferenceIdeal.ReadP.val_main_v256 (F := Ideal) (m ((c.tc : Thread nD τ).loc main_arg26))) (Cert.ReferenceIdeal.ReadP.val_main_v287 (F := Ideal) (m ((c.tc : Thread nD τ).loc main_arg24)) (m ((c.tc : Thread nD τ).loc main_arg27)))) = (Cert.ReferenceIdeal.ReadP.val_main_v294 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :=
  (Bridge.conv _ _ _ _ _ _ _ _ _ _ _ _ (real_b2 m c hF) (real_a3 m c hF) (Cert.ReferenceIdeal.RefReal.real_v236 hF.real_arg16) (Cert.ReferenceIdeal.RefReal.real_v238 hF.real_arg17) (Cert.ReferenceIdeal.RefReal.real_v244 hF.real_arg20) (Cert.ReferenceIdeal.RefReal.real_v242 hF.real_arg19) (Cert.ReferenceIdeal.RefReal.real_v269 hF.real_arg18 hF.pos_arg21) (Cert.ReferenceIdeal.RefReal.real_v248 hF.real_arg22) (Cert.ReferenceIdeal.RefReal.real_v250 hF.real_arg23) (Cert.ReferenceIdeal.RefReal.real_v256 hF.real_arg26) (Cert.ReferenceIdeal.RefReal.real_v254 hF.real_arg25) (Cert.ReferenceIdeal.RefReal.real_v287 hF.real_arg24 hF.pos_arg27)).trans (r3_eq m c)

end Cert.KernelIdeal.Chain
end
-- ==== Proof.Chain2.lean ====
/-
  The buffers after the first kernel region. Its output array is what its twenty grid points wrote back — the region's
  function of the arrays it found, which hold the reference's values and the folded parameters — and that is the
  reference's block output; every other buffer is as the region found it.
-/
import proofs.«170803_j37795712205240_1_alg».proof.Proof.Chain1
import proofs.«170803_j37795712205240_1_alg».proof.Proof.Region0
import proofs.«170803_j37795712205240_1_alg».proof.Proof.RefBlocks

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

/-- The first region's output array is the reference's first block output. -/
theorem w2_v33 : W2 m ρ c (Proc.devRef .tc main_v33) = (Cert.ReferenceIdeal.ReadP.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  refine (W2_arr m ρ c (5 : Fin cfg0.W)).trans ?_
  rw [Region0.array_eq (V1 m ρ) c]
  show G0 (W1 m ρ c (Proc.devRef .tc main_v10)) (W1 m ρ c (Proc.devRef .tc main_v19)) (W1 m ρ c (Proc.devRef .tc main_v21)) (W1 m ρ c (Proc.devRef .tc main_v30)) (W1 m ρ c (Proc.devRef .tc main_v32)) = _
  rw [w1_v10 m ρ c, w1_v19 m ρ c, w1_v21 m ρ c, w1_v30 m ρ c, w1_v32 m ρ c]
  exact g0_eq m c hF

theorem w2_v1 : W2 m ρ c (Proc.devRef .tc main_v1) = (Cert.ReferenceIdeal.ReadP.val_main_v1 (F := Ideal) (m ((c.tc : Thread nD τ).loc main_arg1))) :=
  (W2_of_ne m ρ c main_v1 (by decide)).trans (w1_v1 m ρ c)

theorem w2_v3 : W2 m ρ c (Proc.devRef .tc main_v3) = (Cert.ReferenceIdeal.ReadP.val_main_v3 (F := Ideal) (m ((c.tc : Thread nD τ).loc main_arg1))) :=
  (W2_of_ne m ρ c main_v3 (by decide)).trans (w1_v3 m ρ c)

theorem w2_arg2 : W2 m ρ c (Proc.devRef .tc main_arg2) = (m ((c.tc : Thread nD τ).loc main_arg2)) :=
  (W2_of_ne m ρ c main_arg2 (by decide)).trans (w1_arg2 m ρ c)

theorem w2_arg16 : W2 m ρ c (Proc.devRef .tc main_arg16) = (m ((c.tc : Thread nD τ).loc main_arg16)) :=
  (W2_of_ne m ρ c main_arg16 (by decide)).trans (w1_arg16 m ρ c)

theorem w2_arg17 : W2 m ρ c (Proc.devRef .tc main_arg17) = (m ((c.tc : Thread nD τ).loc main_arg17)) :=
  (W2_of_ne m ρ c main_arg17 (by decide)).trans (w1_arg17 m ρ c)

theorem w2_arg18 : W2 m ρ c (Proc.devRef .tc main_arg18) = (m ((c.tc : Thread nD τ).loc main_arg18)) :=
  (W2_of_ne m ρ c main_arg18 (by decide)).trans (w1_arg18 m ρ c)

theorem w2_arg19 : W2 m ρ c (Proc.devRef .tc main_arg19) = (m ((c.tc : Thread nD τ).loc main_arg19)) :=
  (W2_of_ne m ρ c main_arg19 (by decide)).trans (w1_arg19 m ρ c)

theorem w2_arg20 : W2 m ρ c (Proc.devRef .tc main_arg20) = (m ((c.tc : Thread nD τ).loc main_arg20)) :=
  (W2_of_ne m ρ c main_arg20 (by decide)).trans (w1_arg20 m ρ c)

theorem w2_arg21 : W2 m ρ c (Proc.devRef .tc main_arg21) = (m ((c.tc : Thread nD τ).loc main_arg21)) :=
  (W2_of_ne m ρ c main_arg21 (by decide)).trans (w1_arg21 m ρ c)

theorem w2_arg22 : W2 m ρ c (Proc.devRef .tc main_arg22) = (m ((c.tc : Thread nD τ).loc main_arg22)) :=
  (W2_of_ne m ρ c main_arg22 (by decide)).trans (w1_arg22 m ρ c)

theorem w2_arg23 : W2 m ρ c (Proc.devRef .tc main_arg23) = (m ((c.tc : Thread nD τ).loc main_arg23)) :=
  (W2_of_ne m ρ c main_arg23 (by decide)).trans (w1_arg23 m ρ c)

theorem w2_arg24 : W2 m ρ c (Proc.devRef .tc main_arg24) = (m ((c.tc : Thread nD τ).loc main_arg24)) :=
  (W2_of_ne m ρ c main_arg24 (by decide)).trans (w1_arg24 m ρ c)

theorem w2_arg25 : W2 m ρ c (Proc.devRef .tc main_arg25) = (m ((c.tc : Thread nD τ).loc main_arg25)) :=
  (W2_of_ne m ρ c main_arg25 (by decide)).trans (w1_arg25 m ρ c)

theorem w2_arg26 : W2 m ρ c (Proc.devRef .tc main_arg26) = (m ((c.tc : Thread nD τ).loc main_arg26)) :=
  (W2_of_ne m ρ c main_arg26 (by decide)).trans (w1_arg26 m ρ c)

theorem w2_arg27 : W2 m ρ c (Proc.devRef .tc main_arg27) = (m ((c.tc : Thread nD τ).loc main_arg27)) :=
  (W2_of_ne m ρ c main_arg27 (by decide)).trans (w1_arg27 m ρ c)

theorem w2_arg28 : W2 m ρ c (Proc.devRef .tc main_arg28) = (m ((c.tc : Thread nD τ).loc main_arg28)) :=
  (W2_of_ne m ρ c main_arg28 (by decide)).trans (w1_arg28 m ρ c)

theorem w2_arg29 : W2 m ρ c (Proc.devRef .tc main_arg29) = (m ((c.tc : Thread nD τ).loc main_arg29)) :=
  (W2_of_ne m ρ c main_arg29 (by decide)).trans (w1_arg29 m ρ c)

end Cert.KernelIdeal.Chain
end
-- ==== Proof.Chain3.lean ====
/-
  The buffers after the second stretch of host operations, each as the reference program's own stage function of the
  arguments: the stretch applies the same operations as the reference to buffers already known to hold the reference's
  values; the folded weights W·s and biases b·s + (bt − m·s) of the next region are written with the reference's sliced parameters and scale.
-/
import proofs.«170803_j37795712205240_1_alg».proof.Proof.Chain2

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

theorem w3_v33 : W3 m ρ c (Proc.devRef .tc main_v33) = (Cert.ReferenceIdeal.ReadP.val_main_v46 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  show StableHlo.after hostOps1 _ (Proc.devRef .tc main_v33) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v54 : W3 m ρ c (Proc.devRef .tc main_v54) = (Cert.ReferenceIdeal.ReadP.val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  show StableHlo.after hostOps1 _ (Proc.devRef .tc main_v54) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v75 : W3 m ρ c (Proc.devRef .tc main_v75) = mulf (F := Ideal) (φ := .f32) (Cert.ReferenceIdeal.ReadP.val_main_v70 (F := Ideal) (m ((c.tc : Thread nD τ).loc main_arg16))) (bc64 (Cert.ReferenceIdeal.ReadP.val_main_v103 (F := Ideal) (m ((c.tc : Thread nD τ).loc main_arg18)) (m ((c.tc : Thread nD τ).loc main_arg21)))) := by
  show StableHlo.after hostOps1 _ (Proc.devRef .tc main_v75) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v77 : W3 m ρ c (Proc.devRef .tc main_v77) = foldB (Cert.ReferenceIdeal.ReadP.val_main_v72 (F := Ideal) (m ((c.tc : Thread nD τ).loc main_arg17))) (Cert.ReferenceIdeal.ReadP.val_main_v76 (F := Ideal) (m ((c.tc : Thread nD τ).loc main_arg19))) (Cert.ReferenceIdeal.ReadP.val_main_v78 (F := Ideal) (m ((c.tc : Thread nD τ).loc main_arg20))) (Cert.ReferenceIdeal.ReadP.val_main_v103 (F := Ideal) (m ((c.tc : Thread nD τ).loc main_arg18)) (m ((c.tc : Thread nD τ).loc main_arg21))) := by
  show StableHlo.after hostOps1 _ (Proc.devRef .tc main_v77) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v98 : W3 m ρ c (Proc.devRef .tc main_v98) = mulf (F := Ideal) (φ := .f32) (Cert.ReferenceIdeal.ReadP.val_main_v82 (F := Ideal) (m ((c.tc : Thread nD τ).loc main_arg22))) (bc64 (Cert.ReferenceIdeal.ReadP.val_main_v121 (F := Ideal) (m ((c.tc : Thread nD τ).loc main_arg24)) (m ((c.tc : Thread nD τ).loc main_arg27)))) := by
  show StableHlo.after hostOps1 _ (Proc.devRef .tc main_v98) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v100 : W3 m ρ c (Proc.devRef .tc main_v100) = foldB (Cert.ReferenceIdeal.ReadP.val_main_v84 (F := Ideal) (m ((c.tc : Thread nD τ).loc main_arg23))) (Cert.ReferenceIdeal.ReadP.val_main_v88 (F := Ideal) (m ((c.tc : Thread nD τ).loc main_arg25))) (Cert.ReferenceIdeal.ReadP.val_main_v90 (F := Ideal) (m ((c.tc : Thread nD τ).loc main_arg26))) (Cert.ReferenceIdeal.ReadP.val_main_v121 (F := Ideal) (m ((c.tc : Thread nD τ).loc main_arg24)) (m ((c.tc : Thread nD τ).loc main_arg27))) := by
  show StableHlo.after hostOps1 _ (Proc.devRef .tc main_v100) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v44 : W3 m ρ c (Proc.devRef .tc main_v44) = (Cert.ReferenceIdeal.ReadP.val_main_v57 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg28)) (m ((c.tc : Thread nD τ).loc main_arg29))) := by
  show StableHlo.after hostOps1 _ (Proc.devRef .tc main_v44) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v1 : W3 m ρ c (Proc.devRef .tc main_v1) = (Cert.ReferenceIdeal.ReadP.val_main_v1 (F := Ideal) (m ((c.tc : Thread nD τ).loc main_arg1))) := by
  show StableHlo.after hostOps1 _ (Proc.devRef .tc main_v1) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_v3 : W3 m ρ c (Proc.devRef .tc main_v3) = (Cert.ReferenceIdeal.ReadP.val_main_v3 (F := Ideal) (m ((c.tc : Thread nD τ).loc main_arg1))) := by
  show StableHlo.after hostOps1 _ (Proc.devRef .tc main_v3) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg2 : W3 m ρ c (Proc.devRef .tc main_arg2) = (m ((c.tc : Thread nD τ).loc main_arg2)) := by
  show StableHlo.after hostOps1 _ (Proc.devRef .tc main_arg2) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg16 : W3 m ρ c (Proc.devRef .tc main_arg16) = (m ((c.tc : Thread nD τ).loc main_arg16)) := by
  show StableHlo.after hostOps1 _ (Proc.devRef .tc main_arg16) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg17 : W3 m ρ c (Proc.devRef .tc main_arg17) = (m ((c.tc : Thread nD τ).loc main_arg17)) := by
  show StableHlo.after hostOps1 _ (Proc.devRef .tc main_arg17) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg18 : W3 m ρ c (Proc.devRef .tc main_arg18) = (m ((c.tc : Thread nD τ).loc main_arg18)) := by
  show StableHlo.after hostOps1 _ (Proc.devRef .tc main_arg18) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg19 : W3 m ρ c (Proc.devRef .tc main_arg19) = (m ((c.tc : Thread nD τ).loc main_arg19)) := by
  show StableHlo.after hostOps1 _ (Proc.devRef .tc main_arg19) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg20 : W3 m ρ c (Proc.devRef .tc main_arg20) = (m ((c.tc : Thread nD τ).loc main_arg20)) := by
  show StableHlo.after hostOps1 _ (Proc.devRef .tc main_arg20) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg21 : W3 m ρ c (Proc.devRef .tc main_arg21) = (m ((c.tc : Thread nD τ).loc main_arg21)) := by
  show StableHlo.after hostOps1 _ (Proc.devRef .tc main_arg21) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg22 : W3 m ρ c (Proc.devRef .tc main_arg22) = (m ((c.tc : Thread nD τ).loc main_arg22)) := by
  show StableHlo.after hostOps1 _ (Proc.devRef .tc main_arg22) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg23 : W3 m ρ c (Proc.devRef .tc main_arg23) = (m ((c.tc : Thread nD τ).loc main_arg23)) := by
  show StableHlo.after hostOps1 _ (Proc.devRef .tc main_arg23) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg24 : W3 m ρ c (Proc.devRef .tc main_arg24) = (m ((c.tc : Thread nD τ).loc main_arg24)) := by
  show StableHlo.after hostOps1 _ (Proc.devRef .tc main_arg24) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg25 : W3 m ρ c (Proc.devRef .tc main_arg25) = (m ((c.tc : Thread nD τ).loc main_arg25)) := by
  show StableHlo.after hostOps1 _ (Proc.devRef .tc main_arg25) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg26 : W3 m ρ c (Proc.devRef .tc main_arg26) = (m ((c.tc : Thread nD τ).loc main_arg26)) := by
  show StableHlo.after hostOps1 _ (Proc.devRef .tc main_arg26) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg27 : W3 m ρ c (Proc.devRef .tc main_arg27) = (m ((c.tc : Thread nD τ).loc main_arg27)) := by
  show StableHlo.after hostOps1 _ (Proc.devRef .tc main_arg27) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg28 : W3 m ρ c (Proc.devRef .tc main_arg28) = (m ((c.tc : Thread nD τ).loc main_arg28)) := by
  show StableHlo.after hostOps1 _ (Proc.devRef .tc main_arg28) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

theorem w3_arg29 : W3 m ρ c (Proc.devRef .tc main_arg29) = (m ((c.tc : Thread nD τ).loc main_arg29)) := by
  show StableHlo.after hostOps1 _ (Proc.devRef .tc main_arg29) = _
  simp only [hostOps1]
  after_results_simp
  simp only [w2_v33 m ρ c hF, w2_v1 m ρ c hF, w2_v3 m ρ c hF, w2_arg2 m ρ c hF, w2_arg16 m ρ c hF, w2_arg17 m ρ c hF, w2_arg18 m ρ c hF, w2_arg19 m ρ c hF, w2_arg20 m ρ c hF, w2_arg21 m ρ c hF, w2_arg22 m ρ c hF, w2_arg23 m ρ c hF, w2_arg24 m ρ c hF, w2_arg25 m ρ c hF, w2_arg26 m ρ c hF, w2_arg27 m ρ c hF, w2_arg28 m ρ c hF, w2_arg29 m ρ c hF]
  all_goals rfl

end Cert.KernelIdeal.Chain
end
-- ==== Proof.Region1.lean ====
/-
  The second kernel region as one function of the arrays it reads. The grid has twenty points; point t reads rows
  5000 t … 5000 t + 4999 of the node features and of their neighbour aggregate, and the whole of the two weight matrices
  and two bias rows, and writes the same rows of the output. Entry (r, j) of the output array after the region is the
  two dense layers applied to row r of the sum of features and aggregate:
  max (Σ_k max (Σ_l (X(r,l) + A(r,l))·W1(l,k) + b1(k)) 0 · W2(k,j) + b2(j)) 0, the row blocks tiling the array.
-/
import proofs.«170803_j37795712205240_1_alg».proof.Proof.Gen.KernelIdeal.Frame
import proofs.«170803_j37795712205240_1_alg».proof.Proof.PayloadAt
import Idealize.ShloMosaic.Lib.Pipeline.Value
import Idealize.ShloMosaic.Lib.ValueIdx

set_option maxRecDepth 16384
noncomputable section
namespace Cert.KernelIdeal.Region1
open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the two inputs' and the output's row blocks move together, block t at point t; the
    weight and bias windows stay at block zero. -/
theorem idx_facts : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0 ∧ win1_3.index t (0 : Fin 1) = 0
    ∧ win1_4.index t (0 : Fin 2) = 0 ∧ win1_4.index t (1 : Fin 2) = 0 ∧ win1_5.index t (0 : Fin 1) = 0
    ∧ win1_6.index t (1 : Fin 2) = 0 ∧ win1_6.index t (0 : Fin 2) = t.val :=
  (by decide +kernel : ∀ t : Fin grid1.N, _)

theorem row_lt (t : Fin cfg1.N) (p : Fin 5000) : t.val * 5000 + p.val < 100000 := by
  have := t.isLt; have h : cfg1.N = 20 := N_1; have := p.isLt; omega

theorem blk_x (c : Dev nD) (t : Fin cfg1.N) (p : Fin 5000) (l : Fin 64) :
    iblk1 V c 0 t (ix2 p l) = V c main_v33 (ix2 ⟨t.val * 5000 + p.val, row_lt t p⟩ l) := by
  obtain ⟨e0, e1, e2, e3, e4, e5, e6, e7, e8, e9, e10, e11⟩ := idx_facts t
  show V c main_v33 (((cfg1.win 0).blk t).view.emb (ix2 p l)) = _
  refine congrArg (V c main_v33) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * l.val = l.val; omega

theorem blk_a (c : Dev nD) (t : Fin cfg1.N) (p : Fin 5000) (l : Fin 64) :
    iblk1 V c 1 t (ix2 p l) = V c main_v54 (ix2 ⟨t.val * 5000 + p.val, row_lt t p⟩ l) := by
  obtain ⟨e0, e1, e2, e3, e4, e5, e6, e7, e8, e9, e10, e11⟩ := idx_facts t
  show V c main_v54 (((cfg1.win 1).blk t).view.emb (ix2 p l)) = _
  refine congrArg (V c main_v54) (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * l.val = l.val; omega

theorem blk_w1 (c : Dev nD) (t : Fin cfg1.N) (l : Fin 64) (k : Fin 64) :
    iblk1 V c 2 t (ix2 l k) = V c main_v75 (ix2 l k) := by
  obtain ⟨e0, e1, e2, e3, e4, e5, e6, e7, e8, e9, e10, e11⟩ := idx_facts t
  show V c main_v75 (((cfg1.win 2).blk t).view.emb (ix2 l k)) = _
  refine congrArg (V c main_v75) (funext fun a => Fin.ext ?_)
  match a with
  | ⟨0, _⟩ => show win1_2.index t (0 : Fin 2) * 64 + 1 * l.val = l.val; omega
  | ⟨1, _⟩ => show win1_2.index t (1 : Fin 2) * 64 + 1 * k.val = k.val; omega

theorem blk_b1 (c : Dev nD) (t : Fin cfg1.N) (k : Fin 64) :
    iblk1 V c 3 t (ix1 k) = V c main_v77 (ix1 k) := by
  obtain ⟨e0, e1, e2, e3, e4, e5, e6, e7, e8, e9, e10, e11⟩ := idx_facts t
  show V c main_v77 (((cfg1.win 3).blk t).view.emb (ix1 k)) = _
  refine congrArg (V c main_v77) (funext fun a => Fin.ext ?_)
  match a with
  | ⟨0, _⟩ => show win1_3.index t (0 : Fin 1) * 64 + 1 * k.val = k.val; omega

theorem blk_w2 (c : Dev nD) (t : Fin cfg1.N) (k : Fin 64) (q : Fin 64) :
    iblk1 V c 4 t (ix2 k q) = V c main_v98 (ix2 k q) := by
  obtain ⟨e0, e1, e2, e3, e4, e5, e6, e7, e8, e9, e10, e11⟩ := idx_facts t
  show V c main_v98 (((cfg1.win 4).blk t).view.emb (ix2 k q)) = _
  refine congrArg (V c main_v98) (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

theorem blk_b2 (c : Dev nD) (t : Fin cfg1.N) (k : Fin 64) :
    iblk1 V c 5 t (ix1 k) = V c main_v100 (ix1 k) := by
  obtain ⟨e0, e1, e2, e3, e4, e5, e6, e7, e8, e9, e10, e11⟩ := idx_facts t
  show V c main_v100 (((cfg1.win 5).blk t).view.emb (ix1 k)) = _
  refine congrArg (V c main_v100) (funext fun a => Fin.ext ?_)
  match a with
  | ⟨0, _⟩ => show win1_5.index t (0 : Fin 1) * 64 + 1 * k.val = k.val; omega

/-- `G` at entry (p, q) of the output block of point t: row 5000 t + p, column q. -/
theorem G_at_blk (X A : S100000x64.Idx → EReal) (W1 : S64x64.Idx → EReal) (b1 : S64.Idx → EReal) (W2 : S64x64.Idx → EReal) (b2 : S64.Idx → EReal)
    (t : Fin cfg1.N) (p : Fin 5000) (q : Fin 64) :
    PayloadAt.Gc X A W1 b1 W2 b2 (((cfg1.win 6).blk t).view.emb (ix2 p q))
      = max ((∑ k : Fin 64, max ((∑ l : Fin 64, (X (ix2 ⟨t.val * 5000 + p.val, row_lt t p⟩ l) + A (ix2 ⟨t.val * 5000 + p.val, row_lt t p⟩ l)) * W1 (ix2 l k)) + b1 (ix1 k)) 0 * W2 (ix2 k q)) + b2 (ix1 q)) 0 := by
  obtain ⟨e0, e1, e2, e3, e4, e5, e6, e7, e8, e9, e10, e11⟩ := idx_facts t
  have h0 : (⟨((((cfg1.win 6).blk t).view.emb (ix2 p q)) 0).val, ((((cfg1.win 6).blk t).view.emb (ix2 p q)) 0).isLt⟩ : Fin 100000)
      = ⟨t.val * 5000 + p.val, row_lt t p⟩ :=
    Fin.ext (by show win1_6.index t (0 : Fin 2) * 5000 + 1 * p.val = t.val * 5000 + p.val; omega)
  have h1 : (⟨((((cfg1.win 6).blk t).view.emb (ix2 p q)) 1).val, ((((cfg1.win 6).blk t).view.emb (ix2 p q)) 1).isLt⟩ : Fin 64) = q :=
    Fin.ext (by show win1_6.index t (1 : Fin 2) * 64 + 1 * q.val = q.val; omega)
  unfold PayloadAt.Gc
  rw [h0, h1]

/-- What point t writes back is block t of `G` of the arrays the region finds. -/
theorem flushed_eq (c : Dev nD) (t : Fin cfg1.N) :
    (dat1 V c).flushed 6 t = ((cfg1.win 6).blk t).view.read (Elt Ideal)
      (PayloadAt.Gc (V c main_v33) (V c main_v54) (V c main_v75) (V c main_v77) (V c main_v98) (V c main_v100)) := by
  show (cfg1.win 6).cut (grid1.coords t) ((dat1 V c).after 6 t) = _
  rw [after1_6]
  unfold out1_6
  rw [View.canon_unit_zero hz]
  simp only [View.ld_unit_zero (S := S5000x64) hz, View.ld_unit_zero (S := S64) hz1, View.ld_unit_zero (S := S64x64) hz]
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
    = PayloadAt.Gc (V c main_v33) (V c main_v54) (V c main_v75) (V c main_v77) (V c main_v98) (V c main_v100) (((cfg1.win 6).blk t).view.emb (ix2 p q))
  rw [PayloadAt.k1_at, G_at_blk]
  simp only [blk_x V c t, blk_a V c t, blk_w1 V c t, blk_b1 V c t, blk_w2 V c t, blk_b2 V c t]

/-- An index of the output array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v101).slice (win1_6.rect t)).set ↔ _
  rw [View.set_slice_whole, Rect.mem_set_unit]
  exact Iff.rfl

/-- The twenty row blocks tile the output: row r is in the block of point r / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨e0, e1, e2, e3, e4, e5, e6, e7, e8, e9, e10, e11⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array after the region: `G` of the arrays the region finds, everywhere. -/
theorem array_eq (c : Dev nD) :
    (dat1 V c).arrAt 6 cfg1.N = PayloadAt.Gc (V c main_v33) (V c main_v54) (V c main_v75) (V c main_v77) (V c main_v98) (V c main_v100) :=
  (dat1 V c).arrAt_eq_of_cover 6 _ (fun t _ => flushed_eq V c t) cover

end Cert.KernelIdeal.Region1
end
-- ==== Proof.Chain4.lean ====
/-
  The buffers after the second kernel region. Its output array is what its twenty grid points wrote back — the region's
  function of the arrays it found, which hold the reference's values and the folded parameters — and that is the
  reference's block output; every other buffer is as the region found it.
-/
import proofs.«170803_j37795712205240_1_alg».proof.Proof.Chain3
import proofs.«170803_j37795712205240_1_alg».proof.Proof.Region1

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

/-- The region's output array is the reference's block output. -/
theorem w4_v101 : W4 m ρ c (Proc.devRef .tc main_v101) = (Cert.ReferenceIdeal.ReadP.val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  refine (W4_arr m ρ c (6 : Fin cfg1.W)).trans ?_
  rw [Region1.array_eq (V3 m ρ) c]
  show Gc (W3 m ρ c (Proc.devRef .tc main_v33)) (W3 m ρ c (Proc.devRef .tc main_v54)) (W3 m ρ c (Proc.devRef .tc main_v75)) (W3 m ρ c (Proc.devRef .tc main_v77)) (W3 m ρ c (Proc.devRef .tc main_v98)) (W3 m ρ c (Proc.devRef .tc main_v100)) = _
  rw [w3_v33 m ρ c hF, w3_v54 m ρ c hF, w3_v75 m ρ c hF, w3_v77 m ρ c hF, w3_v98 m ρ c hF, w3_v100 m ρ c hF]
  exact g1_eq m c hF

theorem w4_v44 : W4 m ρ c (Proc.devRef .tc main_v44) = (Cert.ReferenceIdeal.ReadP.val_main_v57 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg28)) (m ((c.tc : Thread nD τ).loc main_arg29))) :=
  (W4_of_ne m ρ c main_v44 (by decide)).trans (w3_v44 m ρ c hF)

theorem w4_v1 : W4 m ρ c (Proc.devRef .tc main_v1) = (Cert.ReferenceIdeal.ReadP.val_main_v1 (F := Ideal) (m ((c.tc : Thread nD τ).loc main_arg1))) :=
  (W4_of_ne m ρ c main_v1 (by decide)).trans (w3_v1 m ρ c hF)

theorem w4_v3 : W4 m ρ c (Proc.devRef .tc main_v3) = (Cert.ReferenceIdeal.ReadP.val_main_v3 (F := Ideal) (m ((c.tc : Thread nD τ).loc main_arg1))) :=
  (W4_of_ne m ρ c main_v3 (by decide)).trans (w3_v3 m ρ c hF)

theorem w4_arg2 : W4 m ρ c (Proc.devRef .tc main_arg2) = (m ((c.tc : Thread nD τ).loc main_arg2)) :=
  (W4_of_ne m ρ c main_arg2 (by decide)).trans (w3_arg2 m ρ c hF)

theorem w4_arg16 : W4 m ρ c (Proc.devRef .tc main_arg16) = (m ((c.tc : Thread nD τ).loc main_arg16)) :=
  (W4_of_ne m ρ c main_arg16 (by decide)).trans (w3_arg16 m ρ c hF)

theorem w4_arg17 : W4 m ρ c (Proc.devRef .tc main_arg17) = (m ((c.tc : Thread nD τ).loc main_arg17)) :=
  (W4_of_ne m ρ c main_arg17 (by decide)).trans (w3_arg17 m ρ c hF)

theorem w4_arg18 : W4 m ρ c (Proc.devRef .tc main_arg18) = (m ((c.tc : Thread nD τ).loc main_arg18)) :=
  (W4_of_ne m ρ c main_arg18 (by decide)).trans (w3_arg18 m ρ c hF)

theorem w4_arg19 : W4 m ρ c (Proc.devRef .tc main_arg19) = (m ((c.tc : Thread nD τ).loc main_arg19)) :=
  (W4_of_ne m ρ c main_arg19 (by decide)).trans (w3_arg19 m ρ c hF)

theorem w4_arg20 : W4 m ρ c (Proc.devRef .tc main_arg20) = (m ((c.tc : Thread nD τ).loc main_arg20)) :=
  (W4_of_ne m ρ c main_arg20 (by decide)).trans (w3_arg20 m ρ c hF)

theorem w4_arg21 : W4 m ρ c (Proc.devRef .tc main_arg21) = (m ((c.tc : Thread nD τ).loc main_arg21)) :=
  (W4_of_ne m ρ c main_arg21 (by decide)).trans (w3_arg21 m ρ c hF)

theorem w4_arg22 : W4 m ρ c (Proc.devRef .tc main_arg22) = (m ((c.tc : Thread nD τ).loc main_arg22)) :=
  (W4_of_ne m ρ c main_arg22 (by decide)).trans (w3_arg22 m ρ c hF)

theorem w4_arg23 : W4 m ρ c (Proc.devRef .tc main_arg23) = (m ((c.tc : Thread nD τ).loc main_arg23)) :=
  (W4_of_ne m ρ c main_arg23 (by decide)).trans (w3_arg23 m ρ c hF)

theorem w4_arg24 : W4 m ρ c (Proc.devRef .tc main_arg24) = (m ((c.tc : Thread nD τ).loc main_arg24)) :=
  (W4_of_ne m ρ c main_arg24 (by decide)).trans (w3_arg24 m ρ c hF)

theorem w4_arg25 : W4 m ρ c (Proc.devRef .tc main_arg25) = (m ((c.tc : Thread nD τ).loc main_arg25)) :=
  (W4_of_ne m ρ c main_arg25 (by decide)).trans (w3_arg25 m ρ c hF)

theorem w4_arg26 : W4 m ρ c (Proc.devRef .tc main_arg26) = (m ((c.tc : Thread nD τ).loc main_arg26)) :=
  (W4_of_ne m ρ c main_arg26 (by decide)).trans (w3_arg26 m ρ c hF)

theorem w4_arg27 : W4 m ρ c (Proc.devRef .tc main_arg27) = (m ((c.tc : Thread nD τ).loc main_arg27)) :=
  (W4_of_ne m ρ c main_arg27 (by decide)).trans (w3_arg27 m ρ c hF)

theorem w4_arg28 : W4 m ρ c (Proc.devRef .tc main_arg28) = (m ((c.tc : Thread nD τ).loc main_arg28)) :=
  (W4_of_ne m ρ c main_arg28 (by decide)).trans (w3_arg28 m ρ c hF)

theorem w4_arg29 : W4 m ρ c (Proc.devRef .tc main_arg29) = (m ((c.tc : Thread nD τ).loc main_arg29)) :=
  (W4_of_ne m ρ c main_arg29 (by decide)).trans (w3_arg29 m ρ c hF)

end Cert.KernelIdeal.Chain
end
-- ==== Proof.Chain5.lean ====
/-
  The buffers after the third stretch of host operations, each as the reference program's own stage function of the
  arguments: the stretch applies the same operations as the reference to buffers already known to hold the reference's
  values; the folded weights W·s and biases b·s + (bt − m·s) of the next region are written with the reference's sliced parameters and scale.
-/
import proofs.«170803_j37795712205240_1_alg».proof.Proof.Chain4

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

theorem w5_v101 : W5 m ρ c (Proc.devRef .tc main_v101) = (Cert.ReferenceIdeal.ReadP.val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  show StableHlo.after hostOps2 _ (Proc.devRef .tc main_v101) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v123 : W5 m ρ c (Proc.devRef .tc main_v123) = (Cert.ReferenceIdeal.ReadP.val_main_v150 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  show StableHlo.after hostOps2 _ (Proc.devRef .tc main_v123) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v144 : W5 m ρ c (Proc.devRef .tc main_v144) = mulf (F := Ideal) (φ := .f32) (Cert.ReferenceIdeal.ReadP.val_main_v153 (F := Ideal) (m ((c.tc : Thread nD τ).loc main_arg16))) (bc64 (Cert.ReferenceIdeal.ReadP.val_main_v186 (F := Ideal) (m ((c.tc : Thread nD τ).loc main_arg18)) (m ((c.tc : Thread nD τ).loc main_arg21)))) := by
  show StableHlo.after hostOps2 _ (Proc.devRef .tc main_v144) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v146 : W5 m ρ c (Proc.devRef .tc main_v146) = foldB (Cert.ReferenceIdeal.ReadP.val_main_v155 (F := Ideal) (m ((c.tc : Thread nD τ).loc main_arg17))) (Cert.ReferenceIdeal.ReadP.val_main_v159 (F := Ideal) (m ((c.tc : Thread nD τ).loc main_arg19))) (Cert.ReferenceIdeal.ReadP.val_main_v161 (F := Ideal) (m ((c.tc : Thread nD τ).loc main_arg20))) (Cert.ReferenceIdeal.ReadP.val_main_v186 (F := Ideal) (m ((c.tc : Thread nD τ).loc main_arg18)) (m ((c.tc : Thread nD τ).loc main_arg21))) := by
  show StableHlo.after hostOps2 _ (Proc.devRef .tc main_v146) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v167 : W5 m ρ c (Proc.devRef .tc main_v167) = mulf (F := Ideal) (φ := .f32) (Cert.ReferenceIdeal.ReadP.val_main_v165 (F := Ideal) (m ((c.tc : Thread nD τ).loc main_arg22))) (bc64 (Cert.ReferenceIdeal.ReadP.val_main_v204 (F := Ideal) (m ((c.tc : Thread nD τ).loc main_arg24)) (m ((c.tc : Thread nD τ).loc main_arg27)))) := by
  show StableHlo.after hostOps2 _ (Proc.devRef .tc main_v167) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v169 : W5 m ρ c (Proc.devRef .tc main_v169) = foldB (Cert.ReferenceIdeal.ReadP.val_main_v167 (F := Ideal) (m ((c.tc : Thread nD τ).loc main_arg23))) (Cert.ReferenceIdeal.ReadP.val_main_v171 (F := Ideal) (m ((c.tc : Thread nD τ).loc main_arg25))) (Cert.ReferenceIdeal.ReadP.val_main_v173 (F := Ideal) (m ((c.tc : Thread nD τ).loc main_arg26))) (Cert.ReferenceIdeal.ReadP.val_main_v204 (F := Ideal) (m ((c.tc : Thread nD τ).loc main_arg24)) (m ((c.tc : Thread nD τ).loc main_arg27))) := by
  show StableHlo.after hostOps2 _ (Proc.devRef .tc main_v169) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v113 : W5 m ρ c (Proc.devRef .tc main_v113) = (Cert.ReferenceIdeal.ReadP.val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))) := by
  show StableHlo.after hostOps2 _ (Proc.devRef .tc main_v113) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v1 : W5 m ρ c (Proc.devRef .tc main_v1) = (Cert.ReferenceIdeal.ReadP.val_main_v1 (F := Ideal) (m ((c.tc : Thread nD τ).loc main_arg1))) := by
  show StableHlo.after hostOps2 _ (Proc.devRef .tc main_v1) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_v3 : W5 m ρ c (Proc.devRef .tc main_v3) = (Cert.ReferenceIdeal.ReadP.val_main_v3 (F := Ideal) (m ((c.tc : Thread nD τ).loc main_arg1))) := by
  show StableHlo.after hostOps2 _ (Proc.devRef .tc main_v3) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg2 : W5 m ρ c (Proc.devRef .tc main_arg2) = (m ((c.tc : Thread nD τ).loc main_arg2)) := by
  show StableHlo.after hostOps2 _ (Proc.devRef .tc main_arg2) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg16 : W5 m ρ c (Proc.devRef .tc main_arg16) = (m ((c.tc : Thread nD τ).loc main_arg16)) := by
  show StableHlo.after hostOps2 _ (Proc.devRef .tc main_arg16) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg17 : W5 m ρ c (Proc.devRef .tc main_arg17) = (m ((c.tc : Thread nD τ).loc main_arg17)) := by
  show StableHlo.after hostOps2 _ (Proc.devRef .tc main_arg17) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg18 : W5 m ρ c (Proc.devRef .tc main_arg18) = (m ((c.tc : Thread nD τ).loc main_arg18)) := by
  show StableHlo.after hostOps2 _ (Proc.devRef .tc main_arg18) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg19 : W5 m ρ c (Proc.devRef .tc main_arg19) = (m ((c.tc : Thread nD τ).loc main_arg19)) := by
  show StableHlo.after hostOps2 _ (Proc.devRef .tc main_arg19) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg20 : W5 m ρ c (Proc.devRef .tc main_arg20) = (m ((c.tc : Thread nD τ).loc main_arg20)) := by
  show StableHlo.after hostOps2 _ (Proc.devRef .tc main_arg20) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg21 : W5 m ρ c (Proc.devRef .tc main_arg21) = (m ((c.tc : Thread nD τ).loc main_arg21)) := by
  show StableHlo.after hostOps2 _ (Proc.devRef .tc main_arg21) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg22 : W5 m ρ c (Proc.devRef .tc main_arg22) = (m ((c.tc : Thread nD τ).loc main_arg22)) := by
  show StableHlo.after hostOps2 _ (Proc.devRef .tc main_arg22) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg23 : W5 m ρ c (Proc.devRef .tc main_arg23) = (m ((c.tc : Thread nD τ).loc main_arg23)) := by
  show StableHlo.after hostOps2 _ (Proc.devRef .tc main_arg23) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg24 : W5 m ρ c (Proc.devRef .tc main_arg24) = (m ((c.tc : Thread nD τ).loc main_arg24)) := by
  show StableHlo.after hostOps2 _ (Proc.devRef .tc main_arg24) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg25 : W5 m ρ c (Proc.devRef .tc main_arg25) = (m ((c.tc : Thread nD τ).loc main_arg25)) := by
  show StableHlo.after hostOps2 _ (Proc.devRef .tc main_arg25) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg26 : W5 m ρ c (Proc.devRef .tc main_arg26) = (m ((c.tc : Thread nD τ).loc main_arg26)) := by
  show StableHlo.after hostOps2 _ (Proc.devRef .tc main_arg26) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg27 : W5 m ρ c (Proc.devRef .tc main_arg27) = (m ((c.tc : Thread nD τ).loc main_arg27)) := by
  show StableHlo.after hostOps2 _ (Proc.devRef .tc main_arg27) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg28 : W5 m ρ c (Proc.devRef .tc main_arg28) = (m ((c.tc : Thread nD τ).loc main_arg28)) := by
  show StableHlo.after hostOps2 _ (Proc.devRef .tc main_arg28) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

theorem w5_arg29 : W5 m ρ c (Proc.devRef .tc main_arg29) = (m ((c.tc : Thread nD τ).loc main_arg29)) := by
  show StableHlo.after hostOps2 _ (Proc.devRef .tc main_arg29) = _
  simp only [hostOps2]
  after_results_simp
  simp only [w4_v101 m ρ c hF, w4_v44 m ρ c hF, w4_v1 m ρ c hF, w4_v3 m ρ c hF, w4_arg2 m ρ c hF, w4_arg16 m ρ c hF, w4_arg17 m ρ c hF, w4_arg18 m ρ c hF, w4_arg19 m ρ c hF, w4_arg20 m ρ c hF, w4_arg21 m ρ c hF, w4_arg22 m ρ c hF, w4_arg23 m ρ c hF, w4_arg24 m ρ c hF, w4_arg25 m ρ c hF, w4_arg26 m ρ c hF, w4_arg27 m ρ c hF, w4_arg28 m ρ c hF, w4_arg29 m ρ c hF]
  all_goals rfl

end Cert.KernelIdeal.Chain
end
-- ==== Proof.Region2.lean ====
/-
  The third kernel region as one function of the arrays it reads. The grid has twenty points; point t reads rows
  5000 t … 5000 t + 4999 of the node features and of their neighbour aggregate, and the whole of the two weight matrices
  and two bias rows, and writes the same rows of the output. Entry (r, j) of the output array after the region is the
  two dense layers applied to row r of the sum of features and aggregate:
  max (Σ_k max (Σ_l (X(r,l) + A(r,l))·W1(l,k) + b1(k)) 0 · W2(k,j) + b2(j)) 0, the row blocks tiling the array.
-/
import proofs.«170803_j37795712205240_1_alg».proof.Proof.Gen.KernelIdeal.Frame
import proofs.«170803_j37795712205240_1_alg».proof.Proof.PayloadAt
import Idealize.ShloMosaic.Lib.Pipeline.Value
import Idealize.ShloMosaic.Lib.ValueIdx

set_option maxRecDepth 16384
noncomputable section
namespace Cert.KernelIdeal.Region2
open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the two inputs' and the output's row blocks move together, block t at point t; the
    weight and bias windows stay at block zero. -/
theorem idx_facts : ∀ t : Fin cfg2.N, win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0 ∧ win2_3.index t (0 : Fin 1) = 0
    ∧ win2_4.index t (0 : Fin 2) = 0 ∧ win2_4.index t (1 : Fin 2) = 0 ∧ win2_5.index t (0 : Fin 1) = 0
    ∧ win2_6.index t (1 : Fin 2) = 0 ∧ win2_6.index t (0 : Fin 2) = t.val :=
  (by decide +kernel : ∀ t : Fin grid2.N, _)

theorem row_lt (t : Fin cfg2.N) (p : Fin 5000) : t.val * 5000 + p.val < 100000 := by
  have := t.isLt; have h : cfg2.N = 20 := N_2; have := p.isLt; omega

theorem blk_x (c : Dev nD) (t : Fin cfg2.N) (p : Fin 5000) (l : Fin 64) :
    iblk2 V c 0 t (ix2 p l) = V c main_v101 (ix2 ⟨t.val * 5000 + p.val, row_lt t p⟩ l) := by
  obtain ⟨e0, e1, e2, e3, e4, e5, e6, e7, e8, e9, e10, e11⟩ := idx_facts t
  show V c main_v101 (((cfg2.win 0).blk t).view.emb (ix2 p l)) = _
  refine congrArg (V c main_v101) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * l.val = l.val; omega

theorem blk_a (c : Dev nD) (t : Fin cfg2.N) (p : Fin 5000) (l : Fin 64) :
    iblk2 V c 1 t (ix2 p l) = V c main_v123 (ix2 ⟨t.val * 5000 + p.val, row_lt t p⟩ l) := by
  obtain ⟨e0, e1, e2, e3, e4, e5, e6, e7, e8, e9, e10, e11⟩ := idx_facts t
  show V c main_v123 (((cfg2.win 1).blk t).view.emb (ix2 p l)) = _
  refine congrArg (V c main_v123) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * l.val = l.val; omega

theorem blk_w1 (c : Dev nD) (t : Fin cfg2.N) (l : Fin 64) (k : Fin 64) :
    iblk2 V c 2 t (ix2 l k) = V c main_v144 (ix2 l k) := by
  obtain ⟨e0, e1, e2, e3, e4, e5, e6, e7, e8, e9, e10, e11⟩ := idx_facts t
  show V c main_v144 (((cfg2.win 2).blk t).view.emb (ix2 l k)) = _
  refine congrArg (V c main_v144) (funext fun a => Fin.ext ?_)
  match a with
  | ⟨0, _⟩ => show win2_2.index t (0 : Fin 2) * 64 + 1 * l.val = l.val; omega
  | ⟨1, _⟩ => show win2_2.index t (1 : Fin 2) * 64 + 1 * k.val = k.val; omega

theorem blk_b1 (c : Dev nD) (t : Fin cfg2.N) (k : Fin 64) :
    iblk2 V c 3 t (ix1 k) = V c main_v146 (ix1 k) := by
  obtain ⟨e0, e1, e2, e3, e4, e5, e6, e7, e8, e9, e10, e11⟩ := idx_facts t
  show V c main_v146 (((cfg2.win 3).blk t).view.emb (ix1 k)) = _
  refine congrArg (V c main_v146) (funext fun a => Fin.ext ?_)
  match a with
  | ⟨0, _⟩ => show win2_3.index t (0 : Fin 1) * 64 + 1 * k.val = k.val; omega

theorem blk_w2 (c : Dev nD) (t : Fin cfg2.N) (k : Fin 64) (q : Fin 64) :
    iblk2 V c 4 t (ix2 k q) = V c main_v167 (ix2 k q) := by
  obtain ⟨e0, e1, e2, e3, e4, e5, e6, e7, e8, e9, e10, e11⟩ := idx_facts t
  show V c main_v167 (((cfg2.win 4).blk t).view.emb (ix2 k q)) = _
  refine congrArg (V c main_v167) (funext fun a => Fin.ext ?_)
  match a with
  | ⟨0, _⟩ => show win2_4.index t (0 : Fin 2) * 64 + 1 * k.val = k.val; omega
  | ⟨1, _⟩ => show win2_4.index t (1 : Fin 2) * 64 + 1 * q.val = q.val; omega

theorem blk_b2 (c : Dev nD) (t : Fin cfg2.N) (k : Fin 64) :
    iblk2 V c 5 t (ix1 k) = V c main_v169 (ix1 k) := by
  obtain ⟨e0, e1, e2, e3, e4, e5, e6, e7, e8, e9, e10, e11⟩ := idx_facts t
  show V c main_v169 (((cfg2.win 5).blk t).view.emb (ix1 k)) = _
  refine congrArg (V c main_v169) (funext fun a => Fin.ext ?_)
  match a with
  | ⟨0, _⟩ => show win2_5.index t (0 : Fin 1) * 64 + 1 * k.val = k.val; omega

/-- `G` at entry (p, q) of the output block of point t: row 5000 t + p, column q. -/
theorem G_at_blk (X A : S100000x64.Idx → EReal) (W1 : S64x64.Idx → EReal) (b1 : S64.Idx → EReal) (W2 : S64x64.Idx → EReal) (b2 : S64.Idx → EReal)
    (t : Fin cfg2.N) (p : Fin 5000) (q : Fin 64) :
    PayloadAt.Gc X A W1 b1 W2 b2 (((cfg2.win 6).blk t).view.emb (ix2 p q))
      = max ((∑ k : Fin 64, max ((∑ l : Fin 64, (X (ix2 ⟨t.val * 5000 + p.val, row_lt t p⟩ l) + A (ix2 ⟨t.val * 5000 + p.val, row_lt t p⟩ l)) * W1 (ix2 l k)) + b1 (ix1 k)) 0 * W2 (ix2 k q)) + b2 (ix1 q)) 0 := by
  obtain ⟨e0, e1, e2, e3, e4, e5, e6, e7, e8, e9, e10, e11⟩ := idx_facts t
  have h0 : (⟨((((cfg2.win 6).blk t).view.emb (ix2 p q)) 0).val, ((((cfg2.win 6).blk t).view.emb (ix2 p q)) 0).isLt⟩ : Fin 100000)
      = ⟨t.val * 5000 + p.val, row_lt t p⟩ :=
    Fin.ext (by show win2_6.index t (0 : Fin 2) * 5000 + 1 * p.val = t.val * 5000 + p.val; omega)
  have h1 : (⟨((((cfg2.win 6).blk t).view.emb (ix2 p q)) 1).val, ((((cfg2.win 6).blk t).view.emb (ix2 p q)) 1).isLt⟩ : Fin 64) = q :=
    Fin.ext (by show win2_6.index t (1 : Fin 2) * 64 + 1 * q.val = q.val; omega)
  unfold PayloadAt.Gc
  rw [h0, h1]

/-- What point t writes back is block t of `G` of the arrays the region finds. -/
theorem flushed_eq (c : Dev nD) (t : Fin cfg2.N) :
    (dat2 V c).flushed 6 t = ((cfg2.win 6).blk t).view.read (Elt Ideal)
      (PayloadAt.Gc (V c main_v101) (V c main_v123) (V c main_v144) (V c main_v146) (V c main_v167) (V c main_v169)) := by
  show (cfg2.win 6).cut (grid2.coords t) ((dat2 V c).after 6 t) = _
  rw [after2_6]
  unfold out2_6
  rw [View.canon_unit_zero hz]
  simp only [View.ld_unit_zero (S := S5000x64) hz, View.ld_unit_zero (S := S64) hz1, View.ld_unit_zero (S := S64x64) hz]
  funext y
  obtain ⟨p, q, rfl⟩ : ∃ (p : Fin 5000) (q : Fin 64), y = ix2 p q := ⟨y 0, y 1, eq_ix2 y⟩
  show k2_pay1 (F := Ideal) (iblk2 V c 0 t) (iblk2 V c 1 t) (iblk2 V c 2 t) (iblk2 V c 3 t) (iblk2 V c 4 t) (iblk2 V c 5 t) (ix2 p q)
    = PayloadAt.Gc (V c main_v101) (V c main_v123) (V c main_v144) (V c main_v146) (V c main_v167) (V c main_v169) (((cfg2.win 6).blk t).view.emb (ix2 p q))
  rw [PayloadAt.k2_at, G_at_blk]
  simp only [blk_x V c t, blk_a V c t, blk_w1 V c t, blk_b1 V c t, blk_w2 V c t, blk_b2 V c t]

/-- An index of the output array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v170).slice (win2_6.rect t)).set ↔ _
  rw [View.set_slice_whole, Rect.mem_set_unit]
  exact Iff.rfl

/-- The twenty row blocks tile the output: row r is in the block of point r / 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  let t : Fin cfg2.N := ⟨(i 0).val / 5000, by omega⟩
  obtain ⟨e0, e1, e2, e3, e4, e5, e6, e7, e8, e9, e10, e11⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The output array after the region: `G` of the arrays the region finds, everywhere. -/
theorem array_eq (c : Dev nD) :
    (dat2 V c).arrAt 6 cfg2.N = PayloadAt.Gc (V c main_v101) (V c main_v123) (V c main_v144) (V c main_v146) (V c main_v167) (V c main_v169) :=
  (dat2 V c).arrAt_eq_of_cover 6 _ (fun t _ => flushed_eq V c t) cover

end Cert.KernelIdeal.Region2
end
-- ==== Proof.Chain6.lean ====
/-
  The buffers after the third kernel region. Its output array is what its twenty grid points wrote back — the region's
  function of the arrays it found, which hold the reference's values and the folded parameters — and that is the
  reference's block output; every other buffer is as the region found it.
-/
import proofs.«170803_j37795712205240_1_alg».proof.Proof.Chain5
import proofs.«170803_j37795712205240_1_alg».proof.Proof.Region2

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

/-- The region's output array is the reference's block output. -/
theorem w6_v170 : W6 m ρ c (Proc.devRef .tc main_v170) = (Cert.ReferenceIdeal.ReadP.val_main_v211 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  refine (W6_arr m ρ c (6 : Fin cfg2.W)).trans ?_
  rw [Region2.array_eq (V5 m ρ) c]
  show Gc (W5 m ρ c (Proc.devRef .tc main_v101)) (W5 m ρ c (Proc.devRef .tc main_v123)) (W5 m ρ c (Proc.devRef .tc main_v144)) (W5 m ρ c (Proc.devRef .tc main_v146)) (W5 m ρ c (Proc.devRef .tc main_v167)) (W5 m ρ c (Proc.devRef .tc main_v169)) = _
  rw [w5_v101 m ρ c hF, w5_v123 m ρ c hF, w5_v144 m ρ c hF, w5_v146 m ρ c hF, w5_v167 m ρ c hF, w5_v169 m ρ c hF]
  exact g2_eq m c hF

theorem w6_v113 : W6 m ρ c (Proc.devRef .tc main_v113) = (Cert.ReferenceIdeal.ReadP.val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))) :=
  (W6_of_ne m ρ c main_v113 (by decide)).trans (w5_v113 m ρ c hF)

theorem w6_v1 : W6 m ρ c (Proc.devRef .tc main_v1) = (Cert.ReferenceIdeal.ReadP.val_main_v1 (F := Ideal) (m ((c.tc : Thread nD τ).loc main_arg1))) :=
  (W6_of_ne m ρ c main_v1 (by decide)).trans (w5_v1 m ρ c hF)

theorem w6_v3 : W6 m ρ c (Proc.devRef .tc main_v3) = (Cert.ReferenceIdeal.ReadP.val_main_v3 (F := Ideal) (m ((c.tc : Thread nD τ).loc main_arg1))) :=
  (W6_of_ne m ρ c main_v3 (by decide)).trans (w5_v3 m ρ c hF)

theorem w6_arg2 : W6 m ρ c (Proc.devRef .tc main_arg2) = (m ((c.tc : Thread nD τ).loc main_arg2)) :=
  (W6_of_ne m ρ c main_arg2 (by decide)).trans (w5_arg2 m ρ c hF)

theorem w6_arg16 : W6 m ρ c (Proc.devRef .tc main_arg16) = (m ((c.tc : Thread nD τ).loc main_arg16)) :=
  (W6_of_ne m ρ c main_arg16 (by decide)).trans (w5_arg16 m ρ c hF)

theorem w6_arg17 : W6 m ρ c (Proc.devRef .tc main_arg17) = (m ((c.tc : Thread nD τ).loc main_arg17)) :=
  (W6_of_ne m ρ c main_arg17 (by decide)).trans (w5_arg17 m ρ c hF)

theorem w6_arg18 : W6 m ρ c (Proc.devRef .tc main_arg18) = (m ((c.tc : Thread nD τ).loc main_arg18)) :=
  (W6_of_ne m ρ c main_arg18 (by decide)).trans (w5_arg18 m ρ c hF)

theorem w6_arg19 : W6 m ρ c (Proc.devRef .tc main_arg19) = (m ((c.tc : Thread nD τ).loc main_arg19)) :=
  (W6_of_ne m ρ c main_arg19 (by decide)).trans (w5_arg19 m ρ c hF)

theorem w6_arg20 : W6 m ρ c (Proc.devRef .tc main_arg20) = (m ((c.tc : Thread nD τ).loc main_arg20)) :=
  (W6_of_ne m ρ c main_arg20 (by decide)).trans (w5_arg20 m ρ c hF)

theorem w6_arg21 : W6 m ρ c (Proc.devRef .tc main_arg21) = (m ((c.tc : Thread nD τ).loc main_arg21)) :=
  (W6_of_ne m ρ c main_arg21 (by decide)).trans (w5_arg21 m ρ c hF)

theorem w6_arg22 : W6 m ρ c (Proc.devRef .tc main_arg22) = (m ((c.tc : Thread nD τ).loc main_arg22)) :=
  (W6_of_ne m ρ c main_arg22 (by decide)).trans (w5_arg22 m ρ c hF)

theorem w6_arg23 : W6 m ρ c (Proc.devRef .tc main_arg23) = (m ((c.tc : Thread nD τ).loc main_arg23)) :=
  (W6_of_ne m ρ c main_arg23 (by decide)).trans (w5_arg23 m ρ c hF)

theorem w6_arg24 : W6 m ρ c (Proc.devRef .tc main_arg24) = (m ((c.tc : Thread nD τ).loc main_arg24)) :=
  (W6_of_ne m ρ c main_arg24 (by decide)).trans (w5_arg24 m ρ c hF)

theorem w6_arg25 : W6 m ρ c (Proc.devRef .tc main_arg25) = (m ((c.tc : Thread nD τ).loc main_arg25)) :=
  (W6_of_ne m ρ c main_arg25 (by decide)).trans (w5_arg25 m ρ c hF)

theorem w6_arg26 : W6 m ρ c (Proc.devRef .tc main_arg26) = (m ((c.tc : Thread nD τ).loc main_arg26)) :=
  (W6_of_ne m ρ c main_arg26 (by decide)).trans (w5_arg26 m ρ c hF)

theorem w6_arg27 : W6 m ρ c (Proc.devRef .tc main_arg27) = (m ((c.tc : Thread nD τ).loc main_arg27)) :=
  (W6_of_ne m ρ c main_arg27 (by decide)).trans (w5_arg27 m ρ c hF)

theorem w6_arg28 : W6 m ρ c (Proc.devRef .tc main_arg28) = (m ((c.tc : Thread nD τ).loc main_arg28)) :=
  (W6_of_ne m ρ c main_arg28 (by decide)).trans (w5_arg28 m ρ c hF)

theorem w6_arg29 : W6 m ρ c (Proc.devRef .tc main_arg29) = (m ((c.tc : Thread nD τ).loc main_arg29)) :=
  (W6_of_ne m ρ c main_arg29 (by decide)).trans (w5_arg29 m ρ c hF)

end Cert.KernelIdeal.Chain
end
-- ==== Proof.Chain7.lean ====
/-
  The buffers after the fourth stretch of host operations, each as the reference program's own stage function of the
  arguments: the stretch applies the same operations as the reference to buffers already known to hold the reference's
  values; the folded weights W·s and biases b·s + (bt − m·s) of the next region are written with the reference's sliced parameters and scale.
-/
import proofs.«170803_j37795712205240_1_alg».proof.Proof.Chain6

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

theorem w7_v170 : W7 m ρ c (Proc.devRef .tc main_v170) = (Cert.ReferenceIdeal.ReadP.val_main_v211 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  show StableHlo.after hostOps3 _ (Proc.devRef .tc main_v170) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_v192 : W7 m ρ c (Proc.devRef .tc main_v192) = (Cert.ReferenceIdeal.ReadP.val_main_v233 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  show StableHlo.after hostOps3 _ (Proc.devRef .tc main_v192) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_v213 : W7 m ρ c (Proc.devRef .tc main_v213) = mulf (F := Ideal) (φ := .f32) (Cert.ReferenceIdeal.ReadP.val_main_v236 (F := Ideal) (m ((c.tc : Thread nD τ).loc main_arg16))) (bc64 (Cert.ReferenceIdeal.ReadP.val_main_v269 (F := Ideal) (m ((c.tc : Thread nD τ).loc main_arg18)) (m ((c.tc : Thread nD τ).loc main_arg21)))) := by
  show StableHlo.after hostOps3 _ (Proc.devRef .tc main_v213) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_v215 : W7 m ρ c (Proc.devRef .tc main_v215) = foldB (Cert.ReferenceIdeal.ReadP.val_main_v238 (F := Ideal) (m ((c.tc : Thread nD τ).loc main_arg17))) (Cert.ReferenceIdeal.ReadP.val_main_v242 (F := Ideal) (m ((c.tc : Thread nD τ).loc main_arg19))) (Cert.ReferenceIdeal.ReadP.val_main_v244 (F := Ideal) (m ((c.tc : Thread nD τ).loc main_arg20))) (Cert.ReferenceIdeal.ReadP.val_main_v269 (F := Ideal) (m ((c.tc : Thread nD τ).loc main_arg18)) (m ((c.tc : Thread nD τ).loc main_arg21))) := by
  show StableHlo.after hostOps3 _ (Proc.devRef .tc main_v215) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_v236 : W7 m ρ c (Proc.devRef .tc main_v236) = mulf (F := Ideal) (φ := .f32) (Cert.ReferenceIdeal.ReadP.val_main_v248 (F := Ideal) (m ((c.tc : Thread nD τ).loc main_arg22))) (bc64 (Cert.ReferenceIdeal.ReadP.val_main_v287 (F := Ideal) (m ((c.tc : Thread nD τ).loc main_arg24)) (m ((c.tc : Thread nD τ).loc main_arg27)))) := by
  show StableHlo.after hostOps3 _ (Proc.devRef .tc main_v236) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_v238 : W7 m ρ c (Proc.devRef .tc main_v238) = foldB (Cert.ReferenceIdeal.ReadP.val_main_v250 (F := Ideal) (m ((c.tc : Thread nD τ).loc main_arg23))) (Cert.ReferenceIdeal.ReadP.val_main_v254 (F := Ideal) (m ((c.tc : Thread nD τ).loc main_arg25))) (Cert.ReferenceIdeal.ReadP.val_main_v256 (F := Ideal) (m ((c.tc : Thread nD τ).loc main_arg26))) (Cert.ReferenceIdeal.ReadP.val_main_v287 (F := Ideal) (m ((c.tc : Thread nD τ).loc main_arg24)) (m ((c.tc : Thread nD τ).loc main_arg27))) := by
  show StableHlo.after hostOps3 _ (Proc.devRef .tc main_v238) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_v182 : W7 m ρ c (Proc.devRef .tc main_v182) = (Cert.ReferenceIdeal.ReadP.val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))) := by
  show StableHlo.after hostOps3 _ (Proc.devRef .tc main_v182) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_arg2 : W7 m ρ c (Proc.devRef .tc main_arg2) = (m ((c.tc : Thread nD τ).loc main_arg2)) := by
  show StableHlo.after hostOps3 _ (Proc.devRef .tc main_arg2) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_arg28 : W7 m ρ c (Proc.devRef .tc main_arg28) = (m ((c.tc : Thread nD τ).loc main_arg28)) := by
  show StableHlo.after hostOps3 _ (Proc.devRef .tc main_arg28) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

theorem w7_arg29 : W7 m ρ c (Proc.devRef .tc main_arg29) = (m ((c.tc : Thread nD τ).loc main_arg29)) := by
  show StableHlo.after hostOps3 _ (Proc.devRef .tc main_arg29) = _
  simp only [hostOps3]
  after_results_simp
  simp only [w6_v170 m ρ c hF, w6_v113 m ρ c hF, w6_v1 m ρ c hF, w6_v3 m ρ c hF, w6_arg2 m ρ c hF, w6_arg16 m ρ c hF, w6_arg17 m ρ c hF, w6_arg18 m ρ c hF, w6_arg19 m ρ c hF, w6_arg20 m ρ c hF, w6_arg21 m ρ c hF, w6_arg22 m ρ c hF, w6_arg23 m ρ c hF, w6_arg24 m ρ c hF, w6_arg25 m ρ c hF, w6_arg26 m ρ c hF, w6_arg27 m ρ c hF, w6_arg28 m ρ c hF, w6_arg29 m ρ c hF]
  all_goals rfl

end Cert.KernelIdeal.Chain
end
-- ==== Proof.Region3.lean ====
/-
  The fourth kernel region as one function of the arrays it reads. The grid has twenty points; point t reads rows
  5000 t … 5000 t + 4999 of the node features and of their neighbour aggregate, and the whole of the two weight matrices
  and two bias rows, and writes the same rows of the output. Entry (r, j) of the output array after the region is the
  two dense layers applied to row r of the sum of features and aggregate:
  max (Σ_k max (Σ_l (X(r,l) + A(r,l))·W1(l,k) + b1(k)) 0 · W2(k,j) + b2(j)) 0, the row blocks tiling the array.
-/
import proofs.«170803_j37795712205240_1_alg».proof.Proof.Gen.KernelIdeal.Frame
import proofs.«170803_j37795712205240_1_alg».proof.Proof.PayloadAt
import Idealize.ShloMosaic.Lib.Pipeline.Value
import Idealize.ShloMosaic.Lib.ValueIdx

set_option maxRecDepth 16384
noncomputable section
namespace Cert.KernelIdeal.Region3
open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the two inputs' and the output's row blocks move together, block t at point t; the
    weight and bias windows stay at block zero. -/
theorem idx_facts : ∀ t : Fin cfg3.N, win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0 ∧ win3_3.index t (0 : Fin 1) = 0
    ∧ win3_4.index t (0 : Fin 2) = 0 ∧ win3_4.index t (1 : Fin 2) = 0 ∧ win3_5.index t (0 : Fin 1) = 0
    ∧ win3_6.index t (1 : Fin 2) = 0 ∧ win3_6.index t (0 : Fin 2) = t.val :=
  (by decide +kernel : ∀ t : Fin grid3.N, _)

theorem row_lt (t : Fin cfg3.N) (p : Fin 5000) : t.val * 5000 + p.val < 100000 := by
  have := t.isLt; have h : cfg3.N = 20 := N_3; have := p.isLt; omega

theorem blk_x (c : Dev nD) (t : Fin cfg3.N) (p : Fin 5000) (l : Fin 64) :
    iblk3 V c 0 t (ix2 p l) = V c main_v170 (ix2 ⟨t.val * 5000 + p.val, row_lt t p⟩ l) := by
  obtain ⟨e0, e1, e2, e3, e4, e5, e6, e7, e8, e9, e10, e11⟩ := idx_facts t
  show V c main_v170 (((cfg3.win 0).blk t).view.emb (ix2 p l)) = _
  refine congrArg (V c main_v170) (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * l.val = l.val; omega

theorem blk_a (c : Dev nD) (t : Fin cfg3.N) (p : Fin 5000) (l : Fin 64) :
    iblk3 V c 1 t (ix2 p l) = V c main_v192 (ix2 ⟨t.val * 5000 + p.val, row_lt t p⟩ l) := by
  obtain ⟨e0, e1, e2, e3, e4, e5, e6, e7, e8, e9, e10, e11⟩ := idx_facts t
  show V c main_v192 (((cfg3.win 1).blk t).view.emb (ix2 p l)) = _
  refine congrArg (V c main_v192) (funext fun a => Fin.ext ?_)
  match a with
  | ⟨0, _⟩ => show win3_1.index t (0 : Fin 2) * 5000 + 1 * p.val = t.val * 5000 + p.val; omega
  | ⟨1, _⟩ => show win3_1.index t (1 : Fin 2) * 64 + 1 * l.val = l.val; omega

theorem blk_w1 (c : Dev nD) (t : Fin cfg3.N) (l : Fin 64) (k : Fin 64) :
    iblk3 V c 2 t (ix2 l k) = V c main_v213 (ix2 l k) := by
  obtain ⟨e0, e1, e2, e3, e4, e5, e6, e7, e8, e9, e10, e11⟩ := idx_facts t
  show V c main_v213 (((cfg3.win 2).blk t).view.emb (ix2 l k)) = _
  refine congrArg (V c main_v213) (funext fun a => Fin.ext ?_)
  match a with
  | ⟨0, _⟩ => show win3_2.index t (0 : Fin 2) * 64 + 1 * l.val = l.val; omega
  | ⟨1, _⟩ => show win3_2.index t (1 : Fin 2) * 64 + 1 * k.val = k.val; omega

theorem blk_b1 (c : Dev nD) (t : Fin cfg3.N) (k : Fin 64) :
    iblk3 V c 3 t (ix1 k) = V c main_v215 (ix1 k) := by
  obtain ⟨e0, e1, e2, e3, e4, e5, e6, e7, e8, e9, e10, e11⟩ := idx_facts t
  show V c main_v215 (((cfg3.win 3).blk t).view.emb (ix1 k)) = _
  refine congrArg (V c main_v215) (funext fun a => Fin.ext ?_)
  match a with
  | ⟨0, _⟩ => show win3_3.index t (0 : Fin 1) * 64 + 1 * k.val = k.val; omega

theorem blk_w2 (c : Dev nD) (t : Fin cfg3.N) (k : Fin 64) (q : Fin 64) :
    iblk3 V c 4 t (ix2 k q) = V c main_v236 (ix2 k q) := by
  obtain ⟨e0, e1, e2, e3, e4, e5, e6, e7, e8, e9, e10, e11⟩ := idx_facts t
  show V c main_v236 (((cfg3.win 4).blk t).view.emb (ix2 k q)) = _
  refine congrArg (V c main_v236) (funext fun a => Fin.ext ?_)
  match a with
  | ⟨0, _⟩ => show win3_4.index t (0 : Fin 2) * 64 + 1 * k.val = k.val; omega
  | ⟨1, _⟩ => show win3_4.index t (1 : Fin 2) * 64 + 1 * q.val = q.val; omega

theorem blk_b2 (c : Dev nD) (t : Fin cfg3.N) (k : Fin 64) :
    iblk3 V c 5 t (ix1 k) = V c main_v238 (ix1 k) := by
  obtain ⟨e0, e1, e2, e3, e4, e5, e6, e7, e8, e9, e10, e11⟩ := idx_facts t
  show V c main_v238 (((cfg3.win 5).blk t).view.emb (ix1 k)) = _
  refine congrArg (V c main_v238) (funext fun a => Fin.ext ?_)
  match a with
  | ⟨0, _⟩ => show win3_5.index t (0 : Fin 1) * 64 + 1 * k.val = k.val; omega

/-- `G` at entry (p, q) of the output block of point t: row 5000 t + p, column q. -/
theorem G_at_blk (X A : S100000x64.Idx → EReal) (W1 : S64x64.Idx → EReal) (b1 : S64.Idx → EReal) (W2 : S64x64.Idx → EReal) (b2 : S64.Idx → EReal)
    (t : Fin cfg3.N) (p : Fin 5000) (q : Fin 64) :
    PayloadAt.Gc X A W1 b1 W2 b2 (((cfg3.win 6).blk t).view.emb (ix2 p q))
      = max ((∑ k : Fin 64, max ((∑ l : Fin 64, (X (ix2 ⟨t.val * 5000 + p.val, row_lt t p⟩ l) + A (ix2 ⟨t.val * 5000 + p.val, row_lt t p⟩ l)) * W1 (ix2 l k)) + b1 (ix1 k)) 0 * W2 (ix2 k q)) + b2 (ix1 q)) 0 := by
  obtain ⟨e0, e1, e2, e3, e4, e5, e6, e7, e8, e9, e10, e11⟩ := idx_facts t
  have h0 : (⟨((((cfg3.win 6).blk t).view.emb (ix2 p q)) 0).val, ((((cfg3.win 6).blk t).view.emb (ix2 p q)) 0).isLt⟩ : Fin 100000)
      = ⟨t.val * 5000 + p.val, row_lt t p⟩ :=
    Fin.ext (by show win3_6.index t (0 : Fin 2) * 5000 + 1 * p.val = t.val * 5000 + p.val; omega)
  have h1 : (⟨((((cfg3.win 6).blk t).view.emb (ix2 p q)) 1).val, ((((cfg3.win 6).blk t).view.emb (ix2 p q)) 1).isLt⟩ : Fin 64) = q :=
    Fin.ext (by show win3_6.index t (1 : Fin 2) * 64 + 1 * q.val = q.val; omega)
  unfold PayloadAt.Gc
  rw [h0, h1]

/-- What point t writes back is block t of `G` of the arrays the region finds. -/
theorem flushed_eq (c : Dev nD) (t : Fin cfg3.N) :
    (dat3 V c).flushed 6 t = ((cfg3.win 6).blk t).view.read (Elt Ideal)
      (PayloadAt.Gc (V c main_v170) (V c main_v192) (V c main_v213) (V c main_v215) (V c main_v236) (V c main_v238)) := by
  show (cfg3.win 6).cut (grid3.coords t) ((dat3 V c).after 6 t) = _
  rw [after3_6]
  unfold out3_6
  rw [View.canon_unit_zero hz]
  simp only [View.ld_unit_zero (S := S5000x64) hz, View.ld_unit_zero (S := S64) hz1, View.ld_unit_zero (S := S64x64) hz]
  funext y
  obtain ⟨p, q, rfl⟩ : ∃ (p : Fin 5000) (q : Fin 64), y = ix2 p q := ⟨y 0, y 1, eq_ix2 y⟩
  show k3_pay1 (F := Ideal) (iblk3 V c 0 t) (iblk3 V c 1 t) (iblk3 V c 2 t) (iblk3 V c 3 t) (iblk3 V c 4 t) (iblk3 V c 5 t) (ix2 p q)
    = PayloadAt.Gc (V c main_v170) (V c main_v192) (V c main_v213) (V c main_v215) (V c main_v236) (V c main_v238) (((cfg3.win 6).blk t).view.emb (ix2 p q))
  rw [PayloadAt.k3_at, G_at_blk]
  simp only [blk_x V c t, blk_a V c t, blk_w1 V c t, blk_b1 V c t, blk_w2 V c t, blk_b2 V c t]

/-- An index of the output array is in point t's block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v239).slice (win3_6.rect t)).set ↔ _
  rw [View.set_slice_whole, Rect.mem_set_unit]
  exact Iff.rfl

/-- The twenty row blocks tile the output: row r is in the block of point r / 5000. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  let t : Fin cfg3.N := ⟨(i 0).val / 5000, by omega⟩
  obtain ⟨e0, e1, e2, e3, e4, e5, e6, e7, e8, e9, e10, e11⟩ := idx_facts t
  have ht : t.val = (i 0).val / 5000 := rfl
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The output array after the region: `G` of the arrays the region finds, everywhere. -/
theorem array_eq (c : Dev nD) :
    (dat3 V c).arrAt 6 cfg3.N = PayloadAt.Gc (V c main_v170) (V c main_v192) (V c main_v213) (V c main_v215) (V c main_v236) (V c main_v238) :=
  (dat3 V c).arrAt_eq_of_cover 6 _ (fun t _ => flushed_eq V c t) cover

end Cert.KernelIdeal.Region3
end
-- ==== Proof.Chain8.lean ====
/-
  The buffers after the fourth kernel region. Its output array is what its twenty grid points wrote back — the region's
  function of the arrays it found, which hold the reference's values and the folded parameters — and that is the
  reference's block output; every other buffer is as the region found it.
-/
import proofs.«170803_j37795712205240_1_alg».proof.Proof.Chain7
import proofs.«170803_j37795712205240_1_alg».proof.Proof.Region3

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

/-- The region's output array is the reference's block output. -/
theorem w8_v239 : W8 m ρ c (Proc.devRef .tc main_v239) = (Cert.ReferenceIdeal.ReadP.val_main_v294 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) := by
  refine (W8_arr m ρ c (6 : Fin cfg3.W)).trans ?_
  rw [Region3.array_eq (V7 m ρ) c]
  show Gc (W7 m ρ c (Proc.devRef .tc main_v170)) (W7 m ρ c (Proc.devRef .tc main_v192)) (W7 m ρ c (Proc.devRef .tc main_v213)) (W7 m ρ c (Proc.devRef .tc main_v215)) (W7 m ρ c (Proc.devRef .tc main_v236)) (W7 m ρ c (Proc.devRef .tc main_v238)) = _
  rw [w7_v170 m ρ c hF, w7_v192 m ρ c hF, w7_v213 m ρ c hF, w7_v215 m ρ c hF, w7_v236 m ρ c hF, w7_v238 m ρ c hF]
  exact g3_eq m c hF

theorem w8_v182 : W8 m ρ c (Proc.devRef .tc main_v182) = (Cert.ReferenceIdeal.ReadP.val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))) :=
  (W8_of_ne m ρ c main_v182 (by decide)).trans (w7_v182 m ρ c hF)

theorem w8_arg2 : W8 m ρ c (Proc.devRef .tc main_arg2) = (m ((c.tc : Thread nD τ).loc main_arg2)) :=
  (W8_of_ne m ρ c main_arg2 (by decide)).trans (w7_arg2 m ρ c hF)

theorem w8_arg28 : W8 m ρ c (Proc.devRef .tc main_arg28) = (m ((c.tc : Thread nD τ).loc main_arg28)) :=
  (W8_of_ne m ρ c main_arg28 (by decide)).trans (w7_arg28 m ρ c hF)

theorem w8_arg29 : W8 m ρ c (Proc.devRef .tc main_arg29) = (m ((c.tc : Thread nD τ).loc main_arg29)) :=
  (W8_of_ne m ρ c main_arg29 (by decide)).trans (w7_arg29 m ρ c hF)

end Cert.KernelIdeal.Chain
end
-- ==== Proof.Chain9.lean ====
/-
  The buffers after the last stretch of host operations, each as the reference program's own stage function of the
  arguments: the stretch applies the same operations as the reference to buffers already known to hold the reference's
  values, and its last operation writes the result.
-/
import proofs.«170803_j37795712205240_1_alg».proof.Proof.Chain8

set_option maxRecDepth 16384
set_option maxHeartbeats 4000000
noncomputable section
namespace Cert.KernelIdeal.Chain
open Idealize.ShloMosaic Idealize.ShloMosaic.TcCoe Idealize.SL.Sem Idealize.ShloMosaic.StableHlo
open Cert.KernelIdeal Cert.KernelIdeal.Gen Cert.KernelIdeal.PayloadAt

variable (m : (ℓ : Loc nD τ sig) → Buf (Elt Ideal) ℓ) (ρ : Dev nD → PrngReg) (c : Dev nD)
variable (hF : Cert.PreFacts.ArgFacts m c)
include hF

theorem w9_v262 : W9 m ρ c (Proc.devRef .tc main_v262) = (Cert.ReferenceIdeal.ReadP.val_main_v317 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))) := by
  show StableHlo.after hostOps4 _ (Proc.devRef .tc main_v262) = _
  simp only [hostOps4]
  after_results_simp
  simp only [w8_v239 m ρ c hF, w8_v182 m ρ c hF, w8_arg2 m ρ c hF, w8_arg28 m ρ c hF, w8_arg29 m ρ c hF]
  all_goals rfl

end Cert.KernelIdeal.Chain
end
-- ==== Proof.lean ====
/-
  The kernel computes a graph network: embedding rows gathered by node index, a two-layer block, then three rounds of
  neighbour aggregation (a gather along edges and an accumulating scatter) each followed by a two-layer block, a linear
  readout summed per graph after every block, and a softmax. The reference applies to each layer's output the
  normalisation (y − m)·s + bt with s = g / sqrt(v + eps); the kernel folds it into the layer, using weights W·s and bias
  b·s + (bt − m·s), and computes the blocks in four grid-tiled regions. Every other operation is the same in both programs.

  On the extended reals the two agree where every quantity is a real number: the arguments are finite, and each variance
  plus eps is positive, so each scale is real; a gather reads an array at computed places and an accumulating scatter adds
  finitely many entries, so every block's inputs are real, and for real entries folding the normalisation is an identity
  of real arithmetic. Block by block the regions' output arrays are therefore the reference's, the shared host operations
  carry equal buffers to equal buffers, and the two results are equal entry by entry.

  The three programs' frames: the kernel's two are the generated ones; the reference's is its run, put together from
  eight lines of its host operations, with the result dropped. The idealization of the kernel rewrote nothing, so there is nothing to preserve.
-/
import proofs.«170803_j37795712205240_1_alg».proof.Defs
import proofs.«170803_j37795712205240_1_alg».proof.Proof.Gen.Kernel
import proofs.«170803_j37795712205240_1_alg».proof.Proof.Gen.Kernel.Skeleton
import proofs.«170803_j37795712205240_1_alg».proof.Proof.Gen.Kernel.Launch
import proofs.«170803_j37795712205240_1_alg».proof.Proof.Gen.Kernel.Points
import proofs.«170803_j37795712205240_1_alg».proof.Proof.Gen.Kernel.Frame
import proofs.«170803_j37795712205240_1_alg».proof.Proof.Gen.KernelIdeal
import proofs.«170803_j37795712205240_1_alg».proof.Proof.Gen.KernelIdeal.Skeleton
import proofs.«170803_j37795712205240_1_alg».proof.Proof.Gen.KernelIdeal.Launch
import proofs.«170803_j37795712205240_1_alg».proof.Proof.Gen.KernelIdeal.Points
import proofs.«170803_j37795712205240_1_alg».proof.Proof.Gen.KernelIdeal.Frame
import proofs.«170803_j37795712205240_1_alg».proof.Proof.Gen.ReferenceIdeal
import proofs.«170803_j37795712205240_1_alg».proof.Proof.Gen.Pre_finite_inputs
import proofs.«170803_j37795712205240_1_alg».proof.Proof.RefRun
import proofs.«170803_j37795712205240_1_alg».proof.Proof.KernelRun
import proofs.«170803_j37795712205240_1_alg».proof.Proof.PreFacts
import proofs.«170803_j37795712205240_1_alg».proof.Proof.Chain9
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run (eight lines of host operations in turn), which terminates with the arguments unchanged. -/
theorem frame_referenceIdeal : Cert.frame_ReferenceIdeal := fun m ρ _ =>
  (θ_run Cert.ReferenceIdeal.defs _ _).mono (fun _ h c => (h c).2) (Cert.ReferenceIdeal.RunChunks.run m ρ)

theorem preserves : Cert.preserves_Kernel_KernelIdeal := trivial

/-- From memories agreeing on the arguments, both programs end with the same result: the kernel's result buffer holds
    the reference's last stage of the kernel's arguments, the reference's holds it of its own, and the arguments agree. -/
theorem algebraic : Cert.algebraic_KernelIdeal_ReferenceIdeal := by
  intro m ρ m' ρ' hpre hagree
  refine ⟨fun c => Cert.KernelIdeal.Gen.W9 m ρ c (Proc.devRef .tc Cert.KernelIdeal.main_v262), Cert.KernelIdeal.Gen.run_result m ρ, ?_⟩
  refine (θ_run Cert.ReferenceIdeal.defs _ _).mono (fun _ h c => ⟨(h c).1.trans ?_, (h c).2⟩)
    (Cert.ReferenceIdeal.RunChunks.run m' ρ')
  show _ = Cert.KernelIdeal.Gen.W9 m ρ c (Proc.devRef .tc Cert.KernelIdeal.main_v262)
  rw [Cert.KernelIdeal.Chain.w9_v262 m ρ c (Cert.PreFacts.of_pre m hpre c)]
  obtain ⟨h0, h1, h2, h3, h4, h5, h6, h7, h8, h9, h10, h11, h12, h13, h14, h15, h16, h17, h18, h19, h20, h21, h22, h23, h24, h25, h26, h27, h28, h29⟩ := hagree c
  rw [h0, h1, h2, h3, h4, h5, h6, h7, h8, h9, h10, h11, h12, h13, h14, h15, h16, h17, h18, h19, h20, h21, h22, h23, h24, h25, h26, h27, h28, h29]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
